-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x4 : Shape := ⟨2, ![1024, 4]⟩
abbrev S100000x32 : Shape := ⟨2, ![100000, 32]⟩
abbrev S100000 : Shape := ⟨1, ![100000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x4 : S_.BroadcastsInDim S1024x4 (![] : Fin 0 → Fin S1024x4.rank)
  reducesTo_S1024x4_S_d0_1 : S1024x4.ReducesTo [0, 1] S_

variable [Facts]

def fn_part1 {F : FTy → Type} [FloatOps F] (main_arg0 : IVec S1024x4 32) (main_v13 : IVec S_ 1) (main_v15 : IVec S1024x4 1) (main_c_5 : IVec S_ 32) : IVec S_ 1 :=
  let main_v16 : IVec S1024x4 32 := broadcastInDim S1024x4 ![] bcast_S_S1024x4 main_c_5
  let main_v17 : IVec S1024x4 1 := cmpi .sle main_arg0 main_v16
  let main_v18 : IVec S1024x4 1 := andi main_v15 main_v17
  let main_c_6 : IVec S_ 1 := constantI S_ 1 1#1
  let main_v19 : IVec S_ 1 := (fun x v => Host.reduce IntOp.andi x v reducesTo_S1024x4_S_d0_1 h_S_) main_v18 main_c_6
  let main_v20 : IVec S_ 1 := andi main_v13 main_v19
  main_v20

def fn {F : FTy → Type} [FloatOps F] (main_arg0 : IVec S1024x4 32) (main_arg1 : FVec F S100000x32 .f32) (main_arg2 : FVec F S100000x32 .f32) (main_arg3 : FVec F S100000 .f32) : IVec S_ 1 :=
  let main_v0 : FVec F S100000x32 .f32 := Host.absf main_arg1
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x4 32 := broadcastInDim S1024x4 ![] bcast_S_S1024x4 main_c_4
  let main_v15 : IVec S1024x4 1 := cmpi .sge main_arg0 main_v14
  let main_c_5 : IVec S_ 32 := constantI S_ 32 99999#32
  fn_part1 (F := F) main_arg0 main_v13 main_v15 main_c_5
-- ==== Kernel.lean ====
abbrev S1024x4 : Shape := ⟨2, ![1024, 4]⟩
abbrev S100000x32 : Shape := ⟨2, ![100000, 32]⟩
abbrev S100000 : Shape := ⟨1, ![100000]⟩
abbrev S4x1024 : Shape := ⟨2, ![4, 1024]⟩
abbrev S4096 : Shape := ⟨1, ![4096]⟩
abbrev S32x100000 : Shape := ⟨2, ![32, 100000]⟩
abbrev S32x1024 : Shape := ⟨2, ![32, 1024]⟩
abbrev S1024 : Shape := ⟨1, ![1024]⟩
abbrev S_ : Shape := ⟨0, ![]⟩
abbrev S1x100000 : Shape := ⟨2, ![1, 100000]⟩
abbrev S16 : Shape := ⟨1, ![16]⟩
abbrev S1x1024 : Shape := ⟨2, ![1, 1024]⟩
abbrev S100000x1024 : Shape := ⟨2, ![100000, 1024]⟩
abbrev S32x4096 : Shape := ⟨2, ![32, 4096]⟩
abbrev S4096x1024 : Shape := ⟨2, ![4096, 1024]⟩
abbrev S4096x1 : Shape := ⟨2, ![4096, 1]⟩
abbrev S1024x100000 : Shape := ⟨2, ![1024, 100000]⟩

abbrev nBuf : Table → Nat
  | .hbm => 11
  | .local .tc .vmem => 7
  | .local .scVector .vmem => 3
  | _ => 0

abbrev bufTy : (tb : Table) → Fin (nBuf tb) → BufTy
  | .hbm, ⟨0, _⟩ => ⟨S1024x4, .i32⟩
  | .hbm, ⟨1, _⟩ => ⟨S100000x32, .f32⟩
  | .hbm, ⟨2, _⟩ => ⟨S100000x32, .f32⟩
  | .hbm, ⟨3, _⟩ => ⟨S100000, .f32⟩
  | .hbm, ⟨4, _⟩ => ⟨S4x1024, .i32⟩
  | .hbm, ⟨5, _⟩ => ⟨S4096, .i32⟩
  | .hbm, ⟨6, _⟩ => ⟨S32x100000, .f32⟩
  | .hbm, ⟨7, _⟩ => ⟨S32x1024, .f32⟩
  | .hbm, ⟨8, _⟩ => ⟨S32x100000, .f32⟩
  | .hbm, ⟨9, _⟩ => ⟨S100000x1024, .f32⟩
  | .hbm, ⟨10, _⟩ => ⟨S1024x100000, .f32⟩
  | .local .tc .vmem, ⟨0, _⟩ => ⟨S32x4096, .f32⟩
  | .local .tc .vmem, ⟨1, _⟩ => ⟨S32x4096, .f32⟩
  | .local .tc .vmem, ⟨2, _⟩ => ⟨S32x1024, .f32⟩
  | .local .tc .vmem, ⟨3, _⟩ => ⟨S4096, .f32⟩
  | .local .tc .vmem, ⟨4, _⟩ => ⟨S4096, .f32⟩
  | .local .tc .vmem, ⟨5, _⟩ => ⟨S4096x1024, .f32⟩
  | .local .tc .vmem, ⟨6, _⟩ => ⟨S4096x1024, .f32⟩
  | .local .scVector .vmem, ⟨0, _⟩ => ⟨S100000, .f32⟩
  | .local .scVector .vmem, ⟨1, _⟩ => ⟨S4096, .i32⟩
  | .local .scVector .vmem, ⟨2, _⟩ => ⟨S1024, .f32⟩
  | _, _ => ⟨S1024x4, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r0 : BitVec 32 := 0#32
  ![v1.toNat, 0]

def k0_chk1 (v2 : IVec S16 32) : Prop :=
  (∀ a x, ((![v2] : Fin 1 → IVec S16 32) a x).toNat < S100000.size a)
instance k0_chk1.dec : ∀ (v2 : IVec S16 32), Decidable (k0_chk1 v2) := fun v2 => decidable_of_iff' _ (Iff.of_eq (k0_chk1.eq_1 v2))
theorem k0_idx1_inb : ∀ (v2 : IVec S16 32) (k0_hw1 : k0_chk1 v2), ∀ a x, ((![v2] : Fin 1 → IVec S16 32) a x).toNat < S100000.size a := fun v2 k0_hw1 => k0_hw1

def k0_chk2 (v4 : IVec S16 32) : Prop :=
  (∀ a x, ((![v4] : Fin 1 → IVec S16 32) a x).toNat < S100000.size a)
instance k0_chk2.dec : ∀ (v4 : IVec S16 32), Decidable (k0_chk2 v4) := fun v4 => decidable_of_iff' _ (Iff.of_eq (k0_chk2.eq_1 v4))
theorem k0_idx2_inb : ∀ (v4 : IVec S16 32) (k0_hw2 : k0_chk2 v4), ∀ a x, ((![v4] : Fin 1 → IVec S16 32) a x).toNat < S100000.size a := fun v4 k0_hw2 => k0_hw2

def k0_chk3 (v7 : IVec S16 32) : Prop :=
  (∀ a x, ((![v7] : Fin 1 → IVec S16 32) a x).toNat < S100000.size a)
instance k0_chk3.dec : ∀ (v7 : IVec S16 32), Decidable (k0_chk3 v7) := fun v7 => decidable_of_iff' _ (Iff.of_eq (k0_chk3.eq_1 v7))
theorem k0_idx3_inb : ∀ (v7 : IVec S16 32) (k0_hw3 : k0_chk3 v7), ∀ a x, ((![v7] : Fin 1 → IVec S16 32) a x).toNat < S100000.size a := fun v7 k0_hw3 => k0_hw3

def k0_chk4 (v10 : IVec S16 32) : Prop :=
  (∀ a x, ((![v10] : Fin 1 → IVec S16 32) a x).toNat < S100000.size a)
instance k0_chk4.dec : ∀ (v10 : IVec S16 32), Decidable (k0_chk4 v10) := fun v10 => decidable_of_iff' _ (Iff.of_eq (k0_chk4.eq_1 v10))
theorem k0_idx4_inb : ∀ (v10 : IVec S16 32) (k0_hw4 : k0_chk4 v10), ∀ a x, ((![v10] : Fin 1 → IVec S16 32) a x).toNat < S100000.size a := fun v10 k0_hw4 => k0_hw4

def k0_chk5 (v14 : IVec S16 32) : Prop :=
  (∀ a x, ((![v14] : Fin 1 → IVec S16 32) a x).toNat < S100000.size a)
instance k0_chk5.dec : ∀ (v14 : IVec S16 32), Decidable (k0_chk5 v14) := fun v14 => decidable_of_iff' _ (Iff.of_eq (k0_chk5.eq_1 v14))
theorem k0_idx5_inb : ∀ (v14 : IVec S16 32) (k0_hw5 : k0_chk5 v14), ∀ a x, ((![v14] : Fin 1 → IVec S16 32) a x).toNat < S100000.size a := fun v14 k0_hw5 => k0_hw5

def k0_chk6 (v16 : IVec S16 32) : Prop :=
  (∀ a x, ((![v16] : Fin 1 → IVec S16 32) a x).toNat < S100000.size a)
instance k0_chk6.dec : ∀ (v16 : IVec S16 32), Decidable (k0_chk6 v16) := fun v16 => decidable_of_iff' _ (Iff.of_eq (k0_chk6.eq_1 v16))
theorem k0_idx6_inb : ∀ (v16 : IVec S16 32) (k0_hw6 : k0_chk6 v16), ∀ a x, ((![v16] : Fin 1 → IVec S16 32) a x).toNat < S100000.size a := fun v16 k0_hw6 => k0_hw6

def k0_chk7 (v19 : IVec S16 32) : Prop :=
  (∀ a x, ((![v19] : Fin 1 → IVec S16 32) a x).toNat < S100000.size a)
instance k0_chk7.dec : ∀ (v19 : IVec S16 32), Decidable (k0_chk7 v19) := fun v19 => decidable_of_iff' _ (Iff.of_eq (k0_chk7.eq_1 v19))
theorem k0_idx7_inb : ∀ (v19 : IVec S16 32) (k0_hw7 : k0_chk7 v19), ∀ a x, ((![v19] : Fin 1 → IVec S16 32) a x).toNat < S100000.size a := fun v19 k0_hw7 => k0_hw7

def k0_chk8 (v22 : IVec S16 32) : Prop :=
  (∀ a x, ((![v22] : Fin 1 → IVec S16 32) a x).toNat < S100000.size a)
instance k0_chk8.dec : ∀ (v22 : IVec S16 32), Decidable (k0_chk8 v22) := fun v22 => decidable_of_iff' _ (Iff.of_eq (k0_chk8.eq_1 v22))
theorem k0_idx8_inb : ∀ (v22 : IVec S16 32) (k0_hw8 : k0_chk8 v22), ∀ a x, ((![v22] : Fin 1 → IVec S16 32) a x).toNat < S100000.size a := fun v22 k0_hw8 => k0_hw8

def k0_chk9 (v26 : IVec S16 32) : Prop :=
  (∀ a x, ((![v26] : Fin 1 → IVec S16 32) a x).toNat < S100000.size a)
instance k0_chk9.dec : ∀ (v26 : IVec S16 32), Decidable (k0_chk9 v26) := fun v26 => decidable_of_iff' _ (Iff.of_eq (k0_chk9.eq_1 v26))
theorem k0_idx9_inb : ∀ (v26 : IVec S16 32) (k0_hw9 : k0_chk9 v26), ∀ a x, ((![v26] : Fin 1 → IVec S16 32) a x).toNat < S100000.size a := fun v26 k0_hw9 => k0_hw9

def k0_chk10 (v28 : IVec S16 32) : Prop :=
  (∀ a x, ((![v28] : Fin 1 → IVec S16 32) a x).toNat < S100000.size a)
instance k0_chk10.dec : ∀ (v28 : IVec S16 32), Decidable (k0_chk10 v28) := fun v28 => decidable_of_iff' _ (Iff.of_eq (k0_chk10.eq_1 v28))
theorem k0_idx10_inb : ∀ (v28 : IVec S16 32) (k0_hw10 : k0_chk10 v28), ∀ a x, ((![v28] : Fin 1 → IVec S16 32) a x).toNat < S100000.size a := fun v28 k0_hw10 => k0_hw10

def k0_chk11 (v31 : IVec S16 32) : Prop :=
  (∀ a x, ((![v31] : Fin 1 → IVec S16 32) a x).toNat < S100000.size a)
instance k0_chk11.dec : ∀ (v31 : IVec S16 32), Decidable (k0_chk11 v31) := fun v31 => decidable_of_iff' _ (Iff.of_eq (k0_chk11.eq_1 v31))
theorem k0_idx11_inb : ∀ (v31 : IVec S16 32) (k0_hw11 : k0_chk11 v31), ∀ a x, ((![v31] : Fin 1 → IVec S16 32) a x).toNat < S100000.size a := fun v31 k0_hw11 => k0_hw11

def k0_chk12 (v34 : IVec S16 32) : Prop :=
  (∀ a x, ((![v34] : Fin 1 → IVec S16 32) a x).toNat < S100000.size a)
instance k0_chk12.dec : ∀ (v34 : IVec S16 32), Decidable (k0_chk12 v34) := fun v34 => decidable_of_iff' _ (Iff.of_eq (k0_chk12.eq_1 v34))
theorem k0_idx12_inb : ∀ (v34 : IVec S16 32) (k0_hw12 : k0_chk12 v34), ∀ a x, ((![v34] : Fin 1 → IVec S16 32) a x).toNat < S100000.size a := fun v34 k0_hw12 => k0_hw12

def k0_chk13 (v38 : IVec S16 32) : Prop :=
  (∀ a x, ((![v38] : Fin 1 → IVec S16 32) a x).toNat < S100000.size a)
instance k0_chk13.dec : ∀ (v38 : IVec S16 32), Decidable (k0_chk13 v38) := fun v38 => decidable_of_iff' _ (Iff.of_eq (k0_chk13.eq_1 v38))
theorem k0_idx13_inb : ∀ (v38 : IVec S16 32) (k0_hw13 : k0_chk13 v38), ∀ a x, ((![v38] : Fin 1 → IVec S16 32) a x).toNat < S100000.size a := fun v38 k0_hw13 => k0_hw13

def k0_chk14 (v40 : IVec S16 32) : Prop :=
  (∀ a x, ((![v40] : Fin 1 → IVec S16 32) a x).toNat < S100000.size a)
instance k0_chk14.dec : ∀ (v40 : IVec S16 32), Decidable (k0_chk14 v40) := fun v40 => decidable_of_iff' _ (Iff.of_eq (k0_chk14.eq_1 v40))
theorem k0_idx14_inb : ∀ (v40 : IVec S16 32) (k0_hw14 : k0_chk14 v40), ∀ a x, ((![v40] : Fin 1 → IVec S16 32) a x).toNat < S100000.size a := fun v40 k0_hw14 => k0_hw14

def k0_chk15 (v43 : IVec S16 32) : Prop :=
  (∀ a x, ((![v43] : Fin 1 → IVec S16 32) a x).toNat < S100000.size a)
instance k0_chk15.dec : ∀ (v43 : IVec S16 32), Decidable (k0_chk15 v43) := fun v43 => decidable_of_iff' _ (Iff.of_eq (k0_chk15.eq_1 v43))
theorem k0_idx15_inb : ∀ (v43 : IVec S16 32) (k0_hw15 : k0_chk15 v43), ∀ a x, ((![v43] : Fin 1 → IVec S16 32) a x).toNat < S100000.size a := fun v43 k0_hw15 => k0_hw15

def k0_chk16 (v46 : IVec S16 32) : Prop :=
  (∀ a x, ((![v46] : Fin 1 → IVec S16 32) a x).toNat < S100000.size a)
instance k0_chk16.dec : ∀ (v46 : IVec S16 32), Decidable (k0_chk16 v46) := fun v46 => decidable_of_iff' _ (Iff.of_eq (k0_chk16.eq_1 v46))
theorem k0_idx16_inb : ∀ (v46 : IVec S16 32) (k0_hw16 : k0_chk16 v46), ∀ a x, ((![v46] : Fin 1 → IVec S16 32) a x).toNat < S100000.size a := fun v46 k0_hw16 => k0_hw16

def k0_chk17 (v50 : IVec S16 32) : Prop :=
  (∀ a x, ((![v50] : Fin 1 → IVec S16 32) a x).toNat < S100000.size a)
instance k0_chk17.dec : ∀ (v50 : IVec S16 32), Decidable (k0_chk17 v50) := fun v50 => decidable_of_iff' _ (Iff.of_eq (k0_chk17.eq_1 v50))
theorem k0_idx17_inb : ∀ (v50 : IVec S16 32) (k0_hw17 : k0_chk17 v50), ∀ a x, ((![v50] : Fin 1 → IVec S16 32) a x).toNat < S100000.size a := fun v50 k0_hw17 => k0_hw17

def k0_chk18 (v52 : IVec S16 32) : Prop :=
  (∀ a x, ((![v52] : Fin 1 → IVec S16 32) a x).toNat < S100000.size a)
instance k0_chk18.dec : ∀ (v52 : IVec S16 32), Decidable (k0_chk18 v52) := fun v52 => decidable_of_iff' _ (Iff.of_eq (k0_chk18.eq_1 v52))
theorem k0_idx18_inb : ∀ (v52 : IVec S16 32) (k0_hw18 : k0_chk18 v52), ∀ a x, ((![v52] : Fin 1 → IVec S16 32) a x).toNat < S100000.size a := fun v52 k0_hw18 => k0_hw18

def k0_chk19 (v55 : IVec S16 32) : Prop :=
  (∀ a x, ((![v55] : Fin 1 → IVec S16 32) a x).toNat < S100000.size a)
instance k0_chk19.dec : ∀ (v55 : IVec S16 32), Decidable (k0_chk19 v55) := fun v55 => decidable_of_iff' _ (Iff.of_eq (k0_chk19.eq_1 v55))
theorem k0_idx19_inb : ∀ (v55 : IVec S16 32) (k0_hw19 : k0_chk19 v55), ∀ a x, ((![v55] : Fin 1 → IVec S16 32) a x).toNat < S100000.size a := fun v55 k0_hw19 => k0_hw19

def k0_chk20 (v58 : IVec S16 32) : Prop :=
  (∀ a x, ((![v58] : Fin 1 → IVec S16 32) a x).toNat < S100000.size a)
instance k0_chk20.dec : ∀ (v58 : IVec S16 32), Decidable (k0_chk20 v58) := fun v58 => decidable_of_iff' _ (Iff.of_eq (k0_chk20.eq_1 v58))
theorem k0_idx20_inb : ∀ (v58 : IVec S16 32) (k0_hw20 : k0_chk20 v58), ∀ a x, ((![v58] : Fin 1 → IVec S16 32) a x).toNat < S100000.size a := fun v58 k0_hw20 => k0_hw20

def k0_chk21 (v62 : IVec S16 32) : Prop :=
  (∀ a x, ((![v62] : Fin 1 → IVec S16 32) a x).toNat < S100000.size a)
instance k0_chk21.dec : ∀ (v62 : IVec S16 32), Decidable (k0_chk21 v62) := fun v62 => decidable_of_iff' _ (Iff.of_eq (k0_chk21.eq_1 v62))
theorem k0_idx21_inb : ∀ (v62 : IVec S16 32) (k0_hw21 : k0_chk21 v62), ∀ a x, ((![v62] : Fin 1 → IVec S16 32) a x).toNat < S100000.size a := fun v62 k0_hw21 => k0_hw21

def k0_chk22 (v64 : IVec S16 32) : Prop :=
  (∀ a x, ((![v64] : Fin 1 → IVec S16 32) a x).toNat < S100000.size a)
instance k0_chk22.dec : ∀ (v64 : IVec S16 32), Decidable (k0_chk22 v64) := fun v64 => decidable_of_iff' _ (Iff.of_eq (k0_chk22.eq_1 v64))
theorem k0_idx22_inb : ∀ (v64 : IVec S16 32) (k0_hw22 : k0_chk22 v64), ∀ a x, ((![v64] : Fin 1 → IVec S16 32) a x).toNat < S100000.size a := fun v64 k0_hw22 => k0_hw22

def k0_chk23 (v67 : IVec S16 32) : Prop :=
  (∀ a x, ((![v67] : Fin 1 → IVec S16 32) a x).toNat < S100000.size a)
instance k0_chk23.dec : ∀ (v67 : IVec S16 32), Decidable (k0_chk23 v67) := fun v67 => decidable_of_iff' _ (Iff.of_eq (k0_chk23.eq_1 v67))
theorem k0_idx23_inb : ∀ (v67 : IVec S16 32) (k0_hw23 : k0_chk23 v67), ∀ a x, ((![v67] : Fin 1 → IVec S16 32) a x).toNat < S100000.size a := fun v67 k0_hw23 => k0_hw23

def k0_chk24 (v70 : IVec S16 32) : Prop :=
  (∀ a x, ((![v70] : Fin 1 → IVec S16 32) a x).toNat < S100000.size a)
instance k0_chk24.dec : ∀ (v70 : IVec S16 32), Decidable (k0_chk24 v70) := fun v70 => decidable_of_iff' _ (Iff.of_eq (k0_chk24.eq_1 v70))
theorem k0_idx24_inb : ∀ (v70 : IVec S16 32) (k0_hw24 : k0_chk24 v70), ∀ a x, ((![v70] : Fin 1 → IVec S16 32) a x).toNat < S100000.size a := fun v70 k0_hw24 => k0_hw24

def k0_chk25 (v74 : IVec S16 32) : Prop :=
  (∀ a x, ((![v74] : Fin 1 → IVec S16 32) a x).toNat < S100000.size a)
instance k0_chk25.dec : ∀ (v74 : IVec S16 32), Decidable (k0_chk25 v74) := fun v74 => decidable_of_iff' _ (Iff.of_eq (k0_chk25.eq_1 v74))
theorem k0_idx25_inb : ∀ (v74 : IVec S16 32) (k0_hw25 : k0_chk25 v74), ∀ a x, ((![v74] : Fin 1 → IVec S16 32) a x).toNat < S100000.size a := fun v74 k0_hw25 => k0_hw25

def k0_chk26 (v76 : IVec S16 32) : Prop :=
  (∀ a x, ((![v76] : Fin 1 → IVec S16 32) a x).toNat < S100000.size a)
instance k0_chk26.dec : ∀ (v76 : IVec S16 32), Decidable (k0_chk26 v76) := fun v76 => decidable_of_iff' _ (Iff.of_eq (k0_chk26.eq_1 v76))
theorem k0_idx26_inb : ∀ (v76 : IVec S16 32) (k0_hw26 : k0_chk26 v76), ∀ a x, ((![v76] : Fin 1 → IVec S16 32) a x).toNat < S100000.size a := fun v76 k0_hw26 => k0_hw26

def k0_chk27 (v79 : IVec S16 32) : Prop :=
  (∀ a x, ((![v79] : Fin 1 → IVec S16 32) a x).toNat < S100000.size a)
instance k0_chk27.dec : ∀ (v79 : IVec S16 32), Decidable (k0_chk27 v79) := fun v79 => decidable_of_iff' _ (Iff.of_eq (k0_chk27.eq_1 v79))
theorem k0_idx27_inb : ∀ (v79 : IVec S16 32) (k0_hw27 : k0_chk27 v79), ∀ a x, ((![v79] : Fin 1 → IVec S16 32) a x).toNat < S100000.size a := fun v79 k0_hw27 => k0_hw27

def k0_chk28 (v82 : IVec S16 32) : Prop :=
  (∀ a x, ((![v82] : Fin 1 → IVec S16 32) a x).toNat < S100000.size a)
instance k0_chk28.dec : ∀ (v82 : IVec S16 32), Decidable (k0_chk28 v82) := fun v82 => decidable_of_iff' _ (Iff.of_eq (k0_chk28.eq_1 v82))
theorem k0_idx28_inb : ∀ (v82 : IVec S16 32) (k0_hw28 : k0_chk28 v82), ∀ a x, ((![v82] : Fin 1 → IVec S16 32) a x).toNat < S100000.size a := fun v82 k0_hw28 => k0_hw28

def k0_chk29 (v86 : IVec S16 32) : Prop :=
  (∀ a x, ((![v86] : Fin 1 → IVec S16 32) a x).toNat < S100000.size a)
instance k0_chk29.dec : ∀ (v86 : IVec S16 32), Decidable (k0_chk29 v86) := fun v86 => decidable_of_iff' _ (Iff.of_eq (k0_chk29.eq_1 v86))
theorem k0_idx29_inb : ∀ (v86 : IVec S16 32) (k0_hw29 : k0_chk29 v86), ∀ a x, ((![v86] : Fin 1 → IVec S16 32) a x).toNat < S100000.size a := fun v86 k0_hw29 => k0_hw29

def k0_chk30 (v88 : IVec S16 32) : Prop :=
  (∀ a x, ((![v88] : Fin 1 → IVec S16 32) a x).toNat < S100000.size a)
instance k0_chk30.dec : ∀ (v88 : IVec S16 32), Decidable (k0_chk30 v88) := fun v88 => decidable_of_iff' _ (Iff.of_eq (k0_chk30.eq_1 v88))
theorem k0_idx30_inb : ∀ (v88 : IVec S16 32) (k0_hw30 : k0_chk30 v88), ∀ a x, ((![v88] : Fin 1 → IVec S16 32) a x).toNat < S100000.size a := fun v88 k0_hw30 => k0_hw30

def k0_chk31 (v91 : IVec S16 32) : Prop :=
  (∀ a x, ((![v91] : Fin 1 → IVec S16 32) a x).toNat < S100000.size a)
instance k0_chk31.dec : ∀ (v91 : IVec S16 32), Decidable (k0_chk31 v91) := fun v91 => decidable_of_iff' _ (Iff.of_eq (k0_chk31.eq_1 v91))
theorem k0_idx31_inb : ∀ (v91 : IVec S16 32) (k0_hw31 : k0_chk31 v91), ∀ a x, ((![v91] : Fin 1 → IVec S16 32) a x).toNat < S100000.size a := fun v91 k0_hw31 => k0_hw31

def k0_chk32 (v94 : IVec S16 32) : Prop :=
  (∀ a x, ((![v94] : Fin 1 → IVec S16 32) a x).toNat < S100000.size a)
instance k0_chk32.dec : ∀ (v94 : IVec S16 32), Decidable (k0_chk32 v94) := fun v94 => decidable_of_iff' _ (Iff.of_eq (k0_chk32.eq_1 v94))
theorem k0_idx32_inb : ∀ (v94 : IVec S16 32) (k0_hw32 : k0_chk32 v94), ∀ a x, ((![v94] : Fin 1 → IVec S16 32) a x).toNat < S100000.size a := fun v94 k0_hw32 => k0_hw32

def k0_chk33 (v98 : IVec S16 32) : Prop :=
  (∀ a x, ((![v98] : Fin 1 → IVec S16 32) a x).toNat < S100000.size a)
instance k0_chk33.dec : ∀ (v98 : IVec S16 32), Decidable (k0_chk33 v98) := fun v98 => decidable_of_iff' _ (Iff.of_eq (k0_chk33.eq_1 v98))
theorem k0_idx33_inb : ∀ (v98 : IVec S16 32) (k0_hw33 : k0_chk33 v98), ∀ a x, ((![v98] : Fin 1 → IVec S16 32) a x).toNat < S100000.size a := fun v98 k0_hw33 => k0_hw33

def k0_chk34 (v100 : IVec S16 32) : Prop :=
  (∀ a x, ((![v100] : Fin 1 → IVec S16 32) a x).toNat < S100000.size a)
instance k0_chk34.dec : ∀ (v100 : IVec S16 32), Decidable (k0_chk34 v100) := fun v100 => decidable_of_iff' _ (Iff.of_eq (k0_chk34.eq_1 v100))
theorem k0_idx34_inb : ∀ (v100 : IVec S16 32) (k0_hw34 : k0_chk34 v100), ∀ a x, ((![v100] : Fin 1 → IVec S16 32) a x).toNat < S100000.size a := fun v100 k0_hw34 => k0_hw34

def k0_chk35 (v103 : IVec S16 32) : Prop :=
  (∀ a x, ((![v103] : Fin 1 → IVec S16 32) a x).toNat < S100000.size a)
instance k0_chk35.dec : ∀ (v103 : IVec S16 32), Decidable (k0_chk35 v103) := fun v103 => decidable_of_iff' _ (Iff.of_eq (k0_chk35.eq_1 v103))
theorem k0_idx35_inb : ∀ (v103 : IVec S16 32) (k0_hw35 : k0_chk35 v103), ∀ a x, ((![v103] : Fin 1 → IVec S16 32) a x).toNat < S100000.size a := fun v103 k0_hw35 => k0_hw35

def k0_chk36 (v106 : IVec S16 32) : Prop :=
  (∀ a x, ((![v106] : Fin 1 → IVec S16 32) a x).toNat < S100000.size a)
instance k0_chk36.dec : ∀ (v106 : IVec S16 32), Decidable (k0_chk36 v106) := fun v106 => decidable_of_iff' _ (Iff.of_eq (k0_chk36.eq_1 v106))
theorem k0_idx36_inb : ∀ (v106 : IVec S16 32) (k0_hw36 : k0_chk36 v106), ∀ a x, ((![v106] : Fin 1 → IVec S16 32) a x).toNat < S100000.size a := fun v106 k0_hw36 => k0_hw36

def k0_chk37 (v110 : IVec S16 32) : Prop :=
  (∀ a x, ((![v110] : Fin 1 → IVec S16 32) a x).toNat < S100000.size a)
instance k0_chk37.dec : ∀ (v110 : IVec S16 32), Decidable (k0_chk37 v110) := fun v110 => decidable_of_iff' _ (Iff.of_eq (k0_chk37.eq_1 v110))
theorem k0_idx37_inb : ∀ (v110 : IVec S16 32) (k0_hw37 : k0_chk37 v110), ∀ a x, ((![v110] : Fin 1 → IVec S16 32) a x).toNat < S100000.size a := fun v110 k0_hw37 => k0_hw37

def k0_chk38 (v112 : IVec S16 32) : Prop :=
  (∀ a x, ((![v112] : Fin 1 → IVec S16 32) a x).toNat < S100000.size a)
instance k0_chk38.dec : ∀ (v112 : IVec S16 32), Decidable (k0_chk38 v112) := fun v112 => decidable_of_iff' _ (Iff.of_eq (k0_chk38.eq_1 v112))
theorem k0_idx38_inb : ∀ (v112 : IVec S16 32) (k0_hw38 : k0_chk38 v112), ∀ a x, ((![v112] : Fin 1 → IVec S16 32) a x).toNat < S100000.size a := fun v112 k0_hw38 => k0_hw38

def k0_chk39 (v115 : IVec S16 32) : Prop :=
  (∀ a x, ((![v115] : Fin 1 → IVec S16 32) a x).toNat < S100000.size a)
instance k0_chk39.dec : ∀ (v115 : IVec S16 32), Decidable (k0_chk39 v115) := fun v115 => decidable_of_iff' _ (Iff.of_eq (k0_chk39.eq_1 v115))
theorem k0_idx39_inb : ∀ (v115 : IVec S16 32) (k0_hw39 : k0_chk39 v115), ∀ a x, ((![v115] : Fin 1 → IVec S16 32) a x).toNat < S100000.size a := fun v115 k0_hw39 => k0_hw39

def k0_chk40 (v118 : IVec S16 32) : Prop :=
  (∀ a x, ((![v118] : Fin 1 → IVec S16 32) a x).toNat < S100000.size a)
instance k0_chk40.dec : ∀ (v118 : IVec S16 32), Decidable (k0_chk40 v118) := fun v118 => decidable_of_iff' _ (Iff.of_eq (k0_chk40.eq_1 v118))
theorem k0_idx40_inb : ∀ (v118 : IVec S16 32) (k0_hw40 : k0_chk40 v118), ∀ a x, ((![v118] : Fin 1 → IVec S16 32) a x).toNat < S100000.size a := fun v118 k0_hw40 => k0_hw40

def k0_chk41 (v122 : IVec S16 32) : Prop :=
  (∀ a x, ((![v122] : Fin 1 → IVec S16 32) a x).toNat < S100000.size a)
instance k0_chk41.dec : ∀ (v122 : IVec S16 32), Decidable (k0_chk41 v122) := fun v122 => decidable_of_iff' _ (Iff.of_eq (k0_chk41.eq_1 v122))
theorem k0_idx41_inb : ∀ (v122 : IVec S16 32) (k0_hw41 : k0_chk41 v122), ∀ a x, ((![v122] : Fin 1 → IVec S16 32) a x).toNat < S100000.size a := fun v122 k0_hw41 => k0_hw41

def k0_chk42 (v124 : IVec S16 32) : Prop :=
  (∀ a x, ((![v124] : Fin 1 → IVec S16 32) a x).toNat < S100000.size a)
instance k0_chk42.dec : ∀ (v124 : IVec S16 32), Decidable (k0_chk42 v124) := fun v124 => decidable_of_iff' _ (Iff.of_eq (k0_chk42.eq_1 v124))
theorem k0_idx42_inb : ∀ (v124 : IVec S16 32) (k0_hw42 : k0_chk42 v124), ∀ a x, ((![v124] : Fin 1 → IVec S16 32) a x).toNat < S100000.size a := fun v124 k0_hw42 => k0_hw42

def k0_chk43 (v127 : IVec S16 32) : Prop :=
  (∀ a x, ((![v127] : Fin 1 → IVec S16 32) a x).toNat < S100000.size a)
instance k0_chk43.dec : ∀ (v127 : IVec S16 32), Decidable (k0_chk43 v127) := fun v127 => decidable_of_iff' _ (Iff.of_eq (k0_chk43.eq_1 v127))
theorem k0_idx43_inb : ∀ (v127 : IVec S16 32) (k0_hw43 : k0_chk43 v127), ∀ a x, ((![v127] : Fin 1 → IVec S16 32) a x).toNat < S100000.size a := fun v127 k0_hw43 => k0_hw43

def k0_chk44 (v130 : IVec S16 32) : Prop :=
  (∀ a x, ((![v130] : Fin 1 → IVec S16 32) a x).toNat < S100000.size a)
instance k0_chk44.dec : ∀ (v130 : IVec S16 32), Decidable (k0_chk44 v130) := fun v130 => decidable_of_iff' _ (Iff.of_eq (k0_chk44.eq_1 v130))
theorem k0_idx44_inb : ∀ (v130 : IVec S16 32) (k0_hw44 : k0_chk44 v130), ∀ a x, ((![v130] : Fin 1 → IVec S16 32) a x).toNat < S100000.size a := fun v130 k0_hw44 => k0_hw44

def k0_chk45 (v134 : IVec S16 32) : Prop :=
  (∀ a x, ((![v134] : Fin 1 → IVec S16 32) a x).toNat < S100000.size a)
instance k0_chk45.dec : ∀ (v134 : IVec S16 32), Decidable (k0_chk45 v134) := fun v134 => decidable_of_iff' _ (Iff.of_eq (k0_chk45.eq_1 v134))
theorem k0_idx45_inb : ∀ (v134 : IVec S16 32) (k0_hw45 : k0_chk45 v134), ∀ a x, ((![v134] : Fin 1 → IVec S16 32) a x).toNat < S100000.size a := fun v134 k0_hw45 => k0_hw45

def k0_chk46 (v136 : IVec S16 32) : Prop :=
  (∀ a x, ((![v136] : Fin 1 → IVec S16 32) a x).toNat < S100000.size a)
instance k0_chk46.dec : ∀ (v136 : IVec S16 32), Decidable (k0_chk46 v136) := fun v136 => decidable_of_iff' _ (Iff.of_eq (k0_chk46.eq_1 v136))
theorem k0_idx46_inb : ∀ (v136 : IVec S16 32) (k0_hw46 : k0_chk46 v136), ∀ a x, ((![v136] : Fin 1 → IVec S16 32) a x).toNat < S100000.size a := fun v136 k0_hw46 => k0_hw46

def k0_chk47 (v139 : IVec S16 32) : Prop :=
  (∀ a x, ((![v139] : Fin 1 → IVec S16 32) a x).toNat < S100000.size a)
instance k0_chk47.dec : ∀ (v139 : IVec S16 32), Decidable (k0_chk47 v139) := fun v139 => decidable_of_iff' _ (Iff.of_eq (k0_chk47.eq_1 v139))
theorem k0_idx47_inb : ∀ (v139 : IVec S16 32) (k0_hw47 : k0_chk47 v139), ∀ a x, ((![v139] : Fin 1 → IVec S16 32) a x).toNat < S100000.size a := fun v139 k0_hw47 => k0_hw47

def k0_chk48 (v142 : IVec S16 32) : Prop :=
  (∀ a x, ((![v142] : Fin 1 → IVec S16 32) a x).toNat < S100000.size a)
instance k0_chk48.dec : ∀ (v142 : IVec S16 32), Decidable (k0_chk48 v142) := fun v142 => decidable_of_iff' _ (Iff.of_eq (k0_chk48.eq_1 v142))
theorem k0_idx48_inb : ∀ (v142 : IVec S16 32) (k0_hw48 : k0_chk48 v142), ∀ a x, ((![v142] : Fin 1 → IVec S16 32) a x).toNat < S100000.size a := fun v142 k0_hw48 => k0_hw48

def k0_chk49 (v146 : IVec S16 32) : Prop :=
  (∀ a x, ((![v146] : Fin 1 → IVec S16 32) a x).toNat < S100000.size a)
instance k0_chk49.dec : ∀ (v146 : IVec S16 32), Decidable (k0_chk49 v146) := fun v146 => decidable_of_iff' _ (Iff.of_eq (k0_chk49.eq_1 v146))
theorem k0_idx49_inb : ∀ (v146 : IVec S16 32) (k0_hw49 : k0_chk49 v146), ∀ a x, ((![v146] : Fin 1 → IVec S16 32) a x).toNat < S100000.size a := fun v146 k0_hw49 => k0_hw49

def k0_chk50 (v148 : IVec S16 32) : Prop :=
  (∀ a x, ((![v148] : Fin 1 → IVec S16 32) a x).toNat < S100000.size a)
instance k0_chk50.dec : ∀ (v148 : IVec S16 32), Decidable (k0_chk50 v148) := fun v148 => decidable_of_iff' _ (Iff.of_eq (k0_chk50.eq_1 v148))
theorem k0_idx50_inb : ∀ (v148 : IVec S16 32) (k0_hw50 : k0_chk50 v148), ∀ a x, ((![v148] : Fin 1 → IVec S16 32) a x).toNat < S100000.size a := fun v148 k0_hw50 => k0_hw50

def k0_chk51 (v151 : IVec S16 32) : Prop :=
  (∀ a x, ((![v151] : Fin 1 → IVec S16 32) a x).toNat < S100000.size a)
instance k0_chk51.dec : ∀ (v151 : IVec S16 32), Decidable (k0_chk51 v151) := fun v151 => decidable_of_iff' _ (Iff.of_eq (k0_chk51.eq_1 v151))
theorem k0_idx51_inb : ∀ (v151 : IVec S16 32) (k0_hw51 : k0_chk51 v151), ∀ a x, ((![v151] : Fin 1 → IVec S16 32) a x).toNat < S100000.size a := fun v151 k0_hw51 => k0_hw51

def k0_chk52 (v154 : IVec S16 32) : Prop :=
  (∀ a x, ((![v154] : Fin 1 → IVec S16 32) a x).toNat < S100000.size a)
instance k0_chk52.dec : ∀ (v154 : IVec S16 32), Decidable (k0_chk52 v154) := fun v154 => decidable_of_iff' _ (Iff.of_eq (k0_chk52.eq_1 v154))
theorem k0_idx52_inb : ∀ (v154 : IVec S16 32) (k0_hw52 : k0_chk52 v154), ∀ a x, ((![v154] : Fin 1 → IVec S16 32) a x).toNat < S100000.size a := fun v154 k0_hw52 => k0_hw52

def k0_chk53 (v158 : IVec S16 32) : Prop :=
  (∀ a x, ((![v158] : Fin 1 → IVec S16 32) a x).toNat < S100000.size a)
instance k0_chk53.dec : ∀ (v158 : IVec S16 32), Decidable (k0_chk53 v158) := fun v158 => decidable_of_iff' _ (Iff.of_eq (k0_chk53.eq_1 v158))
theorem k0_idx53_inb : ∀ (v158 : IVec S16 32) (k0_hw53 : k0_chk53 v158), ∀ a x, ((![v158] : Fin 1 → IVec S16 32) a x).toNat < S100000.size a := fun v158 k0_hw53 => k0_hw53

def k0_chk54 (v160 : IVec S16 32) : Prop :=
  (∀ a x, ((![v160] : Fin 1 → IVec S16 32) a x).toNat < S100000.size a)
instance k0_chk54.dec : ∀ (v160 : IVec S16 32), Decidable (k0_chk54 v160) := fun v160 => decidable_of_iff' _ (Iff.of_eq (k0_chk54.eq_1 v160))
theorem k0_idx54_inb : ∀ (v160 : IVec S16 32) (k0_hw54 : k0_chk54 v160), ∀ a x, ((![v160] : Fin 1 → IVec S16 32) a x).toNat < S100000.size a := fun v160 k0_hw54 => k0_hw54

def k0_chk55 (v163 : IVec S16 32) : Prop :=
  (∀ a x, ((![v163] : Fin 1 → IVec S16 32) a x).toNat < S100000.size a)
instance k0_chk55.dec : ∀ (v163 : IVec S16 32), Decidable (k0_chk55 v163) := fun v163 => decidable_of_iff' _ (Iff.of_eq (k0_chk55.eq_1 v163))
theorem k0_idx55_inb : ∀ (v163 : IVec S16 32) (k0_hw55 : k0_chk55 v163), ∀ a x, ((![v163] : Fin 1 → IVec S16 32) a x).toNat < S100000.size a := fun v163 k0_hw55 => k0_hw55

def k0_chk56 (v166 : IVec S16 32) : Prop :=
  (∀ a x, ((![v166] : Fin 1 → IVec S16 32) a x).toNat < S100000.size a)
instance k0_chk56.dec : ∀ (v166 : IVec S16 32), Decidable (k0_chk56 v166) := fun v166 => decidable_of_iff' _ (Iff.of_eq (k0_chk56.eq_1 v166))
theorem k0_idx56_inb : ∀ (v166 : IVec S16 32) (k0_hw56 : k0_chk56 v166), ∀ a x, ((![v166] : Fin 1 → IVec S16 32) a x).toNat < S100000.size a := fun v166 k0_hw56 => k0_hw56

def k0_chk57 (v170 : IVec S16 32) : Prop :=
  (∀ a x, ((![v170] : Fin 1 → IVec S16 32) a x).toNat < S100000.size a)
instance k0_chk57.dec : ∀ (v170 : IVec S16 32), Decidable (k0_chk57 v170) := fun v170 => decidable_of_iff' _ (Iff.of_eq (k0_chk57.eq_1 v170))
theorem k0_idx57_inb : ∀ (v170 : IVec S16 32) (k0_hw57 : k0_chk57 v170), ∀ a x, ((![v170] : Fin 1 → IVec S16 32) a x).toNat < S100000.size a := fun v170 k0_hw57 => k0_hw57

def k0_chk58 (v172 : IVec S16 32) : Prop :=
  (∀ a x, ((![v172] : Fin 1 → IVec S16 32) a x).toNat < S100000.size a)
instance k0_chk58.dec : ∀ (v172 : IVec S16 32), Decidable (k0_chk58 v172) := fun v172 => decidable_of_iff' _ (Iff.of_eq (k0_chk58.eq_1 v172))
theorem k0_idx58_inb : ∀ (v172 : IVec S16 32) (k0_hw58 : k0_chk58 v172), ∀ a x, ((![v172] : Fin 1 → IVec S16 32) a x).toNat < S100000.size a := fun v172 k0_hw58 => k0_hw58

def k0_chk59 (v175 : IVec S16 32) : Prop :=
  (∀ a x, ((![v175] : Fin 1 → IVec S16 32) a x).toNat < S100000.size a)
instance k0_chk59.dec : ∀ (v175 : IVec S16 32), Decidable (k0_chk59 v175) := fun v175 => decidable_of_iff' _ (Iff.of_eq (k0_chk59.eq_1 v175))
theorem k0_idx59_inb : ∀ (v175 : IVec S16 32) (k0_hw59 : k0_chk59 v175), ∀ a x, ((![v175] : Fin 1 → IVec S16 32) a x).toNat < S100000.size a := fun v175 k0_hw59 => k0_hw59

def k0_chk60 (v178 : IVec S16 32) : Prop :=
  (∀ a x, ((![v178] : Fin 1 → IVec S16 32) a x).toNat < S100000.size a)
instance k0_chk60.dec : ∀ (v178 : IVec S16 32), Decidable (k0_chk60 v178) := fun v178 => decidable_of_iff' _ (Iff.of_eq (k0_chk60.eq_1 v178))
theorem k0_idx60_inb : ∀ (v178 : IVec S16 32) (k0_hw60 : k0_chk60 v178), ∀ a x, ((![v178] : Fin 1 → IVec S16 32) a x).toNat < S100000.size a := fun v178 k0_hw60 => k0_hw60

def k0_chk61 (v182 : IVec S16 32) : Prop :=
  (∀ a x, ((![v182] : Fin 1 → IVec S16 32) a x).toNat < S100000.size a)
instance k0_chk61.dec : ∀ (v182 : IVec S16 32), Decidable (k0_chk61 v182) := fun v182 => decidable_of_iff' _ (Iff.of_eq (k0_chk61.eq_1 v182))
theorem k0_idx61_inb : ∀ (v182 : IVec S16 32) (k0_hw61 : k0_chk61 v182), ∀ a x, ((![v182] : Fin 1 → IVec S16 32) a x).toNat < S100000.size a := fun v182 k0_hw61 => k0_hw61

def k0_chk62 (v184 : IVec S16 32) : Prop :=
  (∀ a x, ((![v184] : Fin 1 → IVec S16 32) a x).toNat < S100000.size a)
instance k0_chk62.dec : ∀ (v184 : IVec S16 32), Decidable (k0_chk62 v184) := fun v184 => decidable_of_iff' _ (Iff.of_eq (k0_chk62.eq_1 v184))
theorem k0_idx62_inb : ∀ (v184 : IVec S16 32) (k0_hw62 : k0_chk62 v184), ∀ a x, ((![v184] : Fin 1 → IVec S16 32) a x).toNat < S100000.size a := fun v184 k0_hw62 => k0_hw62

def k0_chk63 (v187 : IVec S16 32) : Prop :=
  (∀ a x, ((![v187] : Fin 1 → IVec S16 32) a x).toNat < S100000.size a)
instance k0_chk63.dec : ∀ (v187 : IVec S16 32), Decidable (k0_chk63 v187) := fun v187 => decidable_of_iff' _ (Iff.of_eq (k0_chk63.eq_1 v187))
theorem k0_idx63_inb : ∀ (v187 : IVec S16 32) (k0_hw63 : k0_chk63 v187), ∀ a x, ((![v187] : Fin 1 → IVec S16 32) a x).toNat < S100000.size a := fun v187 k0_hw63 => k0_hw63

def k0_chk64 (v190 : IVec S16 32) : Prop :=
  (∀ a x, ((![v190] : Fin 1 → IVec S16 32) a x).toNat < S100000.size a)
instance k0_chk64.dec : ∀ (v190 : IVec S16 32), Decidable (k0_chk64 v190) := fun v190 => decidable_of_iff' _ (Iff.of_eq (k0_chk64.eq_1 v190))
theorem k0_idx64_inb : ∀ (v190 : IVec S16 32) (k0_hw64 : k0_chk64 v190), ∀ a x, ((![v190] : Fin 1 → IVec S16 32) a x).toNat < S100000.size a := fun v190 k0_hw64 => k0_hw64

def k0_chk65 (v194 : IVec S16 32) : Prop :=
  (∀ a x, ((![v194] : Fin 1 → IVec S16 32) a x).toNat < S100000.size a)
instance k0_chk65.dec : ∀ (v194 : IVec S16 32), Decidable (k0_chk65 v194) := fun v194 => decidable_of_iff' _ (Iff.of_eq (k0_chk65.eq_1 v194))
theorem k0_idx65_inb : ∀ (v194 : IVec S16 32) (k0_hw65 : k0_chk65 v194), ∀ a x, ((![v194] : Fin 1 → IVec S16 32) a x).toNat < S100000.size a := fun v194 k0_hw65 => k0_hw65

def k0_chk66 (v196 : IVec S16 32) : Prop :=
  (∀ a x, ((![v196] : Fin 1 → IVec S16 32) a x).toNat < S100000.size a)
instance k0_chk66.dec : ∀ (v196 : IVec S16 32), Decidable (k0_chk66 v196) := fun v196 => decidable_of_iff' _ (Iff.of_eq (k0_chk66.eq_1 v196))
theorem k0_idx66_inb : ∀ (v196 : IVec S16 32) (k0_hw66 : k0_chk66 v196), ∀ a x, ((![v196] : Fin 1 → IVec S16 32) a x).toNat < S100000.size a := fun v196 k0_hw66 => k0_hw66

def k0_chk67 (v199 : IVec S16 32) : Prop :=
  (∀ a x, ((![v199] : Fin 1 → IVec S16 32) a x).toNat < S100000.size a)
instance k0_chk67.dec : ∀ (v199 : IVec S16 32), Decidable (k0_chk67 v199) := fun v199 => decidable_of_iff' _ (Iff.of_eq (k0_chk67.eq_1 v199))
theorem k0_idx67_inb : ∀ (v199 : IVec S16 32) (k0_hw67 : k0_chk67 v199), ∀ a x, ((![v199] : Fin 1 → IVec S16 32) a x).toNat < S100000.size a := fun v199 k0_hw67 => k0_hw67

def k0_chk68 (v202 : IVec S16 32) : Prop :=
  (∀ a x, ((![v202] : Fin 1 → IVec S16 32) a x).toNat < S100000.size a)
instance k0_chk68.dec : ∀ (v202 : IVec S16 32), Decidable (k0_chk68 v202) := fun v202 => decidable_of_iff' _ (Iff.of_eq (k0_chk68.eq_1 v202))
theorem k0_idx68_inb : ∀ (v202 : IVec S16 32) (k0_hw68 : k0_chk68 v202), ∀ a x, ((![v202] : Fin 1 → IVec S16 32) a x).toNat < S100000.size a := fun v202 k0_hw68 => k0_hw68

def k0_chk69 (v206 : IVec S16 32) : Prop :=
  (∀ a x, ((![v206] : Fin 1 → IVec S16 32) a x).toNat < S100000.size a)
instance k0_chk69.dec : ∀ (v206 : IVec S16 32), Decidable (k0_chk69 v206) := fun v206 => decidable_of_iff' _ (Iff.of_eq (k0_chk69.eq_1 v206))
theorem k0_idx69_inb : ∀ (v206 : IVec S16 32) (k0_hw69 : k0_chk69 v206), ∀ a x, ((![v206] : Fin 1 → IVec S16 32) a x).toNat < S100000.size a := fun v206 k0_hw69 => k0_hw69

def k0_chk70 (v208 : IVec S16 32) : Prop :=
  (∀ a x, ((![v208] : Fin 1 → IVec S16 32) a x).toNat < S100000.size a)
instance k0_chk70.dec : ∀ (v208 : IVec S16 32), Decidable (k0_chk70 v208) := fun v208 => decidable_of_iff' _ (Iff.of_eq (k0_chk70.eq_1 v208))
theorem k0_idx70_inb : ∀ (v208 : IVec S16 32) (k0_hw70 : k0_chk70 v208), ∀ a x, ((![v208] : Fin 1 → IVec S16 32) a x).toNat < S100000.size a := fun v208 k0_hw70 => k0_hw70

def k0_chk71 (v211 : IVec S16 32) : Prop :=
  (∀ a x, ((![v211] : Fin 1 → IVec S16 32) a x).toNat < S100000.size a)
instance k0_chk71.dec : ∀ (v211 : IVec S16 32), Decidable (k0_chk71 v211) := fun v211 => decidable_of_iff' _ (Iff.of_eq (k0_chk71.eq_1 v211))
theorem k0_idx71_inb : ∀ (v211 : IVec S16 32) (k0_hw71 : k0_chk71 v211), ∀ a x, ((![v211] : Fin 1 → IVec S16 32) a x).toNat < S100000.size a := fun v211 k0_hw71 => k0_hw71

def k0_chk72 (v214 : IVec S16 32) : Prop :=
  (∀ a x, ((![v214] : Fin 1 → IVec S16 32) a x).toNat < S100000.size a)
instance k0_chk72.dec : ∀ (v214 : IVec S16 32), Decidable (k0_chk72 v214) := fun v214 => decidable_of_iff' _ (Iff.of_eq (k0_chk72.eq_1 v214))
theorem k0_idx72_inb : ∀ (v214 : IVec S16 32) (k0_hw72 : k0_chk72 v214), ∀ a x, ((![v214] : Fin 1 → IVec S16 32) a x).toNat < S100000.size a := fun v214 k0_hw72 => k0_hw72

def k0_chk73 (v218 : IVec S16 32) : Prop :=
  (∀ a x, ((![v218] : Fin 1 → IVec S16 32) a x).toNat < S100000.size a)
instance k0_chk73.dec : ∀ (v218 : IVec S16 32), Decidable (k0_chk73 v218) := fun v218 => decidable_of_iff' _ (Iff.of_eq (k0_chk73.eq_1 v218))
theorem k0_idx73_inb : ∀ (v218 : IVec S16 32) (k0_hw73 : k0_chk73 v218), ∀ a x, ((![v218] : Fin 1 → IVec S16 32) a x).toNat < S100000.size a := fun v218 k0_hw73 => k0_hw73

def k0_chk74 (v220 : IVec S16 32) : Prop :=
  (∀ a x, ((![v220] : Fin 1 → IVec S16 32) a x).toNat < S100000.size a)
instance k0_chk74.dec : ∀ (v220 : IVec S16 32), Decidable (k0_chk74 v220) := fun v220 => decidable_of_iff' _ (Iff.of_eq (k0_chk74.eq_1 v220))
theorem k0_idx74_inb : ∀ (v220 : IVec S16 32) (k0_hw74 : k0_chk74 v220), ∀ a x, ((![v220] : Fin 1 → IVec S16 32) a x).toNat < S100000.size a := fun v220 k0_hw74 => k0_hw74

def k0_chk75 (v223 : IVec S16 32) : Prop :=
  (∀ a x, ((![v223] : Fin 1 → IVec S16 32) a x).toNat < S100000.size a)
instance k0_chk75.dec : ∀ (v223 : IVec S16 32), Decidable (k0_chk75 v223) := fun v223 => decidable_of_iff' _ (Iff.of_eq (k0_chk75.eq_1 v223))
theorem k0_idx75_inb : ∀ (v223 : IVec S16 32) (k0_hw75 : k0_chk75 v223), ∀ a x, ((![v223] : Fin 1 → IVec S16 32) a x).toNat < S100000.size a := fun v223 k0_hw75 => k0_hw75

def k0_chk76 (v226 : IVec S16 32) : Prop :=
  (∀ a x, ((![v226] : Fin 1 → IVec S16 32) a x).toNat < S100000.size a)
instance k0_chk76.dec : ∀ (v226 : IVec S16 32), Decidable (k0_chk76 v226) := fun v226 => decidable_of_iff' _ (Iff.of_eq (k0_chk76.eq_1 v226))
theorem k0_idx76_inb : ∀ (v226 : IVec S16 32) (k0_hw76 : k0_chk76 v226), ∀ a x, ((![v226] : Fin 1 → IVec S16 32) a x).toNat < S100000.size a := fun v226 k0_hw76 => k0_hw76

def k0_chk77 (v230 : IVec S16 32) : Prop :=
  (∀ a x, ((![v230] : Fin 1 → IVec S16 32) a x).toNat < S100000.size a)
instance k0_chk77.dec : ∀ (v230 : IVec S16 32), Decidable (k0_chk77 v230) := fun v230 => decidable_of_iff' _ (Iff.of_eq (k0_chk77.eq_1 v230))
theorem k0_idx77_inb : ∀ (v230 : IVec S16 32) (k0_hw77 : k0_chk77 v230), ∀ a x, ((![v230] : Fin 1 → IVec S16 32) a x).toNat < S100000.size a := fun v230 k0_hw77 => k0_hw77

def k0_chk78 (v232 : IVec S16 32) : Prop :=
  (∀ a x, ((![v232] : Fin 1 → IVec S16 32) a x).toNat < S100000.size a)
instance k0_chk78.dec : ∀ (v232 : IVec S16 32), Decidable (k0_chk78 v232) := fun v232 => decidable_of_iff' _ (Iff.of_eq (k0_chk78.eq_1 v232))
theorem k0_idx78_inb : ∀ (v232 : IVec S16 32) (k0_hw78 : k0_chk78 v232), ∀ a x, ((![v232] : Fin 1 → IVec S16 32) a x).toNat < S100000.size a := fun v232 k0_hw78 => k0_hw78

def k0_chk79 (v235 : IVec S16 32) : Prop :=
  (∀ a x, ((![v235] : Fin 1 → IVec S16 32) a x).toNat < S100000.size a)
instance k0_chk79.dec : ∀ (v235 : IVec S16 32), Decidable (k0_chk79 v235) := fun v235 => decidable_of_iff' _ (Iff.of_eq (k0_chk79.eq_1 v235))
theorem k0_idx79_inb : ∀ (v235 : IVec S16 32) (k0_hw79 : k0_chk79 v235), ∀ a x, ((![v235] : Fin 1 → IVec S16 32) a x).toNat < S100000.size a := fun v235 k0_hw79 => k0_hw79

def k0_chk80 (v238 : IVec S16 32) : Prop :=
  (∀ a x, ((![v238] : Fin 1 → IVec S16 32) a x).toNat < S100000.size a)
instance k0_chk80.dec : ∀ (v238 : IVec S16 32), Decidable (k0_chk80 v238) := fun v238 => decidable_of_iff' _ (Iff.of_eq (k0_chk80.eq_1 v238))
theorem k0_idx80_inb : ∀ (v238 : IVec S16 32) (k0_hw80 : k0_chk80 v238), ∀ a x, ((![v238] : Fin 1 → IVec S16 32) a x).toNat < S100000.size a := fun v238 k0_hw80 => k0_hw80

def k0_chk81 (v242 : IVec S16 32) : Prop :=
  (∀ a x, ((![v242] : Fin 1 → IVec S16 32) a x).toNat < S100000.size a)
instance k0_chk81.dec : ∀ (v242 : IVec S16 32), Decidable (k0_chk81 v242) := fun v242 => decidable_of_iff' _ (Iff.of_eq (k0_chk81.eq_1 v242))
theorem k0_idx81_inb : ∀ (v242 : IVec S16 32) (k0_hw81 : k0_chk81 v242), ∀ a x, ((![v242] : Fin 1 → IVec S16 32) a x).toNat < S100000.size a := fun v242 k0_hw81 => k0_hw81

def k0_chk82 (v244 : IVec S16 32) : Prop :=
  (∀ a x, ((![v244] : Fin 1 → IVec S16 32) a x).toNat < S100000.size a)
instance k0_chk82.dec : ∀ (v244 : IVec S16 32), Decidable (k0_chk82 v244) := fun v244 => decidable_of_iff' _ (Iff.of_eq (k0_chk82.eq_1 v244))
theorem k0_idx82_inb : ∀ (v244 : IVec S16 32) (k0_hw82 : k0_chk82 v244), ∀ a x, ((![v244] : Fin 1 → IVec S16 32) a x).toNat < S100000.size a := fun v244 k0_hw82 => k0_hw82

def k0_chk83 (v247 : IVec S16 32) : Prop :=
  (∀ a x, ((![v247] : Fin 1 → IVec S16 32) a x).toNat < S100000.size a)
instance k0_chk83.dec : ∀ (v247 : IVec S16 32), Decidable (k0_chk83 v247) := fun v247 => decidable_of_iff' _ (Iff.of_eq (k0_chk83.eq_1 v247))
theorem k0_idx83_inb : ∀ (v247 : IVec S16 32) (k0_hw83 : k0_chk83 v247), ∀ a x, ((![v247] : Fin 1 → IVec S16 32) a x).toNat < S100000.size a := fun v247 k0_hw83 => k0_hw83

def k0_chk84 (v250 : IVec S16 32) : Prop :=
  (∀ a x, ((![v250] : Fin 1 → IVec S16 32) a x).toNat < S100000.size a)
instance k0_chk84.dec : ∀ (v250 : IVec S16 32), Decidable (k0_chk84 v250) := fun v250 => decidable_of_iff' _ (Iff.of_eq (k0_chk84.eq_1 v250))
theorem k0_idx84_inb : ∀ (v250 : IVec S16 32) (k0_hw84 : k0_chk84 v250), ∀ a x, ((![v250] : Fin 1 → IVec S16 32) a x).toNat < S100000.size a := fun v250 k0_hw84 => k0_hw84

def k0_chk85 (v254 : IVec S16 32) : Prop :=
  (∀ a x, ((![v254] : Fin 1 → IVec S16 32) a x).toNat < S100000.size a)
instance k0_chk85.dec : ∀ (v254 : IVec S16 32), Decidable (k0_chk85 v254) := fun v254 => decidable_of_iff' _ (Iff.of_eq (k0_chk85.eq_1 v254))
theorem k0_idx85_inb : ∀ (v254 : IVec S16 32) (k0_hw85 : k0_chk85 v254), ∀ a x, ((![v254] : Fin 1 → IVec S16 32) a x).toNat < S100000.size a := fun v254 k0_hw85 => k0_hw85

def k0_chk86 (v256 : IVec S16 32) : Prop :=
  (∀ a x, ((![v256] : Fin 1 → IVec S16 32) a x).toNat < S100000.size a)
instance k0_chk86.dec : ∀ (v256 : IVec S16 32), Decidable (k0_chk86 v256) := fun v256 => decidable_of_iff' _ (Iff.of_eq (k0_chk86.eq_1 v256))
theorem k0_idx86_inb : ∀ (v256 : IVec S16 32) (k0_hw86 : k0_chk86 v256), ∀ a x, ((![v256] : Fin 1 → IVec S16 32) a x).toNat < S100000.size a := fun v256 k0_hw86 => k0_hw86

def k0_chk87 (v259 : IVec S16 32) : Prop :=
  (∀ a x, ((![v259] : Fin 1 → IVec S16 32) a x).toNat < S100000.size a)
instance k0_chk87.dec : ∀ (v259 : IVec S16 32), Decidable (k0_chk87 v259) := fun v259 => decidable_of_iff' _ (Iff.of_eq (k0_chk87.eq_1 v259))
theorem k0_idx87_inb : ∀ (v259 : IVec S16 32) (k0_hw87 : k0_chk87 v259), ∀ a x, ((![v259] : Fin 1 → IVec S16 32) a x).toNat < S100000.size a := fun v259 k0_hw87 => k0_hw87

def k0_chk88 (v262 : IVec S16 32) : Prop :=
  (∀ a x, ((![v262] : Fin 1 → IVec S16 32) a x).toNat < S100000.size a)
instance k0_chk88.dec : ∀ (v262 : IVec S16 32), Decidable (k0_chk88 v262) := fun v262 => decidable_of_iff' _ (Iff.of_eq (k0_chk88.eq_1 v262))
theorem k0_idx88_inb : ∀ (v262 : IVec S16 32) (k0_hw88 : k0_chk88 v262), ∀ a x, ((![v262] : Fin 1 → IVec S16 32) a x).toNat < S100000.size a := fun v262 k0_hw88 => k0_hw88

def k0_chk89 (v266 : IVec S16 32) : Prop :=
  (∀ a x, ((![v266] : Fin 1 → IVec S16 32) a x).toNat < S100000.size a)
instance k0_chk89.dec : ∀ (v266 : IVec S16 32), Decidable (k0_chk89 v266) := fun v266 => decidable_of_iff' _ (Iff.of_eq (k0_chk89.eq_1 v266))
theorem k0_idx89_inb : ∀ (v266 : IVec S16 32) (k0_hw89 : k0_chk89 v266), ∀ a x, ((![v266] : Fin 1 → IVec S16 32) a x).toNat < S100000.size a := fun v266 k0_hw89 => k0_hw89

def k0_chk90 (v268 : IVec S16 32) : Prop :=
  (∀ a x, ((![v268] : Fin 1 → IVec S16 32) a x).toNat < S100000.size a)
instance k0_chk90.dec : ∀ (v268 : IVec S16 32), Decidable (k0_chk90 v268) := fun v268 => decidable_of_iff' _ (Iff.of_eq (k0_chk90.eq_1 v268))
theorem k0_idx90_inb : ∀ (v268 : IVec S16 32) (k0_hw90 : k0_chk90 v268), ∀ a x, ((![v268] : Fin 1 → IVec S16 32) a x).toNat < S100000.size a := fun v268 k0_hw90 => k0_hw90

def k0_chk91 (v271 : IVec S16 32) : Prop :=
  (∀ a x, ((![v271] : Fin 1 → IVec S16 32) a x).toNat < S100000.size a)
instance k0_chk91.dec : ∀ (v271 : IVec S16 32), Decidable (k0_chk91 v271) := fun v271 => decidable_of_iff' _ (Iff.of_eq (k0_chk91.eq_1 v271))
theorem k0_idx91_inb : ∀ (v271 : IVec S16 32) (k0_hw91 : k0_chk91 v271), ∀ a x, ((![v271] : Fin 1 → IVec S16 32) a x).toNat < S100000.size a := fun v271 k0_hw91 => k0_hw91

def k0_chk92 (v274 : IVec S16 32) : Prop :=
  (∀ a x, ((![v274] : Fin 1 → IVec S16 32) a x).toNat < S100000.size a)
instance k0_chk92.dec : ∀ (v274 : IVec S16 32), Decidable (k0_chk92 v274) := fun v274 => decidable_of_iff' _ (Iff.of_eq (k0_chk92.eq_1 v274))
theorem k0_idx92_inb : ∀ (v274 : IVec S16 32) (k0_hw92 : k0_chk92 v274), ∀ a x, ((![v274] : Fin 1 → IVec S16 32) a x).toNat < S100000.size a := fun v274 k0_hw92 => k0_hw92

def k0_chk93 (v278 : IVec S16 32) : Prop :=
  (∀ a x, ((![v278] : Fin 1 → IVec S16 32) a x).toNat < S100000.size a)
instance k0_chk93.dec : ∀ (v278 : IVec S16 32), Decidable (k0_chk93 v278) := fun v278 => decidable_of_iff' _ (Iff.of_eq (k0_chk93.eq_1 v278))
theorem k0_idx93_inb : ∀ (v278 : IVec S16 32) (k0_hw93 : k0_chk93 v278), ∀ a x, ((![v278] : Fin 1 → IVec S16 32) a x).toNat < S100000.size a := fun v278 k0_hw93 => k0_hw93

def k0_chk94 (v280 : IVec S16 32) : Prop :=
  (∀ a x, ((![v280] : Fin 1 → IVec S16 32) a x).toNat < S100000.size a)
instance k0_chk94.dec : ∀ (v280 : IVec S16 32), Decidable (k0_chk94 v280) := fun v280 => decidable_of_iff' _ (Iff.of_eq (k0_chk94.eq_1 v280))
theorem k0_idx94_inb : ∀ (v280 : IVec S16 32) (k0_hw94 : k0_chk94 v280), ∀ a x, ((![v280] : Fin 1 → IVec S16 32) a x).toNat < S100000.size a := fun v280 k0_hw94 => k0_hw94

def k0_chk95 (v283 : IVec S16 32) : Prop :=
  (∀ a x, ((![v283] : Fin 1 → IVec S16 32) a x).toNat < S100000.size a)
instance k0_chk95.dec : ∀ (v283 : IVec S16 32), Decidable (k0_chk95 v283) := fun v283 => decidable_of_iff' _ (Iff.of_eq (k0_chk95.eq_1 v283))
theorem k0_idx95_inb : ∀ (v283 : IVec S16 32) (k0_hw95 : k0_chk95 v283), ∀ a x, ((![v283] : Fin 1 → IVec S16 32) a x).toNat < S100000.size a := fun v283 k0_hw95 => k0_hw95

def k0_chk96 (v286 : IVec S16 32) : Prop :=
  (∀ a x, ((![v286] : Fin 1 → IVec S16 32) a x).toNat < S100000.size a)
instance k0_chk96.dec : ∀ (v286 : IVec S16 32), Decidable (k0_chk96 v286) := fun v286 => decidable_of_iff' _ (Iff.of_eq (k0_chk96.eq_1 v286))
theorem k0_idx96_inb : ∀ (v286 : IVec S16 32) (k0_hw96 : k0_chk96 v286), ∀ a x, ((![v286] : Fin 1 → IVec S16 32) a x).toNat < S100000.size a := fun v286 k0_hw96 => k0_hw96

def k0_chk97 (v290 : IVec S16 32) : Prop :=
  (∀ a x, ((![v290] : Fin 1 → IVec S16 32) a x).toNat < S100000.size a)
instance k0_chk97.dec : ∀ (v290 : IVec S16 32), Decidable (k0_chk97 v290) := fun v290 => decidable_of_iff' _ (Iff.of_eq (k0_chk97.eq_1 v290))
theorem k0_idx97_inb : ∀ (v290 : IVec S16 32) (k0_hw97 : k0_chk97 v290), ∀ a x, ((![v290] : Fin 1 → IVec S16 32) a x).toNat < S100000.size a := fun v290 k0_hw97 => k0_hw97

def k0_chk98 (v292 : IVec S16 32) : Prop :=
  (∀ a x, ((![v292] : Fin 1 → IVec S16 32) a x).toNat < S100000.size a)
instance k0_chk98.dec : ∀ (v292 : IVec S16 32), Decidable (k0_chk98 v292) := fun v292 => decidable_of_iff' _ (Iff.of_eq (k0_chk98.eq_1 v292))
theorem k0_idx98_inb : ∀ (v292 : IVec S16 32) (k0_hw98 : k0_chk98 v292), ∀ a x, ((![v292] : Fin 1 → IVec S16 32) a x).toNat < S100000.size a := fun v292 k0_hw98 => k0_hw98

def k0_chk99 (v295 : IVec S16 32) : Prop :=
  (∀ a x, ((![v295] : Fin 1 → IVec S16 32) a x).toNat < S100000.size a)
instance k0_chk99.dec : ∀ (v295 : IVec S16 32), Decidable (k0_chk99 v295) := fun v295 => decidable_of_iff' _ (Iff.of_eq (k0_chk99.eq_1 v295))
theorem k0_idx99_inb : ∀ (v295 : IVec S16 32) (k0_hw99 : k0_chk99 v295), ∀ a x, ((![v295] : Fin 1 → IVec S16 32) a x).toNat < S100000.size a := fun v295 k0_hw99 => k0_hw99

def k0_chk100 (v298 : IVec S16 32) : Prop :=
  (∀ a x, ((![v298] : Fin 1 → IVec S16 32) a x).toNat < S100000.size a)
instance k0_chk100.dec : ∀ (v298 : IVec S16 32), Decidable (k0_chk100 v298) := fun v298 => decidable_of_iff' _ (Iff.of_eq (k0_chk100.eq_1 v298))
theorem k0_idx100_inb : ∀ (v298 : IVec S16 32) (k0_hw100 : k0_chk100 v298), ∀ a x, ((![v298] : Fin 1 → IVec S16 32) a x).toNat < S100000.size a := fun v298 k0_hw100 => k0_hw100

def k0_chk101 (v302 : IVec S16 32) : Prop :=
  (∀ a x, ((![v302] : Fin 1 → IVec S16 32) a x).toNat < S100000.size a)
instance k0_chk101.dec : ∀ (v302 : IVec S16 32), Decidable (k0_chk101 v302) := fun v302 => decidable_of_iff' _ (Iff.of_eq (k0_chk101.eq_1 v302))
theorem k0_idx101_inb : ∀ (v302 : IVec S16 32) (k0_hw101 : k0_chk101 v302), ∀ a x, ((![v302] : Fin 1 → IVec S16 32) a x).toNat < S100000.size a := fun v302 k0_hw101 => k0_hw101

def k0_chk102 (v304 : IVec S16 32) : Prop :=
  (∀ a x, ((![v304] : Fin 1 → IVec S16 32) a x).toNat < S100000.size a)
instance k0_chk102.dec : ∀ (v304 : IVec S16 32), Decidable (k0_chk102 v304) := fun v304 => decidable_of_iff' _ (Iff.of_eq (k0_chk102.eq_1 v304))
theorem k0_idx102_inb : ∀ (v304 : IVec S16 32) (k0_hw102 : k0_chk102 v304), ∀ a x, ((![v304] : Fin 1 → IVec S16 32) a x).toNat < S100000.size a := fun v304 k0_hw102 => k0_hw102

def k0_chk103 (v307 : IVec S16 32) : Prop :=
  (∀ a x, ((![v307] : Fin 1 → IVec S16 32) a x).toNat < S100000.size a)
instance k0_chk103.dec : ∀ (v307 : IVec S16 32), Decidable (k0_chk103 v307) := fun v307 => decidable_of_iff' _ (Iff.of_eq (k0_chk103.eq_1 v307))
theorem k0_idx103_inb : ∀ (v307 : IVec S16 32) (k0_hw103 : k0_chk103 v307), ∀ a x, ((![v307] : Fin 1 → IVec S16 32) a x).toNat < S100000.size a := fun v307 k0_hw103 => k0_hw103

def k0_chk104 (v310 : IVec S16 32) : Prop :=
  (∀ a x, ((![v310] : Fin 1 → IVec S16 32) a x).toNat < S100000.size a)
instance k0_chk104.dec : ∀ (v310 : IVec S16 32), Decidable (k0_chk104 v310) := fun v310 => decidable_of_iff' _ (Iff.of_eq (k0_chk104.eq_1 v310))
theorem k0_idx104_inb : ∀ (v310 : IVec S16 32) (k0_hw104 : k0_chk104 v310), ∀ a x, ((![v310] : Fin 1 → IVec S16 32) a x).toNat < S100000.size a := fun v310 k0_hw104 => k0_hw104

def k0_chk105 (v314 : IVec S16 32) : Prop :=
  (∀ a x, ((![v314] : Fin 1 → IVec S16 32) a x).toNat < S100000.size a)
instance k0_chk105.dec : ∀ (v314 : IVec S16 32), Decidable (k0_chk105 v314) := fun v314 => decidable_of_iff' _ (Iff.of_eq (k0_chk105.eq_1 v314))
theorem k0_idx105_inb : ∀ (v314 : IVec S16 32) (k0_hw105 : k0_chk105 v314), ∀ a x, ((![v314] : Fin 1 → IVec S16 32) a x).toNat < S100000.size a := fun v314 k0_hw105 => k0_hw105

def k0_chk106 (v316 : IVec S16 32) : Prop :=
  (∀ a x, ((![v316] : Fin 1 → IVec S16 32) a x).toNat < S100000.size a)
instance k0_chk106.dec : ∀ (v316 : IVec S16 32), Decidable (k0_chk106 v316) := fun v316 => decidable_of_iff' _ (Iff.of_eq (k0_chk106.eq_1 v316))
theorem k0_idx106_inb : ∀ (v316 : IVec S16 32) (k0_hw106 : k0_chk106 v316), ∀ a x, ((![v316] : Fin 1 → IVec S16 32) a x).toNat < S100000.size a := fun v316 k0_hw106 => k0_hw106

def k0_chk107 (v319 : IVec S16 32) : Prop :=
  (∀ a x, ((![v319] : Fin 1 → IVec S16 32) a x).toNat < S100000.size a)
instance k0_chk107.dec : ∀ (v319 : IVec S16 32), Decidable (k0_chk107 v319) := fun v319 => decidable_of_iff' _ (Iff.of_eq (k0_chk107.eq_1 v319))
theorem k0_idx107_inb : ∀ (v319 : IVec S16 32) (k0_hw107 : k0_chk107 v319), ∀ a x, ((![v319] : Fin 1 → IVec S16 32) a x).toNat < S100000.size a := fun v319 k0_hw107 => k0_hw107

def k0_chk108 (v322 : IVec S16 32) : Prop :=
  (∀ a x, ((![v322] : Fin 1 → IVec S16 32) a x).toNat < S100000.size a)
instance k0_chk108.dec : ∀ (v322 : IVec S16 32), Decidable (k0_chk108 v322) := fun v322 => decidable_of_iff' _ (Iff.of_eq (k0_chk108.eq_1 v322))
theorem k0_idx108_inb : ∀ (v322 : IVec S16 32) (k0_hw108 : k0_chk108 v322), ∀ a x, ((![v322] : Fin 1 → IVec S16 32) a x).toNat < S100000.size a := fun v322 k0_hw108 => k0_hw108

def k0_chk109 (v326 : IVec S16 32) : Prop :=
  (∀ a x, ((![v326] : Fin 1 → IVec S16 32) a x).toNat < S100000.size a)
instance k0_chk109.dec : ∀ (v326 : IVec S16 32), Decidable (k0_chk109 v326) := fun v326 => decidable_of_iff' _ (Iff.of_eq (k0_chk109.eq_1 v326))
theorem k0_idx109_inb : ∀ (v326 : IVec S16 32) (k0_hw109 : k0_chk109 v326), ∀ a x, ((![v326] : Fin 1 → IVec S16 32) a x).toNat < S100000.size a := fun v326 k0_hw109 => k0_hw109

def k0_chk110 (v328 : IVec S16 32) : Prop :=
  (∀ a x, ((![v328] : Fin 1 → IVec S16 32) a x).toNat < S100000.size a)
instance k0_chk110.dec : ∀ (v328 : IVec S16 32), Decidable (k0_chk110 v328) := fun v328 => decidable_of_iff' _ (Iff.of_eq (k0_chk110.eq_1 v328))
theorem k0_idx110_inb : ∀ (v328 : IVec S16 32) (k0_hw110 : k0_chk110 v328), ∀ a x, ((![v328] : Fin 1 → IVec S16 32) a x).toNat < S100000.size a := fun v328 k0_hw110 => k0_hw110

def k0_chk111 (v331 : IVec S16 32) : Prop :=
  (∀ a x, ((![v331] : Fin 1 → IVec S16 32) a x).toNat < S100000.size a)
instance k0_chk111.dec : ∀ (v331 : IVec S16 32), Decidable (k0_chk111 v331) := fun v331 => decidable_of_iff' _ (Iff.of_eq (k0_chk111.eq_1 v331))
theorem k0_idx111_inb : ∀ (v331 : IVec S16 32) (k0_hw111 : k0_chk111 v331), ∀ a x, ((![v331] : Fin 1 → IVec S16 32) a x).toNat < S100000.size a := fun v331 k0_hw111 => k0_hw111

def k0_chk112 (v334 : IVec S16 32) : Prop :=
  (∀ a x, ((![v334] : Fin 1 → IVec S16 32) a x).toNat < S100000.size a)
instance k0_chk112.dec : ∀ (v334 : IVec S16 32), Decidable (k0_chk112 v334) := fun v334 => decidable_of_iff' _ (Iff.of_eq (k0_chk112.eq_1 v334))
theorem k0_idx112_inb : ∀ (v334 : IVec S16 32) (k0_hw112 : k0_chk112 v334), ∀ a x, ((![v334] : Fin 1 → IVec S16 32) a x).toNat < S100000.size a := fun v334 k0_hw112 => k0_hw112

def k0_chk113 (v338 : IVec S16 32) : Prop :=
  (∀ a x, ((![v338] : Fin 1 → IVec S16 32) a x).toNat < S100000.size a)
instance k0_chk113.dec : ∀ (v338 : IVec S16 32), Decidable (k0_chk113 v338) := fun v338 => decidable_of_iff' _ (Iff.of_eq (k0_chk113.eq_1 v338))
theorem k0_idx113_inb : ∀ (v338 : IVec S16 32) (k0_hw113 : k0_chk113 v338), ∀ a x, ((![v338] : Fin 1 → IVec S16 32) a x).toNat < S100000.size a := fun v338 k0_hw113 => k0_hw113

def k0_chk114 (v340 : IVec S16 32) : Prop :=
  (∀ a x, ((![v340] : Fin 1 → IVec S16 32) a x).toNat < S100000.size a)
instance k0_chk114.dec : ∀ (v340 : IVec S16 32), Decidable (k0_chk114 v340) := fun v340 => decidable_of_iff' _ (Iff.of_eq (k0_chk114.eq_1 v340))
theorem k0_idx114_inb : ∀ (v340 : IVec S16 32) (k0_hw114 : k0_chk114 v340), ∀ a x, ((![v340] : Fin 1 → IVec S16 32) a x).toNat < S100000.size a := fun v340 k0_hw114 => k0_hw114

def k0_chk115 (v343 : IVec S16 32) : Prop :=
  (∀ a x, ((![v343] : Fin 1 → IVec S16 32) a x).toNat < S100000.size a)
instance k0_chk115.dec : ∀ (v343 : IVec S16 32), Decidable (k0_chk115 v343) := fun v343 => decidable_of_iff' _ (Iff.of_eq (k0_chk115.eq_1 v343))
theorem k0_idx115_inb : ∀ (v343 : IVec S16 32) (k0_hw115 : k0_chk115 v343), ∀ a x, ((![v343] : Fin 1 → IVec S16 32) a x).toNat < S100000.size a := fun v343 k0_hw115 => k0_hw115

def k0_chk116 (v346 : IVec S16 32) : Prop :=
  (∀ a x, ((![v346] : Fin 1 → IVec S16 32) a x).toNat < S100000.size a)
instance k0_chk116.dec : ∀ (v346 : IVec S16 32), Decidable (k0_chk116 v346) := fun v346 => decidable_of_iff' _ (Iff.of_eq (k0_chk116.eq_1 v346))
theorem k0_idx116_inb : ∀ (v346 : IVec S16 32) (k0_hw116 : k0_chk116 v346), ∀ a x, ((![v346] : Fin 1 → IVec S16 32) a x).toNat < S100000.size a := fun v346 k0_hw116 => k0_hw116

def k0_chk117 (v350 : IVec S16 32) : Prop :=
  (∀ a x, ((![v350] : Fin 1 → IVec S16 32) a x).toNat < S100000.size a)
instance k0_chk117.dec : ∀ (v350 : IVec S16 32), Decidable (k0_chk117 v350) := fun v350 => decidable_of_iff' _ (Iff.of_eq (k0_chk117.eq_1 v350))
theorem k0_idx117_inb : ∀ (v350 : IVec S16 32) (k0_hw117 : k0_chk117 v350), ∀ a x, ((![v350] : Fin 1 → IVec S16 32) a x).toNat < S100000.size a := fun v350 k0_hw117 => k0_hw117

def k0_chk118 (v352 : IVec S16 32) : Prop :=
  (∀ a x, ((![v352] : Fin 1 → IVec S16 32) a x).toNat < S100000.size a)
instance k0_chk118.dec : ∀ (v352 : IVec S16 32), Decidable (k0_chk118 v352) := fun v352 => decidable_of_iff' _ (Iff.of_eq (k0_chk118.eq_1 v352))
theorem k0_idx118_inb : ∀ (v352 : IVec S16 32) (k0_hw118 : k0_chk118 v352), ∀ a x, ((![v352] : Fin 1 → IVec S16 32) a x).toNat < S100000.size a := fun v352 k0_hw118 => k0_hw118

def k0_chk119 (v355 : IVec S16 32) : Prop :=
  (∀ a x, ((![v355] : Fin 1 → IVec S16 32) a x).toNat < S100000.size a)
instance k0_chk119.dec : ∀ (v355 : IVec S16 32), Decidable (k0_chk119 v355) := fun v355 => decidable_of_iff' _ (Iff.of_eq (k0_chk119.eq_1 v355))
theorem k0_idx119_inb : ∀ (v355 : IVec S16 32) (k0_hw119 : k0_chk119 v355), ∀ a x, ((![v355] : Fin 1 → IVec S16 32) a x).toNat < S100000.size a := fun v355 k0_hw119 => k0_hw119

def k0_chk120 (v358 : IVec S16 32) : Prop :=
  (∀ a x, ((![v358] : Fin 1 → IVec S16 32) a x).toNat < S100000.size a)
instance k0_chk120.dec : ∀ (v358 : IVec S16 32), Decidable (k0_chk120 v358) := fun v358 => decidable_of_iff' _ (Iff.of_eq (k0_chk120.eq_1 v358))
theorem k0_idx120_inb : ∀ (v358 : IVec S16 32) (k0_hw120 : k0_chk120 v358), ∀ a x, ((![v358] : Fin 1 → IVec S16 32) a x).toNat < S100000.size a := fun v358 k0_hw120 => k0_hw120

def k0_chk121 (v362 : IVec S16 32) : Prop :=
  (∀ a x, ((![v362] : Fin 1 → IVec S16 32) a x).toNat < S100000.size a)
instance k0_chk121.dec : ∀ (v362 : IVec S16 32), Decidable (k0_chk121 v362) := fun v362 => decidable_of_iff' _ (Iff.of_eq (k0_chk121.eq_1 v362))
theorem k0_idx121_inb : ∀ (v362 : IVec S16 32) (k0_hw121 : k0_chk121 v362), ∀ a x, ((![v362] : Fin 1 → IVec S16 32) a x).toNat < S100000.size a := fun v362 k0_hw121 => k0_hw121

def k0_chk122 (v364 : IVec S16 32) : Prop :=
  (∀ a x, ((![v364] : Fin 1 → IVec S16 32) a x).toNat < S100000.size a)
instance k0_chk122.dec : ∀ (v364 : IVec S16 32), Decidable (k0_chk122 v364) := fun v364 => decidable_of_iff' _ (Iff.of_eq (k0_chk122.eq_1 v364))
theorem k0_idx122_inb : ∀ (v364 : IVec S16 32) (k0_hw122 : k0_chk122 v364), ∀ a x, ((![v364] : Fin 1 → IVec S16 32) a x).toNat < S100000.size a := fun v364 k0_hw122 => k0_hw122

def k0_chk123 (v367 : IVec S16 32) : Prop :=
  (∀ a x, ((![v367] : Fin 1 → IVec S16 32) a x).toNat < S100000.size a)
instance k0_chk123.dec : ∀ (v367 : IVec S16 32), Decidable (k0_chk123 v367) := fun v367 => decidable_of_iff' _ (Iff.of_eq (k0_chk123.eq_1 v367))
theorem k0_idx123_inb : ∀ (v367 : IVec S16 32) (k0_hw123 : k0_chk123 v367), ∀ a x, ((![v367] : Fin 1 → IVec S16 32) a x).toNat < S100000.size a := fun v367 k0_hw123 => k0_hw123

def k0_chk124 (v370 : IVec S16 32) : Prop :=
  (∀ a x, ((![v370] : Fin 1 → IVec S16 32) a x).toNat < S100000.size a)
instance k0_chk124.dec : ∀ (v370 : IVec S16 32), Decidable (k0_chk124 v370) := fun v370 => decidable_of_iff' _ (Iff.of_eq (k0_chk124.eq_1 v370))
theorem k0_idx124_inb : ∀ (v370 : IVec S16 32) (k0_hw124 : k0_chk124 v370), ∀ a x, ((![v370] : Fin 1 → IVec S16 32) a x).toNat < S100000.size a := fun v370 k0_hw124 => k0_hw124

def k0_chk125 (v374 : IVec S16 32) : Prop :=
  (∀ a x, ((![v374] : Fin 1 → IVec S16 32) a x).toNat < S100000.size a)
instance k0_chk125.dec : ∀ (v374 : IVec S16 32), Decidable (k0_chk125 v374) := fun v374 => decidable_of_iff' _ (Iff.of_eq (k0_chk125.eq_1 v374))
theorem k0_idx125_inb : ∀ (v374 : IVec S16 32) (k0_hw125 : k0_chk125 v374), ∀ a x, ((![v374] : Fin 1 → IVec S16 32) a x).toNat < S100000.size a := fun v374 k0_hw125 => k0_hw125

def k0_chk126 (v376 : IVec S16 32) : Prop :=
  (∀ a x, ((![v376] : Fin 1 → IVec S16 32) a x).toNat < S100000.size a)
instance k0_chk126.dec : ∀ (v376 : IVec S16 32), Decidable (k0_chk126 v376) := fun v376 => decidable_of_iff' _ (Iff.of_eq (k0_chk126.eq_1 v376))
theorem k0_idx126_inb : ∀ (v376 : IVec S16 32) (k0_hw126 : k0_chk126 v376), ∀ a x, ((![v376] : Fin 1 → IVec S16 32) a x).toNat < S100000.size a := fun v376 k0_hw126 => k0_hw126

def k0_chk127 (v379 : IVec S16 32) : Prop :=
  (∀ a x, ((![v379] : Fin 1 → IVec S16 32) a x).toNat < S100000.size a)
instance k0_chk127.dec : ∀ (v379 : IVec S16 32), Decidable (k0_chk127 v379) := fun v379 => decidable_of_iff' _ (Iff.of_eq (k0_chk127.eq_1 v379))
theorem k0_idx127_inb : ∀ (v379 : IVec S16 32) (k0_hw127 : k0_chk127 v379), ∀ a x, ((![v379] : Fin 1 → IVec S16 32) a x).toNat < S100000.size a := fun v379 k0_hw127 => k0_hw127

def k0_chk128 (v382 : IVec S16 32) : Prop :=
  (∀ a x, ((![v382] : Fin 1 → IVec S16 32) a x).toNat < S100000.size a)
instance k0_chk128.dec : ∀ (v382 : IVec S16 32), Decidable (k0_chk128 v382) := fun v382 => decidable_of_iff' _ (Iff.of_eq (k0_chk128.eq_1 v382))
theorem k0_idx128_inb : ∀ (v382 : IVec S16 32) (k0_hw128 : k0_chk128 v382), ∀ a x, ((![v382] : Fin 1 → IVec S16 32) a x).toNat < S100000.size a := fun v382 k0_hw128 => k0_hw128

def k0_chk129 (v386 : IVec S16 32) : Prop :=
  (∀ a x, ((![v386] : Fin 1 → IVec S16 32) a x).toNat < S100000.size a)
instance k0_chk129.dec : ∀ (v386 : IVec S16 32), Decidable (k0_chk129 v386) := fun v386 => decidable_of_iff' _ (Iff.of_eq (k0_chk129.eq_1 v386))
theorem k0_idx129_inb : ∀ (v386 : IVec S16 32) (k0_hw129 : k0_chk129 v386), ∀ a x, ((![v386] : Fin 1 → IVec S16 32) a x).toNat < S100000.size a := fun v386 k0_hw129 => k0_hw129

def k0_chk130 (v388 : IVec S16 32) : Prop :=
  (∀ a x, ((![v388] : Fin 1 → IVec S16 32) a x).toNat < S100000.size a)
instance k0_chk130.dec : ∀ (v388 : IVec S16 32), Decidable (k0_chk130 v388) := fun v388 => decidable_of_iff' _ (Iff.of_eq (k0_chk130.eq_1 v388))
theorem k0_idx130_inb : ∀ (v388 : IVec S16 32) (k0_hw130 : k0_chk130 v388), ∀ a x, ((![v388] : Fin 1 → IVec S16 32) a x).toNat < S100000.size a := fun v388 k0_hw130 => k0_hw130

def k0_chk131 (v391 : IVec S16 32) : Prop :=
  (∀ a x, ((![v391] : Fin 1 → IVec S16 32) a x).toNat < S100000.size a)
instance k0_chk131.dec : ∀ (v391 : IVec S16 32), Decidable (k0_chk131 v391) := fun v391 => decidable_of_iff' _ (Iff.of_eq (k0_chk131.eq_1 v391))
theorem k0_idx131_inb : ∀ (v391 : IVec S16 32) (k0_hw131 : k0_chk131 v391), ∀ a x, ((![v391] : Fin 1 → IVec S16 32) a x).toNat < S100000.size a := fun v391 k0_hw131 => k0_hw131

def k0_chk132 (v394 : IVec S16 32) : Prop :=
  (∀ a x, ((![v394] : Fin 1 → IVec S16 32) a x).toNat < S100000.size a)
instance k0_chk132.dec : ∀ (v394 : IVec S16 32), Decidable (k0_chk132 v394) := fun v394 => decidable_of_iff' _ (Iff.of_eq (k0_chk132.eq_1 v394))
theorem k0_idx132_inb : ∀ (v394 : IVec S16 32) (k0_hw132 : k0_chk132 v394), ∀ a x, ((![v394] : Fin 1 → IVec S16 32) a x).toNat < S100000.size a := fun v394 k0_hw132 => k0_hw132

def k0_chk133 (v398 : IVec S16 32) : Prop :=
  (∀ a x, ((![v398] : Fin 1 → IVec S16 32) a x).toNat < S100000.size a)
instance k0_chk133.dec : ∀ (v398 : IVec S16 32), Decidable (k0_chk133 v398) := fun v398 => decidable_of_iff' _ (Iff.of_eq (k0_chk133.eq_1 v398))
theorem k0_idx133_inb : ∀ (v398 : IVec S16 32) (k0_hw133 : k0_chk133 v398), ∀ a x, ((![v398] : Fin 1 → IVec S16 32) a x).toNat < S100000.size a := fun v398 k0_hw133 => k0_hw133

def k0_chk134 (v400 : IVec S16 32) : Prop :=
  (∀ a x, ((![v400] : Fin 1 → IVec S16 32) a x).toNat < S100000.size a)
instance k0_chk134.dec : ∀ (v400 : IVec S16 32), Decidable (k0_chk134 v400) := fun v400 => decidable_of_iff' _ (Iff.of_eq (k0_chk134.eq_1 v400))
theorem k0_idx134_inb : ∀ (v400 : IVec S16 32) (k0_hw134 : k0_chk134 v400), ∀ a x, ((![v400] : Fin 1 → IVec S16 32) a x).toNat < S100000.size a := fun v400 k0_hw134 => k0_hw134

def k0_chk135 (v403 : IVec S16 32) : Prop :=
  (∀ a x, ((![v403] : Fin 1 → IVec S16 32) a x).toNat < S100000.size a)
instance k0_chk135.dec : ∀ (v403 : IVec S16 32), Decidable (k0_chk135 v403) := fun v403 => decidable_of_iff' _ (Iff.of_eq (k0_chk135.eq_1 v403))
theorem k0_idx135_inb : ∀ (v403 : IVec S16 32) (k0_hw135 : k0_chk135 v403), ∀ a x, ((![v403] : Fin 1 → IVec S16 32) a x).toNat < S100000.size a := fun v403 k0_hw135 => k0_hw135

def k0_chk136 (v406 : IVec S16 32) : Prop :=
  (∀ a x, ((![v406] : Fin 1 → IVec S16 32) a x).toNat < S100000.size a)
instance k0_chk136.dec : ∀ (v406 : IVec S16 32), Decidable (k0_chk136 v406) := fun v406 => decidable_of_iff' _ (Iff.of_eq (k0_chk136.eq_1 v406))
theorem k0_idx136_inb : ∀ (v406 : IVec S16 32) (k0_hw136 : k0_chk136 v406), ∀ a x, ((![v406] : Fin 1 → IVec S16 32) a x).toNat < S100000.size a := fun v406 k0_hw136 => k0_hw136

def k0_chk137 (v410 : IVec S16 32) : Prop :=
  (∀ a x, ((![v410] : Fin 1 → IVec S16 32) a x).toNat < S100000.size a)
instance k0_chk137.dec : ∀ (v410 : IVec S16 32), Decidable (k0_chk137 v410) := fun v410 => decidable_of_iff' _ (Iff.of_eq (k0_chk137.eq_1 v410))
theorem k0_idx137_inb : ∀ (v410 : IVec S16 32) (k0_hw137 : k0_chk137 v410), ∀ a x, ((![v410] : Fin 1 → IVec S16 32) a x).toNat < S100000.size a := fun v410 k0_hw137 => k0_hw137

def k0_chk138 (v412 : IVec S16 32) : Prop :=
  (∀ a x, ((![v412] : Fin 1 → IVec S16 32) a x).toNat < S100000.size a)
instance k0_chk138.dec : ∀ (v412 : IVec S16 32), Decidable (k0_chk138 v412) := fun v412 => decidable_of_iff' _ (Iff.of_eq (k0_chk138.eq_1 v412))
theorem k0_idx138_inb : ∀ (v412 : IVec S16 32) (k0_hw138 : k0_chk138 v412), ∀ a x, ((![v412] : Fin 1 → IVec S16 32) a x).toNat < S100000.size a := fun v412 k0_hw138 => k0_hw138

def k0_chk139 (v415 : IVec S16 32) : Prop :=
  (∀ a x, ((![v415] : Fin 1 → IVec S16 32) a x).toNat < S100000.size a)
instance k0_chk139.dec : ∀ (v415 : IVec S16 32), Decidable (k0_chk139 v415) := fun v415 => decidable_of_iff' _ (Iff.of_eq (k0_chk139.eq_1 v415))
theorem k0_idx139_inb : ∀ (v415 : IVec S16 32) (k0_hw139 : k0_chk139 v415), ∀ a x, ((![v415] : Fin 1 → IVec S16 32) a x).toNat < S100000.size a := fun v415 k0_hw139 => k0_hw139

def k0_chk140 (v418 : IVec S16 32) : Prop :=
  (∀ a x, ((![v418] : Fin 1 → IVec S16 32) a x).toNat < S100000.size a)
instance k0_chk140.dec : ∀ (v418 : IVec S16 32), Decidable (k0_chk140 v418) := fun v418 => decidable_of_iff' _ (Iff.of_eq (k0_chk140.eq_1 v418))
theorem k0_idx140_inb : ∀ (v418 : IVec S16 32) (k0_hw140 : k0_chk140 v418), ∀ a x, ((![v418] : Fin 1 → IVec S16 32) a x).toNat < S100000.size a := fun v418 k0_hw140 => k0_hw140

def k0_chk141 (v422 : IVec S16 32) : Prop :=
  (∀ a x, ((![v422] : Fin 1 → IVec S16 32) a x).toNat < S100000.size a)
instance k0_chk141.dec : ∀ (v422 : IVec S16 32), Decidable (k0_chk141 v422) := fun v422 => decidable_of_iff' _ (Iff.of_eq (k0_chk141.eq_1 v422))
theorem k0_idx141_inb : ∀ (v422 : IVec S16 32) (k0_hw141 : k0_chk141 v422), ∀ a x, ((![v422] : Fin 1 → IVec S16 32) a x).toNat < S100000.size a := fun v422 k0_hw141 => k0_hw141

def k0_chk142 (v424 : IVec S16 32) : Prop :=
  (∀ a x, ((![v424] : Fin 1 → IVec S16 32) a x).toNat < S100000.size a)
instance k0_chk142.dec : ∀ (v424 : IVec S16 32), Decidable (k0_chk142 v424) := fun v424 => decidable_of_iff' _ (Iff.of_eq (k0_chk142.eq_1 v424))
theorem k0_idx142_inb : ∀ (v424 : IVec S16 32) (k0_hw142 : k0_chk142 v424), ∀ a x, ((![v424] : Fin 1 → IVec S16 32) a x).toNat < S100000.size a := fun v424 k0_hw142 => k0_hw142

def k0_chk143 (v427 : IVec S16 32) : Prop :=
  (∀ a x, ((![v427] : Fin 1 → IVec S16 32) a x).toNat < S100000.size a)
instance k0_chk143.dec : ∀ (v427 : IVec S16 32), Decidable (k0_chk143 v427) := fun v427 => decidable_of_iff' _ (Iff.of_eq (k0_chk143.eq_1 v427))
theorem k0_idx143_inb : ∀ (v427 : IVec S16 32) (k0_hw143 : k0_chk143 v427), ∀ a x, ((![v427] : Fin 1 → IVec S16 32) a x).toNat < S100000.size a := fun v427 k0_hw143 => k0_hw143

def k0_chk144 (v430 : IVec S16 32) : Prop :=
  (∀ a x, ((![v430] : Fin 1 → IVec S16 32) a x).toNat < S100000.size a)
instance k0_chk144.dec : ∀ (v430 : IVec S16 32), Decidable (k0_chk144 v430) := fun v430 => decidable_of_iff' _ (Iff.of_eq (k0_chk144.eq_1 v430))
theorem k0_idx144_inb : ∀ (v430 : IVec S16 32) (k0_hw144 : k0_chk144 v430), ∀ a x, ((![v430] : Fin 1 → IVec S16 32) a x).toNat < S100000.size a := fun v430 k0_hw144 => k0_hw144

def k0_chk145 (v434 : IVec S16 32) : Prop :=
  (∀ a x, ((![v434] : Fin 1 → IVec S16 32) a x).toNat < S100000.size a)
instance k0_chk145.dec : ∀ (v434 : IVec S16 32), Decidable (k0_chk145 v434) := fun v434 => decidable_of_iff' _ (Iff.of_eq (k0_chk145.eq_1 v434))
theorem k0_idx145_inb : ∀ (v434 : IVec S16 32) (k0_hw145 : k0_chk145 v434), ∀ a x, ((![v434] : Fin 1 → IVec S16 32) a x).toNat < S100000.size a := fun v434 k0_hw145 => k0_hw145

def k0_chk146 (v436 : IVec S16 32) : Prop :=
  (∀ a x, ((![v436] : Fin 1 → IVec S16 32) a x).toNat < S100000.size a)
instance k0_chk146.dec : ∀ (v436 : IVec S16 32), Decidable (k0_chk146 v436) := fun v436 => decidable_of_iff' _ (Iff.of_eq (k0_chk146.eq_1 v436))
theorem k0_idx146_inb : ∀ (v436 : IVec S16 32) (k0_hw146 : k0_chk146 v436), ∀ a x, ((![v436] : Fin 1 → IVec S16 32) a x).toNat < S100000.size a := fun v436 k0_hw146 => k0_hw146

def k0_chk147 (v439 : IVec S16 32) : Prop :=
  (∀ a x, ((![v439] : Fin 1 → IVec S16 32) a x).toNat < S100000.size a)
instance k0_chk147.dec : ∀ (v439 : IVec S16 32), Decidable (k0_chk147 v439) := fun v439 => decidable_of_iff' _ (Iff.of_eq (k0_chk147.eq_1 v439))
theorem k0_idx147_inb : ∀ (v439 : IVec S16 32) (k0_hw147 : k0_chk147 v439), ∀ a x, ((![v439] : Fin 1 → IVec S16 32) a x).toNat < S100000.size a := fun v439 k0_hw147 => k0_hw147

def k0_chk148 (v442 : IVec S16 32) : Prop :=
  (∀ a x, ((![v442] : Fin 1 → IVec S16 32) a x).toNat < S100000.size a)
instance k0_chk148.dec : ∀ (v442 : IVec S16 32), Decidable (k0_chk148 v442) := fun v442 => decidable_of_iff' _ (Iff.of_eq (k0_chk148.eq_1 v442))
theorem k0_idx148_inb : ∀ (v442 : IVec S16 32) (k0_hw148 : k0_chk148 v442), ∀ a x, ((![v442] : Fin 1 → IVec S16 32) a x).toNat < S100000.size a := fun v442 k0_hw148 => k0_hw148

def k0_chk149 (v446 : IVec S16 32) : Prop :=
  (∀ a x, ((![v446] : Fin 1 → IVec S16 32) a x).toNat < S100000.size a)
instance k0_chk149.dec : ∀ (v446 : IVec S16 32), Decidable (k0_chk149 v446) := fun v446 => decidable_of_iff' _ (Iff.of_eq (k0_chk149.eq_1 v446))
theorem k0_idx149_inb : ∀ (v446 : IVec S16 32) (k0_hw149 : k0_chk149 v446), ∀ a x, ((![v446] : Fin 1 → IVec S16 32) a x).toNat < S100000.size a := fun v446 k0_hw149 => k0_hw149

def k0_chk150 (v448 : IVec S16 32) : Prop :=
  (∀ a x, ((![v448] : Fin 1 → IVec S16 32) a x).toNat < S100000.size a)
instance k0_chk150.dec : ∀ (v448 : IVec S16 32), Decidable (k0_chk150 v448) := fun v448 => decidable_of_iff' _ (Iff.of_eq (k0_chk150.eq_1 v448))
theorem k0_idx150_inb : ∀ (v448 : IVec S16 32) (k0_hw150 : k0_chk150 v448), ∀ a x, ((![v448] : Fin 1 → IVec S16 32) a x).toNat < S100000.size a := fun v448 k0_hw150 => k0_hw150

def k0_chk151 (v451 : IVec S16 32) : Prop :=
  (∀ a x, ((![v451] : Fin 1 → IVec S16 32) a x).toNat < S100000.size a)
instance k0_chk151.dec : ∀ (v451 : IVec S16 32), Decidable (k0_chk151 v451) := fun v451 => decidable_of_iff' _ (Iff.of_eq (k0_chk151.eq_1 v451))
theorem k0_idx151_inb : ∀ (v451 : IVec S16 32) (k0_hw151 : k0_chk151 v451), ∀ a x, ((![v451] : Fin 1 → IVec S16 32) a x).toNat < S100000.size a := fun v451 k0_hw151 => k0_hw151

def k0_chk152 (v454 : IVec S16 32) : Prop :=
  (∀ a x, ((![v454] : Fin 1 → IVec S16 32) a x).toNat < S100000.size a)
instance k0_chk152.dec : ∀ (v454 : IVec S16 32), Decidable (k0_chk152 v454) := fun v454 => decidable_of_iff' _ (Iff.of_eq (k0_chk152.eq_1 v454))
theorem k0_idx152_inb : ∀ (v454 : IVec S16 32) (k0_hw152 : k0_chk152 v454), ∀ a x, ((![v454] : Fin 1 → IVec S16 32) a x).toNat < S100000.size a := fun v454 k0_hw152 => k0_hw152

def k0_chk153 (v458 : IVec S16 32) : Prop :=
  (∀ a x, ((![v458] : Fin 1 → IVec S16 32) a x).toNat < S100000.size a)
instance k0_chk153.dec : ∀ (v458 : IVec S16 32), Decidable (k0_chk153 v458) := fun v458 => decidable_of_iff' _ (Iff.of_eq (k0_chk153.eq_1 v458))
theorem k0_idx153_inb : ∀ (v458 : IVec S16 32) (k0_hw153 : k0_chk153 v458), ∀ a x, ((![v458] : Fin 1 → IVec S16 32) a x).toNat < S100000.size a := fun v458 k0_hw153 => k0_hw153

def k0_chk154 (v460 : IVec S16 32) : Prop :=
  (∀ a x, ((![v460] : Fin 1 → IVec S16 32) a x).toNat < S100000.size a)
instance k0_chk154.dec : ∀ (v460 : IVec S16 32), Decidable (k0_chk154 v460) := fun v460 => decidable_of_iff' _ (Iff.of_eq (k0_chk154.eq_1 v460))
theorem k0_idx154_inb : ∀ (v460 : IVec S16 32) (k0_hw154 : k0_chk154 v460), ∀ a x, ((![v460] : Fin 1 → IVec S16 32) a x).toNat < S100000.size a := fun v460 k0_hw154 => k0_hw154

def k0_chk155 (v463 : IVec S16 32) : Prop :=
  (∀ a x, ((![v463] : Fin 1 → IVec S16 32) a x).toNat < S100000.size a)
instance k0_chk155.dec : ∀ (v463 : IVec S16 32), Decidable (k0_chk155 v463) := fun v463 => decidable_of_iff' _ (Iff.of_eq (k0_chk155.eq_1 v463))
theorem k0_idx155_inb : ∀ (v463 : IVec S16 32) (k0_hw155 : k0_chk155 v463), ∀ a x, ((![v463] : Fin 1 → IVec S16 32) a x).toNat < S100000.size a := fun v463 k0_hw155 => k0_hw155

def k0_chk156 (v466 : IVec S16 32) : Prop :=
  (∀ a x, ((![v466] : Fin 1 → IVec S16 32) a x).toNat < S100000.size a)
instance k0_chk156.dec : ∀ (v466 : IVec S16 32), Decidable (k0_chk156 v466) := fun v466 => decidable_of_iff' _ (Iff.of_eq (k0_chk156.eq_1 v466))
theorem k0_idx156_inb : ∀ (v466 : IVec S16 32) (k0_hw156 : k0_chk156 v466), ∀ a x, ((![v466] : Fin 1 → IVec S16 32) a x).toNat < S100000.size a := fun v466 k0_hw156 => k0_hw156

def k0_chk157 (v470 : IVec S16 32) : Prop :=
  (∀ a x, ((![v470] : Fin 1 → IVec S16 32) a x).toNat < S100000.size a)
instance k0_chk157.dec : ∀ (v470 : IVec S16 32), Decidable (k0_chk157 v470) := fun v470 => decidable_of_iff' _ (Iff.of_eq (k0_chk157.eq_1 v470))
theorem k0_idx157_inb : ∀ (v470 : IVec S16 32) (k0_hw157 : k0_chk157 v470), ∀ a x, ((![v470] : Fin 1 → IVec S16 32) a x).toNat < S100000.size a := fun v470 k0_hw157 => k0_hw157

def k0_chk158 (v472 : IVec S16 32) : Prop :=
  (∀ a x, ((![v472] : Fin 1 → IVec S16 32) a x).toNat < S100000.size a)
instance k0_chk158.dec : ∀ (v472 : IVec S16 32), Decidable (k0_chk158 v472) := fun v472 => decidable_of_iff' _ (Iff.of_eq (k0_chk158.eq_1 v472))
theorem k0_idx158_inb : ∀ (v472 : IVec S16 32) (k0_hw158 : k0_chk158 v472), ∀ a x, ((![v472] : Fin 1 → IVec S16 32) a x).toNat < S100000.size a := fun v472 k0_hw158 => k0_hw158

def k0_chk159 (v475 : IVec S16 32) : Prop :=
  (∀ a x, ((![v475] : Fin 1 → IVec S16 32) a x).toNat < S100000.size a)
instance k0_chk159.dec : ∀ (v475 : IVec S16 32), Decidable (k0_chk159 v475) := fun v475 => decidable_of_iff' _ (Iff.of_eq (k0_chk159.eq_1 v475))
theorem k0_idx159_inb : ∀ (v475 : IVec S16 32) (k0_hw159 : k0_chk159 v475), ∀ a x, ((![v475] : Fin 1 → IVec S16 32) a x).toNat < S100000.size a := fun v475 k0_hw159 => k0_hw159

def k0_chk160 (v478 : IVec S16 32) : Prop :=
  (∀ a x, ((![v478] : Fin 1 → IVec S16 32) a x).toNat < S100000.size a)
instance k0_chk160.dec : ∀ (v478 : IVec S16 32), Decidable (k0_chk160 v478) := fun v478 => decidable_of_iff' _ (Iff.of_eq (k0_chk160.eq_1 v478))
theorem k0_idx160_inb : ∀ (v478 : IVec S16 32) (k0_hw160 : k0_chk160 v478), ∀ a x, ((![v478] : Fin 1 → IVec S16 32) a x).toNat < S100000.size a := fun v478 k0_hw160 => k0_hw160

def k0_chk161 (v482 : IVec S16 32) : Prop :=
  (∀ a x, ((![v482] : Fin 1 → IVec S16 32) a x).toNat < S100000.size a)
instance k0_chk161.dec : ∀ (v482 : IVec S16 32), Decidable (k0_chk161 v482) := fun v482 => decidable_of_iff' _ (Iff.of_eq (k0_chk161.eq_1 v482))
theorem k0_idx161_inb : ∀ (v482 : IVec S16 32) (k0_hw161 : k0_chk161 v482), ∀ a x, ((![v482] : Fin 1 → IVec S16 32) a x).toNat < S100000.size a := fun v482 k0_hw161 => k0_hw161

def k0_chk162 (v484 : IVec S16 32) : Prop :=
  (∀ a x, ((![v484] : Fin 1 → IVec S16 32) a x).toNat < S100000.size a)
instance k0_chk162.dec : ∀ (v484 : IVec S16 32), Decidable (k0_chk162 v484) := fun v484 => decidable_of_iff' _ (Iff.of_eq (k0_chk162.eq_1 v484))
theorem k0_idx162_inb : ∀ (v484 : IVec S16 32) (k0_hw162 : k0_chk162 v484), ∀ a x, ((![v484] : Fin 1 → IVec S16 32) a x).toNat < S100000.size a := fun v484 k0_hw162 => k0_hw162

def k0_chk163 (v487 : IVec S16 32) : Prop :=
  (∀ a x, ((![v487] : Fin 1 → IVec S16 32) a x).toNat < S100000.size a)
instance k0_chk163.dec : ∀ (v487 : IVec S16 32), Decidable (k0_chk163 v487) := fun v487 => decidable_of_iff' _ (Iff.of_eq (k0_chk163.eq_1 v487))
theorem k0_idx163_inb : ∀ (v487 : IVec S16 32) (k0_hw163 : k0_chk163 v487), ∀ a x, ((![v487] : Fin 1 → IVec S16 32) a x).toNat < S100000.size a := fun v487 k0_hw163 => k0_hw163

def k0_chk164 (v490 : IVec S16 32) : Prop :=
  (∀ a x, ((![v490] : Fin 1 → IVec S16 32) a x).toNat < S100000.size a)
instance k0_chk164.dec : ∀ (v490 : IVec S16 32), Decidable (k0_chk164 v490) := fun v490 => decidable_of_iff' _ (Iff.of_eq (k0_chk164.eq_1 v490))
theorem k0_idx164_inb : ∀ (v490 : IVec S16 32) (k0_hw164 : k0_chk164 v490), ∀ a x, ((![v490] : Fin 1 → IVec S16 32) a x).toNat < S100000.size a := fun v490 k0_hw164 => k0_hw164

def k0_chk165 (v494 : IVec S16 32) : Prop :=
  (∀ a x, ((![v494] : Fin 1 → IVec S16 32) a x).toNat < S100000.size a)
instance k0_chk165.dec : ∀ (v494 : IVec S16 32), Decidable (k0_chk165 v494) := fun v494 => decidable_of_iff' _ (Iff.of_eq (k0_chk165.eq_1 v494))
theorem k0_idx165_inb : ∀ (v494 : IVec S16 32) (k0_hw165 : k0_chk165 v494), ∀ a x, ((![v494] : Fin 1 → IVec S16 32) a x).toNat < S100000.size a := fun v494 k0_hw165 => k0_hw165

def k0_chk166 (v496 : IVec S16 32) : Prop :=
  (∀ a x, ((![v496] : Fin 1 → IVec S16 32) a x).toNat < S100000.size a)
instance k0_chk166.dec : ∀ (v496 : IVec S16 32), Decidable (k0_chk166 v496) := fun v496 => decidable_of_iff' _ (Iff.of_eq (k0_chk166.eq_1 v496))
theorem k0_idx166_inb : ∀ (v496 : IVec S16 32) (k0_hw166 : k0_chk166 v496), ∀ a x, ((![v496] : Fin 1 → IVec S16 32) a x).toNat < S100000.size a := fun v496 k0_hw166 => k0_hw166

def k0_chk167 (v499 : IVec S16 32) : Prop :=
  (∀ a x, ((![v499] : Fin 1 → IVec S16 32) a x).toNat < S100000.size a)
instance k0_chk167.dec : ∀ (v499 : IVec S16 32), Decidable (k0_chk167 v499) := fun v499 => decidable_of_iff' _ (Iff.of_eq (k0_chk167.eq_1 v499))
theorem k0_idx167_inb : ∀ (v499 : IVec S16 32) (k0_hw167 : k0_chk167 v499), ∀ a x, ((![v499] : Fin 1 → IVec S16 32) a x).toNat < S100000.size a := fun v499 k0_hw167 => k0_hw167

def k0_chk168 (v502 : IVec S16 32) : Prop :=
  (∀ a x, ((![v502] : Fin 1 → IVec S16 32) a x).toNat < S100000.size a)
instance k0_chk168.dec : ∀ (v502 : IVec S16 32), Decidable (k0_chk168 v502) := fun v502 => decidable_of_iff' _ (Iff.of_eq (k0_chk168.eq_1 v502))
theorem k0_idx168_inb : ∀ (v502 : IVec S16 32) (k0_hw168 : k0_chk168 v502), ∀ a x, ((![v502] : Fin 1 → IVec S16 32) a x).toNat < S100000.size a := fun v502 k0_hw168 => k0_hw168

def k0_chk169 (v506 : IVec S16 32) : Prop :=
  (∀ a x, ((![v506] : Fin 1 → IVec S16 32) a x).toNat < S100000.size a)
instance k0_chk169.dec : ∀ (v506 : IVec S16 32), Decidable (k0_chk169 v506) := fun v506 => decidable_of_iff' _ (Iff.of_eq (k0_chk169.eq_1 v506))
theorem k0_idx169_inb : ∀ (v506 : IVec S16 32) (k0_hw169 : k0_chk169 v506), ∀ a x, ((![v506] : Fin 1 → IVec S16 32) a x).toNat < S100000.size a := fun v506 k0_hw169 => k0_hw169

def k0_chk170 (v508 : IVec S16 32) : Prop :=
  (∀ a x, ((![v508] : Fin 1 → IVec S16 32) a x).toNat < S100000.size a)
instance k0_chk170.dec : ∀ (v508 : IVec S16 32), Decidable (k0_chk170 v508) := fun v508 => decidable_of_iff' _ (Iff.of_eq (k0_chk170.eq_1 v508))
theorem k0_idx170_inb : ∀ (v508 : IVec S16 32) (k0_hw170 : k0_chk170 v508), ∀ a x, ((![v508] : Fin 1 → IVec S16 32) a x).toNat < S100000.size a := fun v508 k0_hw170 => k0_hw170

def k0_chk171 (v511 : IVec S16 32) : Prop :=
  (∀ a x, ((![v511] : Fin 1 → IVec S16 32) a x).toNat < S100000.size a)
instance k0_chk171.dec : ∀ (v511 : IVec S16 32), Decidable (k0_chk171 v511) := fun v511 => decidable_of_iff' _ (Iff.of_eq (k0_chk171.eq_1 v511))
theorem k0_idx171_inb : ∀ (v511 : IVec S16 32) (k0_hw171 : k0_chk171 v511), ∀ a x, ((![v511] : Fin 1 → IVec S16 32) a x).toNat < S100000.size a := fun v511 k0_hw171 => k0_hw171

def k0_chk172 (v514 : IVec S16 32) : Prop :=
  (∀ a x, ((![v514] : Fin 1 → IVec S16 32) a x).toNat < S100000.size a)
instance k0_chk172.dec : ∀ (v514 : IVec S16 32), Decidable (k0_chk172 v514) := fun v514 => decidable_of_iff' _ (Iff.of_eq (k0_chk172.eq_1 v514))
theorem k0_idx172_inb : ∀ (v514 : IVec S16 32) (k0_hw172 : k0_chk172 v514), ∀ a x, ((![v514] : Fin 1 → IVec S16 32) a x).toNat < S100000.size a := fun v514 k0_hw172 => k0_hw172

def k0_chk173 (v518 : IVec S16 32) : Prop :=
  (∀ a x, ((![v518] : Fin 1 → IVec S16 32) a x).toNat < S100000.size a)
instance k0_chk173.dec : ∀ (v518 : IVec S16 32), Decidable (k0_chk173 v518) := fun v518 => decidable_of_iff' _ (Iff.of_eq (k0_chk173.eq_1 v518))
theorem k0_idx173_inb : ∀ (v518 : IVec S16 32) (k0_hw173 : k0_chk173 v518), ∀ a x, ((![v518] : Fin 1 → IVec S16 32) a x).toNat < S100000.size a := fun v518 k0_hw173 => k0_hw173

def k0_chk174 (v520 : IVec S16 32) : Prop :=
  (∀ a x, ((![v520] : Fin 1 → IVec S16 32) a x).toNat < S100000.size a)
instance k0_chk174.dec : ∀ (v520 : IVec S16 32), Decidable (k0_chk174 v520) := fun v520 => decidable_of_iff' _ (Iff.of_eq (k0_chk174.eq_1 v520))
theorem k0_idx174_inb : ∀ (v520 : IVec S16 32) (k0_hw174 : k0_chk174 v520), ∀ a x, ((![v520] : Fin 1 → IVec S16 32) a x).toNat < S100000.size a := fun v520 k0_hw174 => k0_hw174

def k0_chk175 (v523 : IVec S16 32) : Prop :=
  (∀ a x, ((![v523] : Fin 1 → IVec S16 32) a x).toNat < S100000.size a)
instance k0_chk175.dec : ∀ (v523 : IVec S16 32), Decidable (k0_chk175 v523) := fun v523 => decidable_of_iff' _ (Iff.of_eq (k0_chk175.eq_1 v523))
theorem k0_idx175_inb : ∀ (v523 : IVec S16 32) (k0_hw175 : k0_chk175 v523), ∀ a x, ((![v523] : Fin 1 → IVec S16 32) a x).toNat < S100000.size a := fun v523 k0_hw175 => k0_hw175

def k0_chk176 (v526 : IVec S16 32) : Prop :=
  (∀ a x, ((![v526] : Fin 1 → IVec S16 32) a x).toNat < S100000.size a)
instance k0_chk176.dec : ∀ (v526 : IVec S16 32), Decidable (k0_chk176 v526) := fun v526 => decidable_of_iff' _ (Iff.of_eq (k0_chk176.eq_1 v526))
theorem k0_idx176_inb : ∀ (v526 : IVec S16 32) (k0_hw176 : k0_chk176 v526), ∀ a x, ((![v526] : Fin 1 → IVec S16 32) a x).toNat < S100000.size a := fun v526 k0_hw176 => k0_hw176

def k0_chk177 (v530 : IVec S16 32) : Prop :=
  (∀ a x, ((![v530] : Fin 1 → IVec S16 32) a x).toNat < S100000.size a)
instance k0_chk177.dec : ∀ (v530 : IVec S16 32), Decidable (k0_chk177 v530) := fun v530 => decidable_of_iff' _ (Iff.of_eq (k0_chk177.eq_1 v530))
theorem k0_idx177_inb : ∀ (v530 : IVec S16 32) (k0_hw177 : k0_chk177 v530), ∀ a x, ((![v530] : Fin 1 → IVec S16 32) a x).toNat < S100000.size a := fun v530 k0_hw177 => k0_hw177

def k0_chk178 (v532 : IVec S16 32) : Prop :=
  (∀ a x, ((![v532] : Fin 1 → IVec S16 32) a x).toNat < S100000.size a)
instance k0_chk178.dec : ∀ (v532 : IVec S16 32), Decidable (k0_chk178 v532) := fun v532 => decidable_of_iff' _ (Iff.of_eq (k0_chk178.eq_1 v532))
theorem k0_idx178_inb : ∀ (v532 : IVec S16 32) (k0_hw178 : k0_chk178 v532), ∀ a x, ((![v532] : Fin 1 → IVec S16 32) a x).toNat < S100000.size a := fun v532 k0_hw178 => k0_hw178

def k0_chk179 (v535 : IVec S16 32) : Prop :=
  (∀ a x, ((![v535] : Fin 1 → IVec S16 32) a x).toNat < S100000.size a)
instance k0_chk179.dec : ∀ (v535 : IVec S16 32), Decidable (k0_chk179 v535) := fun v535 => decidable_of_iff' _ (Iff.of_eq (k0_chk179.eq_1 v535))
theorem k0_idx179_inb : ∀ (v535 : IVec S16 32) (k0_hw179 : k0_chk179 v535), ∀ a x, ((![v535] : Fin 1 → IVec S16 32) a x).toNat < S100000.size a := fun v535 k0_hw179 => k0_hw179

def k0_chk180 (v538 : IVec S16 32) : Prop :=
  (∀ a x, ((![v538] : Fin 1 → IVec S16 32) a x).toNat < S100000.size a)
instance k0_chk180.dec : ∀ (v538 : IVec S16 32), Decidable (k0_chk180 v538) := fun v538 => decidable_of_iff' _ (Iff.of_eq (k0_chk180.eq_1 v538))
theorem k0_idx180_inb : ∀ (v538 : IVec S16 32) (k0_hw180 : k0_chk180 v538), ∀ a x, ((![v538] : Fin 1 → IVec S16 32) a x).toNat < S100000.size a := fun v538 k0_hw180 => k0_hw180

def k0_chk181 (v542 : IVec S16 32) : Prop :=
  (∀ a x, ((![v542] : Fin 1 → IVec S16 32) a x).toNat < S100000.size a)
instance k0_chk181.dec : ∀ (v542 : IVec S16 32), Decidable (k0_chk181 v542) := fun v542 => decidable_of_iff' _ (Iff.of_eq (k0_chk181.eq_1 v542))
theorem k0_idx181_inb : ∀ (v542 : IVec S16 32) (k0_hw181 : k0_chk181 v542), ∀ a x, ((![v542] : Fin 1 → IVec S16 32) a x).toNat < S100000.size a := fun v542 k0_hw181 => k0_hw181

def k0_chk182 (v544 : IVec S16 32) : Prop :=
  (∀ a x, ((![v544] : Fin 1 → IVec S16 32) a x).toNat < S100000.size a)
instance k0_chk182.dec : ∀ (v544 : IVec S16 32), Decidable (k0_chk182 v544) := fun v544 => decidable_of_iff' _ (Iff.of_eq (k0_chk182.eq_1 v544))
theorem k0_idx182_inb : ∀ (v544 : IVec S16 32) (k0_hw182 : k0_chk182 v544), ∀ a x, ((![v544] : Fin 1 → IVec S16 32) a x).toNat < S100000.size a := fun v544 k0_hw182 => k0_hw182

def k0_chk183 (v547 : IVec S16 32) : Prop :=
  (∀ a x, ((![v547] : Fin 1 → IVec S16 32) a x).toNat < S100000.size a)
instance k0_chk183.dec : ∀ (v547 : IVec S16 32), Decidable (k0_chk183 v547) := fun v547 => decidable_of_iff' _ (Iff.of_eq (k0_chk183.eq_1 v547))
theorem k0_idx183_inb : ∀ (v547 : IVec S16 32) (k0_hw183 : k0_chk183 v547), ∀ a x, ((![v547] : Fin 1 → IVec S16 32) a x).toNat < S100000.size a := fun v547 k0_hw183 => k0_hw183

def k0_chk184 (v550 : IVec S16 32) : Prop :=
  (∀ a x, ((![v550] : Fin 1 → IVec S16 32) a x).toNat < S100000.size a)
instance k0_chk184.dec : ∀ (v550 : IVec S16 32), Decidable (k0_chk184 v550) := fun v550 => decidable_of_iff' _ (Iff.of_eq (k0_chk184.eq_1 v550))
theorem k0_idx184_inb : ∀ (v550 : IVec S16 32) (k0_hw184 : k0_chk184 v550), ∀ a x, ((![v550] : Fin 1 → IVec S16 32) a x).toNat < S100000.size a := fun v550 k0_hw184 => k0_hw184

def k0_chk185 (v554 : IVec S16 32) : Prop :=
  (∀ a x, ((![v554] : Fin 1 → IVec S16 32) a x).toNat < S100000.size a)
instance k0_chk185.dec : ∀ (v554 : IVec S16 32), Decidable (k0_chk185 v554) := fun v554 => decidable_of_iff' _ (Iff.of_eq (k0_chk185.eq_1 v554))
theorem k0_idx185_inb : ∀ (v554 : IVec S16 32) (k0_hw185 : k0_chk185 v554), ∀ a x, ((![v554] : Fin 1 → IVec S16 32) a x).toNat < S100000.size a := fun v554 k0_hw185 => k0_hw185

def k0_chk186 (v556 : IVec S16 32) : Prop :=
  (∀ a x, ((![v556] : Fin 1 → IVec S16 32) a x).toNat < S100000.size a)
instance k0_chk186.dec : ∀ (v556 : IVec S16 32), Decidable (k0_chk186 v556) := fun v556 => decidable_of_iff' _ (Iff.of_eq (k0_chk186.eq_1 v556))
theorem k0_idx186_inb : ∀ (v556 : IVec S16 32) (k0_hw186 : k0_chk186 v556), ∀ a x, ((![v556] : Fin 1 → IVec S16 32) a x).toNat < S100000.size a := fun v556 k0_hw186 => k0_hw186

def k0_chk187 (v559 : IVec S16 32) : Prop :=
  (∀ a x, ((![v559] : Fin 1 → IVec S16 32) a x).toNat < S100000.size a)
instance k0_chk187.dec : ∀ (v559 : IVec S16 32), Decidable (k0_chk187 v559) := fun v559 => decidable_of_iff' _ (Iff.of_eq (k0_chk187.eq_1 v559))
theorem k0_idx187_inb : ∀ (v559 : IVec S16 32) (k0_hw187 : k0_chk187 v559), ∀ a x, ((![v559] : Fin 1 → IVec S16 32) a x).toNat < S100000.size a := fun v559 k0_hw187 => k0_hw187

def k0_chk188 (v562 : IVec S16 32) : Prop :=
  (∀ a x, ((![v562] : Fin 1 → IVec S16 32) a x).toNat < S100000.size a)
instance k0_chk188.dec : ∀ (v562 : IVec S16 32), Decidable (k0_chk188 v562) := fun v562 => decidable_of_iff' _ (Iff.of_eq (k0_chk188.eq_1 v562))
theorem k0_idx188_inb : ∀ (v562 : IVec S16 32) (k0_hw188 : k0_chk188 v562), ∀ a x, ((![v562] : Fin 1 → IVec S16 32) a x).toNat < S100000.size a := fun v562 k0_hw188 => k0_hw188

def k0_chk189 (v566 : IVec S16 32) : Prop :=
  (∀ a x, ((![v566] : Fin 1 → IVec S16 32) a x).toNat < S100000.size a)
instance k0_chk189.dec : ∀ (v566 : IVec S16 32), Decidable (k0_chk189 v566) := fun v566 => decidable_of_iff' _ (Iff.of_eq (k0_chk189.eq_1 v566))
theorem k0_idx189_inb : ∀ (v566 : IVec S16 32) (k0_hw189 : k0_chk189 v566), ∀ a x, ((![v566] : Fin 1 → IVec S16 32) a x).toNat < S100000.size a := fun v566 k0_hw189 => k0_hw189

def k0_chk190 (v568 : IVec S16 32) : Prop :=
  (∀ a x, ((![v568] : Fin 1 → IVec S16 32) a x).toNat < S100000.size a)
instance k0_chk190.dec : ∀ (v568 : IVec S16 32), Decidable (k0_chk190 v568) := fun v568 => decidable_of_iff' _ (Iff.of_eq (k0_chk190.eq_1 v568))
theorem k0_idx190_inb : ∀ (v568 : IVec S16 32) (k0_hw190 : k0_chk190 v568), ∀ a x, ((![v568] : Fin 1 → IVec S16 32) a x).toNat < S100000.size a := fun v568 k0_hw190 => k0_hw190

def k0_chk191 (v571 : IVec S16 32) : Prop :=
  (∀ a x, ((![v571] : Fin 1 → IVec S16 32) a x).toNat < S100000.size a)
instance k0_chk191.dec : ∀ (v571 : IVec S16 32), Decidable (k0_chk191 v571) := fun v571 => decidable_of_iff' _ (Iff.of_eq (k0_chk191.eq_1 v571))
theorem k0_idx191_inb : ∀ (v571 : IVec S16 32) (k0_hw191 : k0_chk191 v571), ∀ a x, ((![v571] : Fin 1 → IVec S16 32) a x).toNat < S100000.size a := fun v571 k0_hw191 => k0_hw191

def k0_chk192 (v574 : IVec S16 32) : Prop :=
  (∀ a x, ((![v574] : Fin 1 → IVec S16 32) a x).toNat < S100000.size a)
instance k0_chk192.dec : ∀ (v574 : IVec S16 32), Decidable (k0_chk192 v574) := fun v574 => decidable_of_iff' _ (Iff.of_eq (k0_chk192.eq_1 v574))
theorem k0_idx192_inb : ∀ (v574 : IVec S16 32) (k0_hw192 : k0_chk192 v574), ∀ a x, ((![v574] : Fin 1 → IVec S16 32) a x).toNat < S100000.size a := fun v574 k0_hw192 => k0_hw192

def k0_chk193 (v578 : IVec S16 32) : Prop :=
  (∀ a x, ((![v578] : Fin 1 → IVec S16 32) a x).toNat < S100000.size a)
instance k0_chk193.dec : ∀ (v578 : IVec S16 32), Decidable (k0_chk193 v578) := fun v578 => decidable_of_iff' _ (Iff.of_eq (k0_chk193.eq_1 v578))
theorem k0_idx193_inb : ∀ (v578 : IVec S16 32) (k0_hw193 : k0_chk193 v578), ∀ a x, ((![v578] : Fin 1 → IVec S16 32) a x).toNat < S100000.size a := fun v578 k0_hw193 => k0_hw193

def k0_chk194 (v580 : IVec S16 32) : Prop :=
  (∀ a x, ((![v580] : Fin 1 → IVec S16 32) a x).toNat < S100000.size a)
instance k0_chk194.dec : ∀ (v580 : IVec S16 32), Decidable (k0_chk194 v580) := fun v580 => decidable_of_iff' _ (Iff.of_eq (k0_chk194.eq_1 v580))
theorem k0_idx194_inb : ∀ (v580 : IVec S16 32) (k0_hw194 : k0_chk194 v580), ∀ a x, ((![v580] : Fin 1 → IVec S16 32) a x).toNat < S100000.size a := fun v580 k0_hw194 => k0_hw194

def k0_chk195 (v583 : IVec S16 32) : Prop :=
  (∀ a x, ((![v583] : Fin 1 → IVec S16 32) a x).toNat < S100000.size a)
instance k0_chk195.dec : ∀ (v583 : IVec S16 32), Decidable (k0_chk195 v583) := fun v583 => decidable_of_iff' _ (Iff.of_eq (k0_chk195.eq_1 v583))
theorem k0_idx195_inb : ∀ (v583 : IVec S16 32) (k0_hw195 : k0_chk195 v583), ∀ a x, ((![v583] : Fin 1 → IVec S16 32) a x).toNat < S100000.size a := fun v583 k0_hw195 => k0_hw195

def k0_chk196 (v586 : IVec S16 32) : Prop :=
  (∀ a x, ((![v586] : Fin 1 → IVec S16 32) a x).toNat < S100000.size a)
instance k0_chk196.dec : ∀ (v586 : IVec S16 32), Decidable (k0_chk196 v586) := fun v586 => decidable_of_iff' _ (Iff.of_eq (k0_chk196.eq_1 v586))
theorem k0_idx196_inb : ∀ (v586 : IVec S16 32) (k0_hw196 : k0_chk196 v586), ∀ a x, ((![v586] : Fin 1 → IVec S16 32) a x).toNat < S100000.size a := fun v586 k0_hw196 => k0_hw196

def k0_chk197 (v590 : IVec S16 32) : Prop :=
  (∀ a x, ((![v590] : Fin 1 → IVec S16 32) a x).toNat < S100000.size a)
instance k0_chk197.dec : ∀ (v590 : IVec S16 32), Decidable (k0_chk197 v590) := fun v590 => decidable_of_iff' _ (Iff.of_eq (k0_chk197.eq_1 v590))
theorem k0_idx197_inb : ∀ (v590 : IVec S16 32) (k0_hw197 : k0_chk197 v590), ∀ a x, ((![v590] : Fin 1 → IVec S16 32) a x).toNat < S100000.size a := fun v590 k0_hw197 => k0_hw197

def k0_chk198 (v592 : IVec S16 32) : Prop :=
  (∀ a x, ((![v592] : Fin 1 → IVec S16 32) a x).toNat < S100000.size a)
instance k0_chk198.dec : ∀ (v592 : IVec S16 32), Decidable (k0_chk198 v592) := fun v592 => decidable_of_iff' _ (Iff.of_eq (k0_chk198.eq_1 v592))
theorem k0_idx198_inb : ∀ (v592 : IVec S16 32) (k0_hw198 : k0_chk198 v592), ∀ a x, ((![v592] : Fin 1 → IVec S16 32) a x).toNat < S100000.size a := fun v592 k0_hw198 => k0_hw198

def k0_chk199 (v595 : IVec S16 32) : Prop :=
  (∀ a x, ((![v595] : Fin 1 → IVec S16 32) a x).toNat < S100000.size a)
instance k0_chk199.dec : ∀ (v595 : IVec S16 32), Decidable (k0_chk199 v595) := fun v595 => decidable_of_iff' _ (Iff.of_eq (k0_chk199.eq_1 v595))
theorem k0_idx199_inb : ∀ (v595 : IVec S16 32) (k0_hw199 : k0_chk199 v595), ∀ a x, ((![v595] : Fin 1 → IVec S16 32) a x).toNat < S100000.size a := fun v595 k0_hw199 => k0_hw199

def k0_chk200 (v598 : IVec S16 32) : Prop :=
  (∀ a x, ((![v598] : Fin 1 → IVec S16 32) a x).toNat < S100000.size a)
instance k0_chk200.dec : ∀ (v598 : IVec S16 32), Decidable (k0_chk200 v598) := fun v598 => decidable_of_iff' _ (Iff.of_eq (k0_chk200.eq_1 v598))
theorem k0_idx200_inb : ∀ (v598 : IVec S16 32) (k0_hw200 : k0_chk200 v598), ∀ a x, ((![v598] : Fin 1 → IVec S16 32) a x).toNat < S100000.size a := fun v598 k0_hw200 => k0_hw200

def k0_chk201 (v602 : IVec S16 32) : Prop :=
  (∀ a x, ((![v602] : Fin 1 → IVec S16 32) a x).toNat < S100000.size a)
instance k0_chk201.dec : ∀ (v602 : IVec S16 32), Decidable (k0_chk201 v602) := fun v602 => decidable_of_iff' _ (Iff.of_eq (k0_chk201.eq_1 v602))
theorem k0_idx201_inb : ∀ (v602 : IVec S16 32) (k0_hw201 : k0_chk201 v602), ∀ a x, ((![v602] : Fin 1 → IVec S16 32) a x).toNat < S100000.size a := fun v602 k0_hw201 => k0_hw201

def k0_chk202 (v604 : IVec S16 32) : Prop :=
  (∀ a x, ((![v604] : Fin 1 → IVec S16 32) a x).toNat < S100000.size a)
instance k0_chk202.dec : ∀ (v604 : IVec S16 32), Decidable (k0_chk202 v604) := fun v604 => decidable_of_iff' _ (Iff.of_eq (k0_chk202.eq_1 v604))
theorem k0_idx202_inb : ∀ (v604 : IVec S16 32) (k0_hw202 : k0_chk202 v604), ∀ a x, ((![v604] : Fin 1 → IVec S16 32) a x).toNat < S100000.size a := fun v604 k0_hw202 => k0_hw202

def k0_chk203 (v607 : IVec S16 32) : Prop :=
  (∀ a x, ((![v607] : Fin 1 → IVec S16 32) a x).toNat < S100000.size a)
instance k0_chk203.dec : ∀ (v607 : IVec S16 32), Decidable (k0_chk203 v607) := fun v607 => decidable_of_iff' _ (Iff.of_eq (k0_chk203.eq_1 v607))
theorem k0_idx203_inb : ∀ (v607 : IVec S16 32) (k0_hw203 : k0_chk203 v607), ∀ a x, ((![v607] : Fin 1 → IVec S16 32) a x).toNat < S100000.size a := fun v607 k0_hw203 => k0_hw203

def k0_chk204 (v610 : IVec S16 32) : Prop :=
  (∀ a x, ((![v610] : Fin 1 → IVec S16 32) a x).toNat < S100000.size a)
instance k0_chk204.dec : ∀ (v610 : IVec S16 32), Decidable (k0_chk204 v610) := fun v610 => decidable_of_iff' _ (Iff.of_eq (k0_chk204.eq_1 v610))
theorem k0_idx204_inb : ∀ (v610 : IVec S16 32) (k0_hw204 : k0_chk204 v610), ∀ a x, ((![v610] : Fin 1 → IVec S16 32) a x).toNat < S100000.size a := fun v610 k0_hw204 => k0_hw204

def k0_chk205 (v614 : IVec S16 32) : Prop :=
  (∀ a x, ((![v614] : Fin 1 → IVec S16 32) a x).toNat < S100000.size a)
instance k0_chk205.dec : ∀ (v614 : IVec S16 32), Decidable (k0_chk205 v614) := fun v614 => decidable_of_iff' _ (Iff.of_eq (k0_chk205.eq_1 v614))
theorem k0_idx205_inb : ∀ (v614 : IVec S16 32) (k0_hw205 : k0_chk205 v614), ∀ a x, ((![v614] : Fin 1 → IVec S16 32) a x).toNat < S100000.size a := fun v614 k0_hw205 => k0_hw205

def k0_chk206 (v616 : IVec S16 32) : Prop :=
  (∀ a x, ((![v616] : Fin 1 → IVec S16 32) a x).toNat < S100000.size a)
instance k0_chk206.dec : ∀ (v616 : IVec S16 32), Decidable (k0_chk206 v616) := fun v616 => decidable_of_iff' _ (Iff.of_eq (k0_chk206.eq_1 v616))
theorem k0_idx206_inb : ∀ (v616 : IVec S16 32) (k0_hw206 : k0_chk206 v616), ∀ a x, ((![v616] : Fin 1 → IVec S16 32) a x).toNat < S100000.size a := fun v616 k0_hw206 => k0_hw206

def k0_chk207 (v619 : IVec S16 32) : Prop :=
  (∀ a x, ((![v619] : Fin 1 → IVec S16 32) a x).toNat < S100000.size a)
instance k0_chk207.dec : ∀ (v619 : IVec S16 32), Decidable (k0_chk207 v619) := fun v619 => decidable_of_iff' _ (Iff.of_eq (k0_chk207.eq_1 v619))
theorem k0_idx207_inb : ∀ (v619 : IVec S16 32) (k0_hw207 : k0_chk207 v619), ∀ a x, ((![v619] : Fin 1 → IVec S16 32) a x).toNat < S100000.size a := fun v619 k0_hw207 => k0_hw207

def k0_chk208 (v622 : IVec S16 32) : Prop :=
  (∀ a x, ((![v622] : Fin 1 → IVec S16 32) a x).toNat < S100000.size a)
instance k0_chk208.dec : ∀ (v622 : IVec S16 32), Decidable (k0_chk208 v622) := fun v622 => decidable_of_iff' _ (Iff.of_eq (k0_chk208.eq_1 v622))
theorem k0_idx208_inb : ∀ (v622 : IVec S16 32) (k0_hw208 : k0_chk208 v622), ∀ a x, ((![v622] : Fin 1 → IVec S16 32) a x).toNat < S100000.size a := fun v622 k0_hw208 => k0_hw208

def k0_chk209 (v626 : IVec S16 32) : Prop :=
  (∀ a x, ((![v626] : Fin 1 → IVec S16 32) a x).toNat < S100000.size a)
instance k0_chk209.dec : ∀ (v626 : IVec S16 32), Decidable (k0_chk209 v626) := fun v626 => decidable_of_iff' _ (Iff.of_eq (k0_chk209.eq_1 v626))
theorem k0_idx209_inb : ∀ (v626 : IVec S16 32) (k0_hw209 : k0_chk209 v626), ∀ a x, ((![v626] : Fin 1 → IVec S16 32) a x).toNat < S100000.size a := fun v626 k0_hw209 => k0_hw209

def k0_chk210 (v628 : IVec S16 32) : Prop :=
  (∀ a x, ((![v628] : Fin 1 → IVec S16 32) a x).toNat < S100000.size a)
instance k0_chk210.dec : ∀ (v628 : IVec S16 32), Decidable (k0_chk210 v628) := fun v628 => decidable_of_iff' _ (Iff.of_eq (k0_chk210.eq_1 v628))
theorem k0_idx210_inb : ∀ (v628 : IVec S16 32) (k0_hw210 : k0_chk210 v628), ∀ a x, ((![v628] : Fin 1 → IVec S16 32) a x).toNat < S100000.size a := fun v628 k0_hw210 => k0_hw210

def k0_chk211 (v631 : IVec S16 32) : Prop :=
  (∀ a x, ((![v631] : Fin 1 → IVec S16 32) a x).toNat < S100000.size a)
instance k0_chk211.dec : ∀ (v631 : IVec S16 32), Decidable (k0_chk211 v631) := fun v631 => decidable_of_iff' _ (Iff.of_eq (k0_chk211.eq_1 v631))
theorem k0_idx211_inb : ∀ (v631 : IVec S16 32) (k0_hw211 : k0_chk211 v631), ∀ a x, ((![v631] : Fin 1 → IVec S16 32) a x).toNat < S100000.size a := fun v631 k0_hw211 => k0_hw211

def k0_chk212 (v634 : IVec S16 32) : Prop :=
  (∀ a x, ((![v634] : Fin 1 → IVec S16 32) a x).toNat < S100000.size a)
instance k0_chk212.dec : ∀ (v634 : IVec S16 32), Decidable (k0_chk212 v634) := fun v634 => decidable_of_iff' _ (Iff.of_eq (k0_chk212.eq_1 v634))
theorem k0_idx212_inb : ∀ (v634 : IVec S16 32) (k0_hw212 : k0_chk212 v634), ∀ a x, ((![v634] : Fin 1 → IVec S16 32) a x).toNat < S100000.size a := fun v634 k0_hw212 => k0_hw212

def k0_chk213 (v638 : IVec S16 32) : Prop :=
  (∀ a x, ((![v638] : Fin 1 → IVec S16 32) a x).toNat < S100000.size a)
instance k0_chk213.dec : ∀ (v638 : IVec S16 32), Decidable (k0_chk213 v638) := fun v638 => decidable_of_iff' _ (Iff.of_eq (k0_chk213.eq_1 v638))
theorem k0_idx213_inb : ∀ (v638 : IVec S16 32) (k0_hw213 : k0_chk213 v638), ∀ a x, ((![v638] : Fin 1 → IVec S16 32) a x).toNat < S100000.size a := fun v638 k0_hw213 => k0_hw213

def k0_chk214 (v640 : IVec S16 32) : Prop :=
  (∀ a x, ((![v640] : Fin 1 → IVec S16 32) a x).toNat < S100000.size a)
instance k0_chk214.dec : ∀ (v640 : IVec S16 32), Decidable (k0_chk214 v640) := fun v640 => decidable_of_iff' _ (Iff.of_eq (k0_chk214.eq_1 v640))
theorem k0_idx214_inb : ∀ (v640 : IVec S16 32) (k0_hw214 : k0_chk214 v640), ∀ a x, ((![v640] : Fin 1 → IVec S16 32) a x).toNat < S100000.size a := fun v640 k0_hw214 => k0_hw214

def k0_chk215 (v643 : IVec S16 32) : Prop :=
  (∀ a x, ((![v643] : Fin 1 → IVec S16 32) a x).toNat < S100000.size a)
instance k0_chk215.dec : ∀ (v643 : IVec S16 32), Decidable (k0_chk215 v643) := fun v643 => decidable_of_iff' _ (Iff.of_eq (k0_chk215.eq_1 v643))
theorem k0_idx215_inb : ∀ (v643 : IVec S16 32) (k0_hw215 : k0_chk215 v643), ∀ a x, ((![v643] : Fin 1 → IVec S16 32) a x).toNat < S100000.size a := fun v643 k0_hw215 => k0_hw215

def k0_chk216 (v646 : IVec S16 32) : Prop :=
  (∀ a x, ((![v646] : Fin 1 → IVec S16 32) a x).toNat < S100000.size a)
instance k0_chk216.dec : ∀ (v646 : IVec S16 32), Decidable (k0_chk216 v646) := fun v646 => decidable_of_iff' _ (Iff.of_eq (k0_chk216.eq_1 v646))
theorem k0_idx216_inb : ∀ (v646 : IVec S16 32) (k0_hw216 : k0_chk216 v646), ∀ a x, ((![v646] : Fin 1 → IVec S16 32) a x).toNat < S100000.size a := fun v646 k0_hw216 => k0_hw216

def k0_chk217 (v650 : IVec S16 32) : Prop :=
  (∀ a x, ((![v650] : Fin 1 → IVec S16 32) a x).toNat < S100000.size a)
instance k0_chk217.dec : ∀ (v650 : IVec S16 32), Decidable (k0_chk217 v650) := fun v650 => decidable_of_iff' _ (Iff.of_eq (k0_chk217.eq_1 v650))
theorem k0_idx217_inb : ∀ (v650 : IVec S16 32) (k0_hw217 : k0_chk217 v650), ∀ a x, ((![v650] : Fin 1 → IVec S16 32) a x).toNat < S100000.size a := fun v650 k0_hw217 => k0_hw217

def k0_chk218 (v652 : IVec S16 32) : Prop :=
  (∀ a x, ((![v652] : Fin 1 → IVec S16 32) a x).toNat < S100000.size a)
instance k0_chk218.dec : ∀ (v652 : IVec S16 32), Decidable (k0_chk218 v652) := fun v652 => decidable_of_iff' _ (Iff.of_eq (k0_chk218.eq_1 v652))
theorem k0_idx218_inb : ∀ (v652 : IVec S16 32) (k0_hw218 : k0_chk218 v652), ∀ a x, ((![v652] : Fin 1 → IVec S16 32) a x).toNat < S100000.size a := fun v652 k0_hw218 => k0_hw218

def k0_chk219 (v655 : IVec S16 32) : Prop :=
  (∀ a x, ((![v655] : Fin 1 → IVec S16 32) a x).toNat < S100000.size a)
instance k0_chk219.dec : ∀ (v655 : IVec S16 32), Decidable (k0_chk219 v655) := fun v655 => decidable_of_iff' _ (Iff.of_eq (k0_chk219.eq_1 v655))
theorem k0_idx219_inb : ∀ (v655 : IVec S16 32) (k0_hw219 : k0_chk219 v655), ∀ a x, ((![v655] : Fin 1 → IVec S16 32) a x).toNat < S100000.size a := fun v655 k0_hw219 => k0_hw219

def k0_chk220 (v658 : IVec S16 32) : Prop :=
  (∀ a x, ((![v658] : Fin 1 → IVec S16 32) a x).toNat < S100000.size a)
instance k0_chk220.dec : ∀ (v658 : IVec S16 32), Decidable (k0_chk220 v658) := fun v658 => decidable_of_iff' _ (Iff.of_eq (k0_chk220.eq_1 v658))
theorem k0_idx220_inb : ∀ (v658 : IVec S16 32) (k0_hw220 : k0_chk220 v658), ∀ a x, ((![v658] : Fin 1 → IVec S16 32) a x).toNat < S100000.size a := fun v658 k0_hw220 => k0_hw220

def k0_chk221 (v662 : IVec S16 32) : Prop :=
  (∀ a x, ((![v662] : Fin 1 → IVec S16 32) a x).toNat < S100000.size a)
instance k0_chk221.dec : ∀ (v662 : IVec S16 32), Decidable (k0_chk221 v662) := fun v662 => decidable_of_iff' _ (Iff.of_eq (k0_chk221.eq_1 v662))
theorem k0_idx221_inb : ∀ (v662 : IVec S16 32) (k0_hw221 : k0_chk221 v662), ∀ a x, ((![v662] : Fin 1 → IVec S16 32) a x).toNat < S100000.size a := fun v662 k0_hw221 => k0_hw221

def k0_chk222 (v664 : IVec S16 32) : Prop :=
  (∀ a x, ((![v664] : Fin 1 → IVec S16 32) a x).toNat < S100000.size a)
instance k0_chk222.dec : ∀ (v664 : IVec S16 32), Decidable (k0_chk222 v664) := fun v664 => decidable_of_iff' _ (Iff.of_eq (k0_chk222.eq_1 v664))
theorem k0_idx222_inb : ∀ (v664 : IVec S16 32) (k0_hw222 : k0_chk222 v664), ∀ a x, ((![v664] : Fin 1 → IVec S16 32) a x).toNat < S100000.size a := fun v664 k0_hw222 => k0_hw222

def k0_chk223 (v667 : IVec S16 32) : Prop :=
  (∀ a x, ((![v667] : Fin 1 → IVec S16 32) a x).toNat < S100000.size a)
instance k0_chk223.dec : ∀ (v667 : IVec S16 32), Decidable (k0_chk223 v667) := fun v667 => decidable_of_iff' _ (Iff.of_eq (k0_chk223.eq_1 v667))
theorem k0_idx223_inb : ∀ (v667 : IVec S16 32) (k0_hw223 : k0_chk223 v667), ∀ a x, ((![v667] : Fin 1 → IVec S16 32) a x).toNat < S100000.size a := fun v667 k0_hw223 => k0_hw223

def k0_chk224 (v670 : IVec S16 32) : Prop :=
  (∀ a x, ((![v670] : Fin 1 → IVec S16 32) a x).toNat < S100000.size a)
instance k0_chk224.dec : ∀ (v670 : IVec S16 32), Decidable (k0_chk224 v670) := fun v670 => decidable_of_iff' _ (Iff.of_eq (k0_chk224.eq_1 v670))
theorem k0_idx224_inb : ∀ (v670 : IVec S16 32) (k0_hw224 : k0_chk224 v670), ∀ a x, ((![v670] : Fin 1 → IVec S16 32) a x).toNat < S100000.size a := fun v670 k0_hw224 => k0_hw224

def k0_chk225 (v674 : IVec S16 32) : Prop :=
  (∀ a x, ((![v674] : Fin 1 → IVec S16 32) a x).toNat < S100000.size a)
instance k0_chk225.dec : ∀ (v674 : IVec S16 32), Decidable (k0_chk225 v674) := fun v674 => decidable_of_iff' _ (Iff.of_eq (k0_chk225.eq_1 v674))
theorem k0_idx225_inb : ∀ (v674 : IVec S16 32) (k0_hw225 : k0_chk225 v674), ∀ a x, ((![v674] : Fin 1 → IVec S16 32) a x).toNat < S100000.size a := fun v674 k0_hw225 => k0_hw225

def k0_chk226 (v676 : IVec S16 32) : Prop :=
  (∀ a x, ((![v676] : Fin 1 → IVec S16 32) a x).toNat < S100000.size a)
instance k0_chk226.dec : ∀ (v676 : IVec S16 32), Decidable (k0_chk226 v676) := fun v676 => decidable_of_iff' _ (Iff.of_eq (k0_chk226.eq_1 v676))
theorem k0_idx226_inb : ∀ (v676 : IVec S16 32) (k0_hw226 : k0_chk226 v676), ∀ a x, ((![v676] : Fin 1 → IVec S16 32) a x).toNat < S100000.size a := fun v676 k0_hw226 => k0_hw226

def k0_chk227 (v679 : IVec S16 32) : Prop :=
  (∀ a x, ((![v679] : Fin 1 → IVec S16 32) a x).toNat < S100000.size a)
instance k0_chk227.dec : ∀ (v679 : IVec S16 32), Decidable (k0_chk227 v679) := fun v679 => decidable_of_iff' _ (Iff.of_eq (k0_chk227.eq_1 v679))
theorem k0_idx227_inb : ∀ (v679 : IVec S16 32) (k0_hw227 : k0_chk227 v679), ∀ a x, ((![v679] : Fin 1 → IVec S16 32) a x).toNat < S100000.size a := fun v679 k0_hw227 => k0_hw227

def k0_chk228 (v682 : IVec S16 32) : Prop :=
  (∀ a x, ((![v682] : Fin 1 → IVec S16 32) a x).toNat < S100000.size a)
instance k0_chk228.dec : ∀ (v682 : IVec S16 32), Decidable (k0_chk228 v682) := fun v682 => decidable_of_iff' _ (Iff.of_eq (k0_chk228.eq_1 v682))
theorem k0_idx228_inb : ∀ (v682 : IVec S16 32) (k0_hw228 : k0_chk228 v682), ∀ a x, ((![v682] : Fin 1 → IVec S16 32) a x).toNat < S100000.size a := fun v682 k0_hw228 => k0_hw228

def k0_chk229 (v686 : IVec S16 32) : Prop :=
  (∀ a x, ((![v686] : Fin 1 → IVec S16 32) a x).toNat < S100000.size a)
instance k0_chk229.dec : ∀ (v686 : IVec S16 32), Decidable (k0_chk229 v686) := fun v686 => decidable_of_iff' _ (Iff.of_eq (k0_chk229.eq_1 v686))
theorem k0_idx229_inb : ∀ (v686 : IVec S16 32) (k0_hw229 : k0_chk229 v686), ∀ a x, ((![v686] : Fin 1 → IVec S16 32) a x).toNat < S100000.size a := fun v686 k0_hw229 => k0_hw229

def k0_chk230 (v688 : IVec S16 32) : Prop :=
  (∀ a x, ((![v688] : Fin 1 → IVec S16 32) a x).toNat < S100000.size a)
instance k0_chk230.dec : ∀ (v688 : IVec S16 32), Decidable (k0_chk230 v688) := fun v688 => decidable_of_iff' _ (Iff.of_eq (k0_chk230.eq_1 v688))
theorem k0_idx230_inb : ∀ (v688 : IVec S16 32) (k0_hw230 : k0_chk230 v688), ∀ a x, ((![v688] : Fin 1 → IVec S16 32) a x).toNat < S100000.size a := fun v688 k0_hw230 => k0_hw230

def k0_chk231 (v691 : IVec S16 32) : Prop :=
  (∀ a x, ((![v691] : Fin 1 → IVec S16 32) a x).toNat < S100000.size a)
instance k0_chk231.dec : ∀ (v691 : IVec S16 32), Decidable (k0_chk231 v691) := fun v691 => decidable_of_iff' _ (Iff.of_eq (k0_chk231.eq_1 v691))
theorem k0_idx231_inb : ∀ (v691 : IVec S16 32) (k0_hw231 : k0_chk231 v691), ∀ a x, ((![v691] : Fin 1 → IVec S16 32) a x).toNat < S100000.size a := fun v691 k0_hw231 => k0_hw231

def k0_chk232 (v694 : IVec S16 32) : Prop :=
  (∀ a x, ((![v694] : Fin 1 → IVec S16 32) a x).toNat < S100000.size a)
instance k0_chk232.dec : ∀ (v694 : IVec S16 32), Decidable (k0_chk232 v694) := fun v694 => decidable_of_iff' _ (Iff.of_eq (k0_chk232.eq_1 v694))
theorem k0_idx232_inb : ∀ (v694 : IVec S16 32) (k0_hw232 : k0_chk232 v694), ∀ a x, ((![v694] : Fin 1 → IVec S16 32) a x).toNat < S100000.size a := fun v694 k0_hw232 => k0_hw232

def k0_chk233 (v698 : IVec S16 32) : Prop :=
  (∀ a x, ((![v698] : Fin 1 → IVec S16 32) a x).toNat < S100000.size a)
instance k0_chk233.dec : ∀ (v698 : IVec S16 32), Decidable (k0_chk233 v698) := fun v698 => decidable_of_iff' _ (Iff.of_eq (k0_chk233.eq_1 v698))
theorem k0_idx233_inb : ∀ (v698 : IVec S16 32) (k0_hw233 : k0_chk233 v698), ∀ a x, ((![v698] : Fin 1 → IVec S16 32) a x).toNat < S100000.size a := fun v698 k0_hw233 => k0_hw233

def k0_chk234 (v700 : IVec S16 32) : Prop :=
  (∀ a x, ((![v700] : Fin 1 → IVec S16 32) a x).toNat < S100000.size a)
instance k0_chk234.dec : ∀ (v700 : IVec S16 32), Decidable (k0_chk234 v700) := fun v700 => decidable_of_iff' _ (Iff.of_eq (k0_chk234.eq_1 v700))
theorem k0_idx234_inb : ∀ (v700 : IVec S16 32) (k0_hw234 : k0_chk234 v700), ∀ a x, ((![v700] : Fin 1 → IVec S16 32) a x).toNat < S100000.size a := fun v700 k0_hw234 => k0_hw234

def k0_chk235 (v703 : IVec S16 32) : Prop :=
  (∀ a x, ((![v703] : Fin 1 → IVec S16 32) a x).toNat < S100000.size a)
instance k0_chk235.dec : ∀ (v703 : IVec S16 32), Decidable (k0_chk235 v703) := fun v703 => decidable_of_iff' _ (Iff.of_eq (k0_chk235.eq_1 v703))
theorem k0_idx235_inb : ∀ (v703 : IVec S16 32) (k0_hw235 : k0_chk235 v703), ∀ a x, ((![v703] : Fin 1 → IVec S16 32) a x).toNat < S100000.size a := fun v703 k0_hw235 => k0_hw235

def k0_chk236 (v706 : IVec S16 32) : Prop :=
  (∀ a x, ((![v706] : Fin 1 → IVec S16 32) a x).toNat < S100000.size a)
instance k0_chk236.dec : ∀ (v706 : IVec S16 32), Decidable (k0_chk236 v706) := fun v706 => decidable_of_iff' _ (Iff.of_eq (k0_chk236.eq_1 v706))
theorem k0_idx236_inb : ∀ (v706 : IVec S16 32) (k0_hw236 : k0_chk236 v706), ∀ a x, ((![v706] : Fin 1 → IVec S16 32) a x).toNat < S100000.size a := fun v706 k0_hw236 => k0_hw236

def k0_chk237 (v710 : IVec S16 32) : Prop :=
  (∀ a x, ((![v710] : Fin 1 → IVec S16 32) a x).toNat < S100000.size a)
instance k0_chk237.dec : ∀ (v710 : IVec S16 32), Decidable (k0_chk237 v710) := fun v710 => decidable_of_iff' _ (Iff.of_eq (k0_chk237.eq_1 v710))
theorem k0_idx237_inb : ∀ (v710 : IVec S16 32) (k0_hw237 : k0_chk237 v710), ∀ a x, ((![v710] : Fin 1 → IVec S16 32) a x).toNat < S100000.size a := fun v710 k0_hw237 => k0_hw237

def k0_chk238 (v712 : IVec S16 32) : Prop :=
  (∀ a x, ((![v712] : Fin 1 → IVec S16 32) a x).toNat < S100000.size a)
instance k0_chk238.dec : ∀ (v712 : IVec S16 32), Decidable (k0_chk238 v712) := fun v712 => decidable_of_iff' _ (Iff.of_eq (k0_chk238.eq_1 v712))
theorem k0_idx238_inb : ∀ (v712 : IVec S16 32) (k0_hw238 : k0_chk238 v712), ∀ a x, ((![v712] : Fin 1 → IVec S16 32) a x).toNat < S100000.size a := fun v712 k0_hw238 => k0_hw238

def k0_chk239 (v715 : IVec S16 32) : Prop :=
  (∀ a x, ((![v715] : Fin 1 → IVec S16 32) a x).toNat < S100000.size a)
instance k0_chk239.dec : ∀ (v715 : IVec S16 32), Decidable (k0_chk239 v715) := fun v715 => decidable_of_iff' _ (Iff.of_eq (k0_chk239.eq_1 v715))
theorem k0_idx239_inb : ∀ (v715 : IVec S16 32) (k0_hw239 : k0_chk239 v715), ∀ a x, ((![v715] : Fin 1 → IVec S16 32) a x).toNat < S100000.size a := fun v715 k0_hw239 => k0_hw239

def k0_chk240 (v718 : IVec S16 32) : Prop :=
  (∀ a x, ((![v718] : Fin 1 → IVec S16 32) a x).toNat < S100000.size a)
instance k0_chk240.dec : ∀ (v718 : IVec S16 32), Decidable (k0_chk240 v718) := fun v718 => decidable_of_iff' _ (Iff.of_eq (k0_chk240.eq_1 v718))
theorem k0_idx240_inb : ∀ (v718 : IVec S16 32) (k0_hw240 : k0_chk240 v718), ∀ a x, ((![v718] : Fin 1 → IVec S16 32) a x).toNat < S100000.size a := fun v718 k0_hw240 => k0_hw240

def k0_chk241 (v722 : IVec S16 32) : Prop :=
  (∀ a x, ((![v722] : Fin 1 → IVec S16 32) a x).toNat < S100000.size a)
instance k0_chk241.dec : ∀ (v722 : IVec S16 32), Decidable (k0_chk241 v722) := fun v722 => decidable_of_iff' _ (Iff.of_eq (k0_chk241.eq_1 v722))
theorem k0_idx241_inb : ∀ (v722 : IVec S16 32) (k0_hw241 : k0_chk241 v722), ∀ a x, ((![v722] : Fin 1 → IVec S16 32) a x).toNat < S100000.size a := fun v722 k0_hw241 => k0_hw241

def k0_chk242 (v724 : IVec S16 32) : Prop :=
  (∀ a x, ((![v724] : Fin 1 → IVec S16 32) a x).toNat < S100000.size a)
instance k0_chk242.dec : ∀ (v724 : IVec S16 32), Decidable (k0_chk242 v724) := fun v724 => decidable_of_iff' _ (Iff.of_eq (k0_chk242.eq_1 v724))
theorem k0_idx242_inb : ∀ (v724 : IVec S16 32) (k0_hw242 : k0_chk242 v724), ∀ a x, ((![v724] : Fin 1 → IVec S16 32) a x).toNat < S100000.size a := fun v724 k0_hw242 => k0_hw242

def k0_chk243 (v727 : IVec S16 32) : Prop :=
  (∀ a x, ((![v727] : Fin 1 → IVec S16 32) a x).toNat < S100000.size a)
instance k0_chk243.dec : ∀ (v727 : IVec S16 32), Decidable (k0_chk243 v727) := fun v727 => decidable_of_iff' _ (Iff.of_eq (k0_chk243.eq_1 v727))
theorem k0_idx243_inb : ∀ (v727 : IVec S16 32) (k0_hw243 : k0_chk243 v727), ∀ a x, ((![v727] : Fin 1 → IVec S16 32) a x).toNat < S100000.size a := fun v727 k0_hw243 => k0_hw243

def k0_chk244 (v730 : IVec S16 32) : Prop :=
  (∀ a x, ((![v730] : Fin 1 → IVec S16 32) a x).toNat < S100000.size a)
instance k0_chk244.dec : ∀ (v730 : IVec S16 32), Decidable (k0_chk244 v730) := fun v730 => decidable_of_iff' _ (Iff.of_eq (k0_chk244.eq_1 v730))
theorem k0_idx244_inb : ∀ (v730 : IVec S16 32) (k0_hw244 : k0_chk244 v730), ∀ a x, ((![v730] : Fin 1 → IVec S16 32) a x).toNat < S100000.size a := fun v730 k0_hw244 => k0_hw244

def k0_chk245 (v734 : IVec S16 32) : Prop :=
  (∀ a x, ((![v734] : Fin 1 → IVec S16 32) a x).toNat < S100000.size a)
instance k0_chk245.dec : ∀ (v734 : IVec S16 32), Decidable (k0_chk245 v734) := fun v734 => decidable_of_iff' _ (Iff.of_eq (k0_chk245.eq_1 v734))
theorem k0_idx245_inb : ∀ (v734 : IVec S16 32) (k0_hw245 : k0_chk245 v734), ∀ a x, ((![v734] : Fin 1 → IVec S16 32) a x).toNat < S100000.size a := fun v734 k0_hw245 => k0_hw245

def k0_chk246 (v736 : IVec S16 32) : Prop :=
  (∀ a x, ((![v736] : Fin 1 → IVec S16 32) a x).toNat < S100000.size a)
instance k0_chk246.dec : ∀ (v736 : IVec S16 32), Decidable (k0_chk246 v736) := fun v736 => decidable_of_iff' _ (Iff.of_eq (k0_chk246.eq_1 v736))
theorem k0_idx246_inb : ∀ (v736 : IVec S16 32) (k0_hw246 : k0_chk246 v736), ∀ a x, ((![v736] : Fin 1 → IVec S16 32) a x).toNat < S100000.size a := fun v736 k0_hw246 => k0_hw246

def k0_chk247 (v739 : IVec S16 32) : Prop :=
  (∀ a x, ((![v739] : Fin 1 → IVec S16 32) a x).toNat < S100000.size a)
instance k0_chk247.dec : ∀ (v739 : IVec S16 32), Decidable (k0_chk247 v739) := fun v739 => decidable_of_iff' _ (Iff.of_eq (k0_chk247.eq_1 v739))
theorem k0_idx247_inb : ∀ (v739 : IVec S16 32) (k0_hw247 : k0_chk247 v739), ∀ a x, ((![v739] : Fin 1 → IVec S16 32) a x).toNat < S100000.size a := fun v739 k0_hw247 => k0_hw247

def k0_chk248 (v742 : IVec S16 32) : Prop :=
  (∀ a x, ((![v742] : Fin 1 → IVec S16 32) a x).toNat < S100000.size a)
instance k0_chk248.dec : ∀ (v742 : IVec S16 32), Decidable (k0_chk248 v742) := fun v742 => decidable_of_iff' _ (Iff.of_eq (k0_chk248.eq_1 v742))
theorem k0_idx248_inb : ∀ (v742 : IVec S16 32) (k0_hw248 : k0_chk248 v742), ∀ a x, ((![v742] : Fin 1 → IVec S16 32) a x).toNat < S100000.size a := fun v742 k0_hw248 => k0_hw248

def k0_chk249 (v746 : IVec S16 32) : Prop :=
  (∀ a x, ((![v746] : Fin 1 → IVec S16 32) a x).toNat < S100000.size a)
instance k0_chk249.dec : ∀ (v746 : IVec S16 32), Decidable (k0_chk249 v746) := fun v746 => decidable_of_iff' _ (Iff.of_eq (k0_chk249.eq_1 v746))
theorem k0_idx249_inb : ∀ (v746 : IVec S16 32) (k0_hw249 : k0_chk249 v746), ∀ a x, ((![v746] : Fin 1 → IVec S16 32) a x).toNat < S100000.size a := fun v746 k0_hw249 => k0_hw249

def k0_chk250 (v748 : IVec S16 32) : Prop :=
  (∀ a x, ((![v748] : Fin 1 → IVec S16 32) a x).toNat < S100000.size a)
instance k0_chk250.dec : ∀ (v748 : IVec S16 32), Decidable (k0_chk250 v748) := fun v748 => decidable_of_iff' _ (Iff.of_eq (k0_chk250.eq_1 v748))
theorem k0_idx250_inb : ∀ (v748 : IVec S16 32) (k0_hw250 : k0_chk250 v748), ∀ a x, ((![v748] : Fin 1 → IVec S16 32) a x).toNat < S100000.size a := fun v748 k0_hw250 => k0_hw250

def k0_chk251 (v751 : IVec S16 32) : Prop :=
  (∀ a x, ((![v751] : Fin 1 → IVec S16 32) a x).toNat < S100000.size a)
instance k0_chk251.dec : ∀ (v751 : IVec S16 32), Decidable (k0_chk251 v751) := fun v751 => decidable_of_iff' _ (Iff.of_eq (k0_chk251.eq_1 v751))
theorem k0_idx251_inb : ∀ (v751 : IVec S16 32) (k0_hw251 : k0_chk251 v751), ∀ a x, ((![v751] : Fin 1 → IVec S16 32) a x).toNat < S100000.size a := fun v751 k0_hw251 => k0_hw251

def k0_chk252 (v754 : IVec S16 32) : Prop :=
  (∀ a x, ((![v754] : Fin 1 → IVec S16 32) a x).toNat < S100000.size a)
instance k0_chk252.dec : ∀ (v754 : IVec S16 32), Decidable (k0_chk252 v754) := fun v754 => decidable_of_iff' _ (Iff.of_eq (k0_chk252.eq_1 v754))
theorem k0_idx252_inb : ∀ (v754 : IVec S16 32) (k0_hw252 : k0_chk252 v754), ∀ a x, ((![v754] : Fin 1 → IVec S16 32) a x).toNat < S100000.size a := fun v754 k0_hw252 => k0_hw252

def k0_chk253 (v758 : IVec S16 32) : Prop :=
  (∀ a x, ((![v758] : Fin 1 → IVec S16 32) a x).toNat < S100000.size a)
instance k0_chk253.dec : ∀ (v758 : IVec S16 32), Decidable (k0_chk253 v758) := fun v758 => decidable_of_iff' _ (Iff.of_eq (k0_chk253.eq_1 v758))
theorem k0_idx253_inb : ∀ (v758 : IVec S16 32) (k0_hw253 : k0_chk253 v758), ∀ a x, ((![v758] : Fin 1 → IVec S16 32) a x).toNat < S100000.size a := fun v758 k0_hw253 => k0_hw253

def k0_chk254 (v760 : IVec S16 32) : Prop :=
  (∀ a x, ((![v760] : Fin 1 → IVec S16 32) a x).toNat < S100000.size a)
instance k0_chk254.dec : ∀ (v760 : IVec S16 32), Decidable (k0_chk254 v760) := fun v760 => decidable_of_iff' _ (Iff.of_eq (k0_chk254.eq_1 v760))
theorem k0_idx254_inb : ∀ (v760 : IVec S16 32) (k0_hw254 : k0_chk254 v760), ∀ a x, ((![v760] : Fin 1 → IVec S16 32) a x).toNat < S100000.size a := fun v760 k0_hw254 => k0_hw254

def k0_chk255 (v763 : IVec S16 32) : Prop :=
  (∀ a x, ((![v763] : Fin 1 → IVec S16 32) a x).toNat < S100000.size a)
instance k0_chk255.dec : ∀ (v763 : IVec S16 32), Decidable (k0_chk255 v763) := fun v763 => decidable_of_iff' _ (Iff.of_eq (k0_chk255.eq_1 v763))
theorem k0_idx255_inb : ∀ (v763 : IVec S16 32) (k0_hw255 : k0_chk255 v763), ∀ a x, ((![v763] : Fin 1 → IVec S16 32) a x).toNat < S100000.size a := fun v763 k0_hw255 => k0_hw255

def k0_chk256 (v766 : IVec S16 32) : Prop :=
  (∀ a x, ((![v766] : Fin 1 → IVec S16 32) a x).toNat < S100000.size a)
instance k0_chk256.dec : ∀ (v766 : IVec S16 32), Decidable (k0_chk256 v766) := fun v766 => decidable_of_iff' _ (Iff.of_eq (k0_chk256.eq_1 v766))
theorem k0_idx256_inb : ∀ (v766 : IVec S16 32) (k0_hw256 : k0_chk256 v766), ∀ a x, ((![v766] : Fin 1 → IVec S16 32) a x).toNat < S100000.size a := fun v766 k0_hw256 => k0_hw256
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r2 : BitVec 32 := 0#32
  ![v1.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x4_S4x1024_1_0 : S1024x4.Transposes [1, 0] S4x1024
  shapeCasts_S4x1024_S4096 : S4x1024.ShapeCasts S4096
  transposes_S100000x32_S32x100000_1_0 : S100000x32.Transposes [1, 0] S32x100000
  squeezes_S1x100000_S100000 : S1x100000.Squeezes S100000
  inb_S4096_S4096_0 : ∀ a, (![0] : Fin 1 → Nat) a + S4096.size a ≤ S4096.size a
  inb_S4096_S16_0 : ∀ a, (![0] : Fin 1 → Nat) a + S16.size a ≤ S4096.size a
  h_S16 : 0 < S16.numel
  h_S100000 : 0 < S100000.numel
  inb_S4096_S16_1024 : ∀ a, (![1024] : Fin 1 → Nat) a + S16.size a ≤ S4096.size a
  inb_S4096_S16_2048 : ∀ a, (![2048] : Fin 1 → Nat) a + S16.size a ≤ S4096.size a
  inb_S4096_S16_3072 : ∀ a, (![3072] : Fin 1 → Nat) a + S16.size a ≤ S4096.size a
  inb_S1024_S16_0 : ∀ a, (![0] : Fin 1 → Nat) a + S16.size a ≤ S1024.size a
  inb_S4096_S16_16 : ∀ a, (![16] : Fin 1 → Nat) a + S16.size a ≤ S4096.size a
  inb_S4096_S16_1040 : ∀ a, (![1040] : Fin 1 → Nat) a + S16.size a ≤ S4096.size a
  inb_S4096_S16_2064 : ∀ a, (![2064] : Fin 1 → Nat) a + S16.size a ≤ S4096.size a
  inb_S4096_S16_3088 : ∀ a, (![3088] : Fin 1 → Nat) a + S16.size a ≤ S4096.size a
  inb_S1024_S16_16 : ∀ a, (![16] : Fin 1 → Nat) a + S16.size a ≤ S1024.size a
  inb_S4096_S16_32 : ∀ a, (![32] : Fin 1 → Nat) a + S16.size a ≤ S4096.size a
  inb_S4096_S16_1056 : ∀ a, (![1056] : Fin 1 → Nat) a + S16.size a ≤ S4096.size a
  inb_S4096_S16_2080 : ∀ a, (![2080] : Fin 1 → Nat) a + S16.size a ≤ S4096.size a
  inb_S4096_S16_3104 : ∀ a, (![3104] : Fin 1 → Nat) a + S16.size a ≤ S4096.size a
  inb_S1024_S16_32 : ∀ a, (![32] : Fin 1 → Nat) a + S16.size a ≤ S1024.size a
  inb_S4096_S16_48 : ∀ a, (![48] : Fin 1 → Nat) a + S16.size a ≤ S4096.size a
  inb_S4096_S16_1072 : ∀ a, (![1072] : Fin 1 → Nat) a + S16.size a ≤ S4096.size a
  inb_S4096_S16_2096 : ∀ a, (![2096] : Fin 1 → Nat) a + S16.size a ≤ S4096.size a
  inb_S4096_S16_3120 : ∀ a, (![3120] : Fin 1 → Nat) a + S16.size a ≤ S4096.size a
  inb_S1024_S16_48 : ∀ a, (![48] : Fin 1 → Nat) a + S16.size a ≤ S1024.size a
  inb_S4096_S16_64 : ∀ a, (![64] : Fin 1 → Nat) a + S16.size a ≤ S4096.size a
  inb_S4096_S16_1088 : ∀ a, (![1088] : Fin 1 → Nat) a + S16.size a ≤ S4096.size a
  inb_S4096_S16_2112 : ∀ a, (![2112] : Fin 1 → Nat) a + S16.size a ≤ S4096.size a
  inb_S4096_S16_3136 : ∀ a, (![3136] : Fin 1 → Nat) a + S16.size a ≤ S4096.size a
  inb_S1024_S16_64 : ∀ a, (![64] : Fin 1 → Nat) a + S16.size a ≤ S1024.size a
  inb_S4096_S16_80 : ∀ a, (![80] : Fin 1 → Nat) a + S16.size a ≤ S4096.size a
  inb_S4096_S16_1104 : ∀ a, (![1104] : Fin 1 → Nat) a + S16.size a ≤ S4096.size a
  inb_S4096_S16_2128 : ∀ a, (![2128] : Fin 1 → Nat) a + S16.size a ≤ S4096.size a
  inb_S4096_S16_3152 : ∀ a, (![3152] : Fin 1 → Nat) a + S16.size a ≤ S4096.size a
  inb_S1024_S16_80 : ∀ a, (![80] : Fin 1 → Nat) a + S16.size a ≤ S1024.size a
  inb_S4096_S16_96 : ∀ a, (![96] : Fin 1 → Nat) a + S16.size a ≤ S4096.size a
  inb_S4096_S16_1120 : ∀ a, (![1120] : Fin 1 → Nat) a + S16.size a ≤ S4096.size a
  inb_S4096_S16_2144 : ∀ a, (![2144] : Fin 1 → Nat) a + S16.size a ≤ S4096.size a
  inb_S4096_S16_3168 : ∀ a, (![3168] : Fin 1 → Nat) a + S16.size a ≤ S4096.size a
  inb_S1024_S16_96 : ∀ a, (![96] : Fin 1 → Nat) a + S16.size a ≤ S1024.size a
  inb_S4096_S16_112 : ∀ a, (![112] : Fin 1 → Nat) a + S16.size a ≤ S4096.size a
  inb_S4096_S16_1136 : ∀ a, (![1136] : Fin 1 → Nat) a + S16.size a ≤ S4096.size a
  inb_S4096_S16_2160 : ∀ a, (![2160] : Fin 1 → Nat) a + S16.size a ≤ S4096.size a
  inb_S4096_S16_3184 : ∀ a, (![3184] : Fin 1 → Nat) a + S16.size a ≤ S4096.size a
  inb_S1024_S16_112 : ∀ a, (![112] : Fin 1 → Nat) a + S16.size a ≤ S1024.size a
  inb_S4096_S16_128 : ∀ a, (![128] : Fin 1 → Nat) a + S16.size a ≤ S4096.size a
  inb_S4096_S16_1152 : ∀ a, (![1152] : Fin 1 → Nat) a + S16.size a ≤ S4096.size a
  inb_S4096_S16_2176 : ∀ a, (![2176] : Fin 1 → Nat) a + S16.size a ≤ S4096.size a
  inb_S4096_S16_3200 : ∀ a, (![3200] : Fin 1 → Nat) a + S16.size a ≤ S4096.size a
  inb_S1024_S16_128 : ∀ a, (![128] : Fin 1 → Nat) a + S16.size a ≤ S1024.size a
  inb_S4096_S16_144 : ∀ a, (![144] : Fin 1 → Nat) a + S16.size a ≤ S4096.size a
  inb_S4096_S16_1168 : ∀ a, (![1168] : Fin 1 → Nat) a + S16.size a ≤ S4096.size a
  inb_S4096_S16_2192 : ∀ a, (![2192] : Fin 1 → Nat) a + S16.size a ≤ S4096.size a
  inb_S4096_S16_3216 : ∀ a, (![3216] : Fin 1 → Nat) a + S16.size a ≤ S4096.size a
  inb_S1024_S16_144 : ∀ a, (![144] : Fin 1 → Nat) a + S16.size a ≤ S1024.size a
  inb_S4096_S16_160 : ∀ a, (![160] : Fin 1 → Nat) a + S16.size a ≤ S4096.size a
  inb_S4096_S16_1184 : ∀ a, (![1184] : Fin 1 → Nat) a + S16.size a ≤ S4096.size a
  inb_S4096_S16_2208 : ∀ a, (![2208] : Fin 1 → Nat) a + S16.size a ≤ S4096.size a
  inb_S4096_S16_3232 : ∀ a, (![3232] : Fin 1 → Nat) a + S16.size a ≤ S4096.size a
  inb_S1024_S16_160 : ∀ a, (![160] : Fin 1 → Nat) a + S16.size a ≤ S1024.size a
  inb_S4096_S16_176 : ∀ a, (![176] : Fin 1 → Nat) a + S16.size a ≤ S4096.size a
  inb_S4096_S16_1200 : ∀ a, (![1200] : Fin 1 → Nat) a + S16.size a ≤ S4096.size a
  inb_S4096_S16_2224 : ∀ a, (![2224] : Fin 1 → Nat) a + S16.size a ≤ S4096.size a
  inb_S4096_S16_3248 : ∀ a, (![3248] : Fin 1 → Nat) a + S16.size a ≤ S4096.size a
  inb_S1024_S16_176 : ∀ a, (![176] : Fin 1 → Nat) a + S16.size a ≤ S1024.size a
  inb_S4096_S16_192 : ∀ a, (![192] : Fin 1 → Nat) a + S16.size a ≤ S4096.size a
  inb_S4096_S16_1216 : ∀ a, (![1216] : Fin 1 → Nat) a + S16.size a ≤ S4096.size a
  inb_S4096_S16_2240 : ∀ a, (![2240] : Fin 1 → Nat) a + S16.size a ≤ S4096.size a
  inb_S4096_S16_3264 : ∀ a, (![3264] : Fin 1 → Nat) a + S16.size a ≤ S4096.size a
  inb_S1024_S16_192 : ∀ a, (![192] : Fin 1 → Nat) a + S16.size a ≤ S1024.size a
  inb_S4096_S16_208 : ∀ a, (![208] : Fin 1 → Nat) a + S16.size a ≤ S4096.size a
  inb_S4096_S16_1232 : ∀ a, (![1232] : Fin 1 → Nat) a + S16.size a ≤ S4096.size a
  inb_S4096_S16_2256 : ∀ a, (![2256] : Fin 1 → Nat) a + S16.size a ≤ S4096.size a
  inb_S4096_S16_3280 : ∀ a, (![3280] : Fin 1 → Nat) a + S16.size a ≤ S4096.size a
  inb_S1024_S16_208 : ∀ a, (![208] : Fin 1 → Nat) a + S16.size a ≤ S1024.size a
  inb_S4096_S16_224 : ∀ a, (![224] : Fin 1 → Nat) a + S16.size a ≤ S4096.size a
  inb_S4096_S16_1248 : ∀ a, (![1248] : Fin 1 → Nat) a + S16.size a ≤ S4096.size a
  inb_S4096_S16_2272 : ∀ a, (![2272] : Fin 1 → Nat) a + S16.size a ≤ S4096.size a
  inb_S4096_S16_3296 : ∀ a, (![3296] : Fin 1 → Nat) a + S16.size a ≤ S4096.size a
  inb_S1024_S16_224 : ∀ a, (![224] : Fin 1 → Nat) a + S16.size a ≤ S1024.size a
  inb_S4096_S16_240 : ∀ a, (![240] : Fin 1 → Nat) a + S16.size a ≤ S4096.size a
  inb_S4096_S16_1264 : ∀ a, (![1264] : Fin 1 → Nat) a + S16.size a ≤ S4096.size a
  inb_S4096_S16_2288 : ∀ a, (![2288] : Fin 1 → Nat) a + S16.size a ≤ S4096.size a
  inb_S4096_S16_3312 : ∀ a, (![3312] : Fin 1 → Nat) a + S16.size a ≤ S4096.size a
  inb_S1024_S16_240 : ∀ a, (![240] : Fin 1 → Nat) a + S16.size a ≤ S1024.size a
  inb_S4096_S16_256 : ∀ a, (![256] : Fin 1 → Nat) a + S16.size a ≤ S4096.size a
  inb_S4096_S16_1280 : ∀ a, (![1280] : Fin 1 → Nat) a + S16.size a ≤ S4096.size a
  inb_S4096_S16_2304 : ∀ a, (![2304] : Fin 1 → Nat) a + S16.size a ≤ S4096.size a
  inb_S4096_S16_3328 : ∀ a, (![3328] : Fin 1 → Nat) a + S16.size a ≤ S4096.size a
  inb_S1024_S16_256 : ∀ a, (![256] : Fin 1 → Nat) a + S16.size a ≤ S1024.size a
  inb_S4096_S16_272 : ∀ a, (![272] : Fin 1 → Nat) a + S16.size a ≤ S4096.size a
  inb_S4096_S16_1296 : ∀ a, (![1296] : Fin 1 → Nat) a + S16.size a ≤ S4096.size a
  inb_S4096_S16_2320 : ∀ a, (![2320] : Fin 1 → Nat) a + S16.size a ≤ S4096.size a
  inb_S4096_S16_3344 : ∀ a, (![3344] : Fin 1 → Nat) a + S16.size a ≤ S4096.size a
  inb_S1024_S16_272 : ∀ a, (![272] : Fin 1 → Nat) a + S16.size a ≤ S1024.size a
  inb_S4096_S16_288 : ∀ a, (![288] : Fin 1 → Nat) a + S16.size a ≤ S4096.size a
  inb_S4096_S16_1312 : ∀ a, (![1312] : Fin 1 → Nat) a + S16.size a ≤ S4096.size a
  inb_S4096_S16_2336 : ∀ a, (![2336] : Fin 1 → Nat) a + S16.size a ≤ S4096.size a
  inb_S4096_S16_3360 : ∀ a, (![3360] : Fin 1 → Nat) a + S16.size a ≤ S4096.size a
  inb_S1024_S16_288 : ∀ a, (![288] : Fin 1 → Nat) a + S16.size a ≤ S1024.size a
  inb_S4096_S16_304 : ∀ a, (![304] : Fin 1 → Nat) a + S16.size a ≤ S4096.size a
  inb_S4096_S16_1328 : ∀ a, (![1328] : Fin 1 → Nat) a + S16.size a ≤ S4096.size a
  inb_S4096_S16_2352 : ∀ a, (![2352] : Fin 1 → Nat) a + S16.size a ≤ S4096.size a
  inb_S4096_S16_3376 : ∀ a, (![3376] : Fin 1 → Nat) a + S16.size a ≤ S4096.size a
  inb_S1024_S16_304 : ∀ a, (![304] : Fin 1 → Nat) a + S16.size a ≤ S1024.size a
  inb_S4096_S16_320 : ∀ a, (![320] : Fin 1 → Nat) a + S16.size a ≤ S4096.size a
  inb_S4096_S16_1344 : ∀ a, (![1344] : Fin 1 → Nat) a + S16.size a ≤ S4096.size a
  inb_S4096_S16_2368 : ∀ a, (![2368] : Fin 1 → Nat) a + S16.size a ≤ S4096.size a
  inb_S4096_S16_3392 : ∀ a, (![3392] : Fin 1 → Nat) a + S16.size a ≤ S4096.size a
  inb_S1024_S16_320 : ∀ a, (![320] : Fin 1 → Nat) a + S16.size a ≤ S1024.size a
  inb_S4096_S16_336 : ∀ a, (![336] : Fin 1 → Nat) a + S16.size a ≤ S4096.size a
  inb_S4096_S16_1360 : ∀ a, (![1360] : Fin 1 → Nat) a + S16.size a ≤ S4096.size a
  inb_S4096_S16_2384 : ∀ a, (![2384] : Fin 1 → Nat) a + S16.size a ≤ S4096.size a
  inb_S4096_S16_3408 : ∀ a, (![3408] : Fin 1 → Nat) a + S16.size a ≤ S4096.size a
  inb_S1024_S16_336 : ∀ a, (![336] : Fin 1 → Nat) a + S16.size a ≤ S1024.size a
  inb_S4096_S16_352 : ∀ a, (![352] : Fin 1 → Nat) a + S16.size a ≤ S4096.size a
  inb_S4096_S16_1376 : ∀ a, (![1376] : Fin 1 → Nat) a + S16.size a ≤ S4096.size a
  inb_S4096_S16_2400 : ∀ a, (![2400] : Fin 1 → Nat) a + S16.size a ≤ S4096.size a
  inb_S4096_S16_3424 : ∀ a, (![3424] : Fin 1 → Nat) a + S16.size a ≤ S4096.size a
  inb_S1024_S16_352 : ∀ a, (![352] : Fin 1 → Nat) a + S16.size a ≤ S1024.size a
  inb_S4096_S16_368 : ∀ a, (![368] : Fin 1 → Nat) a + S16.size a ≤ S4096.size a
  inb_S4096_S16_1392 : ∀ a, (![1392] : Fin 1 → Nat) a + S16.size a ≤ S4096.size a
  inb_S4096_S16_2416 : ∀ a, (![2416] : Fin 1 → Nat) a + S16.size a ≤ S4096.size a
  inb_S4096_S16_3440 : ∀ a, (![3440] : Fin 1 → Nat) a + S16.size a ≤ S4096.size a
  inb_S1024_S16_368 : ∀ a, (![368] : Fin 1 → Nat) a + S16.size a ≤ S1024.size a
  inb_S4096_S16_384 : ∀ a, (![384] : Fin 1 → Nat) a + S16.size a ≤ S4096.size a
  inb_S4096_S16_1408 : ∀ a, (![1408] : Fin 1 → Nat) a + S16.size a ≤ S4096.size a
  inb_S4096_S16_2432 : ∀ a, (![2432] : Fin 1 → Nat) a + S16.size a ≤ S4096.size a
  inb_S4096_S16_3456 : ∀ a, (![3456] : Fin 1 → Nat) a + S16.size a ≤ S4096.size a
  inb_S1024_S16_384 : ∀ a, (![384] : Fin 1 → Nat) a + S16.size a ≤ S1024.size a
  inb_S4096_S16_400 : ∀ a, (![400] : Fin 1 → Nat) a + S16.size a ≤ S4096.size a
  inb_S4096_S16_1424 : ∀ a, (![1424] : Fin 1 → Nat) a + S16.size a ≤ S4096.size a
  inb_S4096_S16_2448 : ∀ a, (![2448] : Fin 1 → Nat) a + S16.size a ≤ S4096.size a
  inb_S4096_S16_3472 : ∀ a, (![3472] : Fin 1 → Nat) a + S16.size a ≤ S4096.size a
  inb_S1024_S16_400 : ∀ a, (![400] : Fin 1 → Nat) a + S16.size a ≤ S1024.size a
  inb_S4096_S16_416 : ∀ a, (![416] : Fin 1 → Nat) a + S16.size a ≤ S4096.size a
  inb_S4096_S16_1440 : ∀ a, (![1440] : Fin 1 → Nat) a + S16.size a ≤ S4096.size a
  inb_S4096_S16_2464 : ∀ a, (![2464] : Fin 1 → Nat) a + S16.size a ≤ S4096.size a
  inb_S4096_S16_3488 : ∀ a, (![3488] : Fin 1 → Nat) a + S16.size a ≤ S4096.size a
  inb_S1024_S16_416 : ∀ a, (![416] : Fin 1 → Nat) a + S16.size a ≤ S1024.size a
  inb_S4096_S16_432 : ∀ a, (![432] : Fin 1 → Nat) a + S16.size a ≤ S4096.size a
  inb_S4096_S16_1456 : ∀ a, (![1456] : Fin 1 → Nat) a + S16.size a ≤ S4096.size a
  inb_S4096_S16_2480 : ∀ a, (![2480] : Fin 1 → Nat) a + S16.size a ≤ S4096.size a
  inb_S4096_S16_3504 : ∀ a, (![3504] : Fin 1 → Nat) a + S16.size a ≤ S4096.size a
  inb_S1024_S16_432 : ∀ a, (![432] : Fin 1 → Nat) a + S16.size a ≤ S1024.size a
  inb_S4096_S16_448 : ∀ a, (![448] : Fin 1 → Nat) a + S16.size a ≤ S4096.size a
  inb_S4096_S16_1472 : ∀ a, (![1472] : Fin 1 → Nat) a + S16.size a ≤ S4096.size a
  inb_S4096_S16_2496 : ∀ a, (![2496] : Fin 1 → Nat) a + S16.size a ≤ S4096.size a
  inb_S4096_S16_3520 : ∀ a, (![3520] : Fin 1 → Nat) a + S16.size a ≤ S4096.size a
  inb_S1024_S16_448 : ∀ a, (![448] : Fin 1 → Nat) a + S16.size a ≤ S1024.size a
  inb_S4096_S16_464 : ∀ a, (![464] : Fin 1 → Nat) a + S16.size a ≤ S4096.size a
  inb_S4096_S16_1488 : ∀ a, (![1488] : Fin 1 → Nat) a + S16.size a ≤ S4096.size a
  inb_S4096_S16_2512 : ∀ a, (![2512] : Fin 1 → Nat) a + S16.size a ≤ S4096.size a
  inb_S4096_S16_3536 : ∀ a, (![3536] : Fin 1 → Nat) a + S16.size a ≤ S4096.size a
  inb_S1024_S16_464 : ∀ a, (![464] : Fin 1 → Nat) a + S16.size a ≤ S1024.size a
  inb_S4096_S16_480 : ∀ a, (![480] : Fin 1 → Nat) a + S16.size a ≤ S4096.size a
  inb_S4096_S16_1504 : ∀ a, (![1504] : Fin 1 → Nat) a + S16.size a ≤ S4096.size a
  inb_S4096_S16_2528 : ∀ a, (![2528] : Fin 1 → Nat) a + S16.size a ≤ S4096.size a
  inb_S4096_S16_3552 : ∀ a, (![3552] : Fin 1 → Nat) a + S16.size a ≤ S4096.size a
  inb_S1024_S16_480 : ∀ a, (![480] : Fin 1 → Nat) a + S16.size a ≤ S1024.size a
  inb_S4096_S16_496 : ∀ a, (![496] : Fin 1 → Nat) a + S16.size a ≤ S4096.size a
  inb_S4096_S16_1520 : ∀ a, (![1520] : Fin 1 → Nat) a + S16.size a ≤ S4096.size a
  inb_S4096_S16_2544 : ∀ a, (![2544] : Fin 1 → Nat) a + S16.size a ≤ S4096.size a
  inb_S4096_S16_3568 : ∀ a, (![3568] : Fin 1 → Nat) a + S16.size a ≤ S4096.size a
  inb_S1024_S16_496 : ∀ a, (![496] : Fin 1 → Nat) a + S16.size a ≤ S1024.size a
  inb_S4096_S16_512 : ∀ a, (![512] : Fin 1 → Nat) a + S16.size a ≤ S4096.size a
  inb_S4096_S16_1536 : ∀ a, (![1536] : Fin 1 → Nat) a + S16.size a ≤ S4096.size a
  inb_S4096_S16_2560 : ∀ a, (![2560] : Fin 1 → Nat) a + S16.size a ≤ S4096.size a
  inb_S4096_S16_3584 : ∀ a, (![3584] : Fin 1 → Nat) a + S16.size a ≤ S4096.size a
  inb_S1024_S16_512 : ∀ a, (![512] : Fin 1 → Nat) a + S16.size a ≤ S1024.size a
  inb_S4096_S16_528 : ∀ a, (![528] : Fin 1 → Nat) a + S16.size a ≤ S4096.size a
  inb_S4096_S16_1552 : ∀ a, (![1552] : Fin 1 → Nat) a + S16.size a ≤ S4096.size a
  inb_S4096_S16_2576 : ∀ a, (![2576] : Fin 1 → Nat) a + S16.size a ≤ S4096.size a
  inb_S4096_S16_3600 : ∀ a, (![3600] : Fin 1 → Nat) a + S16.size a ≤ S4096.size a
  inb_S1024_S16_528 : ∀ a, (![528] : Fin 1 → Nat) a + S16.size a ≤ S1024.size a
  inb_S4096_S16_544 : ∀ a, (![544] : Fin 1 → Nat) a + S16.size a ≤ S4096.size a
  inb_S4096_S16_1568 : ∀ a, (![1568] : Fin 1 → Nat) a + S16.size a ≤ S4096.size a
  inb_S4096_S16_2592 : ∀ a, (![2592] : Fin 1 → Nat) a + S16.size a ≤ S4096.size a
  inb_S4096_S16_3616 : ∀ a, (![3616] : Fin 1 → Nat) a + S16.size a ≤ S4096.size a
  inb_S1024_S16_544 : ∀ a, (![544] : Fin 1 → Nat) a + S16.size a ≤ S1024.size a
  inb_S4096_S16_560 : ∀ a, (![560] : Fin 1 → Nat) a + S16.size a ≤ S4096.size a
  inb_S4096_S16_1584 : ∀ a, (![1584] : Fin 1 → Nat) a + S16.size a ≤ S4096.size a
  inb_S4096_S16_2608 : ∀ a, (![2608] : Fin 1 → Nat) a + S16.size a ≤ S4096.size a
  inb_S4096_S16_3632 : ∀ a, (![3632] : Fin 1 → Nat) a + S16.size a ≤ S4096.size a
  inb_S1024_S16_560 : ∀ a, (![560] : Fin 1 → Nat) a + S16.size a ≤ S1024.size a
  inb_S4096_S16_576 : ∀ a, (![576] : Fin 1 → Nat) a + S16.size a ≤ S4096.size a
  inb_S4096_S16_1600 : ∀ a, (![1600] : Fin 1 → Nat) a + S16.size a ≤ S4096.size a
  inb_S4096_S16_2624 : ∀ a, (![2624] : Fin 1 → Nat) a + S16.size a ≤ S4096.size a
  inb_S4096_S16_3648 : ∀ a, (![3648] : Fin 1 → Nat) a + S16.size a ≤ S4096.size a
  inb_S1024_S16_576 : ∀ a, (![576] : Fin 1 → Nat) a + S16.size a ≤ S1024.size a
  inb_S4096_S16_592 : ∀ a, (![592] : Fin 1 → Nat) a + S16.size a ≤ S4096.size a
  inb_S4096_S16_1616 : ∀ a, (![1616] : Fin 1 → Nat) a + S16.size a ≤ S4096.size a
  inb_S4096_S16_2640 : ∀ a, (![2640] : Fin 1 → Nat) a + S16.size a ≤ S4096.size a
  inb_S4096_S16_3664 : ∀ a, (![3664] : Fin 1 → Nat) a + S16.size a ≤ S4096.size a
  inb_S1024_S16_592 : ∀ a, (![592] : Fin 1 → Nat) a + S16.size a ≤ S1024.size a
  inb_S4096_S16_608 : ∀ a, (![608] : Fin 1 → Nat) a + S16.size a ≤ S4096.size a
  inb_S4096_S16_1632 : ∀ a, (![1632] : Fin 1 → Nat) a + S16.size a ≤ S4096.size a
  inb_S4096_S16_2656 : ∀ a, (![2656] : Fin 1 → Nat) a + S16.size a ≤ S4096.size a
  inb_S4096_S16_3680 : ∀ a, (![3680] : Fin 1 → Nat) a + S16.size a ≤ S4096.size a
  inb_S1024_S16_608 : ∀ a, (![608] : Fin 1 → Nat) a + S16.size a ≤ S1024.size a
  inb_S4096_S16_624 : ∀ a, (![624] : Fin 1 → Nat) a + S16.size a ≤ S4096.size a
  inb_S4096_S16_1648 : ∀ a, (![1648] : Fin 1 → Nat) a + S16.size a ≤ S4096.size a
  inb_S4096_S16_2672 : ∀ a, (![2672] : Fin 1 → Nat) a + S16.size a ≤ S4096.size a
  inb_S4096_S16_3696 : ∀ a, (![3696] : Fin 1 → Nat) a + S16.size a ≤ S4096.size a
  inb_S1024_S16_624 : ∀ a, (![624] : Fin 1 → Nat) a + S16.size a ≤ S1024.size a
  inb_S4096_S16_640 : ∀ a, (![640] : Fin 1 → Nat) a + S16.size a ≤ S4096.size a
  inb_S4096_S16_1664 : ∀ a, (![1664] : Fin 1 → Nat) a + S16.size a ≤ S4096.size a
  inb_S4096_S16_2688 : ∀ a, (![2688] : Fin 1 → Nat) a + S16.size a ≤ S4096.size a
  inb_S4096_S16_3712 : ∀ a, (![3712] : Fin 1 → Nat) a + S16.size a ≤ S4096.size a
  inb_S1024_S16_640 : ∀ a, (![640] : Fin 1 → Nat) a + S16.size a ≤ S1024.size a
  inb_S4096_S16_656 : ∀ a, (![656] : Fin 1 → Nat) a + S16.size a ≤ S4096.size a
  inb_S4096_S16_1680 : ∀ a, (![1680] : Fin 1 → Nat) a + S16.size a ≤ S4096.size a
  inb_S4096_S16_2704 : ∀ a, (![2704] : Fin 1 → Nat) a + S16.size a ≤ S4096.size a
  inb_S4096_S16_3728 : ∀ a, (![3728] : Fin 1 → Nat) a + S16.size a ≤ S4096.size a
  inb_S1024_S16_656 : ∀ a, (![656] : Fin 1 → Nat) a + S16.size a ≤ S1024.size a
  inb_S4096_S16_672 : ∀ a, (![672] : Fin 1 → Nat) a + S16.size a ≤ S4096.size a
  inb_S4096_S16_1696 : ∀ a, (![1696] : Fin 1 → Nat) a + S16.size a ≤ S4096.size a
  inb_S4096_S16_2720 : ∀ a, (![2720] : Fin 1 → Nat) a + S16.size a ≤ S4096.size a
  inb_S4096_S16_3744 : ∀ a, (![3744] : Fin 1 → Nat) a + S16.size a ≤ S4096.size a
  inb_S1024_S16_672 : ∀ a, (![672] : Fin 1 → Nat) a + S16.size a ≤ S1024.size a
  inb_S4096_S16_688 : ∀ a, (![688] : Fin 1 → Nat) a + S16.size a ≤ S4096.size a
  inb_S4096_S16_1712 : ∀ a, (![1712] : Fin 1 → Nat) a + S16.size a ≤ S4096.size a
  inb_S4096_S16_2736 : ∀ a, (![2736] : Fin 1 → Nat) a + S16.size a ≤ S4096.size a
  inb_S4096_S16_3760 : ∀ a, (![3760] : Fin 1 → Nat) a + S16.size a ≤ S4096.size a
  inb_S1024_S16_688 : ∀ a, (![688] : Fin 1 → Nat) a + S16.size a ≤ S1024.size a
  inb_S4096_S16_704 : ∀ a, (![704] : Fin 1 → Nat) a + S16.size a ≤ S4096.size a
  inb_S4096_S16_1728 : ∀ a, (![1728] : Fin 1 → Nat) a + S16.size a ≤ S4096.size a
  inb_S4096_S16_2752 : ∀ a, (![2752] : Fin 1 → Nat) a + S16.size a ≤ S4096.size a
  inb_S4096_S16_3776 : ∀ a, (![3776] : Fin 1 → Nat) a + S16.size a ≤ S4096.size a
  inb_S1024_S16_704 : ∀ a, (![704] : Fin 1 → Nat) a + S16.size a ≤ S1024.size a
  inb_S4096_S16_720 : ∀ a, (![720] : Fin 1 → Nat) a + S16.size a ≤ S4096.size a
  inb_S4096_S16_1744 : ∀ a, (![1744] : Fin 1 → Nat) a + S16.size a ≤ S4096.size a
  inb_S4096_S16_2768 : ∀ a, (![2768] : Fin 1 → Nat) a + S16.size a ≤ S4096.size a
  inb_S4096_S16_3792 : ∀ a, (![3792] : Fin 1 → Nat) a + S16.size a ≤ S4096.size a
  inb_S1024_S16_720 : ∀ a, (![720] : Fin 1 → Nat) a + S16.size a ≤ S1024.size a
  inb_S4096_S16_736 : ∀ a, (![736] : Fin 1 → Nat) a + S16.size a ≤ S4096.size a
  inb_S4096_S16_1760 : ∀ a, (![1760] : Fin 1 → Nat) a + S16.size a ≤ S4096.size a
  inb_S4096_S16_2784 : ∀ a, (![2784] : Fin 1 → Nat) a + S16.size a ≤ S4096.size a
  inb_S4096_S16_3808 : ∀ a, (![3808] : Fin 1 → Nat) a + S16.size a ≤ S4096.size a
  inb_S1024_S16_736 : ∀ a, (![736] : Fin 1 → Nat) a + S16.size a ≤ S1024.size a
  inb_S4096_S16_752 : ∀ a, (![752] : Fin 1 → Nat) a + S16.size a ≤ S4096.size a
  inb_S4096_S16_1776 : ∀ a, (![1776] : Fin 1 → Nat) a + S16.size a ≤ S4096.size a
  inb_S4096_S16_2800 : ∀ a, (![2800] : Fin 1 → Nat) a + S16.size a ≤ S4096.size a
  inb_S4096_S16_3824 : ∀ a, (![3824] : Fin 1 → Nat) a + S16.size a ≤ S4096.size a
  inb_S1024_S16_752 : ∀ a, (![752] : Fin 1 → Nat) a + S16.size a ≤ S1024.size a
  inb_S4096_S16_768 : ∀ a, (![768] : Fin 1 → Nat) a + S16.size a ≤ S4096.size a
  inb_S4096_S16_1792 : ∀ a, (![1792] : Fin 1 → Nat) a + S16.size a ≤ S4096.size a
  inb_S4096_S16_2816 : ∀ a, (![2816] : Fin 1 → Nat) a + S16.size a ≤ S4096.size a
  inb_S4096_S16_3840 : ∀ a, (![3840] : Fin 1 → Nat) a + S16.size a ≤ S4096.size a
  inb_S1024_S16_768 : ∀ a, (![768] : Fin 1 → Nat) a + S16.size a ≤ S1024.size a
  inb_S4096_S16_784 : ∀ a, (![784] : Fin 1 → Nat) a + S16.size a ≤ S4096.size a
  inb_S4096_S16_1808 : ∀ a, (![1808] : Fin 1 → Nat) a + S16.size a ≤ S4096.size a
  inb_S4096_S16_2832 : ∀ a, (![2832] : Fin 1 → Nat) a + S16.size a ≤ S4096.size a
  inb_S4096_S16_3856 : ∀ a, (![3856] : Fin 1 → Nat) a + S16.size a ≤ S4096.size a
  inb_S1024_S16_784 : ∀ a, (![784] : Fin 1 → Nat) a + S16.size a ≤ S1024.size a
  inb_S4096_S16_800 : ∀ a, (![800] : Fin 1 → Nat) a + S16.size a ≤ S4096.size a
  inb_S4096_S16_1824 : ∀ a, (![1824] : Fin 1 → Nat) a + S16.size a ≤ S4096.size a
  inb_S4096_S16_2848 : ∀ a, (![2848] : Fin 1 → Nat) a + S16.size a ≤ S4096.size a
  inb_S4096_S16_3872 : ∀ a, (![3872] : Fin 1 → Nat) a + S16.size a ≤ S4096.size a
  inb_S1024_S16_800 : ∀ a, (![800] : Fin 1 → Nat) a + S16.size a ≤ S1024.size a
  inb_S4096_S16_816 : ∀ a, (![816] : Fin 1 → Nat) a + S16.size a ≤ S4096.size a
  inb_S4096_S16_1840 : ∀ a, (![1840] : Fin 1 → Nat) a + S16.size a ≤ S4096.size a
  inb_S4096_S16_2864 : ∀ a, (![2864] : Fin 1 → Nat) a + S16.size a ≤ S4096.size a
  inb_S4096_S16_3888 : ∀ a, (![3888] : Fin 1 → Nat) a + S16.size a ≤ S4096.size a
  inb_S1024_S16_816 : ∀ a, (![816] : Fin 1 → Nat) a + S16.size a ≤ S1024.size a
  inb_S4096_S16_832 : ∀ a, (![832] : Fin 1 → Nat) a + S16.size a ≤ S4096.size a
  inb_S4096_S16_1856 : ∀ a, (![1856] : Fin 1 → Nat) a + S16.size a ≤ S4096.size a
  inb_S4096_S16_2880 : ∀ a, (![2880] : Fin 1 → Nat) a + S16.size a ≤ S4096.size a
  inb_S4096_S16_3904 : ∀ a, (![3904] : Fin 1 → Nat) a + S16.size a ≤ S4096.size a
  inb_S1024_S16_832 : ∀ a, (![832] : Fin 1 → Nat) a + S16.size a ≤ S1024.size a
  inb_S4096_S16_848 : ∀ a, (![848] : Fin 1 → Nat) a + S16.size a ≤ S4096.size a
  inb_S4096_S16_1872 : ∀ a, (![1872] : Fin 1 → Nat) a + S16.size a ≤ S4096.size a
  inb_S4096_S16_2896 : ∀ a, (![2896] : Fin 1 → Nat) a + S16.size a ≤ S4096.size a
  inb_S4096_S16_3920 : ∀ a, (![3920] : Fin 1 → Nat) a + S16.size a ≤ S4096.size a
  inb_S1024_S16_848 : ∀ a, (![848] : Fin 1 → Nat) a + S16.size a ≤ S1024.size a
  inb_S4096_S16_864 : ∀ a, (![864] : Fin 1 → Nat) a + S16.size a ≤ S4096.size a
  inb_S4096_S16_1888 : ∀ a, (![1888] : Fin 1 → Nat) a + S16.size a ≤ S4096.size a
  inb_S4096_S16_2912 : ∀ a, (![2912] : Fin 1 → Nat) a + S16.size a ≤ S4096.size a
  inb_S4096_S16_3936 : ∀ a, (![3936] : Fin 1 → Nat) a + S16.size a ≤ S4096.size a
  inb_S1024_S16_864 : ∀ a, (![864] : Fin 1 → Nat) a + S16.size a ≤ S1024.size a
  inb_S4096_S16_880 : ∀ a, (![880] : Fin 1 → Nat) a + S16.size a ≤ S4096.size a
  inb_S4096_S16_1904 : ∀ a, (![1904] : Fin 1 → Nat) a + S16.size a ≤ S4096.size a
  inb_S4096_S16_2928 : ∀ a, (![2928] : Fin 1 → Nat) a + S16.size a ≤ S4096.size a
  inb_S4096_S16_3952 : ∀ a, (![3952] : Fin 1 → Nat) a + S16.size a ≤ S4096.size a
  inb_S1024_S16_880 : ∀ a, (![880] : Fin 1 → Nat) a + S16.size a ≤ S1024.size a
  inb_S4096_S16_896 : ∀ a, (![896] : Fin 1 → Nat) a + S16.size a ≤ S4096.size a
  inb_S4096_S16_1920 : ∀ a, (![1920] : Fin 1 → Nat) a + S16.size a ≤ S4096.size a
  inb_S4096_S16_2944 : ∀ a, (![2944] : Fin 1 → Nat) a + S16.size a ≤ S4096.size a
  inb_S4096_S16_3968 : ∀ a, (![3968] : Fin 1 → Nat) a + S16.size a ≤ S4096.size a
  inb_S1024_S16_896 : ∀ a, (![896] : Fin 1 → Nat) a + S16.size a ≤ S1024.size a
  inb_S4096_S16_912 : ∀ a, (![912] : Fin 1 → Nat) a + S16.size a ≤ S4096.size a
  inb_S4096_S16_1936 : ∀ a, (![1936] : Fin 1 → Nat) a + S16.size a ≤ S4096.size a
  inb_S4096_S16_2960 : ∀ a, (![2960] : Fin 1 → Nat) a + S16.size a ≤ S4096.size a
  inb_S4096_S16_3984 : ∀ a, (![3984] : Fin 1 → Nat) a + S16.size a ≤ S4096.size a
  inb_S1024_S16_912 : ∀ a, (![912] : Fin 1 → Nat) a + S16.size a ≤ S1024.size a
  inb_S4096_S16_928 : ∀ a, (![928] : Fin 1 → Nat) a + S16.size a ≤ S4096.size a
  inb_S4096_S16_1952 : ∀ a, (![1952] : Fin 1 → Nat) a + S16.size a ≤ S4096.size a
  inb_S4096_S16_2976 : ∀ a, (![2976] : Fin 1 → Nat) a + S16.size a ≤ S4096.size a
  inb_S4096_S16_4000 : ∀ a, (![4000] : Fin 1 → Nat) a + S16.size a ≤ S4096.size a
  inb_S1024_S16_928 : ∀ a, (![928] : Fin 1 → Nat) a + S16.size a ≤ S1024.size a
  inb_S4096_S16_944 : ∀ a, (![944] : Fin 1 → Nat) a + S16.size a ≤ S4096.size a
  inb_S4096_S16_1968 : ∀ a, (![1968] : Fin 1 → Nat) a + S16.size a ≤ S4096.size a
  inb_S4096_S16_2992 : ∀ a, (![2992] : Fin 1 → Nat) a + S16.size a ≤ S4096.size a
  inb_S4096_S16_4016 : ∀ a, (![4016] : Fin 1 → Nat) a + S16.size a ≤ S4096.size a
  inb_S1024_S16_944 : ∀ a, (![944] : Fin 1 → Nat) a + S16.size a ≤ S1024.size a
  inb_S4096_S16_960 : ∀ a, (![960] : Fin 1 → Nat) a + S16.size a ≤ S4096.size a
  inb_S4096_S16_1984 : ∀ a, (![1984] : Fin 1 → Nat) a + S16.size a ≤ S4096.size a
  inb_S4096_S16_3008 : ∀ a, (![3008] : Fin 1 → Nat) a + S16.size a ≤ S4096.size a
  inb_S4096_S16_4032 : ∀ a, (![4032] : Fin 1 → Nat) a + S16.size a ≤ S4096.size a
  inb_S1024_S16_960 : ∀ a, (![960] : Fin 1 → Nat) a + S16.size a ≤ S1024.size a
  inb_S4096_S16_976 : ∀ a, (![976] : Fin 1 → Nat) a + S16.size a ≤ S4096.size a
  inb_S4096_S16_2000 : ∀ a, (![2000] : Fin 1 → Nat) a + S16.size a ≤ S4096.size a
  inb_S4096_S16_3024 : ∀ a, (![3024] : Fin 1 → Nat) a + S16.size a ≤ S4096.size a
  inb_S4096_S16_4048 : ∀ a, (![4048] : Fin 1 → Nat) a + S16.size a ≤ S4096.size a
  inb_S1024_S16_976 : ∀ a, (![976] : Fin 1 → Nat) a + S16.size a ≤ S1024.size a
  inb_S4096_S16_992 : ∀ a, (![992] : Fin 1 → Nat) a + S16.size a ≤ S4096.size a
  inb_S4096_S16_2016 : ∀ a, (![2016] : Fin 1 → Nat) a + S16.size a ≤ S4096.size a
  inb_S4096_S16_3040 : ∀ a, (![3040] : Fin 1 → Nat) a + S16.size a ≤ S4096.size a
  inb_S4096_S16_4064 : ∀ a, (![4064] : Fin 1 → Nat) a + S16.size a ≤ S4096.size a
  inb_S1024_S16_992 : ∀ a, (![992] : Fin 1 → Nat) a + S16.size a ≤ S1024.size a
  inb_S4096_S16_1008 : ∀ a, (![1008] : Fin 1 → Nat) a + S16.size a ≤ S4096.size a
  inb_S4096_S16_2032 : ∀ a, (![2032] : Fin 1 → Nat) a + S16.size a ≤ S4096.size a
  inb_S4096_S16_3056 : ∀ a, (![3056] : Fin 1 → Nat) a + S16.size a ≤ S4096.size a
  inb_S4096_S16_4080 : ∀ a, (![4080] : Fin 1 → Nat) a + S16.size a ≤ S4096.size a
  inb_S1024_S16_1008 : ∀ a, (![1008] : Fin 1 → Nat) a + S16.size a ≤ S1024.size a
  squeezes_S1x1024_S1024 : S1x1024.Squeezes S1024
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  h_S4096 : 0 < S4096.numel
  shapeCasts_S4096_S4096x1 : S4096.ShapeCasts S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S32x4096_S32x1024_S4096x1024_0_0_1_1_n_n_wf : DotDims.WF S32x4096 S32x1024 S4096x1024 [0] [0] [1] [1] [] []
  hcc0_scratch3 : 0 + S_.numel ≤ 11
  hcc0_scoped0 : 1 + S_.numel ≤ 11
  hcc0_scoped1 : 2 + S_.numel ≤ 11
  hcc0_scoped2 : 3 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x100000.size a ≤ S32x100000.size a
  k0_off2_inb : ∀ i : grid0.Coords, ∀ a, (k0_off2 i) a + S1x1024.size a ≤ S32x1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S32x4096.size a < S32x100000.size a
  hwx1_0 : ∀ i : grid1.Coords, EltTy.bits .f32 = 32 ∨ (Rect.unit (s := S32x100000) (fun a => cc1_transform_0 i a * S32x4096.size a) (fun a => (Pipeline.Clip.of (cc1_transform_0 i a) (S32x4096.size a) (S32x100000.size a)).extent (S32x4096.size a)) fun a => Pipeline.Clip.inb (Pipeline.Clip.ok_of (hstart1_0 i a))).WholeWords (EltTy.packing .f32)
  hwxs1_0 : ∀ i : grid1.Coords, EltTy.bits .f32 = 32 ∨ (Rect.unit (s := S32x4096) (fun _ => 0) (fun a => (Pipeline.Clip.of (cc1_transform_0 i a) (S32x4096.size a) (S32x100000.size a)).extent (S32x4096.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1024.size a
  hwx1_1 : ∀ i : grid1.Coords, EltTy.bits .f32 = 32 ∨ (Rect.block (s := S32x1024) S32x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096.size a < S100000.size a
  hwx1_2 : ∀ i : grid1.Coords, EltTy.bits .f32 = 32 ∨ (Rect.unit (s := S100000) (fun a => cc1_transform_2 i a * S4096.size a) (fun a => (Pipeline.Clip.of (cc1_transform_2 i a) (S4096.size a) (S100000.size a)).extent (S4096.size a)) fun a => Pipeline.Clip.inb (Pipeline.Clip.ok_of (hstart1_2 i a))).WholeWords (EltTy.packing .f32)
  hwxs1_2 : ∀ i : grid1.Coords, EltTy.bits .f32 = 32 ∨ (Rect.unit (s := S4096) (fun _ => 0) (fun a => (Pipeline.Clip.of (cc1_transform_2 i a) (S4096.size a) (S100000.size a)).extent (S4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x1024.size a < S100000x1024.size a
  hwx1_3 : ∀ i : grid1.Coords, EltTy.bits .f32 = 32 ∨ (Rect.unit (s := S100000x1024) (fun a => cc1_transform_3 i a * S4096x1024.size a) (fun a => (Pipeline.Clip.of (cc1_transform_3 i a) (S4096x1024.size a) (S100000x1024.size a)).extent (S4096x1024.size a)) fun a => Pipeline.Clip.inb (Pipeline.Clip.ok_of (hstart1_3 i a))).WholeWords (EltTy.packing .f32)
  hwxs1_3 : ∀ i : grid1.Coords, EltTy.bits .f32 = 32 ∨ (Rect.unit (s := S4096x1024) (fun _ => 0) (fun a => (Pipeline.Clip.of (cc1_transform_3 i a) (S4096x1024.size a) (S100000x1024.size a)).extent (S4096x1024.size a)) fun a => (Nat.zero_add _).trans_le (Pipeline.Clip.extent_le (Pipeline.Clip.ok_of (hstart1_3 i a)))).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
def dot_S32x4096_S32x1024_S4096x1024_0_0_1_1_n_n : DotDims S32x4096 S32x1024 S4096x1024 where
  lhsContracting := [0]
  rhsContracting := [0]
  lhsNonContracting := [1]
  rhsNonContracting := [1]
  lhsBatch := []
  rhsBatch := []
  wf := dot_S32x4096_S32x1024_S4096x1024_0_0_1_1_n_n_wf

abbrev win1_0 : Pipeline.Window sig grid1 :=
  Pipeline.Window.ofSpecClip (Memref.whole main_v4) S32x4096.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v3) S32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_arg3) S4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S4096x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x4 : Shape := ⟨2, ![1024, 4]⟩
abbrev S100000x32 : Shape := ⟨2, ![100000, 32]⟩
abbrev S100000 : Shape := ⟨1, ![100000]⟩
abbrev S_ : Shape := ⟨0, ![]⟩
abbrev S1024x4x1 : Shape := ⟨3, ![1024, 4, 1]⟩
abbrev S1 : Shape := ⟨1, ![1]⟩
abbrev S1x1x1 : Shape := ⟨3, ![1, 1, 1]⟩
abbrev S1024x4x32 : Shape := ⟨3, ![1024, 4, 32]⟩
abbrev S1024x32 : Shape := ⟨2, ![1024, 32]⟩
abbrev S32x100000 : Shape := ⟨2, ![32, 100000]⟩
abbrev S1024x100000 : Shape := ⟨2, ![1024, 100000]⟩
abbrev S1x100000 : Shape := ⟨2, ![1, 100000]⟩

abbrev nBuf : Space → Nat
  | .hbm => 34
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S100000x32, .f32⟩
  | .hbm, ⟨2, _⟩ => ⟨S100000x32, .f32⟩
  | .hbm, ⟨3, _⟩ => ⟨S100000, .f32⟩
  | .hbm, ⟨4, _⟩ => ⟨S_, .i32⟩
  | .hbm, ⟨5, _⟩ => ⟨S1024x4, .i32⟩
  | .hbm, ⟨6, _⟩ => ⟨S1024x4, .i1⟩
  | .hbm, ⟨7, _⟩ => ⟨S_, .i32⟩
  | .hbm, ⟨8, _⟩ => ⟨S1024x4, .i32⟩
  | .hbm, ⟨9, _⟩ => ⟨S1024x4, .i32⟩
  | .hbm, ⟨10, _⟩ => ⟨S1024x4, .i32⟩
  | .hbm, ⟨11, _⟩ => ⟨S1024x4x1, .i32⟩
  | .hbm, ⟨12, _⟩ => ⟨S1, .i32⟩
  | .hbm, ⟨13, _⟩ => ⟨S_, .i32⟩
  | .hbm, ⟨14, _⟩ => ⟨S1024x4x1, .i32⟩
  | .hbm, ⟨15, _⟩ => ⟨S1024x4x1, .i1⟩
  | .hbm, ⟨16, _⟩ => ⟨S1x1x1, .i32⟩
  | .hbm, ⟨17, _⟩ => ⟨S1024x4x1, .i32⟩
  | .hbm, ⟨18, _⟩ => ⟨S1024x4x1, .i1⟩
  | .hbm, ⟨19, _⟩ => ⟨S1024x4x1, .i1⟩
  | .hbm, ⟨20, _⟩ => ⟨S_, .i1⟩
  | .hbm, ⟨21, _⟩ => ⟨S1024x4, .i1⟩
  | .hbm, ⟨22, _⟩ => ⟨S1024x4x32, .f32⟩
  | .hbm, ⟨23, _⟩ => ⟨S1024x4x32, .i1⟩
  | .hbm, ⟨24, _⟩ => ⟨S_, .f32⟩
  | .hbm, ⟨25, _⟩ => ⟨S1024x4x32, .f32⟩
  | .hbm, ⟨26, _⟩ => ⟨S1024x4x32, .f32⟩
  | .hbm, ⟨27, _⟩ => ⟨S_, .f32⟩
  | .hbm, ⟨28, _⟩ => ⟨S1024x32, .f32⟩
  | .hbm, ⟨29, _⟩ => ⟨S32x100000, .f32⟩
  | .hbm, ⟨30, _⟩ => ⟨S1024x100000, .f32⟩
  | .hbm, ⟨31, _⟩ => ⟨S1x100000, .f32⟩
  | .hbm, ⟨32, _⟩ => ⟨S1024x100000, .f32⟩
  | .hbm, ⟨33, _⟩ => ⟨S1024x100000, .f32⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  h_S_ : 0 < S_.numel
  bcast_S1024x4_S1024x4x32_0_1 : S1024x4.BroadcastsInDim S1024x4x32 (![0, 1] : Fin 2 → Fin S1024x4x32.rank)
  bcast_S_S1024x4x32 : S_.BroadcastsInDim S1024x4x32 (![] : Fin 0 → Fin S1024x4x32.rank)
  reducesTo_S1024x4x32_S1024x32_d1 : S1024x4x32.ReducesTo [1] S1024x32
  transposes_S100000x32_S32x100000_1_0 : S100000x32.Transposes [1, 0] S32x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x32_S1024x4x1_S1024x4x32_2_0_n_n_0_2_132_wf : GatherDims.WF S100000x32 S1024x4x1 S1024x4x32 [2] [0] [] [0] [] 2 ![1, 32]
  dot_S1024x32_S32x100000_S1024x100000_1_0_0_1_n_n_wf : DotDims.WF S1024x32 S32x100000 S1024x100000 [1] [0] [0] [1] [] []

variable [Facts₀]

def gather_S100000x32_S1024x4x1_S1024x4x32_2_0_n_n_0_2_132 : GatherDims S100000x32 S1024x4x1 S1024x4x32 where
  offsetDims := [2]
  collapsedSliceDims := [0]
  operandBatchingDims := []
  startIndicesBatchingDims := []
  startIndexMap := [0]
  indexVectorDim := 2
  sliceSizes := ![1, 32]
  wf := gather_S100000x32_S1024x4x1_S1024x4x32_2_0_n_n_0_2_132_wf
def dot_S1024x32_S32x100000_S1024x100000_1_0_0_1_n_n : DotDims S1024x32 S32x100000 S1024x100000 where
  lhsContracting := [1]
  rhsContracting := [0]
  lhsNonContracting := [0]
  rhsNonContracting := [1]
  lhsBatch := []
  rhsBatch := []
  wf := dot_S1024x32_S32x100000_S1024x100000_1_0_0_1_n_n_wf

class Facts : Prop extends Facts₀ where

variable [Facts]
-- ==== Proof.Spec.lean ====
/-
  The function both programs compute, stated once over the argument arrays.

  With `idx : [1024, 4]` words naming rows of the table `T : [100000, 32]`, weights `W : [100000, 32]` and bias
  `b : [100000]`, the result at `(n, v)` is

      (∑ d, W (v, d) * (((T (idx (n,0), d) + T (idx (n,1), d)) + T (idx (n,2), d)) + T (idx (n,3), d))) + b v

  on the extended reals. Addition and multiplication there are commutative and associative, so the order in which
  either program adds the four rows, or the side on which it writes the weight, does not change the value; no
  distributive law is used, hence no finiteness. A word is read as a row number through `min · 99999`, which is
  the identity on every word the precondition allows (`InRange`); this keeps the function total with no proof argument.
-/
import Idealize.ShloMosaic.PureOps.Ideal
import Idealize.ShloMosaic.Lib.ValueIdx

noncomputable section

namespace Cert.Proof.Spec

open Idealize.ShloMosaic Idealize.ShloMosaic.ValueIdx

abbrev SIdx : Shape := ⟨2, ![1024, 4]⟩
abbrev STab : Shape := ⟨2, ![100000, 32]⟩
abbrev SBias : Shape := ⟨1, ![100000]⟩
abbrev SOut : Shape := ⟨2, ![1024, 100000]⟩

/-- Every word of the index array names a row of the table. -/
def InRange (idx : IVec SIdx 32) : Prop := ∀ i, (idx i).toNat < 100000

/-- The table row a word names. -/
def rowOf (w : BitVec 32) : Fin 100000 := ⟨min w.toNat 99999, by omega⟩

theorem rowOf_val {w : BitVec 32} (h : w.toNat < 100000) : (rowOf w).val = w.toNat := by
  show min w.toNat 99999 = w.toNat; omega

/-- The table row that context position `j` of batch entry `n` names. -/
def rowIx (idx : IVec SIdx 32) (n : Fin 1024) (j : Fin 4) : Fin 100000 := rowOf (idx (ix2 n j))

/-- The summed embedding of batch entry `n` in coordinate `d`: its four named rows added left to right. -/
def embSum (idx : IVec SIdx 32) (T : FVec Ideal STab .f32) (n : Fin 1024) (d : Fin 32) : EReal :=
  ((T (ix2 (rowIx idx n 0) d) + T (ix2 (rowIx idx n 1) d)) + T (ix2 (rowIx idx n 2) d)) + T (ix2 (rowIx idx n 3) d)

/-- The result array: the summed embedding against every weight row, plus that row's bias. -/
def out (idx : IVec SIdx 32) (T W : FVec Ideal STab .f32) (b : FVec Ideal SBias .f32) : FVec Ideal SOut .f32 :=
  fun i => (∑ d : Fin 32, W (ix2 (i 1) d) * embSum idx T (i 0) d) + b (ix1 (i 1))

theorem out_apply (idx : IVec SIdx 32) (T W : FVec Ideal STab .f32) (b : FVec Ideal SBias .f32)
    (n : Fin 1024) (v : Fin 100000) :
    out idx T W b (ix2 n v) = (∑ d : Fin 32, W (ix2 v d) * embSum idx T n d) + b (ix1 v) := rfl

end Cert.Proof.Spec

end
-- ==== Proof.PreDecode.lean ====
/-
  What the precondition says about the index words.

  The precondition is a conjunction of four tests, each a `jnp.all`: three say that every table, weight and bias
  entry is below +inf in absolute value, the fourth that every index word `w` satisfies `0 ≤ w` and `w ≤ 99999` as a
  signed word. A `jnp.all` that came out 1 had a 1 at every element, and a word in [0, 99999] signed is below 100000
  unsigned. Only the fourth conjunct is read here; the statement holds for any float instance, since the index test
  does not touch a float.
-/
import proofs.«208886_g87462714016427_cont_sun_c4_567_10_alg».proof.Pre_input_domain
import proofs.«208886_g87462714016427_cont_sun_c4_567_10_alg».proof.Proof.Spec
import Idealize.ShloMosaic.Lib.ReduceAll
import Idealize.ShloMosaic.Lib.ValueIdx

noncomputable section

namespace Cert.Proof.PreDecode

open Idealize.ShloMosaic Idealize.ShloMosaic.ValueIdx
open Cert.Proof

/-- The rank-0 shape has one index. -/
instance : Subsingleton Cert.Pre_input_domain.S_.Idx := ⟨fun a b => funext fun d => d.elim0⟩

/-- A word that is at least 0 and at most 99999 as a signed word is below 100000 as an unsigned one. -/
theorem toNat_lt_of_cmp (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, all ones, puts every index word below the table's row count. -/
theorem inRange_of_pre {F : FTy → Type} [FloatOps F] [Cert.Pre_input_domain.Facts]
    (a0 : IVec Cert.Pre_input_domain.S1024x4 32) (a1 a2 : FVec F Cert.Pre_input_domain.S100000x32 .f32)
    (a3 : FVec F Cert.Pre_input_domain.S100000 .f32)
    (h : Cert.Pre_input_domain.fn (F := F) a0 a1 a2 a3 = fun _ => 1#1) : Spec.InRange a0 := by
  have e := congrFun h ValueIdx.ix0
  dsimp only [Cert.Pre_input_domain.fn, Cert.Pre_input_domain.fn_part1] at e
  obtain ⟨-, e4⟩ := IntOp.andi_eq_one.1 e
  intro i
  have ei := Host.reduce_andi_all _ _ _ _ _ e4 i
  exact toNat_lt_of_cmp _ ei

end Cert.Proof.PreDecode

end
-- ==== Proof.RefOps.lean ====
/-
  The reference program's @main as one straight line of host operations.

  @main calls the outlined function `_take`, which itself calls `_where`; a call executes the callee's body on the
  operands, so the program is the callees' operations listed at their call sites over the buffers of each call's
  record, followed by @main's own: thirty operations in all. `main_eq` says @main is the sequence of that list;
  the three side conditions of the straight-line run (nothing scoped, every operation on TensorCore buffers) follow.
-/
import proofs.«208886_g87462714016427_cont_sun_c4_567_10_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The table argument and the index argument as `_take` receives them. -/
abbrev takeTab : TRef sig ⟨S100000x32, .f32⟩ := .of main_arg1
abbrev takeIdx : TRef sig ⟨S1024x4, .i32⟩ := .of main_arg0

/-- @main's thirty operations, in order: `_take`'s twenty-three (the seventh is `_where`'s select), then the
    zero, the sum over the context axis, the transposed weights, the product, the bias broadcast twice, the sum. -/
abbrev ops : List (HloOp τ sig (Elt F)) :=
  [ TRef.nullary main_call0.c (constantI S_ 32 0#32),
    TRef.unary main_call0.c main_call0.v0 (broadcastInDim S1024x4 ![] bcast_S_S1024x4),
    TRef.binary takeIdx main_call0.v0 main_call0.v1 (cmpi .slt),
    TRef.nullary main_call0.c_0 (constantI S_ 32 100000#32),
    TRef.unary main_call0.c_0 main_call0.v2 (broadcastInDim S1024x4 ![] bcast_S_S1024x4),
    TRef.binary takeIdx main_call0.v2 main_call0.v3 addi,
    TRef.ternary main_call0.v1 main_call0.v3 takeIdx main_call0.call0.v0 select,
    TRef.unary main_call0.call0.v0 main_call0.v5 (broadcastInDim S1024x4x1 ![0, 1] bcast_S1024x4_S1024x4x1_0_1),
    TRef.nullary main_call0.c_1 (constantI S1 32 99999#32),
    TRef.nullary main_call0.c_2 (constantI S_ 32 0#32),
    TRef.unary main_call0.c_2 main_call0.v6 (broadcastInDim S1024x4x1 ![] bcast_S_S1024x4x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x4x1 ![0, 1, 2] bcast_S1x1x1_S1024x4x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x4x1_S1024x4_d2 h_S_),
    TRef.binary takeTab main_call0.v5 main_call0.v13 (fun x i => Host.gather gather_S100000x32_S1024x4x1_S1024x4x32_2_0_n_n_0_2_132 x i),
    TRef.unary main_call0.v12 main_call0.v14 (broadcastInDim S1024x4x32 ![0, 1] bcast_S1024x4_S1024x4x32_0_1),
    TRef.nullary main_call0.cst (constant S_ .f32 0x7FC00000#32),
    TRef.unary main_call0.cst main_call0.v15 (broadcastInDim S1024x4x32 ![] bcast_S_S1024x4x32),
    TRef.ternary main_call0.v14 main_call0.v13 main_call0.v15 main_call0.v16 select,
    nullary main_cst (constant S_ .f32 0x00000000#32),
    binary main_v0 main_cst main_v1 ((fun x v => Host.reduceAdd x v reducesTo_S1024x4x32_S1024x32_d1 h_S_) : (⟨S1024x4x32, .f32⟩ : BufTy).Contents (Elt F) → (⟨S_, .f32⟩ : BufTy).Contents (Elt F) → (⟨S1024x32, .f32⟩ : BufTy).Contents (Elt F)),
    unary main_arg2 main_v2 ((transpose S32x100000 [1, 0] · transposes_S100000x32_S32x100000_1_0) : (⟨S100000x32, .f32⟩ : BufTy).Contents (Elt F) → (⟨S32x100000, .f32⟩ : BufTy).Contents (Elt F)),
    binary main_v1 main_v2 main_v3 ((fun l r => Host.dotGeneral dot_S1024x32_S32x100000_S1024x100000_1_0_0_1_n_n none l r) : (⟨S1024x32, .f32⟩ : BufTy).Contents (Elt F) → (⟨S32x100000, .f32⟩ : BufTy).Contents (Elt F) → (⟨S1024x100000, .f32⟩ : BufTy).Contents (Elt F)),
    unary main_arg3 main_v4 (broadcastInDim S1x100000 ![1] bcast_S100000_S1x100000_1 : (⟨S100000, .f32⟩ : BufTy).Contents (Elt F) → (⟨S1x100000, .f32⟩ : BufTy).Contents (Elt F)),
    unary main_v4 main_v5 (broadcastInDim S1024x100000 ![0, 1] bcast_S1x100000_S1024x100000_0_1 : (⟨S1x100000, .f32⟩ : BufTy).Contents (Elt F) → (⟨S1024x100000, .f32⟩ : BufTy).Contents (Elt F)),
    binary main_v3 main_v5 main_v6 (addf : (⟨S1024x100000, .f32⟩ : BufTy).Contents (Elt F) → (⟨S1024x100000, .f32⟩ : BufTy).Contents (Elt F) → (⟨S1024x100000, .f32⟩ : BufTy).Contents (Elt F)) ]

-- thirty binds re-associated: the rewrite under the chain recurses once per statement
set_option maxRecDepth 1024 in
/-- @main is that straight line: the two functions' bodies unfolded at their calls, and the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., binary_bufs_sub .., unary_bufs_sub .., unary_bufs_sub ..,
    binary_bufs_sub ..⟩

/-- From any memory with zero counters every weakly fair execution of @main terminates, and every TensorCore buffer
    ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefValue.lean ====
/-
  The reference's operations composed, read at an index.

  Stage by stage: the index words wrapped (a negative word gets 100000 added, through a select), broadcast to a
  trailing unit axis, tested against [0, 99999] (the test reduced by `and` over the unit axis), the table gathered
  at the start indices and the gathered rows kept where the test holds (a quiet NaN elsewhere); the four rows of a
  batch entry added from zero; that sum contracted against the transposed weights; the bias added.

  Under `Spec.InRange` a word is below 100000, hence nonnegative as a signed word: the wrap is the identity, the
  test is all ones, and the gather's clamp `min · 99999` is `Spec.rowOf`. The sum over the four context positions
  from zero is `Spec.embSum` by `0 + x = x`; the product is `Spec.out`'s sum with the two factors exchanged.
-/
import proofs.«208886_g87462714016427_cont_sun_c4_567_10_alg».proof.Proof.Spec
import proofs.«208886_g87462714016427_cont_sun_c4_567_10_alg».proof.Proof.Gen.ReferenceIdeal
import Idealize.ShloMosaic.Lib.IdealHost
import Idealize.ShloMosaic.Lib.StackMember
import Idealize.ShloMosaic.Lib.ValueLayout
import Idealize.ShloMosaic.Lib.Affine
import Idealize.ShloMosaic.Lib.Pipeline.Value

noncomputable section

open scoped BigOperators

namespace Cert.Proof.Ref

open Cert.ReferenceIdeal Cert.ReferenceIdeal.Gen Idealize.ShloMosaic Idealize.ShloMosaic.ValueIdx

/-! ## The stages -/

/-- The index words with a negative one wrapped by 100000. -/
def wrapIdx (idx : IVec S1024x4 32) : IVec S1024x4 32 :=
  select (cmpi .slt idx (broadcastInDim S1024x4 ![] bcast_S_S1024x4 (constantI S_ 32 0#32)))
    (addi idx (broadcastInDim S1024x4 ![] bcast_S_S1024x4 (constantI S_ 32 100000#32))) idx

/-- The start indices of the gather: the wrapped words with a trailing unit axis. -/
def idx3 (idx : IVec S1024x4 32) : IVec S1024x4x1 32 :=
  broadcastInDim S1024x4x1 ![0, 1] bcast_S1024x4_S1024x4x1_0_1 (wrapIdx idx)

/-- The in-range test of every start index, reduced by `and` over the unit axis. -/
def inMask (idx : IVec S1024x4 32) : IVec S1024x4 1 :=
  Host.reduce IntOp.andi
    (andi (cmpi .sge (idx3 idx) (broadcastInDim S1024x4x1 ![] bcast_S_S1024x4x1 (constantI S_ 32 0#32)))
      (cmpi .sle (idx3 idx) (broadcastInDim S1024x4x1 ![0, 1, 2] bcast_S1x1x1_S1024x4x1_0_1_2
        (broadcastInDim S1x1x1 ![2] bcast_S1_S1x1x1_2 (constantI S1 32 99999#32)))))
    (constantI S_ 1 1#1) reducesTo_S1024x4x1_S1024x4_d2 h_S_

/-- The gathered rows, a quiet NaN where the test fails. -/
def taken (idx : IVec S1024x4 32) (T : FVec Ideal S100000x32 .f32) : FVec Ideal S1024x4x32 .f32 :=
  select (broadcastInDim S1024x4x32 ![0, 1] bcast_S1024x4_S1024x4x32_0_1 (inMask idx))
    (Host.gather gather_S100000x32_S1024x4x1_S1024x4x32_2_0_n_n_0_2_132 T (idx3 idx))
    (broadcastInDim S1024x4x32 ![] bcast_S_S1024x4x32 (constant S_ .f32 0x7FC00000#32))

/-- The four rows of each batch entry added, from zero. -/
def emb (idx : IVec S1024x4 32) (T : FVec Ideal S100000x32 .f32) : FVec Ideal S1024x32 .f32 :=
  Host.reduceAdd (taken idx T) (constant S_ .f32 0x00000000#32) reducesTo_S1024x4x32_S1024x32_d1 h_S_

/-- The reference's result as one function of its four arguments. -/
def val (idx : IVec S1024x4 32) (T W : FVec Ideal S100000x32 .f32) (b : FVec Ideal S100000 .f32) :
    FVec Ideal S1024x100000 .f32 :=
  addf (Host.dotGeneral dot_S1024x32_S32x100000_S1024x100000_1_0_0_1_n_n none (emb idx T)
      (transpose S32x100000 [1, 0] W transposes_S100000x32_S32x100000_1_0))
    (broadcastInDim S1024x100000 ![0, 1] bcast_S1x100000_S1024x100000_0_1
      (broadcastInDim S1x100000 ![1] bcast_S100000_S1x100000_1 b))

/-! ## Words below 100000 -/

/-- A word below 100000 reads the same signed and unsigned. -/
theorem toInt_of_lt {w : BitVec 32} (h : w.toNat < 100000) : w.toInt = (w.toNat : Int) :=
  BitVec.toInt_eq_toNat_of_lt (by omega)

/-- A fold by `and` from 1 over words that are all 1 is 1. -/
theorem foldl_andi_one {ι : Type} (f : ι → BitVec 1) (hf : ∀ n, f n = 1#1) :
    ∀ (l : List ι) (acc : BitVec 1), acc = 1#1 → l.foldl (fun r n => IntOp.andi r (f n)) acc = 1#1
  | [], _, h => h
  | a :: l, acc, h => by
    rw [List.foldl_cons]
    exact foldl_andi_one f hf l _ (by rw [h, hf a]; rfl)

/-- A reduction by `and`, from 1, of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl]
  exact foldl_andi_one x hx _ _ (hi _)

/-! ## The stages at an index -/

variable {idx : IVec S1024x4 32}

/-- In range, the wrap changes nothing. -/
theorem wrapIdx_apply (h : Spec.InRange idx) (i : S1024x4.Idx) : wrapIdx idx i = idx i := by
  have hlt := h i
  have hc : IntOp.cmpi .slt (idx i) 0#32 = 0#1 := eq_zero_of_ne_one (by
    rw [IntOp.cmpi_slt, toInt_of_lt hlt, show (0#32 : BitVec 32).toInt = 0 from rfl]; omega)
  show Scalar.select (IntOp.cmpi .slt (idx i) 0#32) _ (idx i) = idx i
  rw [hc, select_zero]

/-- The start index of `(n, j)` is the word at `(n, j)`. -/
theorem idx3_apply (h : Spec.InRange idx) (n : Fin 1024) (j : Fin 4) (u : Fin 1) : idx3 idx (ix3 n j u) = idx (ix2 n j) := by
  unfold idx3
  rw [broadcastInDim_apply _ _ _ (ix3 n j u) (ix2 n j) (fun a => match a with | ⟨0, _⟩ => rfl | ⟨1, _⟩ => rfl),
    wrapIdx_apply h]

theorem idx3_lt (h : Spec.InRange idx) (i : S1024x4x1.Idx) : (idx3 idx i).toNat < 100000 := by
  obtain ⟨a, b, c, rfl⟩ : ∃ (a : Fin 1024) (b : Fin 4) (c : Fin 1), i = ix3 a b c := ⟨i 0, i 1, i 2, eq_ix3 i⟩
  rw [idx3_apply h]; exact h _

/-- In range, the test holds everywhere. -/
theorem inMask_eq_one (h : Spec.InRange idx) (j : S1024x4.Idx) : inMask idx j = 1#1 := by
  unfold inMask
  refine reduce_andi_one _ _ _ _ _ (fun i => ?_) (fun _ => rfl)
  have hlt := idx3_lt h i
  show IntOp.andi (IntOp.cmpi .sge (idx3 idx i) 0#32) (IntOp.cmpi .sle (idx3 idx i) 99999#32) = 1#1
  refine IntOp.andi_eq_one.mpr ⟨IntOp.cmpi_sge.mpr ?_, IntOp.cmpi_sle.mpr ?_⟩
  · rw [toInt_of_lt hlt, show (0#32 : BitVec 32).toInt = 0 from rfl]; omega
  · rw [toInt_of_lt hlt, show (99999#32 : BitVec 32).toInt = 99999 from rfl]; omega

/-- The gather at `(n, j, d)`: the table at the start index of `(n, j)`, read signed and clamped into [0, 99999], and
    column `d`. -/
theorem gather_apply {α : Type} (x : S100000x32.Idx → α) (i3 : IVec S1024x4x1 32) (n : Fin 1024) (j : Fin 4) (d : Fin 32) :
    Host.gather gather_S100000x32_S1024x4x1_S1024x4x32_2_0_n_n_0_2_132 x i3 (ix3 n j d)
      = x (ix2 (⟨min (i3 (ix3 n j 0)).toInt.toNat 99999, by omega⟩ : Fin 100000) d) := by
  unfold Host.gather
  congr 1
  funext a
  refine Fin.ext ?_
  show gather_S100000x32_S1024x4x1_S1024x4x32_2_0_n_n_0_2_132.start (ix3 n j d) i3 a
    + gather_S100000x32_S1024x4x1_S1024x4x32_2_0_n_n_0_2_132.batchCoord (ix3 n j d) a
    + gather_S100000x32_S1024x4x1_S1024x4x32_2_0_n_n_0_2_132.offCoord (ix3 n j d) a = _
  rw [GatherDims.batchCoord_eq_zero _ _ _ List.not_mem_nil]
  match a with
  | ⟨0, h0⟩ =>
    rw [GatherDims.offCoord_eq_zero _ _ _ (fun hk => ((GatherDims.mem_sKept _ _).mp hk).1 (List.mem_singleton.mpr rfl))]
    simp only [Nat.add_zero]
    unfold GatherDims.start
    rw [dif_pos (show (⟨0, h0⟩ : Fin S100000x32.rank) ∈ gather_S100000x32_S1024x4x1_S1024x4x32_2_0_n_n_0_2_132.startIndexMap from
      List.mem_singleton.mpr rfl)]
    have hsi : gather_S100000x32_S1024x4x1_S1024x4x32_2_0_n_n_0_2_132.siIdx (ix3 n j d)
        ⟨List.idxOf (⟨0, h0⟩ : Fin S100000x32.rank) gather_S100000x32_S1024x4x1_S1024x4x32_2_0_n_n_0_2_132.startIndexMap,
          List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  | ⟨1, h1⟩ =>
    have hs : gather_S100000x32_S1024x4x1_S1024x4x32_2_0_n_n_0_2_132.start (ix3 n j d) i3 ⟨1, h1⟩ = 0 := by
      have hn : (⟨1, h1⟩ : Fin S100000x32.rank) ∉ gather_S100000x32_S1024x4x1_S1024x4x32_2_0_n_n_0_2_132.startIndexMap :=
        fun hk => by
          have e : (⟨1, h1⟩ : Fin S100000x32.rank) = 0 := List.mem_singleton.mp hk
          exact absurd (show (1 : Nat) = 0 from congrArg Fin.val e) Nat.one_ne_zero
      unfold GatherDims.start
      rw [dif_neg hn]
    rw [hs]
    simp only [Nat.zero_add, Nat.add_zero]
    rfl

/-- In range, the kept row at `(n, j, d)` is the table's row `Spec.rowIx idx n j` at column `d`. -/
theorem taken_apply (h : Spec.InRange idx) (T : FVec Ideal S100000x32 .f32) (n : Fin 1024) (j : Fin 4) (d : Fin 32) :
    taken idx T (ix3 n j d) = T (ix2 (Spec.rowIx idx n j) d) := by
  have hm : broadcastInDim S1024x4x32 ![0, 1] bcast_S1024x4_S1024x4x32_0_1 (inMask idx) (ix3 n j d) = 1#1 :=
    inMask_eq_one h _
  unfold taken
  rw [select_apply, hm, select_one, gather_apply]
  refine congrArg (fun r : Fin 100000 => T (ix2 r d)) (Fin.ext ?_)
  show min (idx3 idx (ix3 n j 0)).toInt.toNat 99999 = min (idx (ix2 n j)).toNat 99999
  rw [idx3_apply h, toInt_of_lt (h _), Int.toNat_natCast]

/-- In range, the sum over the context axis is `Spec.embSum`. -/
theorem emb_apply (h : Spec.InRange idx) (T : FVec Ideal S100000x32 .f32) (n : Fin 1024) (d : Fin 32) :
    emb idx T (ix2 n d) = Spec.embSum idx T n d := by
  have hr : S1024x4x32.Reduces [1] S1024x32 := by decide
  unfold emb
  rw [hostReduceAdd_apply, Ideal.hostReduceAdd_single reducesTo_S1024x4x32_S1024x32_d1 hr]
  have hl : ∀ k : Fin 4, hr.lift (ix2 n d) k = ix3 n k d := fun k => by
    funext a; refine Fin.ext ?_
    match a with
    | ⟨0, _⟩ => rfl
    | ⟨1, _⟩ => rfl
    | ⟨2, _⟩ => rfl
  show Ideal.ofBits .f32 0x00000000#32 + ∑ k : Fin 4, taken idx T (hr.lift (ix2 n d) k) = _
  rw [Ideal.ofBits_zero_f32, zero_add, Fin.sum_univ_four, hl, hl, hl, hl, taken_apply h, taken_apply h, taken_apply h,
    taken_apply h]
  rfl

/-- In range, the reference's result at `(n, v)` is `Spec.out`'s. -/
theorem val_apply (h : Spec.InRange idx) (T W : FVec Ideal S100000x32 .f32) (b : FVec Ideal S100000 .f32)
    (n : Fin 1024) (v : Fin 100000) : val idx T W b (ix2 n v) = Spec.out idx T W b (ix2 n v) := by
  have hb : broadcastInDim S1024x100000 ![0, 1] bcast_S1x100000_S1024x100000_0_1
      (broadcastInDim S1x100000 ![1] bcast_S100000_S1x100000_1 b) (ix2 n v) = b (ix1 v) := by
    rw [broadcastInDim_apply _ _ _ (ix2 n v) (ix2 (0 : Fin 1) v) (fun a => match a with | ⟨0, _⟩ => rfl | ⟨1, _⟩ => rfl),
      broadcastInDim_apply _ _ _ (ix2 (0 : Fin 1) v) (ix1 v) (fun a => match a with | ⟨0, _⟩ => rfl)]
  have hd : Host.dotGeneral dot_S1024x32_S32x100000_S1024x100000_1_0_0_1_n_n none (emb idx T)
      (transpose S32x100000 [1, 0] W transposes_S100000x32_S32x100000_1_0) (ix2 n v)
        = ∑ c : Fin 32, emb idx T (ix2 n c) * transpose S32x100000 [1, 0] W transposes_S100000x32_S32x100000_1_0 (ix2 c v) :=
    StackMember.dotGeneral_plain_apply (m := 1024) (n := 100000) (k := 32) none (emb idx T) _ n v
  unfold val
  rw [addf_apply, hb, hd, Spec.out_apply]
  congr 1
  refine Finset.sum_congr rfl fun c _ => ?_
  rw [emb_apply h, transpose_ix2_apply, mul_comm]

/-- Under the precondition on the index words, the reference's composed operations are `Spec.out`. -/
theorem val_eq_out (h : Spec.InRange idx) (T W : FVec Ideal S100000x32 .f32) (b : FVec Ideal S100000 .f32) :
    val idx T W b = Spec.out idx T W b := by
  funext i
  obtain ⟨n, v, rfl⟩ : ∃ (n : Fin 1024) (v : Fin 100000), i = ix2 n v := ⟨i 0, i 1, eq_ix2 i⟩
  exact val_apply h T W b n v

end Cert.Proof.Ref

end
-- ==== Proof.RefRun.lean ====
/-
  The reference's run: from any memory whose index words name rows of the table, every weakly fair execution of
  @main terminates, the result buffer holds `Spec.out` of the four argument arrays, and the arguments are unchanged.

  The straight-line run leaves every buffer at the fold of the operations' results over the launch contents. At the
  result buffer that fold is the operations' composed term `val` of the contents of the four argument buffers (each
  operation read at its own result buffer, every other buffer untouched), which is `Spec.out` under the
  precondition; at an argument buffer, which no operation writes, it is the launch contents.
-/
import proofs.«208886_g87462714016427_cont_sun_c4_567_10_alg».proof.Proof.RefOps
import proofs.«208886_g87462714016427_cont_sun_c4_567_10_alg».proof.Proof.RefValue

noncomputable section

namespace Cert.Proof.Ref

open Cert.ReferenceIdeal Cert.ReferenceIdeal.Gen Idealize.ShloMosaic Idealize.ShloMosaic.TcCoe Idealize.SL.Sem Idealize.ShloMosaic.StableHlo

attribute [local irreducible] Host.reduce Host.gather Host.reduceAdd in
set_option maxRecDepth 8192 in
set_option maxHeartbeats 400000 in
/-- The fold at the result buffer is the composed term of the four argument buffers' contents. -/
theorem out_eq (V : Valuation τ sig (Elt Ideal)) :
    after ops V (main_v6 : DevRef τ sig)
      = val (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp
theorem arg3_eq (V : Valuation τ sig (Elt Ideal)) : after ops V (main_arg3 : DevRef τ sig) = V (main_arg3 : DevRef τ sig) := by
  after_results_simp

/-- On every device, from any memory with zero counters whose index words are in range: every weakly fair execution
    of @main terminates with the result at `Spec.out` of the arguments and the arguments unchanged. -/
theorem run (m : (ℓ : Loc nD τ sig) → Buf (Elt Ideal) ℓ) (g : Dev nD → PrngReg)
    (hidx : ∀ c : Dev nD, Spec.InRange (m ((c.tc : Thread nD τ).loc main_arg0))) :
    θ_run (defs (F := Ideal)) (onTc (τ := τ) (main (F := Ideal))) ⟨m, fun _ => 0, g⟩ (fun r => ∀ c : Dev nD,
      r.2.mem ((c.tc : Thread nD τ).loc main_v6)
        = Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v6).trans ((out_eq (launchContents m c)).trans (val_eq_out (hidx c) _ _ _)),
        (h c main_arg0).trans (arg0_eq _), (h c main_arg1).trans (arg1_eq _), (h c main_arg2).trans (arg2_eq _),
        (h c main_arg3).trans (arg3_eq _)⟩)
    (run_main m g)

end Cert.Proof.Ref

end
-- ==== Proof.RefClaims.lean ====
/-
  The reference's frame claim, and the precondition read for its run.

  The precondition on the reference's argument buffers puts every index word below the table's row count on every
  device; the run then terminates with the arguments unchanged, which is the frame claim.
-/
import proofs.«208886_g87462714016427_cont_sun_c4_567_10_alg».proof.Defs
import proofs.«208886_g87462714016427_cont_sun_c4_567_10_alg».proof.Proof.Gen.Pre_input_domain
import proofs.«208886_g87462714016427_cont_sun_c4_567_10_alg».proof.Proof.PreDecode
import proofs.«208886_g87462714016427_cont_sun_c4_567_10_alg».proof.Proof.RefRun

noncomputable section

namespace Cert.Proof.Ref

open Cert.ReferenceIdeal Idealize.ShloMosaic Idealize.SL.Sem

/-- Under the precondition every index word of every device names a row of the table. -/
theorem inRange_of_pre (m : (ℓ : Loc nD τ sig) → Buf (Elt Ideal) ℓ)
    (h : Cert.Pre_ReferenceIdeal (hPre_input_domain := Cert.Pre_input_domain.Gen.facts) m) :
    ∀ c : Dev nD, Spec.InRange (m ((c.tc : Thread nD τ).loc main_arg0)) :=
  fun c => Cert.Proof.PreDecode.inRange_of_pre (F := Ideal) _ _ _ _ (h c)

/-- The reference runs to its end, faults nowhere, and leaves its arguments unchanged. -/
theorem frame_ri : Cert.frame_ReferenceIdeal (hReferenceIdeal := Cert.ReferenceIdeal.Gen.facts)
    (hPre_input_domain := Cert.Pre_input_domain.Gen.facts) :=
  fun m g hpre => (θ_run (defs (F := Ideal)) _ _).mono (fun _ h c => (h c).2) (run m g (inRange_of_pre m hpre))

end Cert.Proof.Ref

end
-- ==== Proof.Setup.lean ====
/-
  The kernel program as the launch theorem of a SparseCore program reads it, the resource algebra of the proof, and
  what the one SparseCore call moves.

  The call runs on 2 x 16 vector subcores; the subcore at (core c, subcore i) works on row r = 2 i + c of the
  transposed table (a [32, 100000] array), reads the whole flattened index array (4096 words, word j * 1024 + n being
  context position j of batch entry n), and writes row r of the [32, 1024] result: entry (r, n) is the sum, left to
  right, of the four table entries (r, w) at the words w that positions 0..3 of entry n name. `embArr` is that
  result as ONE function of the two arrays it is computed from, over any float instance; a word is read as a row
  number through `min · 99999`, the identity on every word the run meets.

  The algebra has three factors: the launch handshakes' rounds, the rounds of the TensorCore pipeline's staging
  cells, and the counters of the subcores' own local copies.
-/
import proofs.«208886_g87462714016427_cont_sun_c4_567_10_alg».proof.KernelIdeal
import proofs.«208886_g87462714016427_cont_sun_c4_567_10_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. The counters are found by instance in the right one. -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-! ## The arrays the call moves, as locations of a device -/

/-- The flattened index array (`main_v1`), the transposed table (`main_v2`), the call's result (`main_v3`). -/
abbrev iLoc (d : Dev nD) : Loc nD τ sig := (SparseCore.T d).loc main_v1
abbrev tLoc (d : Dev nD) : Loc nD τ sig := (SparseCore.T d).loc main_v2
abbrev eLoc (d : Dev nD) : Loc nD τ sig := (SparseCore.T d).loc main_v3

/-! ## What the call computes -/

/-- The row a word names, as a column number of the transposed table. -/
def colOf (w : BitVec 32) : Fin 100000 := ⟨min w.toNat 99999, by omega⟩
theorem colOf_val {w : BitVec 32} (h : w.toNat < 100000) : (colOf w).val = w.toNat := by
  show min w.toNat 99999 = w.toNat; omega

/-- Word `j * 1024 + n` of the flattened index array: context position `j` of batch entry `n`. -/
def flatIx (j : Fin 4) (n : Fin 1024) : S4096.Idx := ix1 ⟨j.val * 1024 + n.val, by omega⟩

variable [FloatOps F]

/-- The table entries that context position `j` names, laid out as the result is: entry (r, n) is the table's
    (r, word j * 1024 + n). -/
def gathered (tv : FVec F S32x100000 .f32) (iv : IVec S4096 32) (j : Fin 4) : FVec F S32x1024 .f32 :=
  fun x => tv (ix2 (x 0) (colOf (iv (flatIx j (x 1)))))

/-- The call's result as one function of the transposed table and the flattened index array. -/
def embArr (tv : FVec F S32x100000 .f32) (iv : IVec S4096 32) : FVec F S32x1024 .f32 :=
  addf (addf (addf (gathered tv iv 0) (gathered tv iv 1)) (gathered tv iv 2)) (gathered tv iv 3)

/-! ## Rows and their owners -/

theorem hdivT : 32 ∣ S32x100000.size 0 := ⟨1, rfl⟩
theorem hdivE : 32 ∣ S32x1024.size 0 := ⟨1, rfl⟩
/-- Row `r` of the transposed table, and of the result. -/
abbrev rowT (r : Fin 32) : Rect S32x100000 := Rect.part (s := S32x100000) (a₀ := 0) hdivT r
abbrev rowE (r : Fin 32) : Rect S32x1024 := Rect.part (s := S32x1024) (a₀ := 0) hdivE r
abbrev rowSetT (r : Fin 32) : Finset S32x100000.Idx := ((Memref.whole main_v2_scv : Memref sig .scVector .hbm S32x100000 .f32).view.slice (rowT r)).set
abbrev rowSetE (r : Fin 32) : Finset S32x1024.Idx := ((Memref.whole main_v3_scv : Memref sig .scVector .hbm S32x1024 .f32).view.slice (rowE r)).set

/-- The row the subcore at (core `c`, subcore `i`) works on. -/
def rowOfTile (c : Fin 2) (i : Fin 16) : Fin 32 := ⟨2 * i.val + c.val, by omega⟩

/-! ## What the handshakes carry -/

section Pay

variable (iv : (d : Dev nD) → Buf (Elt F) (iLoc d)) (tv : (d : Dev nD) → Buf (Elt F) (tLoc d)) (ev : (d : Dev nD) → Buf (Elt F) (eLoc d))

/-- What a task is handed: its row of the table, a read share of the index array, its row of the result. -/
def goRes (d : Dev nD) (r : Fin 32) : sProp 𝕄 :=
  iprop((tLoc d ↦[rowSetT r]{fullShare} tv d) ∗ (iLoc d ↦{Transfers.shareTok fullShare 32 r} iv d) ∗ (eLoc d ↦[rowSetE r]{fullShare} ev d))
/-- What it hands back: the same, its row of the result at the call's function of the table and the indices. -/
def tdRes (d : Dev nD) (r : Fin 32) : sProp 𝕄 :=
  iprop((tLoc d ↦[rowSetT r]{fullShare} tv d) ∗ (iLoc d ↦{Transfers.shareTok fullShare 32 r} iv d)
    ∗ (eLoc d ↦[rowSetE r]{fullShare} (embArr (F := F) (tv d) (iv d) : Buf (Elt F) (eLoc d))))

/-- The one call: each SparseCore is handed its sixteen tasks' resources and hands them back. -/
def P : (K (F := F)).Pay (nD := nD) (Val := Elt F) (Name := ℕ) (U := UU) where
  st := fun q d c => match q with
    | 0 => bigSep Finset.univ fun i : Fin 16 => goRes iv tv ev d (rowOfTile (Fin.cast nCore_zero c) i)
  dn := fun q d c => match q with
    | 0 => bigSep Finset.univ fun i : Fin 16 => tdRes iv tv d (rowOfTile (Fin.cast nCore_zero c) i)
  go := fun q d c i => match q with
    | 0 => goRes iv tv ev d (rowOfTile (Fin.cast nCore_zero c) (Fin.cast nSub_zero i))
  td := fun q d c i => match q with
    | 0 => tdRes iv tv d (rowOfTile (Fin.cast nCore_zero c) (Fin.cast nSub_zero i))
  x := fun _ _ => iprop(emp)

instance goRes_storable (d : Dev nD) (r : Fin 32) : BI.Storable (upEmb : UEmb _ 𝕄) (goRes (F := F) iv tv ev d r) := by
  unfold goRes; infer_instance
instance tdRes_storable (d : Dev nD) (r : Fin 32) : BI.Storable (upEmb : UEmb _ 𝕄) (tdRes (F := F) iv tv d r) := by
  unfold tdRes; infer_instance

instance P_storable : (P (F := F) iv tv ev).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Pay

end Cert.Proof.KI

end
-- ==== Proof.MainHost.lean ====
/-
  What @main's host operations around the two calls compute, as functions of the launch memory.

  Before the SparseCore call the index array is transposed and flattened (word j * 1024 + n is context position j of
  batch entry n) and the table is transposed; before the matrix product's call the weights are transposed; after it
  the product is transposed into the result. Each value is the operation's own term of its operand, for any float
  instance: the operations only move entries. Read at an index, each is an entry of its operand at the exchanged
  (or row-major) position.
-/
import proofs.«208886_g87462714016427_cont_sun_c4_567_10_alg».proof.Proof.Setup
import Idealize.ShloMosaic.Lib.ValueLayout
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)

variable {F : FTy → Type}

/-! ## The host operations -/

/-- The index array transposed. -/
abbrev opIdxT : HloOp τ sig (Elt F) :=
  StableHlo.unary main_arg0 main_v0 ((transpose S4x1024 [1, 0] · transposes_S1024x4_S4x1024_1_0) : (⟨S1024x4, .i32⟩ : BufTy).Contents (Elt F) → (⟨S4x1024, .i32⟩ : BufTy).Contents (Elt F))
/-- The transposed index array flattened. -/
abbrev opIdxFlat : HloOp τ sig (Elt F) := StableHlo.reshape main_v0 main_v1 rfl shapeCasts_S4x1024_S4096
/-- The table transposed. -/
abbrev opTabT : HloOp τ sig (Elt F) :=
  StableHlo.unary main_arg1 main_v2 ((transpose S32x100000 [1, 0] · transposes_S100000x32_S32x100000_1_0) : (⟨S100000x32, .f32⟩ : BufTy).Contents (Elt F) → (⟨S32x100000, .f32⟩ : BufTy).Contents (Elt F))
/-- The weights transposed. -/
abbrev opWT : HloOp τ sig (Elt F) :=
  StableHlo.unary main_arg2 main_v4 ((transpose S32x100000 [1, 0] · transposes_S100000x32_S32x100000_1_0) : (⟨S100000x32, .f32⟩ : BufTy).Contents (Elt F) → (⟨S32x100000, .f32⟩ : BufTy).Contents (Elt F))
/-- The product transposed into the result. -/
abbrev opOutT : HloOp τ sig (Elt F) :=
  StableHlo.unary main_v5 main_v6 ((transpose S1024x100000 [1, 0] · transposes_S100000x1024_S1024x100000_1_0) : (⟨S100000x1024, .f32⟩ : BufTy).Contents (Elt F) → (⟨S1024x100000, .f32⟩ : BufTy).Contents (Elt F))

/-! ## Their values over the launch memory -/

/-- @main's other arrays as locations of a device: the four arguments, the transposed index array (`main_v0`), the
    transposed weights (`main_v4`), the product (`main_v5`), the result (`main_v6`). -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev wLoc (d : Dev nD) : Loc nD τ sig := (SparseCore.T d).loc main_v4
abbrev oLoc (d : Dev nD) : Loc nD τ sig := (SparseCore.T d).loc main_v5
abbrev rLoc (d : Dev nD) : Loc nD τ sig := (SparseCore.T d).loc main_v6

variable (m : (ℓ : Loc nD τ sig) → Buf (Elt F) ℓ)

/-- The index array transposed: what `main_v0` holds. -/
def idx4 (d : Dev nD) : Buf (Elt F) (v0Loc d) :=
  transpose S4x1024 [1, 0] (m (a0Loc d)) transposes_S1024x4_S4x1024_1_0
/-- The flattened index array: what `main_v1` holds. -/
def idxFlat (d : Dev nD) : Buf (Elt F) (iLoc d) :=
  fun i => shapeCast S4096 (idx4 m d) shapeCasts_S4x1024_S4096 i
/-- The transposed table: what `main_v2` holds. -/
def tabT (d : Dev nD) : Buf (Elt F) (tLoc d) :=
  transpose S32x100000 [1, 0] (m (a1Loc d)) transposes_S100000x32_S32x100000_1_0
/-- The transposed weights: what `main_v4` holds. -/
def wT (d : Dev nD) : Buf (Elt F) (wLoc d) :=
  transpose S32x100000 [1, 0] (m (a2Loc d)) transposes_S100000x32_S32x100000_1_0
/-- The transpose of a product array `o`: what `main_v6` holds when `main_v5` holds `o`. -/
def outT (d : Dev nD) (o : Buf (Elt F) (oLoc d)) : Buf (Elt F) (rLoc d) :=
  transpose S1024x100000 [1, 0] o transposes_S100000x1024_S1024x100000_1_0
/-- The result: the transpose of what the matrix product's call leaves in `main_v5`. -/
def resultArr (o5 : (d : Dev nD) → Buf (Elt F) (oLoc d)) (d : Dev nD) : Buf (Elt F) (rLoc d) := outT d (o5 d)

/-! ## Each operation's result is that value -/

theorem opIdxT_result (d : Dev nD) (W : Valuation τ sig (Elt F))
    (h : W (main_arg0 : DevRef τ sig) = m (a0Loc d)) :
    (opIdxT (F := F)).result W (main_v0 : DevRef τ sig) = idx4 m d := by
  rw [StableHlo.unary_result, h]; rfl
theorem opIdxFlat_result (d : Dev nD) (W : Valuation τ sig (Elt F)) (h : W (main_v0 : DevRef τ sig) = idx4 m d) :
    (opIdxFlat (F := F)).result W (main_v1 : DevRef τ sig) = idxFlat m d := by
  rw [StableHlo.reshape_result, h]; rfl
theorem opTabT_result (d : Dev nD) (W : Valuation τ sig (Elt F))
    (h : W (main_arg1 : DevRef τ sig) = m (a1Loc d)) :
    (opTabT (F := F)).result W (main_v2 : DevRef τ sig) = tabT m d := by
  rw [StableHlo.unary_result, h]; rfl
theorem opWT_result (d : Dev nD) (W : Valuation τ sig (Elt F))
    (h : W (main_arg2 : DevRef τ sig) = m (a2Loc d)) :
    (opWT (F := F)).result W (main_v4 : DevRef τ sig) = wT m d := by
  rw [StableHlo.unary_result, h]; rfl
theorem opOutT_result (d : Dev nD) (o : Buf (Elt F) (oLoc d))
    (W : Valuation τ sig (Elt F)) (h : W (main_v5 : DevRef τ sig) = o) :
    (opOutT (F := F)).result W (main_v6 : DevRef τ sig) = outT d o := by
  rw [StableHlo.unary_result, h]; rfl

/-! ## The values at an index -/

/-- Word `j * 1024 + n` of the flattened index array is the index array's entry `(n, j)`. -/
theorem idxFlat_apply (d : Dev nD) (j : Fin 4) (n : Fin 1024) :
    idxFlat m d (flatIx j n) = m (a0Loc d) (ix2 n j) := by
  have hk : (S4x1024.rowMajor (ix2 j n)).val = (S4096.rowMajor (flatIx j n)).val := by
    rw [Shape.rowMajor_val_two, Shape.rowMajor_val_one]; rfl
  unfold idxFlat
  rw [shapeCast_apply (s := S4x1024) (t := S4096) (idx4 m d) shapeCasts_S4x1024_S4096 (flatIx j n) (ix2 j n) hk]
  unfold idx4
  exact transpose_ix2_apply _ _ j n

/-- Entry `(k, r)` of the transposed table is the table's `(r, k)`. -/
theorem tabT_apply (d : Dev nD) (k : Fin 32) (r : Fin 100000) :
    tabT m d (ix2 k r) = m (a1Loc d) (ix2 r k) := by
  unfold tabT; exact transpose_ix2_apply _ _ k r

/-- Entry `(k, v)` of the transposed weights is the weights' `(v, k)`. -/
theorem wT_apply (d : Dev nD) (k : Fin 32) (v : Fin 100000) :
    wT m d (ix2 k v) = m (a2Loc d) (ix2 v k) := by
  unfold wT; exact transpose_ix2_apply _ _ k v

/-- Entry `(n, v)` of the result is the product's `(v, n)`. -/
theorem outT_apply (d : Dev nD) (o : Buf (Elt F) (oLoc d)) (n : Fin 1024) (v : Fin 100000) :
    outT d o (ix2 n v) = o (ix2 v n) := by
  unfold outT; exact transpose_ix2_apply _ _ n v
theorem resultArr_apply (o5 : (d : Dev nD) → Buf (Elt F) (oLoc d)) (d : Dev nD)
    (n : Fin 1024) (v : Fin 100000) : resultArr o5 d (ix2 n v) = o5 d (ix2 v n) := outT_apply d (o5 d) n v

end Cert.Proof.KI

end
-- ==== Proof.Split.lean ====
/-
  The call's three arrays, whole, are the thirty-two tasks' resources, and back.

  The transposed table and the result are cut into their 32 rows (pairwise disjoint, covering the array); the index
  array, which every task reads whole, is cut into 32 read shares beside a remainder. The task at (core `c`, subcore
  `i`) owns row `2 i + c`, and `(c, i) ↦ 2 i + c` is a bijection from 2 x 16 onto the 32 rows, so the resources row by row
  are the resources core by core, subcore by subcore. On the way back every row of the result holds the one function
  `embArr`, so the rows join into the whole array at that function.
-/
import proofs.«208886_g87462714016427_cont_sun_c4_567_10_alg».proof.Proof.Setup

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Rows -/

theorem rowSetT_eq (r : Fin 32) : rowSetT r = (rowT r).set := by
  show ((View.whole (main_v2_scv : Ref sig .scVector)).slice (rowT r)).set = _
  rw [View.set_slice]; exact Finset.map_refl
theorem rowSetE_eq (r : Fin 32) : rowSetE r = (rowE r).set := by
  show ((View.whole (main_v3_scv : Ref sig .scVector)).slice (rowE r)).set = _
  rw [View.set_slice]; exact Finset.map_refl

theorem rowsT_disjoint : ∀ i ∈ (Finset.univ : Finset (Fin 32)), ∀ j ∈ (Finset.univ : Finset (Fin 32)), i ≠ j → Disjoint (rowSetT i) (rowSetT j) :=
  fun i _ j _ h => by rw [rowSetT_eq, rowSetT_eq]; exact Rect.part_disjoint hdivT h
theorem rowsE_disjoint : ∀ i ∈ (Finset.univ : Finset (Fin 32)), ∀ j ∈ (Finset.univ : Finset (Fin 32)), i ≠ j → Disjoint (rowSetE i) (rowSetE j) :=
  fun i _ j _ h => by rw [rowSetE_eq, rowSetE_eq]; exact Rect.part_disjoint hdivE h

theorem rowsT_cover : (Finset.univ : Finset (Fin 32)).biUnion rowSetT = Finset.univ :=
  (Finset.biUnion_congr rfl fun i _ => rowSetT_eq i).trans (Rect.biUnion_part hdivT)
theorem rowsE_cover : (Finset.univ : Finset (Fin 32)).biUnion rowSetE = Finset.univ :=
  (Finset.biUnion_congr rfl fun i _ => rowSetE_eq i).trans (Rect.biUnion_part hdivE)

/-- The whole transposed table is its 32 rows. -/
theorem tPts_rows (d : Dev nD) (f : Buf (Elt F) (tLoc d)) :
    (tLoc d ↦{fullShare} f : sProp 𝕄) = bigSep Finset.univ fun r : Fin 32 => tLoc d ↦[rowSetT r]{fullShare} f := by
  rw [← pointsTo_biUnion Finset.univ (ℓ := tLoc d) rowSetT rowsT_disjoint, rowsT_cover]; try rfl
/-- The whole result is its 32 rows. -/
theorem ePts_rows (d : Dev nD) (f : Buf (Elt F) (eLoc d)) :
    (eLoc d ↦{fullShare} f : sProp 𝕄) = bigSep Finset.univ fun r : Fin 32 => eLoc d ↦[rowSetE r]{fullShare} f := by
  rw [← pointsTo_biUnion Finset.univ (ℓ := eLoc d) rowSetE rowsE_disjoint, rowsE_cover]; try rfl

/-! ## Rows and their owners -/

/-- (core, subcore) to row, `2 i + c`, is a bijection from 2 x 16 onto 32. -/
def tileEquiv : Fin 2 × Fin 16 ≃ Fin 32 where
  toFun p := rowOfTile p.1 p.2
  invFun r := (⟨r.val % 2, Nat.mod_lt _ (by decide)⟩, ⟨r.val / 2, by have := r.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv r := by
    apply Fin.ext
    show 2 * (r.val / 2) + r.val % 2 = r.val; omega

/-- Row by row is core by core, subcore by subcore. -/
theorem bigSep_rows (Φ : Fin 32 → sProp 𝕄) :
    bigSep Finset.univ Φ = bigSep Finset.univ fun c : Fin 2 => bigSep Finset.univ fun i : Fin 16 => Φ (rowOfTile c i) := by
  rw [bigSep_univ_equiv tileEquiv Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The split and the join -/

section

variable [FloatOps F]
variable (iv : (d : Dev nD) → Buf (Elt F) (iLoc d)) (tv : (d : Dev nD) → Buf (Elt F) (tLoc d)) (ev : (d : Dev nD) → Buf (Elt F) (eLoc d))

theorem st_zero (d : Dev nD) (c : Fin ((K (F := F)).nCore 0)) :
    (P iv tv ev).st 0 d c = bigSep Finset.univ fun i : Fin 16 => goRes iv tv ev d (rowOfTile (Fin.cast nCore_zero c) i) := rfl
theorem dn_zero (d : Dev nD) (c : Fin ((K (F := F)).nCore 0)) :
    (P iv tv ev).dn 0 d c = bigSep Finset.univ fun i : Fin 16 => tdRes iv tv d (rowOfTile (Fin.cast nCore_zero c) i) := rfl
theorem go_zero (d : Dev nD) (c : Fin ((K (F := F)).nCore 0)) (i : Fin ((K (F := F)).nSub 0)) :
    (P iv tv ev).go 0 d c i = goRes iv tv ev d (rowOfTile (Fin.cast nCore_zero c) (Fin.cast nSub_zero i)) := rfl
theorem td_zero (d : Dev nD) (c : Fin ((K (F := F)).nCore 0)) (i : Fin ((K (F := F)).nSub 0)) :
    (P iv tv ev).td 0 d c i = tdRes iv tv d (rowOfTile (Fin.cast nCore_zero c) (Fin.cast nSub_zero i)) := rfl

/-- What all the cores are handed is what the 32 rows' tasks are handed. -/
theorem st_all (d : Dev nD) :
    (bigSep Finset.univ fun c : Fin ((K (F := F)).nCore 0) => (P iv tv ev).st 0 d c)
      = bigSep Finset.univ fun r : Fin 32 => goRes iv tv ev d r := by
  rw [bigSep_rows (F := F) (fun r => goRes iv tv ev d r),
    ← bigSep_cores (F := F) (fun c => bigSep Finset.univ fun i : Fin 16 => goRes iv tv ev d (rowOfTile c i))]
  exact bigSep_congr fun c _ => st_zero iv tv ev d c
/-- What all the cores hand back is what the 32 rows' tasks hand back. -/
theorem dn_all (d : Dev nD) :
    (bigSep Finset.univ fun c : Fin ((K (F := F)).nCore 0) => (P iv tv ev).dn 0 d c)
      = bigSep Finset.univ fun r : Fin 32 => tdRes iv tv d r := by
  rw [bigSep_rows (F := F) (fun r => tdRes iv tv d r),
    ← bigSep_cores (F := F) (fun c => bigSep Finset.univ fun i : Fin 16 => tdRes iv tv d (rowOfTile c i))]
  exact bigSep_congr fun c _ => dn_zero iv tv ev d c

/-- The three arrays whole are the index array's remainder and every core's sixteen tasks' resources. -/
theorem st0_of_whole (d : Dev nD) :
    iprop((iLoc d ↦{fullShare} iv d) ∗ (tLoc d ↦{fullShare} tv d) ∗ (eLoc d ↦{fullShare} ev d))
      ⊢ (iprop((iLoc d ↦{Transfers.shareDrop fullShare 32} iv d)
          ∗ bigSep Finset.univ fun c : Fin ((K (F := F)).nCore 0) => (P iv tv ev).st 0 d c) : sProp 𝕄) := by
  rw [st_all]
  unfold goRes
  rw [bigSep_sep', bigSep_sep', ← tPts_rows, ← ePts_rows]
  iintro ⟨Hi, Ht, He⟩
  ihave Hi' := (Transfers.pointsTo_toks_split (ℓ := iLoc d) (S := Finset.univ) (f := iv d) fullShare 32) $$ Hi
  icases Hi' with ⟨Hr, Htok⟩
  isplitl [Hr]; · iexact Hr
  isplitl [Ht]; · iexact Ht
  isplitl [Htok]; · iexact Htok
  iexact He

/-- Back: the remainder and what every core hands back are the three arrays whole, the result at the call's function. -/
theorem whole_of_dn0 (d : Dev nD) :
    iprop((iLoc d ↦{Transfers.shareDrop fullShare 32} iv d)
        ∗ bigSep Finset.univ fun c : Fin ((K (F := F)).nCore 0) => (P iv tv ev).dn 0 d c)
      ⊢ (iprop((iLoc d ↦{fullShare} iv d) ∗ (tLoc d ↦{fullShare} tv d)
          ∗ (eLoc d ↦{fullShare} (embArr (F := F) (tv d) (iv d) : Buf (Elt F) (eLoc d)))) : sProp 𝕄) := by
  rw [dn_all]
  unfold tdRes
  rw [bigSep_sep', bigSep_sep', ← tPts_rows, ← ePts_rows]
  iintro ⟨Hr, Ht, Htok, He⟩
  isplitl [Hr Htok]
  · iapply (Transfers.pointsTo_toks_join (ℓ := iLoc d) (S := Finset.univ) (f := iv d) fullShare 32)
    isplitl [Hr]; · iexact Hr
    iexact Htok
  isplitl [Ht]; · iexact Ht
  iexact He

/-- A core's resources are its sixteen tasks', and what they hand back is what the core hands back. -/
theorem vecSplit : (K (F := F)).VecSplit' (P iv tv ev) 0 := by
  intro d c
  rw [st_zero, dn_zero]
  simp only [go_zero, td_zero]
  rw [bigSep_tasks (F := F) (fun i => goRes iv tv ev d (rowOfTile (Fin.cast nCore_zero c) i)),
    bigSep_tasks (F := F) (fun i => tdRes iv tv d (rowOfTile (Fin.cast nCore_zero c) i))]
  iintro H; imodintro
  isplitl [H]; · iexact H
  iintro H'; iexact H'

end

end Cert.Proof.KI

end
-- ==== Proof.Final.lean ====
/-
  Reading the claim off the final memory.

  Under the state interpretation a whole-array points-to at the full share pins the physical contents of its array;
  the state interpretation is kept, so the facts for several arrays are read one after another: the four argument
  arrays, and with them the result array.
-/
import proofs.«208886_g87462714016427_cont_sun_c4_567_10_alg».proof.Proof.Setup

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One array: the points-to pins the contents, and the state interpretation stays. -/
theorem agree_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

/-- The four argument arrays. -/
theorem agree4 (d : Dev nD) (s' : Phys nD τ sig (Elt F))
    (f0 : Buf (Elt F) ((SparseCore.T d).loc main_arg0)) (f1 : Buf (Elt F) ((SparseCore.T d).loc main_arg1))
    (f2 : Buf (Elt F) ((SparseCore.T d).loc main_arg2)) (f3 : Buf (Elt F) ((SparseCore.T d).loc main_arg3)) :
    iprop((((SparseCore.T d).loc main_arg0 ↦{fullShare} f0) ∗ ((SparseCore.T d).loc main_arg1 ↦{fullShare} f1)
        ∗ ((SparseCore.T d).loc main_arg2 ↦{fullShare} f2) ∗ ((SparseCore.T d).loc main_arg3 ↦{fullShare} f3)) ∗ SI s')
      ⊢ (⌜s'.mem.mem ((SparseCore.T d).loc main_arg0) = f0 ∧ s'.mem.mem ((SparseCore.T d).loc main_arg1) = f1
          ∧ s'.mem.mem ((SparseCore.T d).loc main_arg2) = f2 ∧ s'.mem.mem ((SparseCore.T d).loc main_arg3) = f3⌝ : sProp 𝕄) := by
  iintro ⟨⟨H0, H1, H2, H3⟩, HSI⟩
  ihave X := (agree_keep ((SparseCore.T d).loc main_arg0) f0 s') $$ [H0 HSI]
  · isplitl [H0] <;> iassumption
  icases X with ⟨%h0, HSI⟩
  ihave X := (agree_keep ((SparseCore.T d).loc main_arg1) f1 s') $$ [H1 HSI]
  · isplitl [H1] <;> iassumption
  icases X with ⟨%h1, HSI⟩
  ihave X := (agree_keep ((SparseCore.T d).loc main_arg2) f2 s') $$ [H2 HSI]
  · isplitl [H2] <;> iassumption
  icases X with ⟨%h2, HSI⟩
  ihave X := (agree_keep ((SparseCore.T d).loc main_arg3) f3 s') $$ [H3 HSI]
  · isplitl [H3] <;> iassumption
  icases X with ⟨%h3, -⟩
  ipureintro; exact ⟨h0, h1, h2, h3⟩

/-- The four argument arrays and the result array. -/
theorem agree5 (d : Dev nD) (s' : Phys nD τ sig (Elt F))
    (f0 : Buf (Elt F) ((SparseCore.T d).loc main_arg0)) (f1 : Buf (Elt F) ((SparseCore.T d).loc main_arg1))
    (f2 : Buf (Elt F) ((SparseCore.T d).loc main_arg2)) (f3 : Buf (Elt F) ((SparseCore.T d).loc main_arg3))
    (f6 : Buf (Elt F) ((SparseCore.T d).loc main_v6)) :
    iprop((((SparseCore.T d).loc main_arg0 ↦{fullShare} f0) ∗ ((SparseCore.T d).loc main_arg1 ↦{fullShare} f1)
        ∗ ((SparseCore.T d).loc main_arg2 ↦{fullShare} f2) ∗ ((SparseCore.T d).loc main_arg3 ↦{fullShare} f3)
        ∗ ((SparseCore.T d).loc main_v6 ↦{fullShare} f6)) ∗ SI s')
      ⊢ (⌜s'.mem.mem ((SparseCore.T d).loc main_arg0) = f0 ∧ s'.mem.mem ((SparseCore.T d).loc main_arg1) = f1
          ∧ s'.mem.mem ((SparseCore.T d).loc main_arg2) = f2 ∧ s'.mem.mem ((SparseCore.T d).loc main_arg3) = f3
          ∧ s'.mem.mem ((SparseCore.T d).loc main_v6) = f6⌝ : sProp 𝕄) := by
  iintro ⟨⟨H0, H1, H2, H3, H6⟩, HSI⟩
  ihave X := (agree_keep ((SparseCore.T d).loc main_arg0) f0 s') $$ [H0 HSI]
  · isplitl [H0] <;> iassumption
  icases X with ⟨%h0, HSI⟩
  ihave X := (agree_keep ((SparseCore.T d).loc main_arg1) f1 s') $$ [H1 HSI]
  · isplitl [H1] <;> iassumption
  icases X with ⟨%h1, HSI⟩
  ihave X := (agree_keep ((SparseCore.T d).loc main_arg2) f2 s') $$ [H2 HSI]
  · isplitl [H2] <;> iassumption
  icases X with ⟨%h2, HSI⟩
  ihave X := (agree_keep ((SparseCore.T d).loc main_arg3) f3 s') $$ [H3 HSI]
  · isplitl [H3] <;> iassumption
  icases X with ⟨%h3, HSI⟩
  ihave X := (agree_keep ((SparseCore.T d).loc main_v6) f6 s') $$ [H6 HSI]
  · isplitl [H6] <;> iassumption
  icases X with ⟨%h6, -⟩
  ipureintro; exact ⟨h0, h1, h2, h3, h6⟩

end Cert.Proof.KI

end
-- ==== Proof.Region.lean ====
/-
  The matrix product's call as a pipeline over a grid of 25 points, and what it leaves.

  Point t stages columns [4096 t, 4096 t + 4096) of the transposed weight matrix (a [32, 4096] block), the whole
  [32, 1024] array of summed embeddings (staged once, at the first point), entries [4096 t, 4096 t + 4096) of the bias,
  and writes back rows [4096 t, 4096 t + 4096) of the [100000, 1024] result. 25 * 4096 = 102400 > 100000: the last
  block overhangs the arrays by 2400, its transfers move the 1696 columns / entries / rows inside, and what the
  staging buffers hold past that is not named (here: filled with the zero word, read by nothing that reaches the result).

  `mmOut` is the result as ONE function of the three arrays: entry (v, n) is the body's value at block v / 4096,
  row v % 4096, column n. `dats` is the pipeline's proof data: after the body each input's staging buffer holds its
  block and the result's holds the body's value of them.
-/
import proofs.«208886_g87462714016427_cont_sun_c4_567_10_alg».proof.Proof.Setup
import proofs.«208886_g87462714016427_cont_sun_c4_567_10_alg».proof.Proof.Gen.KernelIdeal.Launch
import proofs.«208886_g87462714016427_cont_sun_c4_567_10_alg».proof.Proof.Gen.KernelIdeal.Points
import proofs.«208886_g87462714016427_cont_sun_c4_567_10_alg».proof.Proof.Gen.KernelIdeal.Skeleton
import Idealize.ShloMosaic.Lib.Pipeline.Regions
import Idealize.ShloMosaic.Lib.Pipeline.FrameBody

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

variable [FloatOps F]

/-! ## The blocks at a point -/

/-- Columns [4096 t, 4096 t + 4096) of the transposed weights, those past the array's end filled with the zero word. -/
def wBlk (wt : FVec F S32x100000 .f32) (t : Fin cfg1.N) : Vec F S32x4096 .f32 :=
  win1_0.fill (grid1.coords t) (fun _ => Scalar.ofBits .f32 0#32) ((win1_0.blk t).view.read (Elt F) wt)

/-- The summed embeddings as the one block of their window. -/
def eBlk (ev : FVec F S32x1024 .f32) (t : Fin cfg1.N) : Vec F S32x1024 .f32 :=
  (win1_1.blk t).view.read (Elt F) ev

/-- Entries [4096 t, 4096 t + 4096) of the bias, those past the array's end filled with the zero word. -/
def bBlk (bv : FVec F S100000 .f32) (t : Fin cfg1.N) : Vec F S4096 .f32 :=
  win1_2.fill (grid1.coords t) (fun _ => Scalar.ofBits .f32 0#32) ((win1_2.blk t).view.read (Elt F) bv)

/-- What the body stores at point t: its one payload at the three blocks. -/
def oBlk (wt : FVec F S32x100000 .f32) (ev : FVec F S32x1024 .f32) (bv : FVec F S100000 .f32) (t : Fin cfg1.N) : Vec F S4096x1024 .f32 :=
  k1_pay1 (wBlk wt t) (eBlk ev t) (bBlk bv t)

/-- The point whose block holds row v of the result. -/
def ptOf (v : Fin 100000) : Fin cfg1.N := ⟨v.val / 4096, by rw [show cfg1.N = 25 from N_1]; have := v.isLt; omega⟩

/-- The call's result as one function of the transposed weights, the summed embeddings and the bias. -/
def mmOut (wt : FVec F S32x100000 .f32) (ev : FVec F S32x1024 .f32) (bv : FVec F S100000 .f32) : FVec F S100000x1024 .f32 :=
  fun i => oBlk wt ev bv (ptOf (i 0)) (ix2 ⟨(i 0).val % 4096, Nat.mod_lt _ (by norm_num)⟩ (i 1))

/-! ## The proof data -/

/-- The (semaphore, index) pairs the TensorCore may have recorded waits at when the call is entered, and after it:
    those at level at most 8, the bound its state after the one SparseCore call carries. -/
abbrev recB (d : Dev nD) : Set (SemLoc sig × HIx 1) := {p | (K (F := F)).lev ((T d : Thread nD τ), p.1) p.2 ≤ 8}

local notation "𝕄" => MT nD τ sig (HIx 1) (Elt F) ℕ UU ℕ

/-- The pipeline's proof data on device d: the four arrays at their contents when the call is entered; after the body
    the inputs' staging buffers at their blocks and the result's at the body's value; no invariant of the body's own;
    nothing owed; full shares. -/
def dats (wt : FVec F S32x100000 .f32) (ev : FVec F S32x1024 .f32) (bv : FVec F S100000 .f32) (ov : FVec F S100000x1024 .f32)
    (_ : Fin 1) (d : Dev nD) : Dat τ (Elt F) (HIx 1) ℕ UU ℕ cfg1 d where
  A w := match w with
    | ⟨0, _⟩ => wt
    | ⟨1, _⟩ => ev
    | ⟨2, _⟩ => bv
    | ⟨3, _⟩ => ov
  after w t := match w with
    | ⟨0, _⟩ => wBlk wt t
    | ⟨1, _⟩ => eBlk ev t
    | ⟨2, _⟩ => bBlk bv t
    | ⟨3, _⟩ => oBlk wt ev bv t
  Φ _ := iprop(emp)
  q _ := fullShare
  owed _ := 0
  recorded _ := recB (F := F) d

/-- The result's window, forgotten or not: a run that need not name what the result array ends holding hands the
    result's staging buffer to the body, and takes it back, at contents nothing names. -/
def fgt3 (fg : Bool) : Fin cfg1.W → Bool := fun w => match w with
  | ⟨0, _⟩ => false
  | ⟨1, _⟩ => false
  | ⟨2, _⟩ => false
  | ⟨3, _⟩ => fg

/-- The proof data read relationally, the result's window forgotten when `fg`. -/
def rdats (fg : Bool) (wt : FVec F S32x100000 .f32) (ev : FVec F S32x1024 .f32) (bv : FVec F S100000 .f32) (ov : FVec F S100000x1024 .f32)
    (p : Fin 1) (d : Dev nD) : Pipeline.RDat τ (Elt F) (HIx 1) ℕ UU ℕ cfg1 d :=
  (dats wt ev bv ov p d).toRForget (fgt3 fg)

/-- On the rows a write-back moves, the body's payload depends on the weight block and on the bias block only through
    the columns and entries their fetches move: what lies in the staging buffers past the arrays' edge does not reach
    the result array. (A fact about the float instance: the matrix product's rows are computed from the matching
    columns. It holds of the extended reals.) -/
def RowsOK (F : FTy → Type) [FloatOps F] : Prop :=
  ∀ (t : Fin cfg1.N) (x0 x0' : Vec F S32x4096 .f32) (x1 : Vec F S32x1024 .f32) (x2 x2' : Vec F S4096 .f32),
    win1_0.cut (grid1.coords t) x0 = win1_0.cut (grid1.coords t) x0' →
    win1_2.cut (grid1.coords t) x2 = win1_2.cut (grid1.coords t) x2' →
    win1_3.cut (grid1.coords t) (k1_pay1 x0 x1 x2) = win1_3.cut (grid1.coords t) (k1_pay1 x0' x1 x2')

end Cert.Proof.KI

end
-- ==== Proof.MainTc.lean ====
/-
  @main on the TensorCore of the kernel program, and the program's run.

  @main transposes and flattens the index array, transposes the table, starts the SparseCore call and waits for it
  (the three arrays it moves are handed to the thirty-two tasks and taken back, the call's result at `embArr`),
  transposes the weights, runs the matrix product's call as a region, and transposes the product into the result.
  Each host operation is run over the two arrays it touches, held whole; every other array stays where it is. At the
  end the four argument arrays are whole at their launch contents and the result array at the transpose of what the
  region left. The region's own proof and the tasks' are taken as hypotheses here; so is how the launch element funds
  the region's staging cells.
-/
import proofs.«208886_g87462714016427_cont_sun_c4_567_10_alg».proof.Proof.MainHost
import proofs.«208886_g87462714016427_cont_sun_c4_567_10_alg».proof.Proof.Split
import proofs.«208886_g87462714016427_cont_sun_c4_567_10_alg».proof.Proof.Final
import proofs.«208886_g87462714016427_cont_sun_c4_567_10_alg».proof.Proof.Region

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

/-! ## The TensorCore's arrays -/

/-- @main's eleven arrays, each whole. -/
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (a3Loc d ↦{fullShare} W main_arg3) ∗ (v0Loc d ↦{fullShare} W main_v0) ∗ (iLoc d ↦{fullShare} W main_v1)
          ∗ (tLoc d ↦{fullShare} W main_v2) ∗ (eLoc d ↦{fullShare} W main_v3) ∗ (wLoc d ↦{fullShare} W main_v4)
          ∗ (oLoc d ↦{fullShare} W main_v5) ∗ (rLoc d ↦{fullShare} W main_v6)) := by
  unfold unscopedBufs
  rw [show (Finset.univ.filter fun b : Ref sig .tc => ¬ b.isScoped)
        = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two arrays held as a set are the two arrays. -/
theorem held_pair (d : Dev nD) (x y : Ref sig .tc) (hne : (Proc.devRef .tc x : DevRef τ sig) ≠ Proc.devRef .tc y)
    (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (Finset.notMem_singleton.mpr hne), bigSep_singleton]

variable [FloatOps F]

/-- A host operation that reads the array `x` and writes the array `y`, run over the two held whole: `x` keeps its
    contents and `y` ends at the operation's result. -/
theorem wp_hlo_pair (d : Dev nD) (op : HloOp τ sig (Elt F)) (x y : Ref sig .tc)
    (hb : op.bufs = {Proc.devRef .tc x, Proc.devRef .tc y}) (hw : op.writes = {Proc.devRef .tc y})
    (hne : (Proc.devRef .tc x : DevRef τ sig) ≠ Proc.devRef .tc y) (V₀ : Valuation τ sig (Elt F))
    (fx : Buf (Elt F) ((SparseCore.T d : Thread nD τ).loc x)) (fy gy : Buf (Elt F) ((SparseCore.T d : Thread nD τ).loc y))
    (hres : ∀ W : Valuation τ sig (Elt F), W (Proc.devRef .tc x) = fx → op.result W (Proc.devRef .tc y) = gy)
    (Φ : PUnit → sProp 𝕄) (hf : op.fresh = ∅ := by rfl) :
    iprop(boundary (T d) ∗ ((SparseCore.T d).loc x ↦{fullShare} fx) ∗ ((SparseCore.T d).loc y ↦{fullShare} fy))
      ⊢ iprop((iprop(boundary (T d) ∗ ((SparseCore.T d).loc x ↦{fullShare} fx) ∗ ((SparseCore.T d).loc y ↦{fullShare} gy)) -∗ Φ ⟨⟩)
          -∗ wp frame (wpE ((K (F := F)).defs (D (F := F))) 𝒱 (SparseCore.T d) none) Set.univ
              (hlo rfl op fun _ => .ret (⟨⟩ : PUnit)) Φ) := by
  obtain ⟨W, hWx, hWy⟩ : ∃ W : Valuation τ sig (Elt F), W (Proc.devRef .tc x) = fx ∧ W (Proc.devRef .tc y) = fy :=
    ⟨Function.update (Function.update V₀ (Proc.devRef .tc y) fy) (Proc.devRef .tc x) fx, Function.update_self _ _ _, by
      rw [Function.update_of_ne hne.symm, Function.update_self]⟩
  have hbefore : (held (T d) {Proc.devRef .tc x, Proc.devRef .tc y} W : sProp 𝕄)
      = iprop(((SparseCore.T d).loc x ↦{fullShare} fx) ∗ ((SparseCore.T d).loc y ↦{fullShare} fy)) := by
    rw [held_pair d x y hne, hWx, hWy]
  have hafter : (held (T d) {Proc.devRef .tc x, Proc.devRef .tc y} (op.result W) : sProp 𝕄)
      = iprop(((SparseCore.T d).loc x ↦{fullShare} fx) ∗ ((SparseCore.T d).loc y ↦{fullShare} gy)) := by
    rw [held_pair d x y hne, op.result_of_not_mem W (b := Proc.devRef .tc x) (by rw [hw, Finset.mem_singleton]; exact hne), hWx,
      hres W hWx]
  iintro ⟨Hb, Hx, Hy⟩ Hk
  iapply (wp_hlo_within 𝒱 (SparseCore.T d) none Set.univ (op := op) (S := {Proc.devRef .tc x, Proc.devRef .tc y})
      (Finset.subset_of_eq hb) (V := W) hf) $$ [Hb Hx Hy]
  · isplitl [Hb]; · iexact Hb
    rw [hbefore]
    isplitl [Hx]; · iexact Hx
    iexact Hy
  iintro ⟨Hb, Hheld⟩
  ihave Hh := (Entails.of_eq hafter) $$ Hheld
  icases Hh with ⟨Hx, Hy⟩
  rw [wp_ret]; imodintro
  iapply Hk
  isplitl [Hb]; · iexact Hb
  isplitl [Hx]; · iexact Hx
  iexact Hy

/-! ## What @main starts from, what the region asks, what @main leaves -/

section Main

variable (m : (ℓ : Loc nD τ sig) → Buf (Elt F) ℓ) (ρ : Dev nD → PrngReg)
-- whether the region forgets what it wrote (the claim then names no value of the product)
variable (fg : Bool)
-- what the region needs of the launch element on each device
variable (G : Dev nD → sProp (MT nD τ sig (HIx 1) (Elt F) ℕ UU ℕ))

/-- The result array of the SparseCore call as it enters: its launch contents. -/
abbrev ev₀ (d : Dev nD) : Buf (Elt F) (eLoc d) := m (eLoc d)
/-- The summed embeddings, as the SparseCore call leaves them. -/
abbrev embOf (d : Dev nD) : Buf (Elt F) (eLoc d) := embArr (F := F) (tabT m d) (idxFlat m d)
/-- The product, as the matrix product's call leaves it when it does not forget. -/
abbrev prodOf (d : Dev nD) : Buf (Elt F) (oLoc d) := mmOut (F := F) (wT m d) (embOf m d) (m (a3Loc d))

/-- The arrays after @main: the four arguments at their launch contents, the result at the transpose of a product
    array, which is the region's own unless the region forgets. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d))
    ∗ ∃ o' : Buf (Elt F) (oLoc d), ⌜fg = false → o' = prodOf m d⌝ ∗ (rLoc d ↦{fullShare} outT d o'))

/-- The region's step, as @main meets it: from the handshake state after the SparseCore call, the region boundary,
    the staging cells' ghost state and the four arrays whole, the call runs and leaves the three inputs unchanged and
    the product array at some contents, the region's function of the inputs unless it forgets. -/
def RegionSpec : Prop :=
  ∀ (d : Dev nD) (wt : FVec F S32x100000 .f32) (ev : FVec F S32x1024 .f32) (bv : FVec F S100000 .f32)
    (ov : FVec F S100000x1024 .f32) (Φ : PUnit → sProp 𝕄),
    iprop(levAts (K (F := F)).L (K (F := F)).lev ∗ (K (F := F)).tcSt EH d 1 ∗ boundary (T d) ∗ G d
        ∗ (wLoc d ↦{fullShare} wt) ∗ (eLoc d ↦{fullShare} ev) ∗ (a3Loc d ↦{fullShare} bv) ∗ (oLoc d ↦{fullShare} ov)
        ∗ (∀ o' : FVec F S100000x1024 .f32, iprop(⌜fg = false → o' = mmOut (F := F) wt ev bv⌝ ∗ (K (F := F)).tcSt EH d 1 ∗ boundary (T d)
              ∗ (wLoc d ↦{fullShare} wt) ∗ (eLoc d ↦{fullShare} ev) ∗ (a3Loc d ↦{fullShare} bv) ∗ (oLoc d ↦{fullShare} o')) -∗ Φ ⟨⟩))
      ⊢ wp frame (wpE ((K (F := F)).defs (D (F := F))) 𝒱 (T d) none) Set.univ
          (Prog.lift (.customCall (SparseCore.inner (Pipeline.entry 0)) ())) Φ

/-- The launch deals the TensorCore its eleven arrays at the launch contents. -/
theorem tcBufs_eq (d : Dev nD) :
    (unscopedBufs d (fun b => m ((SparseCore.T d).loc b)) : sProp 𝕄)
      = iprop((a0Loc d ↦{fullShare} m (a0Loc d)) ∗ (a1Loc d ↦{fullShare} m (a1Loc d)) ∗ (a2Loc d ↦{fullShare} m (a2Loc d))
          ∗ (a3Loc d ↦{fullShare} m (a3Loc d)) ∗ (v0Loc d ↦{fullShare} m (v0Loc d)) ∗ (iLoc d ↦{fullShare} m (iLoc d))
          ∗ (tLoc d ↦{fullShare} m (tLoc d)) ∗ (eLoc d ↦{fullShare} m (eLoc d)) ∗ (wLoc d ↦{fullShare} m (wLoc d))
          ∗ (oLoc d ↦{fullShare} m (oLoc d)) ∗ (rLoc d ↦{fullShare} m (rLoc d))) := by
  rw [unscopedBufs_eq]

/-! ## @main -/

set_option backward.isDefEq.respectTransparency.types false in
/-- @main on device `d`'s TensorCore. -/
theorem hmain (hregion : RegionSpec (F := F) fg G) (κ : GSem nD τ sig → ℕ) (d : Dev nD) :
    iprop((K (F := F)).ctx EH (P (idxFlat m) (tabT m) (ev₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m fg d) := by
  unfold SparseCore.Cfg.tcRes
  rw [tcBufs_eq]
  simp only [main, wp_bind, wp_pure]
  iintro ⟨#Hctx, Hst, ⟨Hb, ⟨H0, H1, H2, H3, Hv0, Hv1, Hv2, Hv3, Hv4, Hv5, Hv6⟩, -, -⟩, HG⟩
  -- the index array transposed, then flattened; the table transposed
  iapply (wp_hlo_pair d opIdxT main_arg0 main_v0 rfl rfl (by decide) (fun b => m (d, b)) (m (a0Loc d)) (m (v0Loc d)) (idx4 m d)
    (fun W h => opIdxT_result m d W h)) $$ [Hb H0 Hv0]
  · isplitl [Hb]; · iexact Hb
    isplitl [H0]; · iexact H0
    iexact Hv0
  iintro ⟨Hb, H0, Hv0⟩
  iapply (wp_hlo_pair d opIdxFlat main_v0 main_v1 rfl rfl (by decide) (fun b => m (d, b)) (idx4 m d) (m (iLoc d)) (idxFlat m d)
    (fun W h => opIdxFlat_result m d W h)) $$ [Hb Hv0 Hv1]
  · isplitl [Hb]; · iexact Hb
    isplitl [Hv0]; · iexact Hv0
    iexact Hv1
  iintro ⟨Hb, Hv0, Hv1⟩
  iapply (wp_hlo_pair d opTabT main_arg1 main_v2 rfl rfl (by decide) (fun b => m (d, b)) (m (a1Loc d)) (m (tLoc d)) (tabT m d)
    (fun W h => opTabT_result m d W h)) $$ [Hb H1 Hv2]
  · isplitl [Hb]; · iexact Hb
    isplitl [H1]; · iexact H1
    iexact Hv2
  iintro ⟨Hb, H1, Hv2⟩
  -- the SparseCore call: the three arrays to the thirty-two tasks and back
  ihave Hsp := (st0_of_whole (F := F) (idxFlat m) (tabT m) (ev₀ m) d) $$ [Hv1 Hv2 Hv3]
  · isplitl [Hv1]; · iexact Hv1
    isplitl [Hv2]; · iexact Hv2
    iexact Hv3
  icases Hsp with ⟨Hrem, Hst0⟩
  iapply ((K (F := F)).wp_run (D (F := F)) 𝒱 (EH := EH) (P := P (idxFlat m) (tabT m) (ev₀ m)) κ d 0) $$ [Hst Hst0 Hrem Hb H0 H1 H2 H3 Hv0 Hv4 Hv5 Hv6 HG]
  isplitr; · iexact Hctx
  isplitl [Hst]; · iexact Hst
  isplitl [Hst0]; · iexact Hst0
  iintro ⟨Hst, Hdn⟩
  ihave Hw := (whole_of_dn0 (F := F) (idxFlat m) (tabT m) (ev₀ m) d) $$ [Hrem Hdn]
  · isplitl [Hrem]; · iexact Hrem
    iexact Hdn
  icases Hw with ⟨Hv1, Hv2, Hv3⟩
  -- the weights transposed
  iapply (wp_hlo_pair d opWT main_arg2 main_v4 rfl rfl (by decide) (fun b => m (d, b)) (m (a2Loc d)) (m (wLoc d)) (wT m d)
    (fun W h => opWT_result m d W h)) $$ [Hb H2 Hv4]
  · isplitl [Hb]; · iexact Hb
    isplitl [H2]; · iexact H2
    iexact Hv4
  iintro ⟨Hb, H2, Hv4⟩
  -- the matrix product's call
  iapply (hregion d (wT m d) (embOf m d) (m (a3Loc d)) (m (oLoc d)) _) $$ [Hst Hb HG Hv4 Hv3 H3 Hv5 H0 H1 H2 Hv0 Hv1 Hv2 Hv6]
  isplitr; · iapply (SparseCore.Cfg.ctx_levAts κ); iexact Hctx
  isplitl [Hst]; · iexact Hst
  isplitl [Hb]; · iexact Hb
  isplitl [HG]; · iexact HG
  isplitl [Hv4]; · iexact Hv4
  isplitl [Hv3]; · iexact Hv3
  isplitl [H3]; · iexact H3
  isplitl [Hv5]; · iexact Hv5
  iintro %o' ⟨%ho, Hst, Hb, Hv4, Hv3, H3, Hv5⟩
  -- the product transposed into the result
  iapply (wp_hlo_pair d opOutT main_v5 main_v6 rfl rfl (by decide) (fun b => m (d, b)) o' (m (rLoc d)) (outT d o')
    (fun W h => opOutT_result d o' W h)) $$ [Hb Hv5 Hv6]
  · isplitl [Hb]; · iexact Hb
    isplitl [Hv5]; · iexact Hv5
    iexact Hv6
  iintro ⟨Hb, Hv5, Hv6⟩
  imodintro
  isplitl [Hst]; · iexact Hst
  unfold FIN
  isplitl [H0]; · iexact H0
  isplitl [H1]; · iexact H1
  isplitl [H2]; · iexact H2
  isplitl [H3]; · iexact H3
  iexists o'
  isplitr; · ipureintro; exact ho
  iexact Hv6

end Main

/-! ## The launch element -/

section Launch

variable (m : (ℓ : Loc nD τ sig) → Buf (Elt F) ℓ) (ρ : Dev nD → PrngReg)
variable (fg : Bool)
variable (G : Dev nD → sProp (MT nD τ sig (HIx 1) (Elt F) ℕ UU ℕ))

/-- The launch element: the handshakes' rounds, the region's staging cells' element `uP`, no local copy counted. -/
def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

/-- From the launch element: the handshake cells' rounds, what the region needs on every device, and nothing for
    the tasks (they consume nothing of the launch's). -/
theorem hu₀ (uP : UP) (fundG : (BI.own ((EP : Emb UP 𝕄) uP) : sProp 𝕄) ⊢ |==> bigSep Finset.univ fun d : Dev nD => G d)
    (iv : (d : Dev nD) → Buf (Elt F) (iLoc d)) (tv : (d : Dev nD) → Buf (Elt F) (tLoc d)) (ev : (d : Dev nD) → Buf (Elt F) (eLoc d)) :
    (ownU (u₀ (F := F) uP) : sProp 𝕄)
      ⊢ |={Set.univ}=> iprop(BI.own (EH (initOf (K (F := F)).hsCells (K (F := F)).hsToks)) ∗ (bigSep Finset.univ fun d : Dev nD => G d)
          ∗ bigSep Finset.univ fun thr : Thread nD τ => bigSep Finset.univ fun q : Fin 1 => (P iv tv ev).x q thr) := by
  have fundG' : (BI.own (((Emb.inl : Emb UP (UP × Counters)).trans (embR : Emb (UP × Counters) 𝕄)) uP) : sProp 𝕄)
      ⊢ |==> bigSep Finset.univ fun d : Dev nD => G d := fundG
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  imod fundG' $$ HP with HGs
  imodintro
  isplitl [HH]; · iexact HH
  isplitl [HGs]; · iexact HGs
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the claim off the final memory -/

/-- What the final memory of device `d` satisfies. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d)
    ∧ ∃ o' : Buf (Elt F) (oLoc d), (fg = false → o' = prodOf m d) ∧ s'.mem.mem (rLoc d) = outT d o'

theorem hfin (d : Dev nD) (s' : Phys nD τ sig (Elt F)) : iprop(FIN m fg d ∗ SI s') ⊢ (⌜fq m fg d s'⌝ : sProp 𝕄) := by
  unfold FIN
  iintro ⟨⟨H0, H1, H2, H3, %o', %ho, H6⟩, HSI⟩
  ihave X := (agree5 d s' (m (a0Loc d)) (m (a1Loc d)) (m (a2Loc d)) (m (a3Loc d)) (outT d o')) $$ [H0 H1 H2 H3 H6 HSI]
  · isplitl [H0 H1 H2 H3 H6]
    · isplitl [H0]; · iexact H0
      isplitl [H1]; · iexact H1
      isplitl [H2]; · iexact H2
      isplitl [H3]; · iexact H3
      iexact H6
    · iexact HSI
  icases X with %h
  ipureintro
  exact ⟨h.1, h.2.1, h.2.2.1, h.2.2.2.1, o', ho, h.2.2.2.2⟩

/-! ## The program's run -/

/-- The run's post: on every device the result array is the transpose of a product array — the region's own unless
    the region forgets — and the four argument arrays are unchanged. -/
def QC : PUnit × MemSt nD τ sig (Elt F) → Prop := fun r => ∀ c : Dev nD,
  (∃ o' : Buf (Elt F) (oLoc c), (fg = false → o' = prodOf m c) ∧ r.2.mem (rLoc c) = outT c o')
    ∧ r.2.mem (a0Loc c) = m (a0Loc c) ∧ r.2.mem (a1Loc c) = m (a1Loc c) ∧ r.2.mem (a2Loc c) = m (a2Loc c)
    ∧ r.2.mem (a3Loc c) = m (a3Loc c)

/-- Every weakly fair execution of the device's threads from a memory with zero counters terminates, nothing
    faulting, in a state of which `QC` holds; from the tasks' proof, the region's, and the funding of its cells. -/
theorem run_main [∀ e, Nonempty (Elt F e)] (uP : UP)
    (fundG : (BI.own ((EP : Emb UP 𝕄) uP) : sProp 𝕄) ⊢ |==> bigSep Finset.univ fun d : Dev nD => G d)
    (hregion : RegionSpec (F := F) fg G)
    (tileObl : (K (F := F)).TileObl (D (F := F)) 𝒱 (P (idxFlat m) (tabT m) (ev₀ m)) v₀ 0) :
    θ_run (Cert.KernelIdeal.defs (F := F)) (Cert.KernelIdeal.threads (F := F)) ⟨m, fun _ => 0, ρ⟩ (QC m fg) :=
  SparseCore.Cfg.θ_run_sc (K := K (F := F)) (D := D (F := F)) (𝒱 := 𝒱) (EH := EH) (P := P (idxFlat m) (tabT m) (ev₀ m)) facts v₀
    (fun q hq => match q with | 0 => nomatch hq)
    (fun q _ => match q with | 0 => tileObl)
    (fun q _ => match q with | 0 => SparseCore.Cfg.VecSplit.of_plain (vecSplit (idxFlat m) (tabT m) (ev₀ m)))
    m ρ main G (FIN m fg) (u₀ (F := F) uP) (sep_elim_left.trans (hu₀ G uP fundG _ _ _)) (hmain m ρ fg G hregion) (fq m fg) (hfin m fg)
    (QC m fg) (fun _ h c => ⟨(h c).2.2.2.2, (h c).1, (h c).2.1, (h c).2.2.1, (h c).2.2.2.1⟩)

end Launch

end Cert.Proof.KI

end
-- ==== Proof.EmbValue.lean ====
/-
  The call's result read at an entry, on the extended reals.

  When the transposed table `tv` is the table `T` with its two coordinates exchanged and the flattened index array `iv`
  holds, at word `j * 1024 + n`, context position `j` of batch entry `n`, entry `(d, n)` of the call's result is the
  specification's summed embedding of entry `n` in coordinate `d`: the four table entries added left to right. A
  word names the same row on both sides (`min · 99999`).
-/
import proofs.«208886_g87462714016427_cont_sun_c4_567_10_alg».proof.Proof.Setup
import proofs.«208886_g87462714016427_cont_sun_c4_567_10_alg».proof.Proof.Spec

noncomputable section

namespace Cert.Proof.KI

open Cert.KernelIdeal Cert.KernelIdeal.Gen
open Idealize.ShloMosaic Idealize.ShloMosaic.ValueIdx
open Cert.Proof

/-- A word names the same row in the call's reading and in the specification's. -/
theorem colOf_eq_rowOf (w : BitVec 32) : colOf w = Spec.rowOf w := Fin.ext rfl

/-- One gathered entry is the table's entry at the row the word names. -/
theorem gathered_apply (idx : IVec Spec.SIdx 32) (T : FVec Ideal Spec.STab .f32)
    (tv : FVec Ideal S32x100000 .f32) (iv : IVec S4096 32)
    (htv : ∀ (d : Fin 32) (r : Fin 100000), tv (ix2 d r) = T (ix2 r d))
    (hiv : ∀ (j : Fin 4) (n : Fin 1024), iv (flatIx j n) = idx (ix2 n j))
    (j : Fin 4) (d : Fin 32) (n : Fin 1024) :
    gathered (F := Ideal) tv iv j (ix2 d n) = T (ix2 (Spec.rowIx idx n j) d) := by
  show tv (ix2 d (colOf (iv (flatIx j n)))) = T (ix2 (Spec.rowOf (idx (ix2 n j))) d)
  rw [htv, hiv, colOf_eq_rowOf]

/-- The call's result at `(d, n)` is the specification's summed embedding. -/
theorem embArr_apply (idx : IVec Spec.SIdx 32) (T : FVec Ideal Spec.STab .f32)
    (tv : FVec Ideal S32x100000 .f32) (iv : IVec S4096 32)
    (htv : ∀ (d : Fin 32) (r : Fin 100000), tv (ix2 d r) = T (ix2 r d))
    (hiv : ∀ (j : Fin 4) (n : Fin 1024), iv (flatIx j n) = idx (ix2 n j))
    (d : Fin 32) (n : Fin 1024) :
    embArr (F := Ideal) tv iv (ix2 d n) = Spec.embSum idx T n d := by
  show ((gathered (F := Ideal) tv iv 0 (ix2 d n) + gathered (F := Ideal) tv iv 1 (ix2 d n))
      + gathered (F := Ideal) tv iv 2 (ix2 d n)) + gathered (F := Ideal) tv iv 3 (ix2 d n) = _
  rw [gathered_apply idx T tv iv htv hiv, gathered_apply idx T tv iv htv hiv,
    gathered_apply idx T tv iv htv hiv, gathered_apply idx T tv iv htv hiv]
  rfl

end Cert.Proof.KI

end
-- ==== Proof.KValue.lean ====
/-
  The kernel's arrangement of the arithmetic equals the specification, on the extended reals.

  The kernel holds the summed embeddings transposed, `embT d n`, and reads the result at `(n, v)` as the sum over the
  32 coordinates `d` of weight times embedding, started from a zero accumulator, plus the bias. With `embT d n` the
  specification's `embSum` this is the specification's value: `0 + x = x`, and the product commutes for the variants
  that write the embedding on the left. Four added terms are also the sum over `Fin 4` from zero (`sum4`).
-/
import proofs.«208886_g87462714016427_cont_sun_c4_567_10_alg».proof.Proof.Spec

noncomputable section

namespace Cert.Proof.KValue

open Idealize.ShloMosaic Idealize.ShloMosaic.ValueIdx
open Cert.Proof

variable (idx : IVec Spec.SIdx 32) (T W : FVec Ideal Spec.STab .f32) (b : FVec Ideal Spec.SBias .f32)

/-- Weight on the left, no accumulator: the sum a matmul into the zero splat leaves. -/
theorem kernel_eq' (embT : Fin 32 → Fin 1024 → EReal) (hemb : ∀ d n, embT d n = Spec.embSum idx T n d)
    (n : Fin 1024) (v : Fin 100000) :
    (∑ d : Fin 32, W (ix2 v d) * embT d n) + b (ix1 v) = Spec.out idx T W b (ix2 n v) := by
  rw [Spec.out_apply]
  exact congrArg (· + b (ix1 v)) (Finset.sum_congr rfl fun d _ => by rw [hemb d n])

/-- Weight on the left, from a zero accumulator. -/
theorem kernel_eq (embT : Fin 32 → Fin 1024 → EReal) (hemb : ∀ d n, embT d n = Spec.embSum idx T n d)
    (n : Fin 1024) (v : Fin 100000) :
    (0 + ∑ d : Fin 32, W (ix2 v d) * embT d n) + b (ix1 v) = Spec.out idx T W b (ix2 n v) := by
  rw [zero_add]
  exact kernel_eq' idx T W b embT hemb n v

/-- Embedding on the left, no accumulator. -/
theorem kernel_eq_comm' (embT : Fin 32 → Fin 1024 → EReal) (hemb : ∀ d n, embT d n = Spec.embSum idx T n d)
    (n : Fin 1024) (v : Fin 100000) :
    (∑ d : Fin 32, embT d n * W (ix2 v d)) + b (ix1 v) = Spec.out idx T W b (ix2 n v) := by
  rw [← kernel_eq' idx T W b embT hemb n v]
  exact congrArg (· + b (ix1 v)) (Finset.sum_congr rfl fun d _ => mul_comm _ _)

/-- Embedding on the left, from a zero accumulator. -/
theorem kernel_eq_comm (embT : Fin 32 → Fin 1024 → EReal) (hemb : ∀ d n, embT d n = Spec.embSum idx T n d)
    (n : Fin 1024) (v : Fin 100000) :
    (0 + ∑ d : Fin 32, embT d n * W (ix2 v d)) + b (ix1 v) = Spec.out idx T W b (ix2 n v) := by
  rw [zero_add]
  exact kernel_eq_comm' idx T W b embT hemb n v

/-- Four terms added left to right are their sum over `Fin 4` started from zero. -/
theorem sum4 (a0 a1 a2 a3 : EReal) : ((a0 + a1) + a2) + a3 = 0 + ∑ j : Fin 4, ![a0, a1, a2, a3] j := by
  rw [Fin.sum_univ_four, zero_add]
  rfl

/-- The same without the leading zero. -/
theorem sum4' (a0 a1 a2 a3 : EReal) : ((a0 + a1) + a2) + a3 = ∑ j : Fin 4, ![a0, a1, a2, a3] j := by
  rw [Fin.sum_univ_four]
  rfl

end Cert.Proof.KValue

end
-- ==== Proof.KernelValue.lean ====
/-
  The kernel's result is the specification's, on the extended reals.

  The result array is the transpose of the product array; the product at `(v, n)` is the sum over the 32 coordinates
  of transposed weight times summed embedding, plus the bias; the transposed weights and table are the weights and
  the table with their coordinates exchanged, the flattened index array holds the index array's entries, and the
  summed embeddings are the specification's. What remains is the specification's own sum.
-/
import proofs.«208886_g87462714016427_cont_sun_c4_567_10_alg».proof.Proof.MainTc
import proofs.«208886_g87462714016427_cont_sun_c4_567_10_alg».proof.Proof.EmbValue
import proofs.«208886_g87462714016427_cont_sun_c4_567_10_alg».proof.Proof.KValue

noncomputable section

open scoped BigOperators

namespace Cert.Proof.KI

open Cert.KernelIdeal Cert.KernelIdeal.Gen
open Idealize.ShloMosaic Idealize.ShloMosaic.ValueIdx
open Cert.Proof

/-- The transposed product array the matrix product's call leaves is `Spec.out` of the four argument arrays. -/
theorem result_eq_out
    (hmm : ∀ (wt : FVec Ideal S32x100000 .f32) (ev : FVec Ideal S32x1024 .f32) (bv : FVec Ideal S100000 .f32)
      (v : Fin 100000) (n : Fin 1024),
      mmOut (F := Ideal) wt ev bv (ix2 v n) = (∑ k : Fin 32, wt (ix2 k v) * ev (ix2 k n)) + bv (ix1 v))
    (m : (ℓ : Loc nD τ sig) → Buf (Elt Ideal) ℓ) (c : Dev nD) (_h : Spec.InRange (m (a0Loc c))) :
    outT c (prodOf (F := Ideal) m c) = Spec.out (m (a0Loc c)) (m (a1Loc c)) (m (a2Loc c)) (m (a3Loc c)) := by
  funext i
  obtain ⟨n, v, rfl⟩ : ∃ (n : Fin 1024) (v : Fin 100000), i = ix2 n v := ⟨i 0, i 1, eq_ix2 i⟩
  rw [outT_apply]
  show mmOut (F := Ideal) (wT m c) (embOf m c) (m (a3Loc c)) (ix2 v n) = _
  rw [hmm]
  have he : ∀ k : Fin 32, embOf m c (ix2 k n) = Spec.embSum (m (a0Loc c)) (m (a1Loc c)) n k := fun k =>
    embArr_apply (m (a0Loc c)) (m (a1Loc c)) (tabT m c) (idxFlat m c) (fun d r => tabT_apply m c d r)
      (fun j n => idxFlat_apply m c j n) k n
  refine (congrArg (· + m (a3Loc c) (ix1 v)) (Finset.sum_congr rfl fun k _ => ?_)).trans
    (KValue.kernel_eq' (m (a0Loc c)) (m (a1Loc c)) (m (a2Loc c)) (m (a3Loc c))
      (fun d n => Spec.embSum (m (a0Loc c)) (m (a1Loc c)) n d) (fun _ _ => rfl) n v)
  rw [wT_apply, he k]

end Cert.Proof.KI

end
-- ==== Proof.IdxRange.lean ====
/-
  The flattened index array keeps the range of the index array.

  Every word of the flattened array is word `j * 1024 + n` for one context position `j` and batch entry `n`, hence an
  entry of the index array; if every entry names a row of the table, so does every word.
-/
import proofs.«208886_g87462714016427_cont_sun_c4_567_10_alg».proof.Proof.MainHost
import proofs.«208886_g87462714016427_cont_sun_c4_567_10_alg».proof.Proof.Spec

noncomputable section

namespace Cert.Proof.KI

open Cert.KernelIdeal Cert.KernelIdeal.Gen
open Idealize.ShloMosaic Idealize.ShloMosaic.ValueIdx
open Cert.Proof

variable {F : FTy → Type}

/-- In range on the index array, in range on the flattened one. -/
theorem idxFlat_inRange (m : (ℓ : Loc nD τ sig) → Buf (Elt F) ℓ) (d : Dev nD) (h : Spec.InRange (m (a0Loc d))) :
    ∀ x, (idxFlat m d x).toNat < 100000 := by
  intro x
  have hx : (x 0).val < 4096 := (x 0).isLt
  have e : x = flatIx ⟨(x 0).val / 1024, by omega⟩ ⟨(x 0).val % 1024, Nat.mod_lt _ (by norm_num)⟩ := by
    funext a
    match a with
    | ⟨0, _⟩ => exact Fin.ext (by show (x 0).val = (x 0).val / 1024 * 1024 + (x 0).val % 1024; omega)
  rw [e, idxFlat_apply]
  exact h _

end Cert.Proof.KI

end
-- ==== Proof.TileDefs.lean ====
/-
  The vocabulary of one vector subcore's task: the arrays and the subcore's three scratch buffers as the task's
  program names them, the subcore's place, the row of the transposed table and of the result it works on (row
  2 i + c for subcore i of core c: the task slices both at the offsets it computes from its place), and those two rows
  as the program slices them.
-/
import proofs.«208886_g87462714016427_cont_sun_c4_567_10_alg».proof.Proof.Setup

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The transposed table, the flattened indices and the result, as a vector subcore names them. -/
abbrev tV : Memref sig .scVector .hbm S32x100000 .f32 := Memref.whole main_v2_scv
abbrev iV : Memref sig .scVector .hbm S4096 .i32 := Memref.whole main_v1_scv
abbrev eV : Memref sig .scVector .hbm S32x1024 .f32 := Memref.whole main_v3_scv
/-- A subcore's scratch: its row of the table, the indices, its row of sums. -/
abbrev sT : Memref sig .scVector .vmem S100000 .f32 := Memref.whole cc0_scratch0
abbrev sI : Memref sig .scVector .vmem S4096 .i32 := Memref.whole cc0_scratch1
abbrev sE : Memref sig .scVector .vmem S1024 .f32 := Memref.whole cc0_scratch2

/-- The core and the subcore of a place of the kernel's grid. -/
abbrev cV (L : grid0.Coords) : Fin τ.nSC := (L 0).castLE hcore0
abbrev jV (L : grid0.Coords) : Fin τ.nSub := (L 1).castLE hsub0
/-- The task's thread. -/
abbrev thrV (d : Dev nD) (L : grid0.Coords) : Thread nD τ := V d (cV L) (jV L)

/-- The row the task at place `L` works on. -/
def rowL (L : grid0.Coords) : Fin 32 := ⟨2 * (L 1).val + (L 0).val, by
  have h0 : (L 0).val < 2 := (L 0).isLt
  have h1 : (L 1).val < 16 := (L 1).isLt
  omega⟩

/-- That row of the table and of the result, as the task slices them. -/
abbrev tRowK (L : grid0.Coords) : Memref sig .scVector .hbm S100000 .f32 :=
  ((tV).slice (Rect.unit (s := S32x100000) (k0_off1 L) S1x100000.size (k0_off1_inb L)) (fun _ => rfl)).squeeze S100000 squeezes_S1x100000_S100000
abbrev eRowK (L : grid0.Coords) : Memref sig .scVector .hbm S1024 .f32 :=
  ((eV).slice (Rect.unit (s := S32x1024) (k0_off2 L) S1x1024.size (k0_off2_inb L)) (fun _ => rfl)).squeeze S1024 squeezes_S1x1024_S1024

/-- The table scratch held whole is the same held through its whole-rectangle access (what an indexed load reads). -/
theorem pts_sT_access (d : Dev nD) (L : grid0.Coords) (f : Buf (Elt F) ((thrV d L).loc cc0_scratch0)) :
    (((sT).view.loc (thrV d L) ↦{fullShare} f : sProp 𝕄)) = (((sT).access (.whole S100000)).loc (thrV d L) ↦{fullShare} f) := rfl

end Cert.Proof.KI

end
-- ==== Proof.TileGlue.lean ====
/-
  From one subcore's task to the launch theorem's obligation.

  The task at place `L` slices row `2 (L 1) + L 0` of the transposed table and of the result at the offsets it computes;
  those rectangles are the rows the split hands it. The subcore's own storage is its three scratch buffers and three of
  its copy semaphores, beside a rest the task never touches. With the task's body proved over exactly these resources
  (`TileCore`), framing the rest and respelling the rows gives the obligation the launch theorem asks of every subcore
  of the grid.
-/
import proofs.«208886_g87462714016427_cont_sun_c4_567_10_alg».proof.Proof.Setup
import proofs.«208886_g87462714016427_cont_sun_c4_567_10_alg».proof.Proof.Split
import proofs.«208886_g87462714016427_cont_sun_c4_567_10_alg».proof.Proof.TileDefs

set_option maxRecDepth 16384

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task's rows are the split's rows -/

section Tile

variable (d : Dev nD) (L : grid0.Coords)

abbrev rowK1 (L : grid0.Coords) : Rect S32x100000 := Rect.unit (s := S32x100000) (k0_off1 L) S1x100000.size (k0_off1_inb L)
abbrev rowK2 (L : grid0.Coords) : Rect S32x1024 := Rect.unit (s := S32x1024) (k0_off2 L) S1x1024.size (k0_off2_inb L)

theorem rowK1_eq : rowK1 L = rowT (rowL L) := by
  unfold rowK1 rowT Rect.part Rect.block
  congr 1 <;> funext a
  · rw [k0_off1_eq]
    match a with
    | 0 => simp [Shape.partIx, Shape.partSize, rowL]
    | 1 => simp [Shape.partIx, Shape.partSize]
  · match a with
    | 0 => simp [Shape.partSize]
    | 1 => simp [Shape.partSize]
theorem rowK2_eq : rowK2 L = rowE (rowL L) := by
  unfold rowK2 rowE Rect.part Rect.block
  congr 1 <;> funext a
  · rw [k0_off2_eq]
    match a with
    | 0 => simp [Shape.partIx, Shape.partSize, rowL]
    | 1 => simp [Shape.partIx, Shape.partSize]
  · match a with
    | 0 => simp [Shape.partSize]
    | 1 => simp [Shape.partSize]

theorem set_tRowK : (tRowK L).view.set = rowSetT (rowL L) := by
  show (((tV : Memref sig .scVector .hbm S32x100000 .f32).view.slice (rowK1 L)).reshape S100000 squeezes_S1x100000_S100000.numel_eq).set
    = ((tV : Memref sig .scVector .hbm S32x100000 .f32).view.slice (rowT (rowL L))).set
  rw [View.set_reshape]
  exact rowK1_eq L ▸ rfl
theorem set_eRowK : (eRowK L).view.set = rowSetE (rowL L) := by
  show (((eV : Memref sig .scVector .hbm S32x1024 .f32).view.slice (rowK2 L)).reshape S1024 squeezes_S1x1024_S1024.numel_eq).set
    = ((eV : Memref sig .scVector .hbm S32x1024 .f32).view.slice (rowE (rowL L))).set
  rw [View.set_reshape]
  exact rowK2_eq L ▸ rfl

theorem pts_tRowK (f : Buf (Elt F) (tLoc d)) :
    ((tRowK L).view.loc (thrV d L) ↦[(tRowK L).view.set]{fullShare} f : sProp 𝕄) = tLoc d ↦[rowSetT (rowL L)]{fullShare} f := by
  rw [set_tRowK]
theorem pts_eRowK (f : Buf (Elt F) (eLoc d)) :
    ((eRowK L).view.loc (thrV d L) ↦[(eRowK L).view.set]{fullShare} f : sProp 𝕄) = eLoc d ↦[rowSetE (rowL L)]{fullShare} f := by
  rw [set_eRowK]
theorem pts_iV (q : PosShare TreeShare) (f : Buf (Elt F) (iLoc d)) :
    ((iV).view.loc (thrV d L) ↦{q} f : sProp 𝕄) = iLoc d ↦{q} f := rfl
theorem pts_sT (f : Buf (Elt F) ((thrV d L).loc cc0_scratch0)) :
    ((sT).view.loc (thrV d L) ↦{fullShare} f : sProp 𝕄) = (thrV d L).loc cc0_scratch0 ↦{fullShare} f := rfl
theorem pts_sI (f : Buf (Elt F) ((thrV d L).loc cc0_scratch1)) :
    ((sI).view.loc (thrV d L) ↦{fullShare} f : sProp 𝕄) = (thrV d L).loc cc0_scratch1 ↦{fullShare} f := rfl
theorem pts_sE (f : Buf (Elt F) ((thrV d L).loc cc0_scratch2)) :
    ((sE).view.loc (thrV d L) ↦{fullShare} f : sProp 𝕄) = (thrV d L).loc cc0_scratch2 ↦{fullShare} f := rfl

/-! ## The subcore's own storage -/

/-- The three copy semaphores the task uses. -/
abbrev cA (d : Dev nD) (L : grid0.Coords) : GSem nD τ sig := (thrV d L, SemLoc.dma cc0_scoped0.sem)
abbrev cB (d : Dev nD) (L : grid0.Coords) : GSem nD τ sig := (thrV d L, SemLoc.dma cc0_scoped1.sem)
abbrev cC (d : Dev nD) (L : grid0.Coords) : GSem nD τ sig := (thrV d L, SemLoc.dma cc0_scoped2.sem)

/-- The subcore's other semaphores, at zero. -/
def semsRest (d : Dev nD) (L : grid0.Coords) : sProp 𝕄 :=
  bigSep ((((ownCells (thrV d L)).erase (cA d L)).erase (cB d L)).erase (cC d L)) fun g => semVal g 0
/-- The subcore's other buffers, at some contents. -/
def bufsRest (d : Dev nD) (L : grid0.Coords) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownSems0_V :
    (ownSems0 (thrV d L) : sProp 𝕄) = iprop(semVal (cA d L) 0 ∗ semVal (cB d L) 0 ∗ semVal (cC d L) 0 ∗ semsRest (F := F) d L) := by
  unfold SparseCore.Cfg.ownSems0 semsRest
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := cB d L)).mpr ⟨rfl, by
      show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide),
      (mem_ownCells (g := cC d L)).mpr ⟨rfl, by show (SemLoc.dma cc0_scoped2.sem : SemLoc sig).isScoped .scVector = true; decide⟩⟩⟩)]

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ bufsRest (F := F) d L) := by
  unfold SparseCore.Cfg.ownBufs bufsRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Tile

/-! ## The task's body, as it is proved, and as the launch theorem asks for it -/

section Glue

variable [FloatOps F]

/-- One subcore's task, proved over exactly what it touches: its row of the table, a read share of the index array, its
    row of the result, its three scratch buffers and three copy semaphores; it leaves its row of the result at the
    call's function of the table and the indices. -/
abbrev TileCore : Prop :=
  ∀ (d : Dev nD) (L : grid0.Coords) (q : PosShare TreeShare) (tvd : Buf (Elt F) (tLoc d)) (ivd : Buf (Elt F) (iLoc d)) (evd : Buf (Elt F) (eLoc d))
    (_hin : ∀ x, (ivd x).toNat < 100000)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)),
    iprop(Transfers.MayWaits (thrV d L) (none : HIx 1) O
        ∗ ((tRowK L).view.loc (thrV d L) ↦[(tRowK L).view.set]{fullShare} tvd) ∗ ((iV).view.loc (thrV d L) ↦{q} ivd) ∗ ((eRowK L).view.loc (thrV d L) ↦[(eRowK L).view.set]{fullShare} evd)
        ∗ ((sT).view.loc (thrV d L) ↦{fullShare} f5) ∗ ((sI).view.loc (thrV d L) ↦{fullShare} f6) ∗ ((sE).view.loc (thrV d L) ↦{fullShare} f7)
        ∗ semVal (thrV d L, SemLoc.dma cc0_scoped0.sem) 0 ∗ semVal (thrV d L, SemLoc.dma cc0_scoped1.sem) 0 ∗ semVal (thrV d L, SemLoc.dma cc0_scoped2.sem) 0 ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(((tRowK L).view.loc (thrV d L) ↦[(tRowK L).view.set]{fullShare} tvd) ∗ ((iV).view.loc (thrV d L) ↦{q} ivd)
            ∗ ((eRowK L).view.loc (thrV d L) ↦[(eRowK L).view.set]{fullShare} (embArr (F := F) tvd ivd : Buf (Elt F) (eLoc d)))
            ∗ (∃ f, (sT).view.loc (thrV d L) ↦{fullShare} f) ∗ (∃ f, (sI).view.loc (thrV d L) ↦{fullShare} f) ∗ (∃ f, (sE).view.loc (thrV d L) ↦{fullShare} f)
            ∗ semVal (thrV d L, SemLoc.dma cc0_scoped0.sem) 0 ∗ semVal (thrV d L, SemLoc.dma cc0_scoped1.sem) 0 ∗ semVal (thrV d L, SemLoc.dma cc0_scoped2.sem) 0
            ∗ ∃ W', ⌜∀ p ∈ W', p ∈ W ∨ p.2 = none⌝ ∗ owes (thrV d L) O W')) : sProp 𝕄)

variable (iv : (d : Dev nD) → Buf (Elt F) (iLoc d)) (tv : (d : Dev nD) → Buf (Elt F) (tLoc d)) (ev : (d : Dev nD) → Buf (Elt F) (eLoc d))

/-- The proved task with the rest of the subcore's storage framed, its rows respelt as the split's. -/
theorem tile_glue_at (hcore : TileCore (F := F)) (hin : ∀ d x, (iv d x).toNat < 100000) (d : Dev nD) (L : grid0.Coords)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)) :
    iprop((Transfers.MayWaits (thrV d L) (none : HIx 1) O
        ∗ ((tRowK L).view.loc (thrV d L) ↦[(tRowK L).view.set]{fullShare} tv d) ∗ ((iV).view.loc (thrV d L) ↦{Transfers.shareTok fullShare 32 (rowL L)} iv d)
        ∗ ((eRowK L).view.loc (thrV d L) ↦[(eRowK L).view.set]{fullShare} ev d)
        ∗ ((sT).view.loc (thrV d L) ↦{fullShare} f5) ∗ ((sI).view.loc (thrV d L) ↦{fullShare} f6) ∗ ((sE).view.loc (thrV d L) ↦{fullShare} f7)
        ∗ semVal (cA d L) 0 ∗ semVal (cB d L) 0 ∗ semVal (cC d L) 0 ∗ owes (thrV d L) O W)
        ∗ (bufsRest (F := F) d L ∗ semsRest (F := F) d L))
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(tdRes iv tv d (rowL L)
            ∗ ((∃ f, (thrV d L).loc cc0_scratch0 ↦{fullShare} f) ∗ (∃ f, (thrV d L).loc cc0_scratch1 ↦{fullShare} f)
                ∗ (∃ f, (thrV d L).loc cc0_scratch2 ↦{fullShare} f) ∗ bufsRest (F := F) d L)
            ∗ (semVal (cA d L) 0 ∗ semVal (cB d L) 0 ∗ semVal (cC d L) 0 ∗ semsRest (F := F) d L)
            ∗ ∃ W', ⌜∀ p ∈ W', p ∈ W ∨ p.2 = none⌝ ∗ owes (thrV d L) O W')) : sProp 𝕄) := by
  refine (sep_mono_left (hcore d L (Transfers.shareTok fullShare 32 (rowL L)) (tv d) (iv d) (ev d) (hin d) f5 f6 f7 O W)).trans
    ((wp_frame_r frame _ _).trans (wp_mono frame _ _ fun _ => ?_))
  unfold tdRes
  rw [pts_tRowK, pts_eRowK, pts_iV]
  iintro ⟨⟨Ht, Hi, He, H5, H6, H7, HsA, HsB, HsC, HW⟩, Hb, Hs⟩
  isplitl [Ht Hi He]
  · isplitl [Ht]; · iexact Ht
    isplitl [Hi]; · iexact Hi
    iexact He
  isplitl [H5 H6 H7 Hb]
  · isplitl [H5]; · iexact H5
    isplitl [H6]; · iexact H6
    isplitl [H7]; · iexact H7
    iexact Hb
  isplitl [HsA HsB HsC Hs]
  · isplitl [HsA]; · iexact HsA
    isplitl [HsB]; · iexact HsB
    isplitl [HsC]; · iexact HsC
    iexact Hs
  iexact HW

/-- The task on the subcore at place `L` of device `d`, from what the launch hands it to what it hands back. -/
theorem tile_glue (hcore : TileCore (F := F)) (hF : (K (F := F)).Facts) (hin : ∀ d x, (iv d x).toNat < 100000) (d : Dev nD) (L : grid0.Coords)
    (O : CellTallies nD τ sig (HIx 1)) (W : Waits sig (HIx 1)) (hO : ∀ g, O g none = 0) :
    iprop(levAts (K (F := F)).L (K (F := F)).lev ∗ goRes iv tv ev d (rowL L)
        ∗ scopedBufs (thrV d L) ∗ scopedSems0 (thrV d L) ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(tdRes iv tv d (rowL L) ∗ scopedBufs (thrV d L) ∗ scopedSems0 (thrV d L)
            ∗ ∃ W', ⌜∀ p ∈ W', p ∈ W ∨ p.2 = none⌝ ∗ owes (thrV d L) O W')) : sProp 𝕄) := by
  rw [(K (F := F)).scopedBufs_V hF d (cV L) (jV L), SparseCore.Cfg.scopedSems0_V (Val := Elt F) d (cV L) (jV L), ownSems0_V, ownBufs_V]
  unfold goRes
  iintro ⟨#Hlv, ⟨Ht, Hi, He⟩, ⟨⟨%f5, H5⟩, ⟨%f6, H6⟩, ⟨%f7, H7⟩, Hbufs⟩, ⟨HsA, HsB, HsC, Hsems⟩, HO⟩
  ihave Hmw := ((K (F := F)).mayWaits_none (thr := thrV d L) hO) $$ Hlv
  ihave Ht' := (Entails.of_eq (pts_tRowK (F := F) d L _).symm) $$ Ht
  ihave He' := (Entails.of_eq (pts_eRowK (F := F) d L _).symm) $$ He
  iapply (tile_glue_at iv tv ev hcore hin d L f5 f6 f7 O W)
  isplitr [Hbufs Hsems]
  · isplitl [Hmw]; · iexact Hmw
    isplitl [Ht']; · iexact Ht'
    isplitl [Hi]; · iexact Hi
    isplitl [He']; · iexact He'
    isplitl [H5]; · iexact H5
    isplitl [H6]; · iexact H6
    isplitl [H7]; · iexact H7
    isplitl [HsA]; · iexact HsA
    isplitl [HsB]; · iexact HsB
    isplitl [HsC]; · iexact HsC
    iexact HO
  isplitl [Hbufs]; · iexact Hbufs
  iexact Hsems

end Glue

end Cert.Proof.KI

end
-- ==== Proof.TileObl.lean ====
/-
  The launch theorem's obligation for every subcore of the call's grid.

  The body the launch theorem runs on a subcore is the task at that subcore's place; the place's row is the row the
  split gave that subcore's task; and the task's proof, which records its own waits, meets the obligation's weaker
  bound on the waits.
-/
import proofs.«208886_g87462714016427_cont_sun_c4_567_10_alg».proof.Proof.Setup
import proofs.«208886_g87462714016427_cont_sun_c4_567_10_alg».proof.Proof.Split
import proofs.«208886_g87462714016427_cont_sun_c4_567_10_alg».proof.Proof.TileDefs
import proofs.«208886_g87462714016427_cont_sun_c4_567_10_alg».proof.Proof.TileGlue

set_option maxRecDepth 16384

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch theorem's obligation -/

section Obligation

/-- The place of the grid at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__emb_body (coordsV c s)
          tV (Memref.isWhole_whole _) iV (Memref.isWhole_whole _) eV (Memref.isWhole_whole _)
          sT (Memref.isWhole_whole _) sI (Memref.isWhole_whole _) sE (Memref.isWhole_whole _) cc0_scratch3 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An `emp` among the resources drops out. -/
theorem drop_emp {A B C D E : sProp 𝕄} : iprop(A ∗ emp ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

omit [FloatOps F] in
/-- The row of the place at (core `c`, subcore `i`) of the call's grid is the row the split gave that task. -/
theorem rowL_coordsV (c : Fin ((K (F := F)).nCore 0)) (i : Fin ((K (F := F)).nSub 0))
    (h0 : ((K (F := F)).core 0 c).val < grid0.bound 0) (h1 : ((K (F := F)).sub 0 i).val < grid0.bound 1) :
    rowL (coordsV ⟨_, h0⟩ ⟨_, h1⟩) = rowOfTile (Fin.cast nCore_zero c) (Fin.cast nSub_zero i) := Fin.ext rfl

variable (iv : (d : Dev nD) → Buf (Elt F) (iLoc d)) (tv : (d : Dev nD) → Buf (Elt F) (tLoc d)) (ev : (d : Dev nD) → Buf (Elt F) (eLoc d))

/-- Every subcore of the call's grid, from the task's operands to its results. -/
theorem tileObl (hcore : TileCore (F := F)) (hin : ∀ d x, (iv d x).toNat < 100000) :
    (K (F := F)).TileObl (D (F := F)) 𝒱 (P iv tv ev) v₀ 0 := by
  intro d c i O W hO _ _
  simp only [show (P iv tv ev).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [go_zero, td_zero, ← rowL_coordsV (F := F) c i hc.1 hc.2]
  have key := (tile_glue iv tv ev hcore facts hin d (coordsV ⟨_, hc.1⟩ ⟨_, hc.2⟩) O W hO).trans (wp_mono frame _ _ fun _ => obl_post (q := (0 : Fin 1)))
  generalize cc0__emb_body (F := F) (coordsV ⟨_, hc.1⟩ ⟨_, hc.2⟩) tV (Memref.isWhole_whole _) iV (Memref.isWhole_whole _) eV (Memref.isWhole_whole _)
    sT (Memref.isWhole_whole _) sI (Memref.isWhole_whole _) sE (Memref.isWhole_whole _) cc0_scratch3 cc0_scoped0 cc0_scoped1 cc0_scoped2 = prog at key ⊢
  exact BI.Entails.trans drop_emp key

end Obligation

end Cert.Proof.KI

end
-- ==== Proof.SetupB.lean ====
/-
  The kernel program as the launch theorem of a SparseCore program reads it, the resource algebra of the proof, and
  what the one SparseCore call moves.

  The call runs on 2 x 16 vector subcores; the subcore at (core c, subcore i) works on row r = 2 i + c of the
  transposed table (a [32, 100000] array), reads the whole flattened index array (4096 words, word j * 1024 + n being
  context position j of batch entry n), and writes row r of the [32, 1024] result: entry (r, n) is the sum, left to
  right, of the four table entries (r, w) at the words w that positions 0..3 of entry n name. `embArr` is that
  result as ONE function of the two arrays it is computed from, over any float instance; a word is read as a row
  number through `min · 99999`, the identity on every word the run meets.

  The algebra has three factors: the launch handshakes' rounds, the rounds of the TensorCore pipeline's staging
  cells, and the counters of the subcores' own local copies.
-/
import proofs.«208886_g87462714016427_cont_sun_c4_567_10_alg».proof.Kernel
import proofs.«208886_g87462714016427_cont_sun_c4_567_10_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the middle factor. The counters are found by instance in the right one. -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP; infer_instance

/-! ## The arrays the call moves, as locations of a device -/

/-- The flattened index array (`main_v1`), the transposed table (`main_v2`), the call's result (`main_v3`). -/
abbrev iLoc (d : Dev nD) : Loc nD τ sig := (SparseCore.T d).loc main_v1
abbrev tLoc (d : Dev nD) : Loc nD τ sig := (SparseCore.T d).loc main_v2
abbrev eLoc (d : Dev nD) : Loc nD τ sig := (SparseCore.T d).loc main_v3

/-! ## What the call computes -/

/-- The row a word names, as a column number of the transposed table. -/
def colOf (w : BitVec 32) : Fin 100000 := ⟨min w.toNat 99999, by omega⟩
theorem colOf_val {w : BitVec 32} (h : w.toNat < 100000) : (colOf w).val = w.toNat := by
  show min w.toNat 99999 = w.toNat; omega

/-- Word `j * 1024 + n` of the flattened index array: context position `j` of batch entry `n`. -/
def flatIx (j : Fin 4) (n : Fin 1024) : S4096.Idx := ix1 ⟨j.val * 1024 + n.val, by omega⟩

variable [FloatOps F]

/-- The table entries that context position `j` names, laid out as the result is: entry (r, n) is the table's
    (r, word j * 1024 + n). -/
def gathered (tv : FVec F S32x100000 .f32) (iv : IVec S4096 32) (j : Fin 4) : FVec F S32x1024 .f32 :=
  fun x => tv (ix2 (x 0) (colOf (iv (flatIx j (x 1)))))

/-- The call's result as one function of the transposed table and the flattened index array. -/
def embArr (tv : FVec F S32x100000 .f32) (iv : IVec S4096 32) : FVec F S32x1024 .f32 :=
  addf (addf (addf (gathered tv iv 0) (gathered tv iv 1)) (gathered tv iv 2)) (gathered tv iv 3)

/-! ## Rows and their owners -/

theorem hdivT : 32 ∣ S32x100000.size 0 := ⟨1, rfl⟩
theorem hdivE : 32 ∣ S32x1024.size 0 := ⟨1, rfl⟩
/-- Row `r` of the transposed table, and of the result. -/
abbrev rowT (r : Fin 32) : Rect S32x100000 := Rect.part (s := S32x100000) (a₀ := 0) hdivT r
abbrev rowE (r : Fin 32) : Rect S32x1024 := Rect.part (s := S32x1024) (a₀ := 0) hdivE r
abbrev rowSetT (r : Fin 32) : Finset S32x100000.Idx := ((Memref.whole main_v2_scv : Memref sig .scVector .hbm S32x100000 .f32).view.slice (rowT r)).set
abbrev rowSetE (r : Fin 32) : Finset S32x1024.Idx := ((Memref.whole main_v3_scv : Memref sig .scVector .hbm S32x1024 .f32).view.slice (rowE r)).set

/-- The row the subcore at (core `c`, subcore `i`) works on. -/
def rowOfTile (c : Fin 2) (i : Fin 16) : Fin 32 := ⟨2 * i.val + c.val, by omega⟩

/-! ## What the handshakes carry -/

section Pay

variable (iv : (d : Dev nD) → Buf (Elt F) (iLoc d)) (tv : (d : Dev nD) → Buf (Elt F) (tLoc d)) (ev : (d : Dev nD) → Buf (Elt F) (eLoc d))

/-- What a task is handed: its row of the table, a read share of the index array, its row of the result. -/
def goRes (d : Dev nD) (r : Fin 32) : sProp 𝕄 :=
  iprop((tLoc d ↦[rowSetT r]{fullShare} tv d) ∗ (iLoc d ↦{Transfers.shareTok fullShare 32 r} iv d) ∗ (eLoc d ↦[rowSetE r]{fullShare} ev d))
/-- What it hands back: the same, its row of the result at the call's function of the table and the indices. -/
def tdRes (d : Dev nD) (r : Fin 32) : sProp 𝕄 :=
  iprop((tLoc d ↦[rowSetT r]{fullShare} tv d) ∗ (iLoc d ↦{Transfers.shareTok fullShare 32 r} iv d)
    ∗ (eLoc d ↦[rowSetE r]{fullShare} (embArr (F := F) (tv d) (iv d) : Buf (Elt F) (eLoc d))))

/-- The one call: each SparseCore is handed its sixteen tasks' resources and hands them back. -/
def P : (K (F := F)).Pay (nD := nD) (Val := Elt F) (Name := ℕ) (U := UU) where
  st := fun q d c => match q with
    | 0 => bigSep Finset.univ fun i : Fin 16 => goRes iv tv ev d (rowOfTile (Fin.cast nCore_zero c) i)
  dn := fun q d c => match q with
    | 0 => bigSep Finset.univ fun i : Fin 16 => tdRes iv tv d (rowOfTile (Fin.cast nCore_zero c) i)
  go := fun q d c i => match q with
    | 0 => goRes iv tv ev d (rowOfTile (Fin.cast nCore_zero c) (Fin.cast nSub_zero i))
  td := fun q d c i => match q with
    | 0 => tdRes iv tv d (rowOfTile (Fin.cast nCore_zero c) (Fin.cast nSub_zero i))
  x := fun _ _ => iprop(emp)

instance goRes_storable (d : Dev nD) (r : Fin 32) : BI.Storable (upEmb : UEmb _ 𝕄) (goRes (F := F) iv tv ev d r) := by
  unfold goRes; infer_instance
instance tdRes_storable (d : Dev nD) (r : Fin 32) : BI.Storable (upEmb : UEmb _ 𝕄) (tdRes (F := F) iv tv d r) := by
  unfold tdRes; infer_instance

instance P_storable : (P (F := F) iv tv ev).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Pay

end Cert.Proof.KB

end
-- ==== Proof.MainHostB.lean ====
/-
  What @main's host operations around the two calls compute, as functions of the launch memory.

  Before the SparseCore call the index array is transposed and flattened (word j * 1024 + n is context position j of
  batch entry n) and the table is transposed; before the matrix product's call the weights are transposed; after it
  the product is transposed into the result. Each value is the operation's own term of its operand, for any float
  instance: the operations only move entries. Read at an index, each is an entry of its operand at the exchanged
  (or row-major) position.
-/
import proofs.«208886_g87462714016427_cont_sun_c4_567_10_alg».proof.Proof.SetupB
import Idealize.ShloMosaic.Lib.ValueLayout
import Idealize.ShloMosaic.Lib.Pipeline.Value

noncomputable section

namespace Cert.Proof.KB

open Cert.Kernel Cert.Kernel.Gen

open Idealize.ShloMosaic Idealize.ShloMosaic.ValueIdx
open Idealize.ShloMosaic.TcCoe
open Idealize.ShloMosaic.SparseCore (S V T)

variable {F : FTy → Type}

/-! ## The host operations -/

/-- The index array transposed. -/
abbrev opIdxT : HloOp τ sig (Elt F) :=
  StableHlo.unary main_arg0 main_v0 ((transpose S4x1024 [1, 0] · transposes_S1024x4_S4x1024_1_0) : (⟨S1024x4, .i32⟩ : BufTy).Contents (Elt F) → (⟨S4x1024, .i32⟩ : BufTy).Contents (Elt F))
/-- The transposed index array flattened. -/
abbrev opIdxFlat : HloOp τ sig (Elt F) := StableHlo.reshape main_v0 main_v1 rfl shapeCasts_S4x1024_S4096
/-- The table transposed. -/
abbrev opTabT : HloOp τ sig (Elt F) :=
  StableHlo.unary main_arg1 main_v2 ((transpose S32x100000 [1, 0] · transposes_S100000x32_S32x100000_1_0) : (⟨S100000x32, .f32⟩ : BufTy).Contents (Elt F) → (⟨S32x100000, .f32⟩ : BufTy).Contents (Elt F))
/-- The weights transposed. -/
abbrev opWT : HloOp τ sig (Elt F) :=
  StableHlo.unary main_arg2 main_v4 ((transpose S32x100000 [1, 0] · transposes_S100000x32_S32x100000_1_0) : (⟨S100000x32, .f32⟩ : BufTy).Contents (Elt F) → (⟨S32x100000, .f32⟩ : BufTy).Contents (Elt F))
/-- The product transposed into the result. -/
abbrev opOutT : HloOp τ sig (Elt F) :=
  StableHlo.unary main_v5 main_v6 ((transpose S1024x100000 [1, 0] · transposes_S100000x1024_S1024x100000_1_0) : (⟨S100000x1024, .f32⟩ : BufTy).Contents (Elt F) → (⟨S1024x100000, .f32⟩ : BufTy).Contents (Elt F))

/-! ## Their values over the launch memory -/

/-- @main's other arrays as locations of a device: the four arguments, the transposed index array (`main_v0`), the
    transposed weights (`main_v4`), the product (`main_v5`), the result (`main_v6`). -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev wLoc (d : Dev nD) : Loc nD τ sig := (SparseCore.T d).loc main_v4
abbrev oLoc (d : Dev nD) : Loc nD τ sig := (SparseCore.T d).loc main_v5
abbrev rLoc (d : Dev nD) : Loc nD τ sig := (SparseCore.T d).loc main_v6

variable (m : (ℓ : Loc nD τ sig) → Buf (Elt F) ℓ)

/-- The index array transposed: what `main_v0` holds. -/
def idx4 (d : Dev nD) : Buf (Elt F) (v0Loc d) :=
  transpose S4x1024 [1, 0] (m (a0Loc d)) transposes_S1024x4_S4x1024_1_0
/-- The flattened index array: what `main_v1` holds. -/
def idxFlat (d : Dev nD) : Buf (Elt F) (iLoc d) :=
  fun i => shapeCast S4096 (idx4 m d) shapeCasts_S4x1024_S4096 i
/-- The transposed table: what `main_v2` holds. -/
def tabT (d : Dev nD) : Buf (Elt F) (tLoc d) :=
  transpose S32x100000 [1, 0] (m (a1Loc d)) transposes_S100000x32_S32x100000_1_0
/-- The transposed weights: what `main_v4` holds. -/
def wT (d : Dev nD) : Buf (Elt F) (wLoc d) :=
  transpose S32x100000 [1, 0] (m (a2Loc d)) transposes_S100000x32_S32x100000_1_0
/-- The transpose of a product array `o`: what `main_v6` holds when `main_v5` holds `o`. -/
def outT (d : Dev nD) (o : Buf (Elt F) (oLoc d)) : Buf (Elt F) (rLoc d) :=
  transpose S1024x100000 [1, 0] o transposes_S100000x1024_S1024x100000_1_0
/-- The result: the transpose of what the matrix product's call leaves in `main_v5`. -/
def resultArr (o5 : (d : Dev nD) → Buf (Elt F) (oLoc d)) (d : Dev nD) : Buf (Elt F) (rLoc d) := outT d (o5 d)

/-! ## Each operation's result is that value -/

theorem opIdxT_result (d : Dev nD) (W : Valuation τ sig (Elt F))
    (h : W (main_arg0 : DevRef τ sig) = m (a0Loc d)) :
    (opIdxT (F := F)).result W (main_v0 : DevRef τ sig) = idx4 m d := by
  rw [StableHlo.unary_result, h]; rfl
theorem opIdxFlat_result (d : Dev nD) (W : Valuation τ sig (Elt F)) (h : W (main_v0 : DevRef τ sig) = idx4 m d) :
    (opIdxFlat (F := F)).result W (main_v1 : DevRef τ sig) = idxFlat m d := by
  rw [StableHlo.reshape_result, h]; rfl
theorem opTabT_result (d : Dev nD) (W : Valuation τ sig (Elt F))
    (h : W (main_arg1 : DevRef τ sig) = m (a1Loc d)) :
    (opTabT (F := F)).result W (main_v2 : DevRef τ sig) = tabT m d := by
  rw [StableHlo.unary_result, h]; rfl
theorem opWT_result (d : Dev nD) (W : Valuation τ sig (Elt F))
    (h : W (main_arg2 : DevRef τ sig) = m (a2Loc d)) :
    (opWT (F := F)).result W (main_v4 : DevRef τ sig) = wT m d := by
  rw [StableHlo.unary_result, h]; rfl
theorem opOutT_result (d : Dev nD) (o : Buf (Elt F) (oLoc d))
    (W : Valuation τ sig (Elt F)) (h : W (main_v5 : DevRef τ sig) = o) :
    (opOutT (F := F)).result W (main_v6 : DevRef τ sig) = outT d o := by
  rw [StableHlo.unary_result, h]; rfl

/-! ## The values at an index -/

/-- Word `j * 1024 + n` of the flattened index array is the index array's entry `(n, j)`. -/
theorem idxFlat_apply (d : Dev nD) (j : Fin 4) (n : Fin 1024) :
    idxFlat m d (flatIx j n) = m (a0Loc d) (ix2 n j) := by
  have hk : (S4x1024.rowMajor (ix2 j n)).val = (S4096.rowMajor (flatIx j n)).val := by
    rw [Shape.rowMajor_val_two, Shape.rowMajor_val_one]; rfl
  unfold idxFlat
  rw [shapeCast_apply (s := S4x1024) (t := S4096) (idx4 m d) shapeCasts_S4x1024_S4096 (flatIx j n) (ix2 j n) hk]
  unfold idx4
  exact transpose_ix2_apply _ _ j n

/-- Entry `(k, r)` of the transposed table is the table's `(r, k)`. -/
theorem tabT_apply (d : Dev nD) (k : Fin 32) (r : Fin 100000) :
    tabT m d (ix2 k r) = m (a1Loc d) (ix2 r k) := by
  unfold tabT; exact transpose_ix2_apply _ _ k r

/-- Entry `(k, v)` of the transposed weights is the weights' `(v, k)`. -/
theorem wT_apply (d : Dev nD) (k : Fin 32) (v : Fin 100000) :
    wT m d (ix2 k v) = m (a2Loc d) (ix2 v k) := by
  unfold wT; exact transpose_ix2_apply _ _ k v

/-- Entry `(n, v)` of the result is the product's `(v, n)`. -/
theorem outT_apply (d : Dev nD) (o : Buf (Elt F) (oLoc d)) (n : Fin 1024) (v : Fin 100000) :
    outT d o (ix2 n v) = o (ix2 v n) := by
  unfold outT; exact transpose_ix2_apply _ _ n v
theorem resultArr_apply (o5 : (d : Dev nD) → Buf (Elt F) (oLoc d)) (d : Dev nD)
    (n : Fin 1024) (v : Fin 100000) : resultArr o5 d (ix2 n v) = o5 d (ix2 v n) := outT_apply d (o5 d) n v

end Cert.Proof.KB

end
-- ==== Proof.SplitB.lean ====
/-
  The call's three arrays, whole, are the thirty-two tasks' resources, and back.

  The transposed table and the result are cut into their 32 rows (pairwise disjoint, covering the array); the index
  array, which every task reads whole, is cut into 32 read shares beside a remainder. The task at (core `c`, subcore
  `i`) owns row `2 i + c`, and `(c, i) ↦ 2 i + c` is a bijection from 2 x 16 onto the 32 rows, so the resources row by row
  are the resources core by core, subcore by subcore. On the way back every row of the result holds the one function
  `embArr`, so the rows join into the whole array at that function.
-/
import proofs.«208886_g87462714016427_cont_sun_c4_567_10_alg».proof.Proof.SetupB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Rows -/

theorem rowSetT_eq (r : Fin 32) : rowSetT r = (rowT r).set := by
  show ((View.whole (main_v2_scv : Ref sig .scVector)).slice (rowT r)).set = _
  rw [View.set_slice]; exact Finset.map_refl
theorem rowSetE_eq (r : Fin 32) : rowSetE r = (rowE r).set := by
  show ((View.whole (main_v3_scv : Ref sig .scVector)).slice (rowE r)).set = _
  rw [View.set_slice]; exact Finset.map_refl

theorem rowsT_disjoint : ∀ i ∈ (Finset.univ : Finset (Fin 32)), ∀ j ∈ (Finset.univ : Finset (Fin 32)), i ≠ j → Disjoint (rowSetT i) (rowSetT j) :=
  fun i _ j _ h => by rw [rowSetT_eq, rowSetT_eq]; exact Rect.part_disjoint hdivT h
theorem rowsE_disjoint : ∀ i ∈ (Finset.univ : Finset (Fin 32)), ∀ j ∈ (Finset.univ : Finset (Fin 32)), i ≠ j → Disjoint (rowSetE i) (rowSetE j) :=
  fun i _ j _ h => by rw [rowSetE_eq, rowSetE_eq]; exact Rect.part_disjoint hdivE h

theorem rowsT_cover : (Finset.univ : Finset (Fin 32)).biUnion rowSetT = Finset.univ :=
  (Finset.biUnion_congr rfl fun i _ => rowSetT_eq i).trans (Rect.biUnion_part hdivT)
theorem rowsE_cover : (Finset.univ : Finset (Fin 32)).biUnion rowSetE = Finset.univ :=
  (Finset.biUnion_congr rfl fun i _ => rowSetE_eq i).trans (Rect.biUnion_part hdivE)

/-- The whole transposed table is its 32 rows. -/
theorem tPts_rows (d : Dev nD) (f : Buf (Elt F) (tLoc d)) :
    (tLoc d ↦{fullShare} f : sProp 𝕄) = bigSep Finset.univ fun r : Fin 32 => tLoc d ↦[rowSetT r]{fullShare} f := by
  rw [← pointsTo_biUnion Finset.univ (ℓ := tLoc d) rowSetT rowsT_disjoint, rowsT_cover]; try rfl
/-- The whole result is its 32 rows. -/
theorem ePts_rows (d : Dev nD) (f : Buf (Elt F) (eLoc d)) :
    (eLoc d ↦{fullShare} f : sProp 𝕄) = bigSep Finset.univ fun r : Fin 32 => eLoc d ↦[rowSetE r]{fullShare} f := by
  rw [← pointsTo_biUnion Finset.univ (ℓ := eLoc d) rowSetE rowsE_disjoint, rowsE_cover]; try rfl

/-! ## Rows and their owners -/

/-- (core, subcore) to row, `2 i + c`, is a bijection from 2 x 16 onto 32. -/
def tileEquiv : Fin 2 × Fin 16 ≃ Fin 32 where
  toFun p := rowOfTile p.1 p.2
  invFun r := (⟨r.val % 2, Nat.mod_lt _ (by decide)⟩, ⟨r.val / 2, by have := r.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv r := by
    apply Fin.ext
    show 2 * (r.val / 2) + r.val % 2 = r.val; omega

/-- Row by row is core by core, subcore by subcore. -/
theorem bigSep_rows (Φ : Fin 32 → sProp 𝕄) :
    bigSep Finset.univ Φ = bigSep Finset.univ fun c : Fin 2 => bigSep Finset.univ fun i : Fin 16 => Φ (rowOfTile c i) := by
  rw [bigSep_univ_equiv tileEquiv Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The split and the join -/

section

variable [FloatOps F]
variable (iv : (d : Dev nD) → Buf (Elt F) (iLoc d)) (tv : (d : Dev nD) → Buf (Elt F) (tLoc d)) (ev : (d : Dev nD) → Buf (Elt F) (eLoc d))

theorem st_zero (d : Dev nD) (c : Fin ((K (F := F)).nCore 0)) :
    (P iv tv ev).st 0 d c = bigSep Finset.univ fun i : Fin 16 => goRes iv tv ev d (rowOfTile (Fin.cast nCore_zero c) i) := rfl
theorem dn_zero (d : Dev nD) (c : Fin ((K (F := F)).nCore 0)) :
    (P iv tv ev).dn 0 d c = bigSep Finset.univ fun i : Fin 16 => tdRes iv tv d (rowOfTile (Fin.cast nCore_zero c) i) := rfl
theorem go_zero (d : Dev nD) (c : Fin ((K (F := F)).nCore 0)) (i : Fin ((K (F := F)).nSub 0)) :
    (P iv tv ev).go 0 d c i = goRes iv tv ev d (rowOfTile (Fin.cast nCore_zero c) (Fin.cast nSub_zero i)) := rfl
theorem td_zero (d : Dev nD) (c : Fin ((K (F := F)).nCore 0)) (i : Fin ((K (F := F)).nSub 0)) :
    (P iv tv ev).td 0 d c i = tdRes iv tv d (rowOfTile (Fin.cast nCore_zero c) (Fin.cast nSub_zero i)) := rfl

/-- What all the cores are handed is what the 32 rows' tasks are handed. -/
theorem st_all (d : Dev nD) :
    (bigSep Finset.univ fun c : Fin ((K (F := F)).nCore 0) => (P iv tv ev).st 0 d c)
      = bigSep Finset.univ fun r : Fin 32 => goRes iv tv ev d r := by
  rw [bigSep_rows (F := F) (fun r => goRes iv tv ev d r),
    ← bigSep_cores (F := F) (fun c => bigSep Finset.univ fun i : Fin 16 => goRes iv tv ev d (rowOfTile c i))]
  exact bigSep_congr fun c _ => st_zero iv tv ev d c
/-- What all the cores hand back is what the 32 rows' tasks hand back. -/
theorem dn_all (d : Dev nD) :
    (bigSep Finset.univ fun c : Fin ((K (F := F)).nCore 0) => (P iv tv ev).dn 0 d c)
      = bigSep Finset.univ fun r : Fin 32 => tdRes iv tv d r := by
  rw [bigSep_rows (F := F) (fun r => tdRes iv tv d r),
    ← bigSep_cores (F := F) (fun c => bigSep Finset.univ fun i : Fin 16 => tdRes iv tv d (rowOfTile c i))]
  exact bigSep_congr fun c _ => dn_zero iv tv ev d c

/-- The three arrays whole are the index array's remainder and every core's sixteen tasks' resources. -/
theorem st0_of_whole (d : Dev nD) :
    iprop((iLoc d ↦{fullShare} iv d) ∗ (tLoc d ↦{fullShare} tv d) ∗ (eLoc d ↦{fullShare} ev d))
      ⊢ (iprop((iLoc d ↦{Transfers.shareDrop fullShare 32} iv d)
          ∗ bigSep Finset.univ fun c : Fin ((K (F := F)).nCore 0) => (P iv tv ev).st 0 d c) : sProp 𝕄) := by
  rw [st_all]
  unfold goRes
  rw [bigSep_sep', bigSep_sep', ← tPts_rows, ← ePts_rows]
  iintro ⟨Hi, Ht, He⟩
  ihave Hi' := (Transfers.pointsTo_toks_split (ℓ := iLoc d) (S := Finset.univ) (f := iv d) fullShare 32) $$ Hi
  icases Hi' with ⟨Hr, Htok⟩
  isplitl [Hr]; · iexact Hr
  isplitl [Ht]; · iexact Ht
  isplitl [Htok]; · iexact Htok
  iexact He

/-- Back: the remainder and what every core hands back are the three arrays whole, the result at the call's function. -/
theorem whole_of_dn0 (d : Dev nD) :
    iprop((iLoc d ↦{Transfers.shareDrop fullShare 32} iv d)
        ∗ bigSep Finset.univ fun c : Fin ((K (F := F)).nCore 0) => (P iv tv ev).dn 0 d c)
      ⊢ (iprop((iLoc d ↦{fullShare} iv d) ∗ (tLoc d ↦{fullShare} tv d)
          ∗ (eLoc d ↦{fullShare} (embArr (F := F) (tv d) (iv d) : Buf (Elt F) (eLoc d)))) : sProp 𝕄) := by
  rw [dn_all]
  unfold tdRes
  rw [bigSep_sep', bigSep_sep', ← tPts_rows, ← ePts_rows]
  iintro ⟨Hr, Ht, Htok, He⟩
  isplitl [Hr Htok]
  · iapply (Transfers.pointsTo_toks_join (ℓ := iLoc d) (S := Finset.univ) (f := iv d) fullShare 32)
    isplitl [Hr]; · iexact Hr
    iexact Htok
  isplitl [Ht]; · iexact Ht
  iexact He

/-- A core's resources are its sixteen tasks', and what they hand back is what the core hands back. -/
theorem vecSplit : (K (F := F)).VecSplit' (P iv tv ev) 0 := by
  intro d c
  rw [st_zero, dn_zero]
  simp only [go_zero, td_zero]
  rw [bigSep_tasks (F := F) (fun i => goRes iv tv ev d (rowOfTile (Fin.cast nCore_zero c) i)),
    bigSep_tasks (F := F) (fun i => tdRes iv tv d (rowOfTile (Fin.cast nCore_zero c) i))]
  iintro H; imodintro
  isplitl [H]; · iexact H
  iintro H'; iexact H'

end

end Cert.Proof.KB

end
-- ==== Proof.FinalB.lean ====
/-
  Reading the claim off the final memory.

  Under the state interpretation a whole-array points-to at the full share pins the physical contents of its array;
  the state interpretation is kept, so the facts for several arrays are read one after another: the four argument
  arrays, and with them the result array.
-/
import proofs.«208886_g87462714016427_cont_sun_c4_567_10_alg».proof.Proof.SetupB

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One array: the points-to pins the contents, and the state interpretation stays. -/
theorem agree_keep (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

/-- The four argument arrays. -/
theorem agree4 (d : Dev nD) (s' : Phys nD τ sig (Elt F))
    (f0 : Buf (Elt F) ((SparseCore.T d).loc main_arg0)) (f1 : Buf (Elt F) ((SparseCore.T d).loc main_arg1))
    (f2 : Buf (Elt F) ((SparseCore.T d).loc main_arg2)) (f3 : Buf (Elt F) ((SparseCore.T d).loc main_arg3)) :
    iprop((((SparseCore.T d).loc main_arg0 ↦{fullShare} f0) ∗ ((SparseCore.T d).loc main_arg1 ↦{fullShare} f1)
        ∗ ((SparseCore.T d).loc main_arg2 ↦{fullShare} f2) ∗ ((SparseCore.T d).loc main_arg3 ↦{fullShare} f3)) ∗ SI s')
      ⊢ (⌜s'.mem.mem ((SparseCore.T d).loc main_arg0) = f0 ∧ s'.mem.mem ((SparseCore.T d).loc main_arg1) = f1
          ∧ s'.mem.mem ((SparseCore.T d).loc main_arg2) = f2 ∧ s'.mem.mem ((SparseCore.T d).loc main_arg3) = f3⌝ : sProp 𝕄) := by
  iintro ⟨⟨H0, H1, H2, H3⟩, HSI⟩
  ihave X := (agree_keep ((SparseCore.T d).loc main_arg0) f0 s') $$ [H0 HSI]
  · isplitl [H0] <;> iassumption
  icases X with ⟨%h0, HSI⟩
  ihave X := (agree_keep ((SparseCore.T d).loc main_arg1) f1 s') $$ [H1 HSI]
  · isplitl [H1] <;> iassumption
  icases X with ⟨%h1, HSI⟩
  ihave X := (agree_keep ((SparseCore.T d).loc main_arg2) f2 s') $$ [H2 HSI]
  · isplitl [H2] <;> iassumption
  icases X with ⟨%h2, HSI⟩
  ihave X := (agree_keep ((SparseCore.T d).loc main_arg3) f3 s') $$ [H3 HSI]
  · isplitl [H3] <;> iassumption
  icases X with ⟨%h3, -⟩
  ipureintro; exact ⟨h0, h1, h2, h3⟩

/-- The four argument arrays and the result array. -/
theorem agree5 (d : Dev nD) (s' : Phys nD τ sig (Elt F))
    (f0 : Buf (Elt F) ((SparseCore.T d).loc main_arg0)) (f1 : Buf (Elt F) ((SparseCore.T d).loc main_arg1))
    (f2 : Buf (Elt F) ((SparseCore.T d).loc main_arg2)) (f3 : Buf (Elt F) ((SparseCore.T d).loc main_arg3))
    (f6 : Buf (Elt F) ((SparseCore.T d).loc main_v6)) :
    iprop((((SparseCore.T d).loc main_arg0 ↦{fullShare} f0) ∗ ((SparseCore.T d).loc main_arg1 ↦{fullShare} f1)
        ∗ ((SparseCore.T d).loc main_arg2 ↦{fullShare} f2) ∗ ((SparseCore.T d).loc main_arg3 ↦{fullShare} f3)
        ∗ ((SparseCore.T d).loc main_v6 ↦{fullShare} f6)) ∗ SI s')
      ⊢ (⌜s'.mem.mem ((SparseCore.T d).loc main_arg0) = f0 ∧ s'.mem.mem ((SparseCore.T d).loc main_arg1) = f1
          ∧ s'.mem.mem ((SparseCore.T d).loc main_arg2) = f2 ∧ s'.mem.mem ((SparseCore.T d).loc main_arg3) = f3
          ∧ s'.mem.mem ((SparseCore.T d).loc main_v6) = f6⌝ : sProp 𝕄) := by
  iintro ⟨⟨H0, H1, H2, H3, H6⟩, HSI⟩
  ihave X := (agree_keep ((SparseCore.T d).loc main_arg0) f0 s') $$ [H0 HSI]
  · isplitl [H0] <;> iassumption
  icases X with ⟨%h0, HSI⟩
  ihave X := (agree_keep ((SparseCore.T d).loc main_arg1) f1 s') $$ [H1 HSI]
  · isplitl [H1] <;> iassumption
  icases X with ⟨%h1, HSI⟩
  ihave X := (agree_keep ((SparseCore.T d).loc main_arg2) f2 s') $$ [H2 HSI]
  · isplitl [H2] <;> iassumption
  icases X with ⟨%h2, HSI⟩
  ihave X := (agree_keep ((SparseCore.T d).loc main_arg3) f3 s') $$ [H3 HSI]
  · isplitl [H3] <;> iassumption
  icases X with ⟨%h3, HSI⟩
  ihave X := (agree_keep ((SparseCore.T d).loc main_v6) f6 s') $$ [H6 HSI]
  · isplitl [H6] <;> iassumption
  icases X with ⟨%h6, -⟩
  ipureintro; exact ⟨h0, h1, h2, h3, h6⟩

end Cert.Proof.KB

end
-- ==== Proof.RegionB.lean ====
/-
  The matrix product's call as a pipeline over a grid of 25 points, and what it leaves.

  Point t stages columns [4096 t, 4096 t + 4096) of the transposed weight matrix (a [32, 4096] block), the whole
  [32, 1024] array of summed embeddings (staged once, at the first point), entries [4096 t, 4096 t + 4096) of the bias,
  and writes back rows [4096 t, 4096 t + 4096) of the [100000, 1024] result. 25 * 4096 = 102400 > 100000: the last
  block overhangs the arrays by 2400, its transfers move the 1696 columns / entries / rows inside, and what the
  staging buffers hold past that is not named (here: filled with the zero word, read by nothing that reaches the result).

  `mmOut` is the result as ONE function of the three arrays: entry (v, n) is the body's value at block v / 4096,
  row v % 4096, column n. `dats` is the pipeline's proof data: after the body each input's staging buffer holds its
  block and the result's holds the body's value of them.
-/
import proofs.«208886_g87462714016427_cont_sun_c4_567_10_alg».proof.Proof.SetupB
import proofs.«208886_g87462714016427_cont_sun_c4_567_10_alg».proof.Proof.Gen.Kernel.Launch
import proofs.«208886_g87462714016427_cont_sun_c4_567_10_alg».proof.Proof.Gen.Kernel.Points
import proofs.«208886_g87462714016427_cont_sun_c4_567_10_alg».proof.Proof.Gen.Kernel.Skeleton
import Idealize.ShloMosaic.Lib.Pipeline.Regions
import Idealize.ShloMosaic.Lib.Pipeline.FrameBody

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

variable [FloatOps F]

/-! ## The blocks at a point -/

/-- Columns [4096 t, 4096 t + 4096) of the transposed weights, those past the array's end filled with the zero word. -/
def wBlk (wt : FVec F S32x100000 .f32) (t : Fin cfg1.N) : Vec F S32x4096 .f32 :=
  win1_0.fill (grid1.coords t) (fun _ => Scalar.ofBits .f32 0#32) ((win1_0.blk t).view.read (Elt F) wt)

/-- The summed embeddings as the one block of their window. -/
def eBlk (ev : FVec F S32x1024 .f32) (t : Fin cfg1.N) : Vec F S32x1024 .f32 :=
  (win1_1.blk t).view.read (Elt F) ev

/-- Entries [4096 t, 4096 t + 4096) of the bias, those past the array's end filled with the zero word. -/
def bBlk (bv : FVec F S100000 .f32) (t : Fin cfg1.N) : Vec F S4096 .f32 :=
  win1_2.fill (grid1.coords t) (fun _ => Scalar.ofBits .f32 0#32) ((win1_2.blk t).view.read (Elt F) bv)

/-- What the body stores at point t: its one payload at the three blocks. -/
def oBlk (wt : FVec F S32x100000 .f32) (ev : FVec F S32x1024 .f32) (bv : FVec F S100000 .f32) (t : Fin cfg1.N) : Vec F S4096x1024 .f32 :=
  k1_pay1 (wBlk wt t) (eBlk ev t) (bBlk bv t)

/-- The point whose block holds row v of the result. -/
def ptOf (v : Fin 100000) : Fin cfg1.N := ⟨v.val / 4096, by rw [show cfg1.N = 25 from N_1]; have := v.isLt; omega⟩

/-- The call's result as one function of the transposed weights, the summed embeddings and the bias. -/
def mmOut (wt : FVec F S32x100000 .f32) (ev : FVec F S32x1024 .f32) (bv : FVec F S100000 .f32) : FVec F S100000x1024 .f32 :=
  fun i => oBlk wt ev bv (ptOf (i 0)) (ix2 ⟨(i 0).val % 4096, Nat.mod_lt _ (by norm_num)⟩ (i 1))

/-! ## The proof data -/

/-- The (semaphore, index) pairs the TensorCore may have recorded waits at when the call is entered, and after it:
    those at level at most 8, the bound its state after the one SparseCore call carries. -/
abbrev recB (d : Dev nD) : Set (SemLoc sig × HIx 1) := {p | (K (F := F)).lev ((T d : Thread nD τ), p.1) p.2 ≤ 8}

local notation "𝕄" => MT nD τ sig (HIx 1) (Elt F) ℕ UU ℕ

/-- The pipeline's proof data on device d: the four arrays at their contents when the call is entered; after the body
    the inputs' staging buffers at their blocks and the result's at the body's value; no invariant of the body's own;
    nothing owed; full shares. -/
def dats (wt : FVec F S32x100000 .f32) (ev : FVec F S32x1024 .f32) (bv : FVec F S100000 .f32) (ov : FVec F S100000x1024 .f32)
    (_ : Fin 1) (d : Dev nD) : Dat τ (Elt F) (HIx 1) ℕ UU ℕ cfg1 d where
  A w := match w with
    | ⟨0, _⟩ => wt
    | ⟨1, _⟩ => ev
    | ⟨2, _⟩ => bv
    | ⟨3, _⟩ => ov
  after w t := match w with
    | ⟨0, _⟩ => wBlk wt t
    | ⟨1, _⟩ => eBlk ev t
    | ⟨2, _⟩ => bBlk bv t
    | ⟨3, _⟩ => oBlk wt ev bv t
  Φ _ := iprop(emp)
  q _ := fullShare
  owed _ := 0
  recorded _ := recB (F := F) d

/-- The result's window, forgotten or not: a run that need not name what the result array ends holding hands the
    result's staging buffer to the body, and takes it back, at contents nothing names. -/
def fgt3 (fg : Bool) : Fin cfg1.W → Bool := fun w => match w with
  | ⟨0, _⟩ => false
  | ⟨1, _⟩ => false
  | ⟨2, _⟩ => false
  | ⟨3, _⟩ => fg

/-- The proof data read relationally, the result's window forgotten when `fg`. -/
def rdats (fg : Bool) (wt : FVec F S32x100000 .f32) (ev : FVec F S32x1024 .f32) (bv : FVec F S100000 .f32) (ov : FVec F S100000x1024 .f32)
    (p : Fin 1) (d : Dev nD) : Pipeline.RDat τ (Elt F) (HIx 1) ℕ UU ℕ cfg1 d :=
  (dats wt ev bv ov p d).toRForget (fgt3 fg)

/-- On the rows a write-back moves, the body's payload depends on the weight block and on the bias block only through
    the columns and entries their fetches move: what lies in the staging buffers past the arrays' edge does not reach
    the result array. (A fact about the float instance: the matrix product's rows are computed from the matching
    columns. It holds of the extended reals.) -/
def RowsOK (F : FTy → Type) [FloatOps F] : Prop :=
  ∀ (t : Fin cfg1.N) (x0 x0' : Vec F S32x4096 .f32) (x1 : Vec F S32x1024 .f32) (x2 x2' : Vec F S4096 .f32),
    win1_0.cut (grid1.coords t) x0 = win1_0.cut (grid1.coords t) x0' →
    win1_2.cut (grid1.coords t) x2 = win1_2.cut (grid1.coords t) x2' →
    win1_3.cut (grid1.coords t) (k1_pay1 x0 x1 x2) = win1_3.cut (grid1.coords t) (k1_pay1 x0' x1 x2')

end Cert.Proof.KB

end
-- ==== Proof.MainTcB.lean ====
/-
  @main on the TensorCore of the kernel program, and the program's run.

  @main transposes and flattens the index array, transposes the table, starts the SparseCore call and waits for it
  (the three arrays it moves are handed to the thirty-two tasks and taken back, the call's result at `embArr`),
  transposes the weights, runs the matrix product's call as a region, and transposes the product into the result.
  Each host operation is run over the two arrays it touches, held whole; every other array stays where it is. At the
  end the four argument arrays are whole at their launch contents and the result array at the transpose of what the
  region left. The region's own proof and the tasks' are taken as hypotheses here; so is how the launch element funds
  the region's staging cells.
-/
import proofs.«208886_g87462714016427_cont_sun_c4_567_10_alg».proof.Proof.MainHostB
import proofs.«208886_g87462714016427_cont_sun_c4_567_10_alg».proof.Proof.SplitB
import proofs.«208886_g87462714016427_cont_sun_c4_567_10_alg».proof.Proof.FinalB
import proofs.«208886_g87462714016427_cont_sun_c4_567_10_alg».proof.Proof.RegionB

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

/-! ## The TensorCore's arrays -/

/-- @main's eleven arrays, each whole. -/
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (a3Loc d ↦{fullShare} W main_arg3) ∗ (v0Loc d ↦{fullShare} W main_v0) ∗ (iLoc d ↦{fullShare} W main_v1)
          ∗ (tLoc d ↦{fullShare} W main_v2) ∗ (eLoc d ↦{fullShare} W main_v3) ∗ (wLoc d ↦{fullShare} W main_v4)
          ∗ (oLoc d ↦{fullShare} W main_v5) ∗ (rLoc d ↦{fullShare} W main_v6)) := by
  unfold unscopedBufs
  rw [show (Finset.univ.filter fun b : Ref sig .tc => ¬ b.isScoped)
        = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two arrays held as a set are the two arrays. -/
theorem held_pair (d : Dev nD) (x y : Ref sig .tc) (hne : (Proc.devRef .tc x : DevRef τ sig) ≠ Proc.devRef .tc y)
    (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (Finset.notMem_singleton.mpr hne), bigSep_singleton]

variable [FloatOps F]

/-- A host operation that reads the array `x` and writes the array `y`, run over the two held whole: `x` keeps its
    contents and `y` ends at the operation's result. -/
theorem wp_hlo_pair (d : Dev nD) (op : HloOp τ sig (Elt F)) (x y : Ref sig .tc)
    (hb : op.bufs = {Proc.devRef .tc x, Proc.devRef .tc y}) (hw : op.writes = {Proc.devRef .tc y})
    (hne : (Proc.devRef .tc x : DevRef τ sig) ≠ Proc.devRef .tc y) (V₀ : Valuation τ sig (Elt F))
    (fx : Buf (Elt F) ((SparseCore.T d : Thread nD τ).loc x)) (fy gy : Buf (Elt F) ((SparseCore.T d : Thread nD τ).loc y))
    (hres : ∀ W : Valuation τ sig (Elt F), W (Proc.devRef .tc x) = fx → op.result W (Proc.devRef .tc y) = gy)
    (Φ : PUnit → sProp 𝕄) (hf : op.fresh = ∅ := by rfl) :
    iprop(boundary (T d) ∗ ((SparseCore.T d).loc x ↦{fullShare} fx) ∗ ((SparseCore.T d).loc y ↦{fullShare} fy))
      ⊢ iprop((iprop(boundary (T d) ∗ ((SparseCore.T d).loc x ↦{fullShare} fx) ∗ ((SparseCore.T d).loc y ↦{fullShare} gy)) -∗ Φ ⟨⟩)
          -∗ wp frame (wpE ((K (F := F)).defs (D (F := F))) 𝒱 (SparseCore.T d) none) Set.univ
              (hlo rfl op fun _ => .ret (⟨⟩ : PUnit)) Φ) := by
  obtain ⟨W, hWx, hWy⟩ : ∃ W : Valuation τ sig (Elt F), W (Proc.devRef .tc x) = fx ∧ W (Proc.devRef .tc y) = fy :=
    ⟨Function.update (Function.update V₀ (Proc.devRef .tc y) fy) (Proc.devRef .tc x) fx, Function.update_self _ _ _, by
      rw [Function.update_of_ne hne.symm, Function.update_self]⟩
  have hbefore : (held (T d) {Proc.devRef .tc x, Proc.devRef .tc y} W : sProp 𝕄)
      = iprop(((SparseCore.T d).loc x ↦{fullShare} fx) ∗ ((SparseCore.T d).loc y ↦{fullShare} fy)) := by
    rw [held_pair d x y hne, hWx, hWy]
  have hafter : (held (T d) {Proc.devRef .tc x, Proc.devRef .tc y} (op.result W) : sProp 𝕄)
      = iprop(((SparseCore.T d).loc x ↦{fullShare} fx) ∗ ((SparseCore.T d).loc y ↦{fullShare} gy)) := by
    rw [held_pair d x y hne, op.result_of_not_mem W (b := Proc.devRef .tc x) (by rw [hw, Finset.mem_singleton]; exact hne), hWx,
      hres W hWx]
  iintro ⟨Hb, Hx, Hy⟩ Hk
  iapply (wp_hlo_within 𝒱 (SparseCore.T d) none Set.univ (op := op) (S := {Proc.devRef .tc x, Proc.devRef .tc y})
      (Finset.subset_of_eq hb) (V := W) hf) $$ [Hb Hx Hy]
  · isplitl [Hb]; · iexact Hb
    rw [hbefore]
    isplitl [Hx]; · iexact Hx
    iexact Hy
  iintro ⟨Hb, Hheld⟩
  ihave Hh := (Entails.of_eq hafter) $$ Hheld
  icases Hh with ⟨Hx, Hy⟩
  rw [wp_ret]; imodintro
  iapply Hk
  isplitl [Hb]; · iexact Hb
  isplitl [Hx]; · iexact Hx
  iexact Hy

/-! ## What @main starts from, what the region asks, what @main leaves -/

section Main

variable (m : (ℓ : Loc nD τ sig) → Buf (Elt F) ℓ) (ρ : Dev nD → PrngReg)
-- whether the region forgets what it wrote (the claim then names no value of the product)
variable (fg : Bool)
-- what the region needs of the launch element on each device
variable (G : Dev nD → sProp (MT nD τ sig (HIx 1) (Elt F) ℕ UU ℕ))

/-- The result array of the SparseCore call as it enters: its launch contents. -/
abbrev ev₀ (d : Dev nD) : Buf (Elt F) (eLoc d) := m (eLoc d)
/-- The summed embeddings, as the SparseCore call leaves them. -/
abbrev embOf (d : Dev nD) : Buf (Elt F) (eLoc d) := embArr (F := F) (tabT m d) (idxFlat m d)
/-- The product, as the matrix product's call leaves it when it does not forget. -/
abbrev prodOf (d : Dev nD) : Buf (Elt F) (oLoc d) := mmOut (F := F) (wT m d) (embOf m d) (m (a3Loc d))

/-- The arrays after @main: the four arguments at their launch contents, the result at the transpose of a product
    array, which is the region's own unless the region forgets. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d))
    ∗ ∃ o' : Buf (Elt F) (oLoc d), ⌜fg = false → o' = prodOf m d⌝ ∗ (rLoc d ↦{fullShare} outT d o'))

/-- The region's step, as @main meets it: from the handshake state after the SparseCore call, the region boundary,
    the staging cells' ghost state and the four arrays whole, the call runs and leaves the three inputs unchanged and
    the product array at some contents, the region's function of the inputs unless it forgets. -/
def RegionSpec : Prop :=
  ∀ (d : Dev nD) (wt : FVec F S32x100000 .f32) (ev : FVec F S32x1024 .f32) (bv : FVec F S100000 .f32)
    (ov : FVec F S100000x1024 .f32) (Φ : PUnit → sProp 𝕄),
    iprop(levAts (K (F := F)).L (K (F := F)).lev ∗ (K (F := F)).tcSt EH d 1 ∗ boundary (T d) ∗ G d
        ∗ (wLoc d ↦{fullShare} wt) ∗ (eLoc d ↦{fullShare} ev) ∗ (a3Loc d ↦{fullShare} bv) ∗ (oLoc d ↦{fullShare} ov)
        ∗ (∀ o' : FVec F S100000x1024 .f32, iprop(⌜fg = false → o' = mmOut (F := F) wt ev bv⌝ ∗ (K (F := F)).tcSt EH d 1 ∗ boundary (T d)
              ∗ (wLoc d ↦{fullShare} wt) ∗ (eLoc d ↦{fullShare} ev) ∗ (a3Loc d ↦{fullShare} bv) ∗ (oLoc d ↦{fullShare} o')) -∗ Φ ⟨⟩))
      ⊢ wp frame (wpE ((K (F := F)).defs (D (F := F))) 𝒱 (T d) none) Set.univ
          (Prog.lift (.customCall (SparseCore.inner (Pipeline.entry 0)) ())) Φ

/-- The launch deals the TensorCore its eleven arrays at the launch contents. -/
theorem tcBufs_eq (d : Dev nD) :
    (unscopedBufs d (fun b => m ((SparseCore.T d).loc b)) : sProp 𝕄)
      = iprop((a0Loc d ↦{fullShare} m (a0Loc d)) ∗ (a1Loc d ↦{fullShare} m (a1Loc d)) ∗ (a2Loc d ↦{fullShare} m (a2Loc d))
          ∗ (a3Loc d ↦{fullShare} m (a3Loc d)) ∗ (v0Loc d ↦{fullShare} m (v0Loc d)) ∗ (iLoc d ↦{fullShare} m (iLoc d))
          ∗ (tLoc d ↦{fullShare} m (tLoc d)) ∗ (eLoc d ↦{fullShare} m (eLoc d)) ∗ (wLoc d ↦{fullShare} m (wLoc d))
          ∗ (oLoc d ↦{fullShare} m (oLoc d)) ∗ (rLoc d ↦{fullShare} m (rLoc d))) := by
  rw [unscopedBufs_eq]

/-! ## @main -/

set_option backward.isDefEq.respectTransparency.types false in
/-- @main on device `d`'s TensorCore. -/
theorem hmain (hregion : RegionSpec (F := F) fg G) (κ : GSem nD τ sig → ℕ) (d : Dev nD) :
    iprop((K (F := F)).ctx EH (P (idxFlat m) (tabT m) (ev₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m fg d) := by
  unfold SparseCore.Cfg.tcRes
  rw [tcBufs_eq]
  simp only [main, wp_bind, wp_pure]
  iintro ⟨#Hctx, Hst, ⟨Hb, ⟨H0, H1, H2, H3, Hv0, Hv1, Hv2, Hv3, Hv4, Hv5, Hv6⟩, -, -⟩, HG⟩
  -- the index array transposed, then flattened; the table transposed
  iapply (wp_hlo_pair d opIdxT main_arg0 main_v0 rfl rfl (by decide) (fun b => m (d, b)) (m (a0Loc d)) (m (v0Loc d)) (idx4 m d)
    (fun W h => opIdxT_result m d W h)) $$ [Hb H0 Hv0]
  · isplitl [Hb]; · iexact Hb
    isplitl [H0]; · iexact H0
    iexact Hv0
  iintro ⟨Hb, H0, Hv0⟩
  iapply (wp_hlo_pair d opIdxFlat main_v0 main_v1 rfl rfl (by decide) (fun b => m (d, b)) (idx4 m d) (m (iLoc d)) (idxFlat m d)
    (fun W h => opIdxFlat_result m d W h)) $$ [Hb Hv0 Hv1]
  · isplitl [Hb]; · iexact Hb
    isplitl [Hv0]; · iexact Hv0
    iexact Hv1
  iintro ⟨Hb, Hv0, Hv1⟩
  iapply (wp_hlo_pair d opTabT main_arg1 main_v2 rfl rfl (by decide) (fun b => m (d, b)) (m (a1Loc d)) (m (tLoc d)) (tabT m d)
    (fun W h => opTabT_result m d W h)) $$ [Hb H1 Hv2]
  · isplitl [Hb]; · iexact Hb
    isplitl [H1]; · iexact H1
    iexact Hv2
  iintro ⟨Hb, H1, Hv2⟩
  -- the SparseCore call: the three arrays to the thirty-two tasks and back
  ihave Hsp := (st0_of_whole (F := F) (idxFlat m) (tabT m) (ev₀ m) d) $$ [Hv1 Hv2 Hv3]
  · isplitl [Hv1]; · iexact Hv1
    isplitl [Hv2]; · iexact Hv2
    iexact Hv3
  icases Hsp with ⟨Hrem, Hst0⟩
  iapply ((K (F := F)).wp_run (D (F := F)) 𝒱 (EH := EH) (P := P (idxFlat m) (tabT m) (ev₀ m)) κ d 0) $$ [Hst Hst0 Hrem Hb H0 H1 H2 H3 Hv0 Hv4 Hv5 Hv6 HG]
  isplitr; · iexact Hctx
  isplitl [Hst]; · iexact Hst
  isplitl [Hst0]; · iexact Hst0
  iintro ⟨Hst, Hdn⟩
  ihave Hw := (whole_of_dn0 (F := F) (idxFlat m) (tabT m) (ev₀ m) d) $$ [Hrem Hdn]
  · isplitl [Hrem]; · iexact Hrem
    iexact Hdn
  icases Hw with ⟨Hv1, Hv2, Hv3⟩
  -- the weights transposed
  iapply (wp_hlo_pair d opWT main_arg2 main_v4 rfl rfl (by decide) (fun b => m (d, b)) (m (a2Loc d)) (m (wLoc d)) (wT m d)
    (fun W h => opWT_result m d W h)) $$ [Hb H2 Hv4]
  · isplitl [Hb]; · iexact Hb
    isplitl [H2]; · iexact H2
    iexact Hv4
  iintro ⟨Hb, H2, Hv4⟩
  -- the matrix product's call
  iapply (hregion d (wT m d) (embOf m d) (m (a3Loc d)) (m (oLoc d)) _) $$ [Hst Hb HG Hv4 Hv3 H3 Hv5 H0 H1 H2 Hv0 Hv1 Hv2 Hv6]
  isplitr; · iapply (SparseCore.Cfg.ctx_levAts κ); iexact Hctx
  isplitl [Hst]; · iexact Hst
  isplitl [Hb]; · iexact Hb
  isplitl [HG]; · iexact HG
  isplitl [Hv4]; · iexact Hv4
  isplitl [Hv3]; · iexact Hv3
  isplitl [H3]; · iexact H3
  isplitl [Hv5]; · iexact Hv5
  iintro %o' ⟨%ho, Hst, Hb, Hv4, Hv3, H3, Hv5⟩
  -- the product transposed into the result
  iapply (wp_hlo_pair d opOutT main_v5 main_v6 rfl rfl (by decide) (fun b => m (d, b)) o' (m (rLoc d)) (outT d o')
    (fun W h => opOutT_result d o' W h)) $$ [Hb Hv5 Hv6]
  · isplitl [Hb]; · iexact Hb
    isplitl [Hv5]; · iexact Hv5
    iexact Hv6
  iintro ⟨Hb, Hv5, Hv6⟩
  imodintro
  isplitl [Hst]; · iexact Hst
  unfold FIN
  isplitl [H0]; · iexact H0
  isplitl [H1]; · iexact H1
  isplitl [H2]; · iexact H2
  isplitl [H3]; · iexact H3
  iexists o'
  isplitr; · ipureintro; exact ho
  iexact Hv6

end Main

/-! ## The launch element -/

section Launch

variable (m : (ℓ : Loc nD τ sig) → Buf (Elt F) ℓ) (ρ : Dev nD → PrngReg)
variable (fg : Bool)
variable (G : Dev nD → sProp (MT nD τ sig (HIx 1) (Elt F) ℕ UU ℕ))

/-- The launch element: the handshakes' rounds, the region's staging cells' element `uP`, no local copy counted. -/
def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

/-- From the launch element: the handshake cells' rounds, what the region needs on every device, and nothing for
    the tasks (they consume nothing of the launch's). -/
theorem hu₀ (uP : UP) (fundG : (BI.own ((EP : Emb UP 𝕄) uP) : sProp 𝕄) ⊢ |==> bigSep Finset.univ fun d : Dev nD => G d)
    (iv : (d : Dev nD) → Buf (Elt F) (iLoc d)) (tv : (d : Dev nD) → Buf (Elt F) (tLoc d)) (ev : (d : Dev nD) → Buf (Elt F) (eLoc d)) :
    (ownU (u₀ (F := F) uP) : sProp 𝕄)
      ⊢ |={Set.univ}=> iprop(BI.own (EH (initOf (K (F := F)).hsCells (K (F := F)).hsToks)) ∗ (bigSep Finset.univ fun d : Dev nD => G d)
          ∗ bigSep Finset.univ fun thr : Thread nD τ => bigSep Finset.univ fun q : Fin 1 => (P iv tv ev).x q thr) := by
  have fundG' : (BI.own (((Emb.inl : Emb UP (UP × Counters)).trans (embR : Emb (UP × Counters) 𝕄)) uP) : sProp 𝕄)
      ⊢ |==> bigSep Finset.univ fun d : Dev nD => G d := fundG
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  imod fundG' $$ HP with HGs
  imodintro
  isplitl [HH]; · iexact HH
  isplitl [HGs]; · iexact HGs
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the claim off the final memory -/

/-- What the final memory of device `d` satisfies. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d)
    ∧ ∃ o' : Buf (Elt F) (oLoc d), (fg = false → o' = prodOf m d) ∧ s'.mem.mem (rLoc d) = outT d o'

theorem hfin (d : Dev nD) (s' : Phys nD τ sig (Elt F)) : iprop(FIN m fg d ∗ SI s') ⊢ (⌜fq m fg d s'⌝ : sProp 𝕄) := by
  unfold FIN
  iintro ⟨⟨H0, H1, H2, H3, %o', %ho, H6⟩, HSI⟩
  ihave X := (agree5 d s' (m (a0Loc d)) (m (a1Loc d)) (m (a2Loc d)) (m (a3Loc d)) (outT d o')) $$ [H0 H1 H2 H3 H6 HSI]
  · isplitl [H0 H1 H2 H3 H6]
    · isplitl [H0]; · iexact H0
      isplitl [H1]; · iexact H1
      isplitl [H2]; · iexact H2
      isplitl [H3]; · iexact H3
      iexact H6
    · iexact HSI
  icases X with %h
  ipureintro
  exact ⟨h.1, h.2.1, h.2.2.1, h.2.2.2.1, o', ho, h.2.2.2.2⟩

/-! ## The program's run -/

/-- The run's post: on every device the result array is the transpose of a product array — the region's own unless
    the region forgets — and the four argument arrays are unchanged. -/
def QC : PUnit × MemSt nD τ sig (Elt F) → Prop := fun r => ∀ c : Dev nD,
  (∃ o' : Buf (Elt F) (oLoc c), (fg = false → o' = prodOf m c) ∧ r.2.mem (rLoc c) = outT c o')
    ∧ r.2.mem (a0Loc c) = m (a0Loc c) ∧ r.2.mem (a1Loc c) = m (a1Loc c) ∧ r.2.mem (a2Loc c) = m (a2Loc c)
    ∧ r.2.mem (a3Loc c) = m (a3Loc c)

/-- Every weakly fair execution of the device's threads from a memory with zero counters terminates, nothing
    faulting, in a state of which `QC` holds; from the tasks' proof, the region's, and the funding of its cells. -/
theorem run_main [∀ e, Nonempty (Elt F e)] (uP : UP)
    (fundG : (BI.own ((EP : Emb UP 𝕄) uP) : sProp 𝕄) ⊢ |==> bigSep Finset.univ fun d : Dev nD => G d)
    (hregion : RegionSpec (F := F) fg G)
    (tileObl : (K (F := F)).TileObl (D (F := F)) 𝒱 (P (idxFlat m) (tabT m) (ev₀ m)) v₀ 0) :
    θ_run (Cert.Kernel.defs (F := F)) (Cert.Kernel.threads (F := F)) ⟨m, fun _ => 0, ρ⟩ (QC m fg) :=
  SparseCore.Cfg.θ_run_sc (K := K (F := F)) (D := D (F := F)) (𝒱 := 𝒱) (EH := EH) (P := P (idxFlat m) (tabT m) (ev₀ m)) facts v₀
    (fun q hq => match q with | 0 => nomatch hq)
    (fun q _ => match q with | 0 => tileObl)
    (fun q _ => match q with | 0 => SparseCore.Cfg.VecSplit.of_plain (vecSplit (idxFlat m) (tabT m) (ev₀ m)))
    m ρ main G (FIN m fg) (u₀ (F := F) uP) (sep_elim_left.trans (hu₀ G uP fundG _ _ _)) (hmain m ρ fg G hregion) (fq m fg) (hfin m fg)
    (QC m fg) (fun _ h c => ⟨(h c).2.2.2.2, (h c).1, (h c).2.1, (h c).2.2.1, (h c).2.2.2.1⟩)

end Launch

end Cert.Proof.KB

end
-- ==== Proof.IdxRangeB.lean ====
/-
  The flattened index array keeps the range of the index array.

  Every word of the flattened array is word `j * 1024 + n` for one context position `j` and batch entry `n`, hence an
  entry of the index array; if every entry names a row of the table, so does every word.
-/
import proofs.«208886_g87462714016427_cont_sun_c4_567_10_alg».proof.Proof.MainHostB
import proofs.«208886_g87462714016427_cont_sun_c4_567_10_alg».proof.Proof.Spec

noncomputable section

namespace Cert.Proof.KB

open Cert.Kernel Cert.Kernel.Gen
open Idealize.ShloMosaic Idealize.ShloMosaic.ValueIdx
open Cert.Proof

variable {F : FTy → Type}

/-- In range on the index array, in range on the flattened one. -/
theorem idxFlat_inRange (m : (ℓ : Loc nD τ sig) → Buf (Elt F) ℓ) (d : Dev nD) (h : Spec.InRange (m (a0Loc d))) :
    ∀ x, (idxFlat m d x).toNat < 100000 := by
  intro x
  have hx : (x 0).val < 4096 := (x 0).isLt
  have e : x = flatIx ⟨(x 0).val / 1024, by omega⟩ ⟨(x 0).val % 1024, Nat.mod_lt _ (by norm_num)⟩ := by
    funext a
    match a with
    | ⟨0, _⟩ => exact Fin.ext (by show (x 0).val = (x 0).val / 1024 * 1024 + (x 0).val % 1024; omega)
  rw [e, idxFlat_apply]
  exact h _

end Cert.Proof.KB

end
-- ==== Proof.TileDefsB.lean ====
/-
  The vocabulary of one vector subcore's task: the arrays and the subcore's three scratch buffers as the task's
  program names them, the subcore's place, the row of the transposed table and of the result it works on (row
  2 i + c for subcore i of core c: the task slices both at the offsets it computes from its place), and those two rows
  as the program slices them.
-/
import proofs.«208886_g87462714016427_cont_sun_c4_567_10_alg».proof.Proof.SetupB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ UU ℕ

/-- The transposed table, the flattened indices and the result, as a vector subcore names them. -/
abbrev tV : Memref sig .scVector .hbm S32x100000 .f32 := Memref.whole main_v2_scv
abbrev iV : Memref sig .scVector .hbm S4096 .i32 := Memref.whole main_v1_scv
abbrev eV : Memref sig .scVector .hbm S32x1024 .f32 := Memref.whole main_v3_scv
/-- A subcore's scratch: its row of the table, the indices, its row of sums. -/
abbrev sT : Memref sig .scVector .vmem S100000 .f32 := Memref.whole cc0_scratch0
abbrev sI : Memref sig .scVector .vmem S4096 .i32 := Memref.whole cc0_scratch1
abbrev sE : Memref sig .scVector .vmem S1024 .f32 := Memref.whole cc0_scratch2

/-- The core and the subcore of a place of the kernel's grid. -/
abbrev cV (L : grid0.Coords) : Fin τ.nSC := (L 0).castLE hcore0
abbrev jV (L : grid0.Coords) : Fin τ.nSub := (L 1).castLE hsub0
/-- The task's thread. -/
abbrev thrV (d : Dev nD) (L : grid0.Coords) : Thread nD τ := V d (cV L) (jV L)

/-- The row the task at place `L` works on. -/
def rowL (L : grid0.Coords) : Fin 32 := ⟨2 * (L 1).val + (L 0).val, by
  have h0 : (L 0).val < 2 := (L 0).isLt
  have h1 : (L 1).val < 16 := (L 1).isLt
  omega⟩

/-- That row of the table and of the result, as the task slices them. -/
abbrev tRowK (L : grid0.Coords) : Memref sig .scVector .hbm S100000 .f32 :=
  ((tV).slice (Rect.unit (s := S32x100000) (k0_off1 L) S1x100000.size (k0_off1_inb L)) (fun _ => rfl)).squeeze S100000 squeezes_S1x100000_S100000
abbrev eRowK (L : grid0.Coords) : Memref sig .scVector .hbm S1024 .f32 :=
  ((eV).slice (Rect.unit (s := S32x1024) (k0_off2 L) S1x1024.size (k0_off2_inb L)) (fun _ => rfl)).squeeze S1024 squeezes_S1x1024_S1024

/-- The table scratch held whole is the same held through its whole-rectangle access (what an indexed load reads). -/
theorem pts_sT_access (d : Dev nD) (L : grid0.Coords) (f : Buf (Elt F) ((thrV d L).loc cc0_scratch0)) :
    (((sT).view.loc (thrV d L) ↦{fullShare} f : sProp 𝕄)) = (((sT).access (.whole S100000)).loc (thrV d L) ↦{fullShare} f) := rfl

end Cert.Proof.KB

end
-- ==== Proof.TileGlueB.lean ====
/-
  From one subcore's task to the launch theorem's obligation.

  The task at place `L` slices row `2 (L 1) + L 0` of the transposed table and of the result at the offsets it computes;
  those rectangles are the rows the split hands it. The subcore's own storage is its three scratch buffers and three of
  its copy semaphores, beside a rest the task never touches. With the task's body proved over exactly these resources
  (`TileCore`), framing the rest and respelling the rows gives the obligation the launch theorem asks of every subcore
  of the grid.
-/
import proofs.«208886_g87462714016427_cont_sun_c4_567_10_alg».proof.Proof.SetupB
import proofs.«208886_g87462714016427_cont_sun_c4_567_10_alg».proof.Proof.SplitB
import proofs.«208886_g87462714016427_cont_sun_c4_567_10_alg».proof.Proof.TileDefsB

set_option maxRecDepth 16384

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The task's rows are the split's rows -/

section Tile

variable (d : Dev nD) (L : grid0.Coords)

abbrev rowK1 (L : grid0.Coords) : Rect S32x100000 := Rect.unit (s := S32x100000) (k0_off1 L) S1x100000.size (k0_off1_inb L)
abbrev rowK2 (L : grid0.Coords) : Rect S32x1024 := Rect.unit (s := S32x1024) (k0_off2 L) S1x1024.size (k0_off2_inb L)

theorem rowK1_eq : rowK1 L = rowT (rowL L) := by
  unfold rowK1 rowT Rect.part Rect.block
  congr 1 <;> funext a
  · rw [k0_off1_eq]
    match a with
    | 0 => simp [Shape.partIx, Shape.partSize, rowL]
    | 1 => simp [Shape.partIx, Shape.partSize]
  · match a with
    | 0 => simp [Shape.partSize]
    | 1 => simp [Shape.partSize]
theorem rowK2_eq : rowK2 L = rowE (rowL L) := by
  unfold rowK2 rowE Rect.part Rect.block
  congr 1 <;> funext a
  · rw [k0_off2_eq]
    match a with
    | 0 => simp [Shape.partIx, Shape.partSize, rowL]
    | 1 => simp [Shape.partIx, Shape.partSize]
  · match a with
    | 0 => simp [Shape.partSize]
    | 1 => simp [Shape.partSize]

theorem set_tRowK : (tRowK L).view.set = rowSetT (rowL L) := by
  show (((tV : Memref sig .scVector .hbm S32x100000 .f32).view.slice (rowK1 L)).reshape S100000 squeezes_S1x100000_S100000.numel_eq).set
    = ((tV : Memref sig .scVector .hbm S32x100000 .f32).view.slice (rowT (rowL L))).set
  rw [View.set_reshape]
  exact rowK1_eq L ▸ rfl
theorem set_eRowK : (eRowK L).view.set = rowSetE (rowL L) := by
  show (((eV : Memref sig .scVector .hbm S32x1024 .f32).view.slice (rowK2 L)).reshape S1024 squeezes_S1x1024_S1024.numel_eq).set
    = ((eV : Memref sig .scVector .hbm S32x1024 .f32).view.slice (rowE (rowL L))).set
  rw [View.set_reshape]
  exact rowK2_eq L ▸ rfl

theorem pts_tRowK (f : Buf (Elt F) (tLoc d)) :
    ((tRowK L).view.loc (thrV d L) ↦[(tRowK L).view.set]{fullShare} f : sProp 𝕄) = tLoc d ↦[rowSetT (rowL L)]{fullShare} f := by
  rw [set_tRowK]
theorem pts_eRowK (f : Buf (Elt F) (eLoc d)) :
    ((eRowK L).view.loc (thrV d L) ↦[(eRowK L).view.set]{fullShare} f : sProp 𝕄) = eLoc d ↦[rowSetE (rowL L)]{fullShare} f := by
  rw [set_eRowK]
theorem pts_iV (q : PosShare TreeShare) (f : Buf (Elt F) (iLoc d)) :
    ((iV).view.loc (thrV d L) ↦{q} f : sProp 𝕄) = iLoc d ↦{q} f := rfl
theorem pts_sT (f : Buf (Elt F) ((thrV d L).loc cc0_scratch0)) :
    ((sT).view.loc (thrV d L) ↦{fullShare} f : sProp 𝕄) = (thrV d L).loc cc0_scratch0 ↦{fullShare} f := rfl
theorem pts_sI (f : Buf (Elt F) ((thrV d L).loc cc0_scratch1)) :
    ((sI).view.loc (thrV d L) ↦{fullShare} f : sProp 𝕄) = (thrV d L).loc cc0_scratch1 ↦{fullShare} f := rfl
theorem pts_sE (f : Buf (Elt F) ((thrV d L).loc cc0_scratch2)) :
    ((sE).view.loc (thrV d L) ↦{fullShare} f : sProp 𝕄) = (thrV d L).loc cc0_scratch2 ↦{fullShare} f := rfl

/-! ## The subcore's own storage -/

/-- The three copy semaphores the task uses. -/
abbrev cA (d : Dev nD) (L : grid0.Coords) : GSem nD τ sig := (thrV d L, SemLoc.dma cc0_scoped0.sem)
abbrev cB (d : Dev nD) (L : grid0.Coords) : GSem nD τ sig := (thrV d L, SemLoc.dma cc0_scoped1.sem)
abbrev cC (d : Dev nD) (L : grid0.Coords) : GSem nD τ sig := (thrV d L, SemLoc.dma cc0_scoped2.sem)

/-- The subcore's other semaphores, at zero. -/
def semsRest (d : Dev nD) (L : grid0.Coords) : sProp 𝕄 :=
  bigSep ((((ownCells (thrV d L)).erase (cA d L)).erase (cB d L)).erase (cC d L)) fun g => semVal g 0
/-- The subcore's other buffers, at some contents. -/
def bufsRest (d : Dev nD) (L : grid0.Coords) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownSems0_V :
    (ownSems0 (thrV d L) : sProp 𝕄) = iprop(semVal (cA d L) 0 ∗ semVal (cB d L) 0 ∗ semVal (cC d L) 0 ∗ semsRest (F := F) d L) := by
  unfold SparseCore.Cfg.ownSems0 semsRest
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := cB d L)).mpr ⟨rfl, by
      show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide),
      (mem_ownCells (g := cC d L)).mpr ⟨rfl, by show (SemLoc.dma cc0_scoped2.sem : SemLoc sig).isScoped .scVector = true; decide⟩⟩⟩)]

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ bufsRest (F := F) d L) := by
  unfold SparseCore.Cfg.ownBufs bufsRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Tile

/-! ## The task's body, as it is proved, and as the launch theorem asks for it -/

section Glue

variable [FloatOps F]

/-- One subcore's task, proved over exactly what it touches: its row of the table, a read share of the index array, its
    row of the result, its three scratch buffers and three copy semaphores; it leaves its row of the result at the
    call's function of the table and the indices. -/
abbrev TileCore : Prop :=
  ∀ (d : Dev nD) (L : grid0.Coords) (q : PosShare TreeShare) (tvd : Buf (Elt F) (tLoc d)) (ivd : Buf (Elt F) (iLoc d)) (evd : Buf (Elt F) (eLoc d))
    (_hin : ∀ x, (ivd x).toNat < 100000)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)),
    iprop(Transfers.MayWaits (thrV d L) (none : HIx 1) O
        ∗ ((tRowK L).view.loc (thrV d L) ↦[(tRowK L).view.set]{fullShare} tvd) ∗ ((iV).view.loc (thrV d L) ↦{q} ivd) ∗ ((eRowK L).view.loc (thrV d L) ↦[(eRowK L).view.set]{fullShare} evd)
        ∗ ((sT).view.loc (thrV d L) ↦{fullShare} f5) ∗ ((sI).view.loc (thrV d L) ↦{fullShare} f6) ∗ ((sE).view.loc (thrV d L) ↦{fullShare} f7)
        ∗ semVal (thrV d L, SemLoc.dma cc0_scoped0.sem) 0 ∗ semVal (thrV d L, SemLoc.dma cc0_scoped1.sem) 0 ∗ semVal (thrV d L, SemLoc.dma cc0_scoped2.sem) 0 ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(((tRowK L).view.loc (thrV d L) ↦[(tRowK L).view.set]{fullShare} tvd) ∗ ((iV).view.loc (thrV d L) ↦{q} ivd)
            ∗ ((eRowK L).view.loc (thrV d L) ↦[(eRowK L).view.set]{fullShare} (embArr (F := F) tvd ivd : Buf (Elt F) (eLoc d)))
            ∗ (∃ f, (sT).view.loc (thrV d L) ↦{fullShare} f) ∗ (∃ f, (sI).view.loc (thrV d L) ↦{fullShare} f) ∗ (∃ f, (sE).view.loc (thrV d L) ↦{fullShare} f)
            ∗ semVal (thrV d L, SemLoc.dma cc0_scoped0.sem) 0 ∗ semVal (thrV d L, SemLoc.dma cc0_scoped1.sem) 0 ∗ semVal (thrV d L, SemLoc.dma cc0_scoped2.sem) 0
            ∗ ∃ W', ⌜∀ p ∈ W', p ∈ W ∨ p.2 = none⌝ ∗ owes (thrV d L) O W')) : sProp 𝕄)

variable (iv : (d : Dev nD) → Buf (Elt F) (iLoc d)) (tv : (d : Dev nD) → Buf (Elt F) (tLoc d)) (ev : (d : Dev nD) → Buf (Elt F) (eLoc d))

/-- The proved task with the rest of the subcore's storage framed, its rows respelt as the split's. -/
theorem tile_glue_at (hcore : TileCore (F := F)) (hin : ∀ d x, (iv d x).toNat < 100000) (d : Dev nD) (L : grid0.Coords)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)) :
    iprop((Transfers.MayWaits (thrV d L) (none : HIx 1) O
        ∗ ((tRowK L).view.loc (thrV d L) ↦[(tRowK L).view.set]{fullShare} tv d) ∗ ((iV).view.loc (thrV d L) ↦{Transfers.shareTok fullShare 32 (rowL L)} iv d)
        ∗ ((eRowK L).view.loc (thrV d L) ↦[(eRowK L).view.set]{fullShare} ev d)
        ∗ ((sT).view.loc (thrV d L) ↦{fullShare} f5) ∗ ((sI).view.loc (thrV d L) ↦{fullShare} f6) ∗ ((sE).view.loc (thrV d L) ↦{fullShare} f7)
        ∗ semVal (cA d L) 0 ∗ semVal (cB d L) 0 ∗ semVal (cC d L) 0 ∗ owes (thrV d L) O W)
        ∗ (bufsRest (F := F) d L ∗ semsRest (F := F) d L))
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(tdRes iv tv d (rowL L)
            ∗ ((∃ f, (thrV d L).loc cc0_scratch0 ↦{fullShare} f) ∗ (∃ f, (thrV d L).loc cc0_scratch1 ↦{fullShare} f)
                ∗ (∃ f, (thrV d L).loc cc0_scratch2 ↦{fullShare} f) ∗ bufsRest (F := F) d L)
            ∗ (semVal (cA d L) 0 ∗ semVal (cB d L) 0 ∗ semVal (cC d L) 0 ∗ semsRest (F := F) d L)
            ∗ ∃ W', ⌜∀ p ∈ W', p ∈ W ∨ p.2 = none⌝ ∗ owes (thrV d L) O W')) : sProp 𝕄) := by
  refine (sep_mono_left (hcore d L (Transfers.shareTok fullShare 32 (rowL L)) (tv d) (iv d) (ev d) (hin d) f5 f6 f7 O W)).trans
    ((wp_frame_r frame _ _).trans (wp_mono frame _ _ fun _ => ?_))
  unfold tdRes
  rw [pts_tRowK, pts_eRowK, pts_iV]
  iintro ⟨⟨Ht, Hi, He, H5, H6, H7, HsA, HsB, HsC, HW⟩, Hb, Hs⟩
  isplitl [Ht Hi He]
  · isplitl [Ht]; · iexact Ht
    isplitl [Hi]; · iexact Hi
    iexact He
  isplitl [H5 H6 H7 Hb]
  · isplitl [H5]; · iexact H5
    isplitl [H6]; · iexact H6
    isplitl [H7]; · iexact H7
    iexact Hb
  isplitl [HsA HsB HsC Hs]
  · isplitl [HsA]; · iexact HsA
    isplitl [HsB]; · iexact HsB
    isplitl [HsC]; · iexact HsC
    iexact Hs
  iexact HW

/-- The task on the subcore at place `L` of device `d`, from what the launch hands it to what it hands back. -/
theorem tile_glue (hcore : TileCore (F := F)) (hF : (K (F := F)).Facts) (hin : ∀ d x, (iv d x).toNat < 100000) (d : Dev nD) (L : grid0.Coords)
    (O : CellTallies nD τ sig (HIx 1)) (W : Waits sig (HIx 1)) (hO : ∀ g, O g none = 0) :
    iprop(levAts (K (F := F)).L (K (F := F)).lev ∗ goRes iv tv ev d (rowL L)
        ∗ scopedBufs (thrV d L) ∗ scopedSems0 (thrV d L) ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(tdRes iv tv d (rowL L) ∗ scopedBufs (thrV d L) ∗ scopedSems0 (thrV d L)
            ∗ ∃ W', ⌜∀ p ∈ W', p ∈ W ∨ p.2 = none⌝ ∗ owes (thrV d L) O W')) : sProp 𝕄) := by
  rw [(K (F := F)).scopedBufs_V hF d (cV L) (jV L), SparseCore.Cfg.scopedSems0_V (Val := Elt F) d (cV L) (jV L), ownSems0_V, ownBufs_V]
  unfold goRes
  iintro ⟨#Hlv, ⟨Ht, Hi, He⟩, ⟨⟨%f5, H5⟩, ⟨%f6, H6⟩, ⟨%f7, H7⟩, Hbufs⟩, ⟨HsA, HsB, HsC, Hsems⟩, HO⟩
  ihave Hmw := ((K (F := F)).mayWaits_none (thr := thrV d L) hO) $$ Hlv
  ihave Ht' := (Entails.of_eq (pts_tRowK (F := F) d L _).symm) $$ Ht
  ihave He' := (Entails.of_eq (pts_eRowK (F := F) d L _).symm) $$ He
  iapply (tile_glue_at iv tv ev hcore hin d L f5 f6 f7 O W)
  isplitr [Hbufs Hsems]
  · isplitl [Hmw]; · iexact Hmw
    isplitl [Ht']; · iexact Ht'
    isplitl [Hi]; · iexact Hi
    isplitl [He']; · iexact He'
    isplitl [H5]; · iexact H5
    isplitl [H6]; · iexact H6
    isplitl [H7]; · iexact H7
    isplitl [HsA]; · iexact HsA
    isplitl [HsB]; · iexact HsB
    isplitl [HsC]; · iexact HsC
    iexact HO
  isplitl [Hbufs]; · iexact Hbufs
  iexact Hsems

end Glue

end Cert.Proof.KB

end
-- ==== Proof.TileOblB.lean ====
/-
  The launch theorem's obligation for every subcore of the call's grid.

  The body the launch theorem runs on a subcore is the task at that subcore's place; the place's row is the row the
  split gave that subcore's task; and the task's proof, which records its own waits, meets the obligation's weaker
  bound on the waits.
-/
import proofs.«208886_g87462714016427_cont_sun_c4_567_10_alg».proof.Proof.SetupB
import proofs.«208886_g87462714016427_cont_sun_c4_567_10_alg».proof.Proof.SplitB
import proofs.«208886_g87462714016427_cont_sun_c4_567_10_alg».proof.Proof.TileDefsB
import proofs.«208886_g87462714016427_cont_sun_c4_567_10_alg».proof.Proof.TileGlueB

set_option maxRecDepth 16384

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch theorem's obligation -/

section Obligation

/-- The place of the grid at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__emb_body (coordsV c s)
          tV (Memref.isWhole_whole _) iV (Memref.isWhole_whole _) eV (Memref.isWhole_whole _)
          sT (Memref.isWhole_whole _) sI (Memref.isWhole_whole _) sE (Memref.isWhole_whole _) cc0_scratch3 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An `emp` among the resources drops out. -/
theorem drop_emp {A B C D E : sProp 𝕄} : iprop(A ∗ emp ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

omit [FloatOps F] in
/-- The row of the place at (core `c`, subcore `i`) of the call's grid is the row the split gave that task. -/
theorem rowL_coordsV (c : Fin ((K (F := F)).nCore 0)) (i : Fin ((K (F := F)).nSub 0))
    (h0 : ((K (F := F)).core 0 c).val < grid0.bound 0) (h1 : ((K (F := F)).sub 0 i).val < grid0.bound 1) :
    rowL (coordsV ⟨_, h0⟩ ⟨_, h1⟩) = rowOfTile (Fin.cast nCore_zero c) (Fin.cast nSub_zero i) := Fin.ext rfl

variable (iv : (d : Dev nD) → Buf (Elt F) (iLoc d)) (tv : (d : Dev nD) → Buf (Elt F) (tLoc d)) (ev : (d : Dev nD) → Buf (Elt F) (eLoc d))

/-- Every subcore of the call's grid, from the task's operands to its results. -/
theorem tileObl (hcore : TileCore (F := F)) (hin : ∀ d x, (iv d x).toNat < 100000) :
    (K (F := F)).TileObl (D (F := F)) 𝒱 (P iv tv ev) v₀ 0 := by
  intro d c i O W hO _ _
  simp only [show (P iv tv ev).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [go_zero, td_zero, ← rowL_coordsV (F := F) c i hc.1 hc.2]
  have key := (tile_glue iv tv ev hcore facts hin d (coordsV ⟨_, hc.1⟩ ⟨_, hc.2⟩) O W hO).trans (wp_mono frame _ _ fun _ => obl_post (q := (0 : Fin 1)))
  generalize cc0__emb_body (F := F) (coordsV ⟨_, hc.1⟩ ⟨_, hc.2⟩) tV (Memref.isWhole_whole _) iV (Memref.isWhole_whole _) eV (Memref.isWhole_whole _)
    sT (Memref.isWhole_whole _) sI (Memref.isWhole_whole _) sE (Memref.isWhole_whole _) cc0_scratch3 cc0_scoped0 cc0_scoped1 cc0_scoped2 = prog at key ⊢
  exact BI.Entails.trans drop_emp key

end Obligation

end Cert.Proof.KB

end
-- ==== Proof.Claims.lean ====
/-
  The certificate's five claims, from the runs of the three programs.

  The reference's frame is its run with the value dropped. Each kernel program's frame is its run with the region
  forgetting the product array, the arguments kept. The idealized kernel and the idealized reference end with equal
  results: both are `Spec.out` of the four argument arrays — on the kernel's side the transposed product array read
  entry by entry, on the reference's the composed term of its operations — and the two memories agree on those
  arrays. The precondition enters through the range of the index words alone. The idealization rewrote nothing, so
  there is nothing to preserve.

  What is proved in other modules enters as hypotheses of `claim_of`: the tasks' body at each float instance, the
  matrix product's region with the funding of its staging cells, and the product array read at an entry.
-/
import proofs.«208886_g87462714016427_cont_sun_c4_567_10_alg».proof.Defs
import proofs.«208886_g87462714016427_cont_sun_c4_567_10_alg».proof.Proof.Gen.Kernel
import proofs.«208886_g87462714016427_cont_sun_c4_567_10_alg».proof.Proof.Gen.KernelIdeal
import proofs.«208886_g87462714016427_cont_sun_c4_567_10_alg».proof.Proof.Gen.ReferenceIdeal
import proofs.«208886_g87462714016427_cont_sun_c4_567_10_alg».proof.Proof.Gen.Pre_input_domain
import proofs.«208886_g87462714016427_cont_sun_c4_567_10_alg».proof.Proof.PreDecode
import proofs.«208886_g87462714016427_cont_sun_c4_567_10_alg».proof.Proof.RefClaims
import proofs.«208886_g87462714016427_cont_sun_c4_567_10_alg».proof.Proof.KernelValue
import proofs.«208886_g87462714016427_cont_sun_c4_567_10_alg».proof.Proof.IdxRange
import proofs.«208886_g87462714016427_cont_sun_c4_567_10_alg».proof.Proof.TileObl
import proofs.«208886_g87462714016427_cont_sun_c4_567_10_alg».proof.Proof.MainTcB
import proofs.«208886_g87462714016427_cont_sun_c4_567_10_alg».proof.Proof.IdxRangeB
import proofs.«208886_g87462714016427_cont_sun_c4_567_10_alg».proof.Proof.TileOblB

noncomputable section

open scoped BigOperators

namespace Cert.Proof

open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.Sem

/-- The proof's resource algebra over the idealized kernel program's signature, and over the kernel program's. -/
abbrev MI : Type := MT Cert.KernelIdeal.nD Cert.KernelIdeal.τ Cert.KernelIdeal.sig (HIx 1) (Elt Ideal) ℕ KI.UU ℕ
abbrev MB : Type := MT Cert.Kernel.nD Cert.Kernel.τ Cert.Kernel.sig (HIx 1) (Elt Bits) ℕ KB.UU ℕ

/-! ## The kernel programs' frames -/

/-- The idealized kernel program runs to its end, faults nowhere, and leaves its arguments unchanged. -/
theorem frame_ki (GI : Dev Cert.KernelIdeal.nD → sProp MI) (uPI : KI.UP)
    (fundI : (BI.own ((KI.EP : Emb KI.UP MI) uPI) : sProp MI) ⊢ |==> bigSep Finset.univ fun d : Dev Cert.KernelIdeal.nD => GI d)
    (hregI : KI.RegionSpec (F := Ideal) true GI) (hcoreI : KI.TileCore (F := Ideal)) :
    Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2)
    (KI.run_main (F := Ideal) m g true GI uPI fundI hregI
      (KI.tileObl _ _ _ hcoreI fun d => KI.idxFlat_inRange m d (PreDecode.inRange_of_pre (F := Ideal) _ _ _ _ (hpre d))))

/-- The kernel program runs to its end, faults nowhere, and leaves its arguments unchanged. -/
theorem frame_kb (GB : Dev Cert.Kernel.nD → sProp MB) (uPB : KB.UP)
    (fundB : (BI.own ((KB.EP : Emb KB.UP MB) uPB) : sProp MB) ⊢ |==> bigSep Finset.univ fun d : Dev Cert.Kernel.nD => GB d)
    (hregB : KB.RegionSpec (F := Bits) true GB) (hcoreB : KB.TileCore (F := Bits)) :
    Cert.frame_Kernel (hKernel := Cert.Kernel.Gen.facts) (hPre_input_domain := Cert.Pre_input_domain.Gen.facts) :=
  fun m g hpre => (θ_run (Cert.Kernel.defs (F := Bits)) _ _).mono (fun _ h c => (h c).2)
    (KB.run_main (F := Bits) m g true GB uPB fundB hregB
      (KB.tileObl _ _ _ hcoreB fun d => KB.idxFlat_inRange m d (PreDecode.inRange_of_pre (F := Bits) _ _ _ _ (hpre d))))

/-! ## Equal results on the extended reals -/

/-- The idealized kernel and the idealized reference, from memories agreeing on the arguments, both run and end with
    `Spec.out` of the arguments in their result arrays, the arguments unchanged. -/
theorem algebraic_ki (GI : Dev Cert.KernelIdeal.nD → sProp MI) (uPI : KI.UP)
    (fundI : (BI.own ((KI.EP : Emb KI.UP MI) uPI) : sProp MI) ⊢ |==> bigSep Finset.univ fun d : Dev Cert.KernelIdeal.nD => GI d)
    (hregV : KI.RegionSpec (F := Ideal) false GI) (hcoreI : KI.TileCore (F := Ideal))
    (hmm : ∀ (wt : FVec Ideal Cert.KernelIdeal.S32x100000 .f32) (ev : FVec Ideal Cert.KernelIdeal.S32x1024 .f32)
      (bv : FVec Ideal Cert.KernelIdeal.S100000 .f32) (v : Fin 100000) (n : Fin 1024),
      KI.mmOut (F := Ideal) wt ev bv (ix2 v n) = (∑ k : Fin 32, wt (ix2 k v) * ev (ix2 k n)) + bv (ix1 v)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hin : ∀ c, Spec.InRange (m (KI.a0Loc c)) := fun c => PreDecode.inRange_of_pre (F := Ideal) _ _ _ _ (hpre c)
  refine ⟨fun c => Spec.out (m (KI.a0Loc c)) (m (KI.a1Loc c)) (m (KI.a2Loc c)) (m (KI.a3Loc c)), ?_, ?_⟩
  · refine (θ_run (Cert.KernelIdeal.defs (F := Ideal)) _ _).mono (fun r h c => ?_)
      (KI.run_main (F := Ideal) m g false GI uPI fundI hregV
        (KI.tileObl _ _ _ hcoreI fun d => KI.idxFlat_inRange m d (hin d)))
    obtain ⟨⟨o', ho, hv⟩, hargs⟩ := h c
    exact ⟨hv.trans ((congrArg (KI.outT c) (ho rfl)).trans (KI.result_eq_out hmm m c (hin c))), hargs⟩
  · have hidx' : ∀ c : Dev Cert.ReferenceIdeal.nD,
        Spec.InRange (m' ((c.tc : Thread Cert.ReferenceIdeal.nD Cert.ReferenceIdeal.τ).loc Cert.ReferenceIdeal.main_arg0)) :=
      fun c => Eq.mpr (congrArg Spec.InRange (hagree c).1) (hin c)
    refine (θ_run (Cert.ReferenceIdeal.defs (F := Ideal)) _ _).mono (fun r h c => ?_) (Ref.run m' g' hidx')
    obtain ⟨hv, hargs⟩ := h c
    exact ⟨hv.trans (congr (congr (congr (congrArg Spec.out (hagree c).1) (hagree c).2.1) (hagree c).2.2.1) (hagree c).2.2.2), hargs⟩

/-! ## The claim -/

/-- Everything the certificate claims. -/
theorem claim_of
    (GI : Dev Cert.KernelIdeal.nD → sProp MI) (uPI : KI.UP)
    (fundI : (BI.own ((KI.EP : Emb KI.UP MI) uPI) : sProp MI) ⊢ |==> bigSep Finset.univ fun d : Dev Cert.KernelIdeal.nD => GI d)
    (hregI : ∀ fg : Bool, KI.RegionSpec (F := Ideal) fg GI) (hcoreI : KI.TileCore (F := Ideal))
    (hmm : ∀ (wt : FVec Ideal Cert.KernelIdeal.S32x100000 .f32) (ev : FVec Ideal Cert.KernelIdeal.S32x1024 .f32)
      (bv : FVec Ideal Cert.KernelIdeal.S100000 .f32) (v : Fin 100000) (n : Fin 1024),
      KI.mmOut (F := Ideal) wt ev bv (ix2 v n) = (∑ k : Fin 32, wt (ix2 k v) * ev (ix2 k n)) + bv (ix1 v))
    (GB : Dev Cert.Kernel.nD → sProp MB) (uPB : KB.UP)
    (fundB : (BI.own ((KB.EP : Emb KB.UP MB) uPB) : sProp MB) ⊢ |==> bigSep Finset.univ fun d : Dev Cert.Kernel.nD => GB d)
    (hregB : KB.RegionSpec (F := Bits) true GB) (hcoreB : KB.TileCore (F := Bits)) :
    Cert.Claim :=
  ⟨Cert.Kernel.Gen.facts, Cert.KernelIdeal.Gen.facts, Cert.ReferenceIdeal.Gen.facts, Cert.Pre_input_domain.Gen.facts,
    frame_kb GB uPB fundB hregB hcoreB, frame_ki GI uPI fundI (hregI true) hcoreI, Ref.frame_ri, trivial,
    algebraic_ki GI uPI fundI (hregI false) hcoreI hmm⟩

end Cert.Proof

end
-- ==== Proof.Body.lean ====
/-
  The matrix product's body at a point, and the pipeline's body obligation.

  The body loads the three input blocks whole, forms the product of the transposed weight block with the embeddings
  (contracting the 32 rows of both) into a zero accumulator, adds the bias entry of each row across the row, and stores
  the [4096, 1024] result whole. So from any contents of the four staging buffers it leaves the inputs' as they were and
  the result's at the body's payload of the three inputs.

  At a point the weight block's and the bias block's staging buffers hold their blocks where the fetch filled them and
  words nothing names past the arrays' edge (the last point); the embeddings' one buffer holds the whole array, fetched at
  the first point and left in place. The result's buffer holds anything. What the body leaves in the result's buffer is
  named only on the rows the write-back moves, and only when the float instance computes a row of the product from the
  matching columns (`RowsOK`); a run that forgets the result's window needs nothing of it.
-/
import proofs.«208886_g87462714016427_cont_sun_c4_567_10_alg».proof.Proof.Region
import Idealize.ShloMosaic.Lib.Tactic
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

open Idealize.ShloMosaic.Tactic

variable [FloatOps F]

local notation "𝕄" => MT nD τ sig (HIx 1) (Elt F) ℕ UU ℕ

theorem hz2 : (![0, 0] : Fin 2 → Nat) = fun _ => 0 := funext fun a => by fin_cases a <;> rfl
theorem hz1 : (![0] : Fin 1 → Nat) = fun _ => 0 := funext fun a => by fin_cases a; rfl

/-- One store of a whole buffer at offset zero leaves its payload, whatever the buffer held. -/
theorem read_write_whole [∀ e, Nonempty (Elt F e)] {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

variable [∀ e, Nonempty (Elt F e)]

set_option maxHeartbeats 1000000 in
/-- The body on whole staging memrefs, the inputs' at read contents x0, x1, x2 and the result's at anything: it runs to the
    continuation holding the inputs' as they were and the result's at the payload of them. -/
theorem sound_kernel (d : Dev nD) (E : Set ℕ) (i : grid1.Coords)
    (arg1 : Memref sig .tc .vmem S32x4096 .f32) (harg1 : arg1.IsWhole) (arg2 : Memref sig .tc .vmem S32x1024 .f32) (harg2 : arg2.IsWhole)
    (arg3 : Memref sig .tc .vmem S4096 .f32) (harg3 : arg3.IsWhole) (arg4 : Memref sig .tc .vmem S4096x1024 .f32) (harg4 : arg4.IsWhole)
    (x0 : Vec F S32x4096 .f32) (x1 : Vec F S32x1024 .f32) (x2 : Vec F S4096 .f32) (Kk : PUnit → sProp 𝕄) :
    iprop(owns (d : Thread nD τ) arg1 fullShare x0 ∗ owns (d : Thread nD τ) arg2 fullShare x1 ∗ owns (d : Thread nD τ) arg3 fullShare x2
        ∗ (∃ y, owns (d : Thread nD τ) arg4 fullShare y)
        ∗ (iprop(owns (d : Thread nD τ) arg1 fullShare x0 ∗ owns (d : Thread nD τ) arg2 fullShare x1 ∗ owns (d : Thread nD τ) arg3 fullShare x2
            ∗ owns (d : Thread nD τ) arg4 fullShare (k1_pay1 x0 x1 x2)) -∗ Kk ⟨⟩))
      ⊢ wp frame (wpE (defs₀ (F := F)) Variants.none d none) E (cc1__mm_body i arg1 harg1 arg2 harg2 arg3 harg3 arg4 harg4) Kk := by
  simp only [cc1__mm_body_eq_skeleton]; unfold cc1__mm_body_skel
  unfold owns
  iintro ⟨⟨%f0, %hf0, H0⟩, ⟨%f1, %hf1, H1⟩, ⟨%f2, %hf2, H2⟩, ⟨%y3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_write_whole _ _ hz2]
  simp only [View.readAt_eq_ld, View.ld_unit_zero (S := S32x4096) hz2, View.ld_unit_zero (S := S32x1024) hz2,
    View.ld_unit_zero (S := S4096) hz1]

/-! ## What the body finds in the staging buffers -/

section Before

variable (wt : FVec F S32x100000 .f32) (ev : FVec F S32x1024 .f32) (bv : FVec F S100000 .f32) (ov : FVec F S100000x1024 .f32) (d : Dev nD)

/-- The weight block's part inside the array, and the bias block's. -/
abbrev gW (t : Fin cfg1.N) : (win1_0.xblock (grid1.coords t)).Idx → Elt F .f32 := (win1_0.blk t).view.read (Elt F) wt
abbrev gB (t : Fin cfg1.N) : (win1_2.xblock (grid1.coords t)).Idx → Elt F .f32 := (win1_2.blk t).view.read (Elt F) bv

theorem before_w0 (t : Fin cfg1.N) (x) :
    (dats wt ev bv ov 0 d).before (0 : Fin 4) t x = win1_0.fill (grid1.coords t) x (gW wt t) := by
  unfold Dat.before; rw [if_pos (fetch1_0 t)]; rfl
theorem before_w2 (t : Fin cfg1.N) (x) :
    (dats wt ev bv ov 0 d).before (2 : Fin 4) t x = win1_2.fill (grid1.coords t) x (gB bv t) := by
  unfold Dat.before; rw [if_pos (fetch1_2 t)]; rfl
/-- The embeddings' buffer holds the whole array at every point: fetched at the first, left in place after. -/
theorem before_w1 (t : Fin cfg1.N) (x) :
    (dats wt ev bv ov 0 d).before (1 : Fin 4) t x = eBlk ev t :=
  ((dats wt ev bv ov 0 d).before_in_eq_fetched (1 : Fin 4) rfl (fun _ => rfl) (fun _ _ _ => rfl) (fun t => by dsimp only [dats]; rfl) t x).trans
    (by unfold Dat.fetched Dat.blockOf; dsimp only [dats]; rfl)
/-- The result's buffer holds anything: every point writes it back. -/
theorem before_w3 (t : Fin cfg1.N) (x) : (dats wt ev bv ov 0 d).before (3 : Fin 4) t x = x :=
  (dats wt ev bv ov 0 d).before_out_reset (3 : Fin 4) rfl t
    (by by_cases h : t.val = 0
        · exact .inl h
        · exact .inr ⟨h, flush1_3 _⟩) x

end Before

/-! ## The body obligation -/

/-- The library's body obligation at every point, the result's window forgotten when `fg`. -/
theorem body_obligation (fg : Bool) (hrows : fg = false → RowsOK F)
    (wt : FVec F S32x100000 .f32) (ev : FVec F S32x1024 .f32) (bv : FVec F S100000 .f32) (ov : FVec F S100000x1024 .f32) (d : Dev nD) :
    BodyObligationLoose (dats wt ev bv ov 0 d) (defs₀ (F := F)) 𝒱₀ (none : HIx 1) Set.univ (fgt3 fg) := fun t => by
  rw [bigSep_W1, bigSep_W1]
  cases fg
  · -- the result's window named: on the moved rows the payload is the one of the blocks
    simp only [fgt3, before_w0 wt ev bv ov d t, before_w1 wt ev bv ov d t, before_w2 wt ev bv ov d t, before_w3 wt ev bv ov d t]
    rw [show (dats wt ev bv ov 0 d).Φ t.succ = (dats wt ev bv ov 0 d).Φ t.castSucc from rfl,
      show (dats wt ev bv ov 0 d).owesAt none t.succ = (dats wt ev bv ov 0 d).owesAt none t.castSucc from rfl]
    iintro ⟨HΦ, Ho, ⟨%d0, H0⟩, ⟨%d1, H1⟩, ⟨%d2, H2⟩, ⟨%d3, H3⟩⟩
    iapply (sound_kernel (F := F) d Set.univ (grid1.coords t)
      (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_0.fill (grid1.coords t) d0 (gW wt t)) (eBlk ev t) (win1_2.fill (grid1.coords t) d2 (gB bv t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have h0 : win1_0.cut (grid1.coords t) (wBlk wt t) = gW wt t := win1_0.cut_fill _ _ _
    have h2 : win1_2.cut (grid1.coords t) (bBlk bv t) = gB bv t := win1_2.cut_fill _ _ _
    have h3 : win1_3.cut (grid1.coords t) (k1_pay1 (win1_0.fill (grid1.coords t) d0 (gW wt t)) (eBlk ev t) (win1_2.fill (grid1.coords t) d2 (gB bv t)))
        = win1_3.cut (grid1.coords t) (oBlk wt ev bv t) :=
      hrows rfl t _ _ _ _ _ ((win1_0.cut_fill _ _ _).trans h0.symm) ((win1_2.cut_fill _ _ _).trans h2.symm)
    isplitl [H0]
    · iexists d0
      change _ ⊢ owns (d : Thread nD τ) _ fullShare (win1_0.fill (grid1.coords t) d0 (win1_0.cut (grid1.coords t) (wBlk wt t)))
      rw [h0]; try iexact H0
    isplitl [H1]
    · iexact H1
    isplitl [H2]
    · iexists d2
      change _ ⊢ owns (d : Thread nD τ) _ fullShare (win1_2.fill (grid1.coords t) d2 (win1_2.cut (grid1.coords t) (bBlk bv t)))
      rw [h2]; try iexact H2
    · iexists _
      change _ ⊢ owns (d : Thread nD τ) _ fullShare (win1_3.fill (grid1.coords t) _ (win1_3.cut (grid1.coords t) (oBlk wt ev bv t)))
      rw [win1_3.fill_congr_cut (grid1.coords t) h3]; try iexact H3
  · -- the result's window forgotten
    simp only [fgt3, before_w0 wt ev bv ov d t, before_w1 wt ev bv ov d t, before_w2 wt ev bv ov d t]
    rw [show (dats wt ev bv ov 0 d).Φ t.succ = (dats wt ev bv ov 0 d).Φ t.castSucc from rfl,
      show (dats wt ev bv ov 0 d).owesAt none t.succ = (dats wt ev bv ov 0 d).owesAt none t.castSucc from rfl]
    iintro ⟨HΦ, Ho, ⟨%d0, H0⟩, ⟨%d1, H1⟩, ⟨%d2, H2⟩, ⟨%d3, H3⟩⟩
    iapply (sound_kernel (F := F) d Set.univ (grid1.coords t)
      (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_0.fill (grid1.coords t) d0 (gW wt t)) (eBlk ev t) (win1_2.fill (grid1.coords t) d2 (gB bv t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have h0 : win1_0.cut (grid1.coords t) (wBlk wt t) = gW wt t := win1_0.cut_fill _ _ _
    have h2 : win1_2.cut (grid1.coords t) (bBlk bv t) = gB bv t := win1_2.cut_fill _ _ _
    isplitl [H0]
    · iexists d0
      change _ ⊢ owns (d : Thread nD τ) _ fullShare (win1_0.fill (grid1.coords t) d0 (win1_0.cut (grid1.coords t) (wBlk wt t)))
      rw [h0]; try iexact H0
    isplitl [H1]
    · iexact H1
    isplitl [H2]
    · iexists d2
      change _ ⊢ owns (d : Thread nD τ) _ fullShare (win1_2.fill (grid1.coords t) d2 (win1_2.cut (grid1.coords t) (bBlk bv t)))
      rw [h2]; try iexact H2
    · iexists _; iexact H3

end Cert.Proof.KI

end
-- ==== Proof.RegionValue.lean ====
/-
  What the matrix product's call leaves in its result array, as one function.

  Point t writes back rows [4096 t, 4096 t + 4096) of the result, cut at row 100000 (the last point: 1696 rows): the body's
  payload on those rows. Row v lies in the block of point v / 4096 at row v % 4096, and the 25 blocks cover the array: so the
  array ends holding `mmOut`, entry by entry the payload of the point whose block holds the entry's row. Nothing here reads
  what the payload is: the statement is about indices, and holds at every float instance.
-/
import proofs.«208886_g87462714016427_cont_sun_c4_567_10_alg».proof.Proof.Region
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

variable [FloatOps F]

section

variable (wt : FVec F S32x100000 .f32) (ev : FVec F S32x1024 .f32) (bv : FVec F S100000 .f32) (ov : FVec F S100000x1024 .f32) (d : Dev nD)

/-- The result window's block index at a point is (the point, 0); its block's rows end at the array's last row. -/
theorem idx3 : ∀ t : Fin cfg1.N, win1_3.index t (0 : Fin 2) = t.val ∧ win1_3.index t (1 : Fin 2) = 0
    ∧ t.val * 4096 + win1_3.xsize (grid1.coords t) (0 : Fin 2) = min (t.val * 4096 + 4096) 100000
    ∧ win1_3.xsize (grid1.coords t) (1 : Fin 2) = 1024 :=
  (by decide +kernel : ∀ t : Fin grid1.N, win1_3.index t (0 : Fin 2) = t.val ∧ win1_3.index t (1 : Fin 2) = 0
    ∧ t.val * 4096 + win1_3.xsize (grid1.coords t) (0 : Fin 2) = min (t.val * 4096 + 4096) 100000
    ∧ win1_3.xsize (grid1.coords t) (1 : Fin 2) = 1024)

/-- What point t writes back is block t of `mmOut`. -/
theorem flushed3_eq (t : Fin cfg1.N) :
    (dats wt ev bv ov 0 d).flushed (3 : Fin 4) t = ((cfg1.win 3).blk t).view.read (Elt F) (mmOut wt ev bv) := by
  show (cfg1.win 3).cut (grid1.coords t) ((dats wt ev bv ov 0 d).after 3 t) = _
  dsimp only [dats]
  obtain ⟨e0, e1, e2, e3⟩ := idx3 t
  funext y
  show oBlk wt ev bv t (win1_3.xinj (grid1.coords t) y) = mmOut wt ev bv (((cfg1.win 3).blk t).view.emb y)
  have hy0 : (y 0).val < win1_3.xsize (grid1.coords t) (0 : Fin 2) := (y 0).isLt
  have hy1 : (y 1).val < win1_3.xsize (grid1.coords t) (1 : Fin 2) := (y 1).isLt
  have c0 : ((((cfg1.win 3).blk t).view.emb y) 0).val = win1_3.index t (0 : Fin 2) * 4096 + 1 * (y 0).val := rfl
  have c1 : ((((cfg1.win 3).blk t).view.emb y) 1).val = win1_3.index t (1 : Fin 2) * 1024 + 1 * (y 1).val := rfl
  have hp : ptOf ((((cfg1.win 3).blk t).view.emb y) 0) = t := Fin.ext (by
    show ((((cfg1.win 3).blk t).view.emb y) 0).val / 4096 = t.val
    rw [c0, e0]; omega)
  unfold mmOut
  rw [hp]
  refine congrArg (oBlk wt ev bv t) (funext fun a => Fin.ext ?_)
  match a with
  | ⟨0, _⟩ =>
    show (y 0).val = ((((cfg1.win 3).blk t).view.emb y) 0).val % 4096
    rw [c0, e0]; omega
  | ⟨1, _⟩ =>
    show (y 1).val = ((((cfg1.win 3).blk t).view.emb y) 1).val
    rw [c1, e1]; omega

/-- An index of the result array is in point t's block iff each coordinate is in the block's range on its axis. -/
theorem mem_blk3 (t : Fin cfg1.N) (i : S100000x1024.Idx) :
    i ∈ ((cfg1.win 3).blk t).view.set ↔ ∀ a : Fin 2, win1_3.index t a * S4096x1024.size a ≤ (i a).val
      ∧ (i a).val < win1_3.index t a * S4096x1024.size a + win1_3.xsize (grid1.coords t) a := by
  show i ∈ ((View.whole main_v5).slice (win1_3.rect t)).set ↔ _
  rw [View.set_slice_whole, Rect.mem_set_unit]
  exact Iff.rfl

/-- Every index of the result array is in the block of the point its row names. -/
theorem cover3 (i : S100000x1024.Idx) : ∃ t : Fin cfg1.N, (cfg1.win 3).flush t = true ∧ i ∈ ((cfg1.win 3).blk t).view.set := by
  refine ⟨ptOf (i 0), flush1_3 _, ?_⟩
  rw [mem_blk3]
  obtain ⟨e0, e1, e2, e3⟩ := idx3 (ptOf (i 0))
  have hi0 : (i 0).val < 100000 := (i 0).isLt
  have hi1 : (i 1).val < 1024 := (i 1).isLt
  have hp : (ptOf (i 0)).val = (i 0).val / 4096 := rfl
  intro a
  match a with
  | ⟨0, _⟩ =>
    show win1_3.index (ptOf (i 0)) (0 : Fin 2) * 4096 ≤ (i 0).val ∧ (i 0).val < win1_3.index (ptOf (i 0)) (0 : Fin 2) * 4096 + win1_3.xsize (grid1.coords (ptOf (i 0))) (0 : Fin 2)
    omega
  | ⟨1, _⟩ =>
    show win1_3.index (ptOf (i 0)) (1 : Fin 2) * 1024 ≤ (i 1).val ∧ (i 1).val < win1_3.index (ptOf (i 0)) (1 : Fin 2) * 1024 + win1_3.xsize (grid1.coords (ptOf (i 0))) (1 : Fin 2)
    omega

/-- The result array after the call. -/
theorem arrAt_out : (dats wt ev bv ov 0 d).arrAt (3 : Fin 4) cfg1.N = mmOut wt ev bv :=
  (dats wt ev bv ov 0 d).arrAt_eq_of_cover (3 : Fin 4) (mmOut wt ev bv) (fun t _ => flushed3_eq wt ev bv ov d t) cover3

end

end Cert.Proof.KI

end
-- ==== Proof.RegionRun.lean ====
/-
  The matrix product's call, run.

  The call is entered from the TensorCore's state after the one SparseCore call: it owes nothing more, its recorded
  waits sit at level at most 8, and it holds the four arrays of the call whole (the transposed weights, the summed
  embeddings, the bias, the result at anything) beside the region boundary and the launch's ghost state for the
  pipeline's staging cells. The pipeline's rule, with the body obligation, carries it to the same state with the
  result array at what the write-backs leave: when the result's window is named, the one function `mmOut` of the three
  inputs; when it is forgotten, contents nothing names. The staging cells' waits sit at the index of a kernel's own
  waits (level 0), below everything the TensorCore could owe.
-/
import proofs.«208886_g87462714016427_cont_sun_c4_567_10_alg».proof.Proof.Body
import proofs.«208886_g87462714016427_cont_sun_c4_567_10_alg».proof.Proof.RegionValue
import Idealize.ShloMosaic.Lib.Pipeline.Regions

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

open Idealize.ShloMosaic.Tactic

variable [FloatOps F] [∀ e, Nonempty (Elt F e)]

local notation "𝕄" => MT nD τ sig (HIx 1) (Elt F) ℕ UU ℕ

/-! ## The launch's part: the staging cells' ghost state -/

/-- No prefetched table: the one admissible choice. -/
abbrev adm : (p : Fin 1) → (pcfgs (F := F) p).Adm := fun p => (cfgs p).toPCfg_adm

/-- The launch element of the staging cells' rounds: every cell's owner at round 0, a duty token per transfer. -/
def uP : UP := initOf (Pipeline.cells (nD := nD) (τ := τ) cfgs cellOf_inj) (Pipeline.launchToks (nD := nD) (τ := τ) cfgs cellOf_inj)

/-- What the launch leaves device d for the call: its staging cells' launch ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [∀ e, Nonempty (Elt F e)] in
theorem bigSep_fin1 {M : Type} [URA M] (X : Fin 1 → sProp M) : bigSep Finset.univ X = X 0 := by
  rw [show (Finset.univ : Finset (Fin 1)) = {0} from rfl, bigSep_singleton]

theorem fund_G : (BI.own ((EP : Emb UP 𝕄) uP) : sProp 𝕄) ⊢ iprop(|==> bigSep Finset.univ fun d : Dev nD => G (F := F) d) := by
  refine (Pipeline.fund_ghost (Pipeline.pin (pcfgs (F := F)) adm) (EP : Emb UP 𝕄) cellOf_inj).trans ?_
  iintro H
  imod H with ⟨Hg, Ht⟩
  imodintro
  unfold G
  rw [bigSep_sep']
  isplitl [Hg]
  · ihave Hg' := (Entails.of_eq (bigSep_congr fun (d : Dev nD) _ => bigSep_fin1 (fun p => Pipeline.cellsGhost (Pipeline.pin (pcfgs (F := F)) adm) (EP : Emb UP 𝕄) p d))) $$ Hg
    iexact Hg'
  · ihave Ht' := (Entails.of_eq (bigSep_congr fun (d : Dev nD) _ => bigSep_fin1 (fun p => Pipeline.toksInit (Pipeline.pin (pcfgs (F := F)) adm) (EP : Emb UP 𝕄) p d))) $$ Ht
    iexact Ht'

/-! ## The TensorCore's state after the SparseCore call -/

/-- What the TensorCore owes after its one SparseCore call: nothing; its recorded waits at level at most 8. -/
def owesT (d : Dev nD) : sProp 𝕄 :=
  iprop(∃ W, ⌜(K (F := F)).WBelow (SparseCore.T d) W 8⌝ ∗ owes (SparseCore.T d) (0 : CellTallies nD τ sig (HIx 1)) W)

/-- Its handshake state after the call opens into that and closes again around it. -/
theorem tcSt_open (d : Dev nD) :
    (K (F := F)).tcSt EH d 1 ⊢ iprop(owesT (F := F) d ∗ (owesT (F := F) d -∗ (K (F := F)).tcSt EH d 1)) := by
  unfold SparseCore.Cfg.tcSt owesT
  rw [(K (F := F)).Otc_end d le_rfl]
  iintro ⟨HO, Hrest⟩
  isplitl [HO]; · iexact HO
  iintro HO
  isplitl [HO]; · iexact HO
  iexact Hrest

/-! ## The call's arrays -/

section Arrays

variable (fg : Bool) (wt : FVec F S32x100000 .f32) (ev : FVec F S32x1024 .f32) (bv : FVec F S100000 .f32) (ov : FVec F S100000x1024 .f32)

/-- The three inputs whole, at their contents. -/
def arrsIn (d : Dev nD) : sProp 𝕄 :=
  iprop(((SparseCore.T d).loc main_v4 ↦{fullShare} wt) ∗ ((SparseCore.T d).loc main_v3 ↦{fullShare} ev) ∗ ((SparseCore.T d).loc main_arg3 ↦{fullShare} bv))

/-- A window's array as the pipeline holds it is the buffer behind it, whole at the full share. -/
theorem pts_win (d : Dev nD) (w : Fin cfg1.W) (Fw : Buf (Elt F) ((cfg1.win w).arr.view.loc (d : Thread nD τ))) :
    ((cfg1.win w).arr.view.loc (d : Thread nD τ) ↦[(cfg1.win w).arr.view.set]{(dats wt ev bv ov 0 d).share w} Fw : sProp 𝕄)
      = ((cfg1.win w).arr.view.loc (d : Thread nD τ) ↦{fullShare} Fw) := by
  rw [(arr_whole1 w).set_eq_univ, (dats wt ev bv ov 0 d).share_full (fun _ => rfl) w]

theorem arrays_eq4 (d : Dev nD) (Fn : (w : Fin cfg1.W) → Buf (Elt F) ((cfg1.win w).arr.view.loc (d : Thread nD τ))) :
    ((dats wt ev bv ov 0 d).arrays Fn : sProp 𝕄)
      = iprop(((SparseCore.T d).loc main_v4 ↦{fullShare} Fn 0) ∗ ((SparseCore.T d).loc main_v3 ↦{fullShare} Fn 1) ∗ ((SparseCore.T d).loc main_arg3 ↦{fullShare} Fn 2)
          ∗ ((SparseCore.T d).loc main_v5 ↦{fullShare} Fn 3)) := by
  unfold Dat.arrays
  rw [bigSep_W1, pts_win, pts_win, pts_win, pts_win]

theorem win_pts0 (fg : Bool) (d : Dev nD) (Fw : Buf (Elt F) ((cfg1.win (0 : Fin 4)).arr.view.loc (d : Thread nD τ))) :
    (((Pipeline.pin (pcfgs (F := F)) adm 0).win (0 : Fin 4)).arr.view.loc (d : Thread nD τ)
        ↦[((Pipeline.pin (pcfgs (F := F)) adm 0).win (0 : Fin 4)).arr.view.set]{(rdats fg wt ev bv ov 0 d).share (0 : Fin 4)} Fw : sProp 𝕄)
      ⊢ ((SparseCore.T d).loc main_v4 ↦{fullShare} Fw) := Entails.of_eq (pts_win wt ev bv ov d (0 : Fin 4) Fw)
theorem win_pts1 (fg : Bool) (d : Dev nD) (Fw : Buf (Elt F) ((cfg1.win (1 : Fin 4)).arr.view.loc (d : Thread nD τ))) :
    (((Pipeline.pin (pcfgs (F := F)) adm 0).win (1 : Fin 4)).arr.view.loc (d : Thread nD τ)
        ↦[((Pipeline.pin (pcfgs (F := F)) adm 0).win (1 : Fin 4)).arr.view.set]{(rdats fg wt ev bv ov 0 d).share (1 : Fin 4)} Fw : sProp 𝕄)
      ⊢ ((SparseCore.T d).loc main_v3 ↦{fullShare} Fw) := Entails.of_eq (pts_win wt ev bv ov d (1 : Fin 4) Fw)
theorem win_pts2 (fg : Bool) (d : Dev nD) (Fw : Buf (Elt F) ((cfg1.win (2 : Fin 4)).arr.view.loc (d : Thread nD τ))) :
    (((Pipeline.pin (pcfgs (F := F)) adm 0).win (2 : Fin 4)).arr.view.loc (d : Thread nD τ)
        ↦[((Pipeline.pin (pcfgs (F := F)) adm 0).win (2 : Fin 4)).arr.view.set]{(rdats fg wt ev bv ov 0 d).share (2 : Fin 4)} Fw : sProp 𝕄)
      ⊢ ((SparseCore.T d).loc main_arg3 ↦{fullShare} Fw) := Entails.of_eq (pts_win wt ev bv ov d (2 : Fin 4) Fw)
theorem win_pts3 (fg : Bool) (d : Dev nD) (Fw : Buf (Elt F) ((cfg1.win (3 : Fin 4)).arr.view.loc (d : Thread nD τ))) :
    (((Pipeline.pin (pcfgs (F := F)) adm 0).win (3 : Fin 4)).arr.view.loc (d : Thread nD τ)
        ↦[((Pipeline.pin (pcfgs (F := F)) adm 0).win (3 : Fin 4)).arr.view.set]{(rdats fg wt ev bv ov 0 d).share (3 : Fin 4)} Fw : sProp 𝕄)
      ⊢ ((SparseCore.T d).loc main_v5 ↦{fullShare} Fw) := Entails.of_eq (pts_win wt ev bv ov d (3 : Fin 4) Fw)

end Arrays

/-! ## The region -/

/-- The call as a region of @main: the layout the generated kit decides, no semaphore of the kernel's own, the body
    obligation, and the thread states around it. -/
def reg (fg : Bool) (hrows : fg = false → RowsOK F)
    (wt : FVec F S32x100000 .f32) (ev : FVec F S32x1024 .f32) (bv : FVec F S100000 .f32) (ov : FVec F S100000x1024 .f32) :
    Pipeline.RDat.RegionSeg (pcfgs (F := F)) adm (rdats fg wt ev bv ov) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation fg hrows wt ev bv ov c).toRForget
  hwaits := Pipeline.RDat.hwaits_of_owed_zero _ _ _ _ _ _ 0 fun _ _ => rfl
  pre c := iprop(owesT c ∗ arrsIn wt ev bv c ∗ ((SparseCore.T c).loc main_v5 ↦{fullShare} ov))
  post c := iprop(owesT c ∗ arrsIn wt ev bv c
    ∗ ∃ o' : FVec F S100000x1024 .f32, ⌜fg = false → o' = (dats wt ev bv ov 0 c).arrAt (3 : Fin 4) cfg1.N⌝ ∗ ((SparseCore.T c).loc main_v5 ↦{fullShare} o'))
  X _ := iprop(emp)
  Y _ := iprop(emp)
  Z _ := iprop(emp)
  hentry c := by
    show iprop(_ ∗ _ ∗ _) ⊢ |={Set.univ}=> iprop((dats wt ev bv ov 0 c).arrays (dats wt ev bv ov 0 c).A ∗ _ ∗ (dats wt ev bv ov 0 c).owesAt none 0 ∗ _ ∗ _)
    rw [arrays_eq4]
    unfold owesT arrsIn Dat.owesAt Pipeline.owesWithin
    iintro ⟨⟨⟨%W, %hW, HO⟩, ⟨H4, H3, Ha3⟩, H5⟩, -, -⟩
    imodintro
    isplitl [H4 H3 Ha3 H5]
    · isplitl [H4]; · iexact H4
      isplitl [H3]; · iexact H3
      isplitl [Ha3]; · iexact Ha3
      iexact H5
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitr <;> iempintro
  hin c := by
    show _ ⊢ (iprop(emp) : sProp 𝕄)
    iintro -; iempintro
  hout c := by
    show (iprop(emp) : sProp 𝕄) ⊢ _
    rw [scopedRest1_eq]
    unfold Pipeline.ownSems0
    rw [Finset.univ_eq_empty, BI.bigSep_empty]
    iintro -
    isplitr; · iempintro
    isplitr <;> iempintro
  hexit c := by
    unfold Pipeline.RDat.arraysAt
    rw [bigSep_W1]
    show iprop((_ ∗ _ ∗ _ ∗ _) ∗ (dats wt ev bv ov 0 c).owesAt none (Fin.last cfg1.N) ∗ _ ∗ _) ⊢ _
    unfold owesT arrsIn Dat.owesAt Pipeline.owesWithin
    iintro ⟨⟨⟨%F0, %h0, H0⟩, ⟨%F1, %h1, H1⟩, ⟨%F2, %h2, H2⟩, ⟨%F3, %h3, H3⟩⟩, ⟨%W, %hW, HO⟩, -, -⟩
    have e0 : F0 = wt := ((dats wt ev bv ov 0 c).toRForget_arrAt_iff (fgt := fgt3 fg) (w := (0 : Fin 4)) rfl _ F0).mp h0 |>.trans
      ((dats wt ev bv ov 0 c).arrAt_in (0 : Fin 4) rfl _)
    have e1 : F1 = ev := ((dats wt ev bv ov 0 c).toRForget_arrAt_iff (fgt := fgt3 fg) (w := (1 : Fin 4)) rfl _ F1).mp h1 |>.trans
      ((dats wt ev bv ov 0 c).arrAt_in (1 : Fin 4) rfl _)
    have e2 : F2 = bv := ((dats wt ev bv ov 0 c).toRForget_arrAt_iff (fgt := fgt3 fg) (w := (2 : Fin 4)) rfl _ F2).mp h2 |>.trans
      ((dats wt ev bv ov 0 c).arrAt_in (2 : Fin 4) rfl _)
    have e3 : fg = false → F3 = (dats wt ev bv ov 0 c).arrAt (3 : Fin 4) cfg1.N := fun hfg =>
      ((dats wt ev bv ov 0 c).toRForget_arrAt_iff (fgt := fgt3 fg) (w := (3 : Fin 4)) hfg _ F3).mp h3
    subst e0 e1 e2
    ihave H0' := (win_pts0 F0 F1 F2 ov fg c F0) $$ H0
    ihave H1' := (win_pts1 F0 F1 F2 ov fg c F1) $$ H1
    ihave H2' := (win_pts2 F0 F1 F2 ov fg c F2) $$ H2
    ihave H3' := (win_pts3 F0 F1 F2 ov fg c F3) $$ H3
    imodintro
    isplitl [HO]
    · iexists W; isplitr
      · ipureintro
        intro p hp
        rcases hW hp with h | ⟨w, s, rfl⟩
        · exact h
        · exact Nat.zero_le _
      · iexact HO
    isplitl [H0' H1' H2']
    · isplitl [H0']; · iexact H0'
      isplitl [H1']; · iexact H1'
      iexact H2'
    iexists F3; isplitr
    · ipureintro; exact e3
    · iexact H3'

theorem reg_pre (fg : Bool) (hrows : fg = false → RowsOK F)
    (wt : FVec F S32x100000 .f32) (ev : FVec F S32x1024 .f32) (bv : FVec F S100000 .f32) (ov : FVec F S100000x1024 .f32) (d : Dev nD) :
    (reg fg hrows wt ev bv ov).pre d = iprop(owesT d ∗ arrsIn wt ev bv d ∗ ((SparseCore.T d).loc main_v5 ↦{fullShare} ov)) := rfl
theorem reg_post (fg : Bool) (hrows : fg = false → RowsOK F)
    (wt : FVec F S32x100000 .f32) (ev : FVec F S32x1024 .f32) (bv : FVec F S100000 .f32) (ov : FVec F S100000x1024 .f32) (d : Dev nD) :
    (reg fg hrows wt ev bv ov).post d = iprop(owesT d ∗ arrsIn wt ev bv d
      ∗ ∃ o' : FVec F S100000x1024 .f32, ⌜fg = false → o' = (dats wt ev bv ov 0 d).arrAt (3 : Fin 4) cfg1.N⌝ ∗ ((SparseCore.T d).loc main_v5 ↦{fullShare} o')) := rfl

/-! ## The call, run -/

/-- The call's line of @main is the pipeline's entry, lifted to the program's full label signature. -/
theorem lift_entry :
    (SparseCore.liftProg (Q := 1) (Prog.lift (.customCall (Pipeline.entry 0) ()) : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl

set_option backward.isDefEq.respectTransparency.types false in
/-- The call under the pipeline's own body table. -/
theorem region' (fg : Bool) (hrows : fg = false → RowsOK F) (d : Dev nD)
    (wt : FVec F S32x100000 .f32) (ev : FVec F S32x1024 .f32) (bv : FVec F S100000 .f32) (ov : FVec F S100000x1024 .f32) (Φ : PUnit → sProp 𝕄) :
    iprop(levAts (K (F := F)).L (K (F := F)).lev ∗ (K (F := F)).tcSt EH d 1 ∗ boundary (SparseCore.T d) ∗ G (F := F) d
        ∗ ((SparseCore.T d).loc main_v4 ↦{fullShare} wt) ∗ ((SparseCore.T d).loc main_v3 ↦{fullShare} ev) ∗ ((SparseCore.T d).loc main_arg3 ↦{fullShare} bv)
        ∗ ((SparseCore.T d).loc main_v5 ↦{fullShare} ov)
        ∗ (∀ o' : FVec F S100000x1024 .f32, iprop(⌜fg = false → o' = mmOut wt ev bv⌝ ∗ (K (F := F)).tcSt EH d 1 ∗ boundary (SparseCore.T d)
              ∗ ((SparseCore.T d).loc main_v4 ↦{fullShare} wt) ∗ ((SparseCore.T d).loc main_v3 ↦{fullShare} ev) ∗ ((SparseCore.T d).loc main_arg3 ↦{fullShare} bv)
              ∗ ((SparseCore.T d).loc main_v5 ↦{fullShare} o')) -∗ Φ ⟨⟩))
      ⊢ wp frame (wpE (D (F := F)) 𝒱 (SparseCore.T d) none) Set.univ
          (Prog.lift (.customCall (Pipeline.entry 0) ()) : Prog (TpuEff nD τ sig (Elt F) (ΛP (F := F)) .tc) PUnit) Φ := by
  unfold G
  iintro ⟨#Hlv, Hst, Hb, ⟨Hg, Ht⟩, H4, H3, Ha3, H5, Hk⟩
  ihave Hop := (tcSt_open (F := F) d) $$ Hst
  icases Hop with ⟨HO, Hclose⟩
  iapply (Pipeline.RDat.RegionSeg.wp (pcfgs (F := F)) adm (rdats fg wt ev bv ov) (none : HIx 1) cellOf_inj (EP : Emb UP 𝕄) defs₀ 𝒱₀
    (K (F := F)).L (K (F := F)).lev (reg fg hrows wt ev bv ov) d none (fun u hu => nomatch hu) (fun _ => .ret ⟨⟩) Φ)
  isplitl [Hk Hclose]
  · rw [reg_post]; unfold arrsIn
    iintro ⟨Hb, HO, ⟨H4, H3, Ha3⟩, %o', %ho', H5⟩
    rw [wp_ret]; imodintro
    ispecialize Hk $$ %o'
    iapply Hk
    isplitr
    · ipureintro; intro hfg; rw [ho' hfg, arrAt_out]
    isplitl [Hclose HO]
    · iapply Hclose; iexact HO
    isplitl [Hb]; · iexact Hb
    isplitl [H4]; · iexact H4
    isplitl [H3]; · iexact H3
    isplitl [Ha3]; · iexact Ha3
    iexact H5
  isplitl [Hb]; · iexact Hb
  isplitl [HO H4 H3 Ha3 H5]
  · rw [reg_pre]; unfold arrsIn
    isplitl [HO]; · iexact HO
    isplitl [H4 H3 Ha3]
    · isplitl [H4]; · iexact H4
      isplitl [H3]; · iexact H3
      iexact Ha3
    iexact H5
  isplitr; · iexact Hlv
  isplitl [Hg]; · iexact Hg
  iexact Ht

/-- The call on device d's TensorCore, from its state after the SparseCore call and the four arrays whole: it runs to the
    same state with the result array at `mmOut` of the three inputs (when the result's window is named; at contents
    nothing names when it is forgotten), the inputs as they were. -/
theorem region (fg : Bool) (hrows : fg = false → RowsOK F) (d : Dev nD)
    (wt : FVec F S32x100000 .f32) (ev : FVec F S32x1024 .f32) (bv : FVec F S100000 .f32) (ov : FVec F S100000x1024 .f32) (Φ : PUnit → sProp 𝕄) :
    iprop(levAts (K (F := F)).L (K (F := F)).lev ∗ (K (F := F)).tcSt EH d 1 ∗ boundary (SparseCore.T d) ∗ G (F := F) d
        ∗ ((SparseCore.T d).loc main_v4 ↦{fullShare} wt) ∗ ((SparseCore.T d).loc main_v3 ↦{fullShare} ev) ∗ ((SparseCore.T d).loc main_arg3 ↦{fullShare} bv)
        ∗ ((SparseCore.T d).loc main_v5 ↦{fullShare} ov)
        ∗ (∀ o' : FVec F S100000x1024 .f32, iprop(⌜fg = false → o' = mmOut wt ev bv⌝ ∗ (K (F := F)).tcSt EH d 1 ∗ boundary (SparseCore.T d)
              ∗ ((SparseCore.T d).loc main_v4 ↦{fullShare} wt) ∗ ((SparseCore.T d).loc main_v3 ↦{fullShare} ev) ∗ ((SparseCore.T d).loc main_arg3 ↦{fullShare} bv)
              ∗ ((SparseCore.T d).loc main_v5 ↦{fullShare} o')) -∗ Φ ⟨⟩))
      ⊢ wp frame (wpE ((K (F := F)).defs (D (F := F))) 𝒱 (SparseCore.T d) none) Set.univ
          (Prog.lift (.customCall (SparseCore.inner (Pipeline.entry 0)) ())) Φ := by
  refine (region' fg hrows d wt ev bv ov Φ).trans ?_
  have h := (K (F := F)).wp_liftProg (D (F := F)) 𝒱 (SparseCore.T d) Set.univ none
    (Prog.lift (.customCall (Pipeline.entry 0) ()) : Prog (TpuEff nD τ sig (Elt F) (ΛP (F := F)) .tc) PUnit) Φ
  rw [lift_entry] at h
  exact h

end Cert.Proof.KI

end
-- ==== Proof.BodyB.lean ====
/-
  The matrix product's body at a point, and the pipeline's body obligation.

  The body loads the three input blocks whole, forms the product of the transposed weight block with the embeddings
  (contracting the 32 rows of both) into a zero accumulator, adds the bias entry of each row across the row, and stores
  the [4096, 1024] result whole. So from any contents of the four staging buffers it leaves the inputs' as they were and
  the result's at the body's payload of the three inputs.

  At a point the weight block's and the bias block's staging buffers hold their blocks where the fetch filled them and
  words nothing names past the arrays' edge (the last point); the embeddings' one buffer holds the whole array, fetched at
  the first point and left in place. The result's buffer holds anything. What the body leaves in the result's buffer is
  named only on the rows the write-back moves, and only when the float instance computes a row of the product from the
  matching columns (`RowsOK`); a run that forgets the result's window needs nothing of it.
-/
import proofs.«208886_g87462714016427_cont_sun_c4_567_10_alg».proof.Proof.RegionB
import Idealize.ShloMosaic.Lib.Tactic
import Idealize.ShloMosaic.Lib.Pipeline.Value

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

open Idealize.ShloMosaic.Tactic

variable [FloatOps F]

local notation "𝕄" => MT nD τ sig (HIx 1) (Elt F) ℕ UU ℕ

theorem hz2 : (![0, 0] : Fin 2 → Nat) = fun _ => 0 := funext fun a => by fin_cases a <;> rfl
theorem hz1 : (![0] : Fin 1 → Nat) = fun _ => 0 := funext fun a => by fin_cases a; rfl

/-- One store of a whole buffer at offset zero leaves its payload, whatever the buffer held. -/
theorem read_write_whole [∀ e, Nonempty (Elt F e)] {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

variable [∀ e, Nonempty (Elt F e)]

set_option maxHeartbeats 1000000 in
/-- The body on whole staging memrefs, the inputs' at read contents x0, x1, x2 and the result's at anything: it runs to the
    continuation holding the inputs' as they were and the result's at the payload of them. -/
theorem sound_kernel (d : Dev nD) (E : Set ℕ) (i : grid1.Coords)
    (arg1 : Memref sig .tc .vmem S32x4096 .f32) (harg1 : arg1.IsWhole) (arg2 : Memref sig .tc .vmem S32x1024 .f32) (harg2 : arg2.IsWhole)
    (arg3 : Memref sig .tc .vmem S4096 .f32) (harg3 : arg3.IsWhole) (arg4 : Memref sig .tc .vmem S4096x1024 .f32) (harg4 : arg4.IsWhole)
    (x0 : Vec F S32x4096 .f32) (x1 : Vec F S32x1024 .f32) (x2 : Vec F S4096 .f32) (Kk : PUnit → sProp 𝕄) :
    iprop(owns (d : Thread nD τ) arg1 fullShare x0 ∗ owns (d : Thread nD τ) arg2 fullShare x1 ∗ owns (d : Thread nD τ) arg3 fullShare x2
        ∗ (∃ y, owns (d : Thread nD τ) arg4 fullShare y)
        ∗ (iprop(owns (d : Thread nD τ) arg1 fullShare x0 ∗ owns (d : Thread nD τ) arg2 fullShare x1 ∗ owns (d : Thread nD τ) arg3 fullShare x2
            ∗ owns (d : Thread nD τ) arg4 fullShare (k1_pay1 x0 x1 x2)) -∗ Kk ⟨⟩))
      ⊢ wp frame (wpE (defs₀ (F := F)) Variants.none d none) E (cc1__mm_body i arg1 harg1 arg2 harg2 arg3 harg3 arg4 harg4) Kk := by
  simp only [cc1__mm_body_eq_skeleton]; unfold cc1__mm_body_skel
  unfold owns
  iintro ⟨⟨%f0, %hf0, H0⟩, ⟨%f1, %hf1, H1⟩, ⟨%f2, %hf2, H2⟩, ⟨%y3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_write_whole _ _ hz2]
  simp only [View.readAt_eq_ld, View.ld_unit_zero (S := S32x4096) hz2, View.ld_unit_zero (S := S32x1024) hz2,
    View.ld_unit_zero (S := S4096) hz1]

/-! ## What the body finds in the staging buffers -/

section Before

variable (wt : FVec F S32x100000 .f32) (ev : FVec F S32x1024 .f32) (bv : FVec F S100000 .f32) (ov : FVec F S100000x1024 .f32) (d : Dev nD)

/-- The weight block's part inside the array, and the bias block's. -/
abbrev gW (t : Fin cfg1.N) : (win1_0.xblock (grid1.coords t)).Idx → Elt F .f32 := (win1_0.blk t).view.read (Elt F) wt
abbrev gB (t : Fin cfg1.N) : (win1_2.xblock (grid1.coords t)).Idx → Elt F .f32 := (win1_2.blk t).view.read (Elt F) bv

theorem before_w0 (t : Fin cfg1.N) (x) :
    (dats wt ev bv ov 0 d).before (0 : Fin 4) t x = win1_0.fill (grid1.coords t) x (gW wt t) := by
  unfold Dat.before; rw [if_pos (fetch1_0 t)]; rfl
theorem before_w2 (t : Fin cfg1.N) (x) :
    (dats wt ev bv ov 0 d).before (2 : Fin 4) t x = win1_2.fill (grid1.coords t) x (gB bv t) := by
  unfold Dat.before; rw [if_pos (fetch1_2 t)]; rfl
/-- The embeddings' buffer holds the whole array at every point: fetched at the first, left in place after. -/
theorem before_w1 (t : Fin cfg1.N) (x) :
    (dats wt ev bv ov 0 d).before (1 : Fin 4) t x = eBlk ev t :=
  ((dats wt ev bv ov 0 d).before_in_eq_fetched (1 : Fin 4) rfl (fun _ => rfl) (fun _ _ _ => rfl) (fun t => by dsimp only [dats]; rfl) t x).trans
    (by unfold Dat.fetched Dat.blockOf; dsimp only [dats]; rfl)
/-- The result's buffer holds anything: every point writes it back. -/
theorem before_w3 (t : Fin cfg1.N) (x) : (dats wt ev bv ov 0 d).before (3 : Fin 4) t x = x :=
  (dats wt ev bv ov 0 d).before_out_reset (3 : Fin 4) rfl t
    (by by_cases h : t.val = 0
        · exact .inl h
        · exact .inr ⟨h, flush1_3 _⟩) x

end Before

/-! ## The body obligation -/

/-- The library's body obligation at every point, the result's window forgotten when `fg`. -/
theorem body_obligation (fg : Bool) (hrows : fg = false → RowsOK F)
    (wt : FVec F S32x100000 .f32) (ev : FVec F S32x1024 .f32) (bv : FVec F S100000 .f32) (ov : FVec F S100000x1024 .f32) (d : Dev nD) :
    BodyObligationLoose (dats wt ev bv ov 0 d) (defs₀ (F := F)) 𝒱₀ (none : HIx 1) Set.univ (fgt3 fg) := fun t => by
  rw [bigSep_W1, bigSep_W1]
  cases fg
  · -- the result's window named: on the moved rows the payload is the one of the blocks
    simp only [fgt3, before_w0 wt ev bv ov d t, before_w1 wt ev bv ov d t, before_w2 wt ev bv ov d t, before_w3 wt ev bv ov d t]
    rw [show (dats wt ev bv ov 0 d).Φ t.succ = (dats wt ev bv ov 0 d).Φ t.castSucc from rfl,
      show (dats wt ev bv ov 0 d).owesAt none t.succ = (dats wt ev bv ov 0 d).owesAt none t.castSucc from rfl]
    iintro ⟨HΦ, Ho, ⟨%d0, H0⟩, ⟨%d1, H1⟩, ⟨%d2, H2⟩, ⟨%d3, H3⟩⟩
    iapply (sound_kernel (F := F) d Set.univ (grid1.coords t)
      (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_0.fill (grid1.coords t) d0 (gW wt t)) (eBlk ev t) (win1_2.fill (grid1.coords t) d2 (gB bv t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have h0 : win1_0.cut (grid1.coords t) (wBlk wt t) = gW wt t := win1_0.cut_fill _ _ _
    have h2 : win1_2.cut (grid1.coords t) (bBlk bv t) = gB bv t := win1_2.cut_fill _ _ _
    have h3 : win1_3.cut (grid1.coords t) (k1_pay1 (win1_0.fill (grid1.coords t) d0 (gW wt t)) (eBlk ev t) (win1_2.fill (grid1.coords t) d2 (gB bv t)))
        = win1_3.cut (grid1.coords t) (oBlk wt ev bv t) :=
      hrows rfl t _ _ _ _ _ ((win1_0.cut_fill _ _ _).trans h0.symm) ((win1_2.cut_fill _ _ _).trans h2.symm)
    isplitl [H0]
    · iexists d0
      change _ ⊢ owns (d : Thread nD τ) _ fullShare (win1_0.fill (grid1.coords t) d0 (win1_0.cut (grid1.coords t) (wBlk wt t)))
      rw [h0]; try iexact H0
    isplitl [H1]
    · iexact H1
    isplitl [H2]
    · iexists d2
      change _ ⊢ owns (d : Thread nD τ) _ fullShare (win1_2.fill (grid1.coords t) d2 (win1_2.cut (grid1.coords t) (bBlk bv t)))
      rw [h2]; try iexact H2
    · iexists _
      change _ ⊢ owns (d : Thread nD τ) _ fullShare (win1_3.fill (grid1.coords t) _ (win1_3.cut (grid1.coords t) (oBlk wt ev bv t)))
      rw [win1_3.fill_congr_cut (grid1.coords t) h3]; try iexact H3
  · -- the result's window forgotten
    simp only [fgt3, before_w0 wt ev bv ov d t, before_w1 wt ev bv ov d t, before_w2 wt ev bv ov d t]
    rw [show (dats wt ev bv ov 0 d).Φ t.succ = (dats wt ev bv ov 0 d).Φ t.castSucc from rfl,
      show (dats wt ev bv ov 0 d).owesAt none t.succ = (dats wt ev bv ov 0 d).owesAt none t.castSucc from rfl]
    iintro ⟨HΦ, Ho, ⟨%d0, H0⟩, ⟨%d1, H1⟩, ⟨%d2, H2⟩, ⟨%d3, H3⟩⟩
    iapply (sound_kernel (F := F) d Set.univ (grid1.coords t)
      (win1_0.stage (cfg1.slots t 0)) (hstage1_0 ((cfg1.slots t 0).cast nbuf1_0)) (win1_1.stage (cfg1.slots t 1)) (hstage1_1 ((cfg1.slots t 1).cast nbuf1_1))
      (win1_2.stage (cfg1.slots t 2)) (hstage1_2 ((cfg1.slots t 2).cast nbuf1_2)) (win1_3.stage (cfg1.slots t 3)) (hstage1_3 ((cfg1.slots t 3).cast nbuf1_3))
      (win1_0.fill (grid1.coords t) d0 (gW wt t)) (eBlk ev t) (win1_2.fill (grid1.coords t) d2 (gB bv t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have h0 : win1_0.cut (grid1.coords t) (wBlk wt t) = gW wt t := win1_0.cut_fill _ _ _
    have h2 : win1_2.cut (grid1.coords t) (bBlk bv t) = gB bv t := win1_2.cut_fill _ _ _
    isplitl [H0]
    · iexists d0
      change _ ⊢ owns (d : Thread nD τ) _ fullShare (win1_0.fill (grid1.coords t) d0 (win1_0.cut (grid1.coords t) (wBlk wt t)))
      rw [h0]; try iexact H0
    isplitl [H1]
    · iexact H1
    isplitl [H2]
    · iexists d2
      change _ ⊢ owns (d : Thread nD τ) _ fullShare (win1_2.fill (grid1.coords t) d2 (win1_2.cut (grid1.coords t) (bBlk bv t)))
      rw [h2]; try iexact H2
    · iexists _; iexact H3

end Cert.Proof.KB

end
-- ==== Proof.RegionValueB.lean ====
/-
  What the matrix product's call leaves in its result array, as one function.

  Point t writes back rows [4096 t, 4096 t + 4096) of the result, cut at row 100000 (the last point: 1696 rows): the body's
  payload on those rows. Row v lies in the block of point v / 4096 at row v % 4096, and the 25 blocks cover the array: so the
  array ends holding `mmOut`, entry by entry the payload of the point whose block holds the entry's row. Nothing here reads
  what the payload is: the statement is about indices, and holds at every float instance.
-/
import proofs.«208886_g87462714016427_cont_sun_c4_567_10_alg».proof.Proof.RegionB
import Idealize.ShloMosaic.Lib.Pipeline.Value

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

variable [FloatOps F]

section

variable (wt : FVec F S32x100000 .f32) (ev : FVec F S32x1024 .f32) (bv : FVec F S100000 .f32) (ov : FVec F S100000x1024 .f32) (d : Dev nD)

/-- The result window's block index at a point is (the point, 0); its block's rows end at the array's last row. -/
theorem idx3 : ∀ t : Fin cfg1.N, win1_3.index t (0 : Fin 2) = t.val ∧ win1_3.index t (1 : Fin 2) = 0
    ∧ t.val * 4096 + win1_3.xsize (grid1.coords t) (0 : Fin 2) = min (t.val * 4096 + 4096) 100000
    ∧ win1_3.xsize (grid1.coords t) (1 : Fin 2) = 1024 :=
  (by decide +kernel : ∀ t : Fin grid1.N, win1_3.index t (0 : Fin 2) = t.val ∧ win1_3.index t (1 : Fin 2) = 0
    ∧ t.val * 4096 + win1_3.xsize (grid1.coords t) (0 : Fin 2) = min (t.val * 4096 + 4096) 100000
    ∧ win1_3.xsize (grid1.coords t) (1 : Fin 2) = 1024)

/-- What point t writes back is block t of `mmOut`. -/
theorem flushed3_eq (t : Fin cfg1.N) :
    (dats wt ev bv ov 0 d).flushed (3 : Fin 4) t = ((cfg1.win 3).blk t).view.read (Elt F) (mmOut wt ev bv) := by
  show (cfg1.win 3).cut (grid1.coords t) ((dats wt ev bv ov 0 d).after 3 t) = _
  dsimp only [dats]
  obtain ⟨e0, e1, e2, e3⟩ := idx3 t
  funext y
  show oBlk wt ev bv t (win1_3.xinj (grid1.coords t) y) = mmOut wt ev bv (((cfg1.win 3).blk t).view.emb y)
  have hy0 : (y 0).val < win1_3.xsize (grid1.coords t) (0 : Fin 2) := (y 0).isLt
  have hy1 : (y 1).val < win1_3.xsize (grid1.coords t) (1 : Fin 2) := (y 1).isLt
  have c0 : ((((cfg1.win 3).blk t).view.emb y) 0).val = win1_3.index t (0 : Fin 2) * 4096 + 1 * (y 0).val := rfl
  have c1 : ((((cfg1.win 3).blk t).view.emb y) 1).val = win1_3.index t (1 : Fin 2) * 1024 + 1 * (y 1).val := rfl
  have hp : ptOf ((((cfg1.win 3).blk t).view.emb y) 0) = t := Fin.ext (by
    show ((((cfg1.win 3).blk t).view.emb y) 0).val / 4096 = t.val
    rw [c0, e0]; omega)
  unfold mmOut
  rw [hp]
  refine congrArg (oBlk wt ev bv t) (funext fun a => Fin.ext ?_)
  match a with
  | ⟨0, _⟩ =>
    show (y 0).val = ((((cfg1.win 3).blk t).view.emb y) 0).val % 4096
    rw [c0, e0]; omega
  | ⟨1, _⟩ =>
    show (y 1).val = ((((cfg1.win 3).blk t).view.emb y) 1).val
    rw [c1, e1]; omega

/-- An index of the result array is in point t's block iff each coordinate is in the block's range on its axis. -/
theorem mem_blk3 (t : Fin cfg1.N) (i : S100000x1024.Idx) :
    i ∈ ((cfg1.win 3).blk t).view.set ↔ ∀ a : Fin 2, win1_3.index t a * S4096x1024.size a ≤ (i a).val
      ∧ (i a).val < win1_3.index t a * S4096x1024.size a + win1_3.xsize (grid1.coords t) a := by
  show i ∈ ((View.whole main_v5).slice (win1_3.rect t)).set ↔ _
  rw [View.set_slice_whole, Rect.mem_set_unit]
  exact Iff.rfl

/-- Every index of the result array is in the block of the point its row names. -/
theorem cover3 (i : S100000x1024.Idx) : ∃ t : Fin cfg1.N, (cfg1.win 3).flush t = true ∧ i ∈ ((cfg1.win 3).blk t).view.set := by
  refine ⟨ptOf (i 0), flush1_3 _, ?_⟩
  rw [mem_blk3]
  obtain ⟨e0, e1, e2, e3⟩ := idx3 (ptOf (i 0))
  have hi0 : (i 0).val < 100000 := (i 0).isLt
  have hi1 : (i 1).val < 1024 := (i 1).isLt
  have hp : (ptOf (i 0)).val = (i 0).val / 4096 := rfl
  intro a
  match a with
  | ⟨0, _⟩ =>
    show win1_3.index (ptOf (i 0)) (0 : Fin 2) * 4096 ≤ (i 0).val ∧ (i 0).val < win1_3.index (ptOf (i 0)) (0 : Fin 2) * 4096 + win1_3.xsize (grid1.coords (ptOf (i 0))) (0 : Fin 2)
    omega
  | ⟨1, _⟩ =>
    show win1_3.index (ptOf (i 0)) (1 : Fin 2) * 1024 ≤ (i 1).val ∧ (i 1).val < win1_3.index (ptOf (i 0)) (1 : Fin 2) * 1024 + win1_3.xsize (grid1.coords (ptOf (i 0))) (1 : Fin 2)
    omega

/-- The result array after the call. -/
theorem arrAt_out : (dats wt ev bv ov 0 d).arrAt (3 : Fin 4) cfg1.N = mmOut wt ev bv :=
  (dats wt ev bv ov 0 d).arrAt_eq_of_cover (3 : Fin 4) (mmOut wt ev bv) (fun t _ => flushed3_eq wt ev bv ov d t) cover3

end

end Cert.Proof.KB

end
-- ==== Proof.RegionRunB.lean ====
/-
  The matrix product's call, run.

  The call is entered from the TensorCore's state after the one SparseCore call: it owes nothing more, its recorded
  waits sit at level at most 8, and it holds the four arrays of the call whole (the transposed weights, the summed
  embeddings, the bias, the result at anything) beside the region boundary and the launch's ghost state for the
  pipeline's staging cells. The pipeline's rule, with the body obligation, carries it to the same state with the
  result array at what the write-backs leave: when the result's window is named, the one function `mmOut` of the three
  inputs; when it is forgotten, contents nothing names. The staging cells' waits sit at the index of a kernel's own
  waits (level 0), below everything the TensorCore could owe.
-/
import proofs.«208886_g87462714016427_cont_sun_c4_567_10_alg».proof.Proof.BodyB
import proofs.«208886_g87462714016427_cont_sun_c4_567_10_alg».proof.Proof.RegionValueB
import Idealize.ShloMosaic.Lib.Pipeline.Regions

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

open Idealize.ShloMosaic.Tactic

variable [FloatOps F] [∀ e, Nonempty (Elt F e)]

local notation "𝕄" => MT nD τ sig (HIx 1) (Elt F) ℕ UU ℕ

/-! ## The launch's part: the staging cells' ghost state -/

/-- No prefetched table: the one admissible choice. -/
abbrev adm : (p : Fin 1) → (pcfgs (F := F) p).Adm := fun p => (cfgs p).toPCfg_adm

/-- The launch element of the staging cells' rounds: every cell's owner at round 0, a duty token per transfer. -/
def uP : UP := initOf (Pipeline.cells (nD := nD) (τ := τ) cfgs cellOf_inj) (Pipeline.launchToks (nD := nD) (τ := τ) cfgs cellOf_inj)

/-- What the launch leaves device d for the call: its staging cells' launch ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [∀ e, Nonempty (Elt F e)] in
theorem bigSep_fin1 {M : Type} [URA M] (X : Fin 1 → sProp M) : bigSep Finset.univ X = X 0 := by
  rw [show (Finset.univ : Finset (Fin 1)) = {0} from rfl, bigSep_singleton]

theorem fund_G : (BI.own ((EP : Emb UP 𝕄) uP) : sProp 𝕄) ⊢ iprop(|==> bigSep Finset.univ fun d : Dev nD => G (F := F) d) := by
  refine (Pipeline.fund_ghost (Pipeline.pin (pcfgs (F := F)) adm) (EP : Emb UP 𝕄) cellOf_inj).trans ?_
  iintro H
  imod H with ⟨Hg, Ht⟩
  imodintro
  unfold G
  rw [bigSep_sep']
  isplitl [Hg]
  · ihave Hg' := (Entails.of_eq (bigSep_congr fun (d : Dev nD) _ => bigSep_fin1 (fun p => Pipeline.cellsGhost (Pipeline.pin (pcfgs (F := F)) adm) (EP : Emb UP 𝕄) p d))) $$ Hg
    iexact Hg'
  · ihave Ht' := (Entails.of_eq (bigSep_congr fun (d : Dev nD) _ => bigSep_fin1 (fun p => Pipeline.toksInit (Pipeline.pin (pcfgs (F := F)) adm) (EP : Emb UP 𝕄) p d))) $$ Ht
    iexact Ht'

/-! ## The TensorCore's state after the SparseCore call -/

/-- What the TensorCore owes after its one SparseCore call: nothing; its recorded waits at level at most 8. -/
def owesT (d : Dev nD) : sProp 𝕄 :=
  iprop(∃ W, ⌜(K (F := F)).WBelow (SparseCore.T d) W 8⌝ ∗ owes (SparseCore.T d) (0 : CellTallies nD τ sig (HIx 1)) W)

/-- Its handshake state after the call opens into that and closes again around it. -/
theorem tcSt_open (d : Dev nD) :
    (K (F := F)).tcSt EH d 1 ⊢ iprop(owesT (F := F) d ∗ (owesT (F := F) d -∗ (K (F := F)).tcSt EH d 1)) := by
  unfold SparseCore.Cfg.tcSt owesT
  rw [(K (F := F)).Otc_end d le_rfl]
  iintro ⟨HO, Hrest⟩
  isplitl [HO]; · iexact HO
  iintro HO
  isplitl [HO]; · iexact HO
  iexact Hrest

/-! ## The call's arrays -/

section Arrays

variable (fg : Bool) (wt : FVec F S32x100000 .f32) (ev : FVec F S32x1024 .f32) (bv : FVec F S100000 .f32) (ov : FVec F S100000x1024 .f32)

/-- The three inputs whole, at their contents. -/
def arrsIn (d : Dev nD) : sProp 𝕄 :=
  iprop(((SparseCore.T d).loc main_v4 ↦{fullShare} wt) ∗ ((SparseCore.T d).loc main_v3 ↦{fullShare} ev) ∗ ((SparseCore.T d).loc main_arg3 ↦{fullShare} bv))

/-- A window's array as the pipeline holds it is the buffer behind it, whole at the full share. -/
theorem pts_win (d : Dev nD) (w : Fin cfg1.W) (Fw : Buf (Elt F) ((cfg1.win w).arr.view.loc (d : Thread nD τ))) :
    ((cfg1.win w).arr.view.loc (d : Thread nD τ) ↦[(cfg1.win w).arr.view.set]{(dats wt ev bv ov 0 d).share w} Fw : sProp 𝕄)
      = ((cfg1.win w).arr.view.loc (d : Thread nD τ) ↦{fullShare} Fw) := by
  rw [(arr_whole1 w).set_eq_univ, (dats wt ev bv ov 0 d).share_full (fun _ => rfl) w]

theorem arrays_eq4 (d : Dev nD) (Fn : (w : Fin cfg1.W) → Buf (Elt F) ((cfg1.win w).arr.view.loc (d : Thread nD τ))) :
    ((dats wt ev bv ov 0 d).arrays Fn : sProp 𝕄)
      = iprop(((SparseCore.T d).loc main_v4 ↦{fullShare} Fn 0) ∗ ((SparseCore.T d).loc main_v3 ↦{fullShare} Fn 1) ∗ ((SparseCore.T d).loc main_arg3 ↦{fullShare} Fn 2)
          ∗ ((SparseCore.T d).loc main_v5 ↦{fullShare} Fn 3)) := by
  unfold Dat.arrays
  rw [bigSep_W1, pts_win, pts_win, pts_win, pts_win]

theorem win_pts0 (fg : Bool) (d : Dev nD) (Fw : Buf (Elt F) ((cfg1.win (0 : Fin 4)).arr.view.loc (d : Thread nD τ))) :
    (((Pipeline.pin (pcfgs (F := F)) adm 0).win (0 : Fin 4)).arr.view.loc (d : Thread nD τ)
        ↦[((Pipeline.pin (pcfgs (F := F)) adm 0).win (0 : Fin 4)).arr.view.set]{(rdats fg wt ev bv ov 0 d).share (0 : Fin 4)} Fw : sProp 𝕄)
      ⊢ ((SparseCore.T d).loc main_v4 ↦{fullShare} Fw) := Entails.of_eq (pts_win wt ev bv ov d (0 : Fin 4) Fw)
theorem win_pts1 (fg : Bool) (d : Dev nD) (Fw : Buf (Elt F) ((cfg1.win (1 : Fin 4)).arr.view.loc (d : Thread nD τ))) :
    (((Pipeline.pin (pcfgs (F := F)) adm 0).win (1 : Fin 4)).arr.view.loc (d : Thread nD τ)
        ↦[((Pipeline.pin (pcfgs (F := F)) adm 0).win (1 : Fin 4)).arr.view.set]{(rdats fg wt ev bv ov 0 d).share (1 : Fin 4)} Fw : sProp 𝕄)
      ⊢ ((SparseCore.T d).loc main_v3 ↦{fullShare} Fw) := Entails.of_eq (pts_win wt ev bv ov d (1 : Fin 4) Fw)
theorem win_pts2 (fg : Bool) (d : Dev nD) (Fw : Buf (Elt F) ((cfg1.win (2 : Fin 4)).arr.view.loc (d : Thread nD τ))) :
    (((Pipeline.pin (pcfgs (F := F)) adm 0).win (2 : Fin 4)).arr.view.loc (d : Thread nD τ)
        ↦[((Pipeline.pin (pcfgs (F := F)) adm 0).win (2 : Fin 4)).arr.view.set]{(rdats fg wt ev bv ov 0 d).share (2 : Fin 4)} Fw : sProp 𝕄)
      ⊢ ((SparseCore.T d).loc main_arg3 ↦{fullShare} Fw) := Entails.of_eq (pts_win wt ev bv ov d (2 : Fin 4) Fw)
theorem win_pts3 (fg : Bool) (d : Dev nD) (Fw : Buf (Elt F) ((cfg1.win (3 : Fin 4)).arr.view.loc (d : Thread nD τ))) :
    (((Pipeline.pin (pcfgs (F := F)) adm 0).win (3 : Fin 4)).arr.view.loc (d : Thread nD τ)
        ↦[((Pipeline.pin (pcfgs (F := F)) adm 0).win (3 : Fin 4)).arr.view.set]{(rdats fg wt ev bv ov 0 d).share (3 : Fin 4)} Fw : sProp 𝕄)
      ⊢ ((SparseCore.T d).loc main_v5 ↦{fullShare} Fw) := Entails.of_eq (pts_win wt ev bv ov d (3 : Fin 4) Fw)

end Arrays

/-! ## The region -/

/-- The call as a region of @main: the layout the generated kit decides, no semaphore of the kernel's own, the body
    obligation, and the thread states around it. -/
def reg (fg : Bool) (hrows : fg = false → RowsOK F)
    (wt : FVec F S32x100000 .f32) (ev : FVec F S32x1024 .f32) (bv : FVec F S100000 .f32) (ov : FVec F S100000x1024 .f32) :
    Pipeline.RDat.RegionSeg (pcfgs (F := F)) adm (rdats fg wt ev bv ov) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation fg hrows wt ev bv ov c).toRForget
  hwaits := Pipeline.RDat.hwaits_of_owed_zero _ _ _ _ _ _ 0 fun _ _ => rfl
  pre c := iprop(owesT c ∗ arrsIn wt ev bv c ∗ ((SparseCore.T c).loc main_v5 ↦{fullShare} ov))
  post c := iprop(owesT c ∗ arrsIn wt ev bv c
    ∗ ∃ o' : FVec F S100000x1024 .f32, ⌜fg = false → o' = (dats wt ev bv ov 0 c).arrAt (3 : Fin 4) cfg1.N⌝ ∗ ((SparseCore.T c).loc main_v5 ↦{fullShare} o'))
  X _ := iprop(emp)
  Y _ := iprop(emp)
  Z _ := iprop(emp)
  hentry c := by
    show iprop(_ ∗ _ ∗ _) ⊢ |={Set.univ}=> iprop((dats wt ev bv ov 0 c).arrays (dats wt ev bv ov 0 c).A ∗ _ ∗ (dats wt ev bv ov 0 c).owesAt none 0 ∗ _ ∗ _)
    rw [arrays_eq4]
    unfold owesT arrsIn Dat.owesAt Pipeline.owesWithin
    iintro ⟨⟨⟨%W, %hW, HO⟩, ⟨H4, H3, Ha3⟩, H5⟩, -, -⟩
    imodintro
    isplitl [H4 H3 Ha3 H5]
    · isplitl [H4]; · iexact H4
      isplitl [H3]; · iexact H3
      isplitl [Ha3]; · iexact Ha3
      iexact H5
    isplitr
    · unfold Pipeline.prefHeld; rw [show (Finset.univ : Finset (Fin 0)) = ∅ from rfl, BI.bigSep_empty]; iempintro
    isplitl [HO]
    · iexists W; isplitr
      · ipureintro; exact fun p hp => Or.inl (hW p hp)
      · iexact HO
    isplitr <;> iempintro
  hin c := by
    show _ ⊢ (iprop(emp) : sProp 𝕄)
    iintro -; iempintro
  hout c := by
    show (iprop(emp) : sProp 𝕄) ⊢ _
    rw [scopedRest1_eq]
    unfold Pipeline.ownSems0
    rw [Finset.univ_eq_empty, BI.bigSep_empty]
    iintro -
    isplitr; · iempintro
    isplitr <;> iempintro
  hexit c := by
    unfold Pipeline.RDat.arraysAt
    rw [bigSep_W1]
    show iprop((_ ∗ _ ∗ _ ∗ _) ∗ (dats wt ev bv ov 0 c).owesAt none (Fin.last cfg1.N) ∗ _ ∗ _) ⊢ _
    unfold owesT arrsIn Dat.owesAt Pipeline.owesWithin
    iintro ⟨⟨⟨%F0, %h0, H0⟩, ⟨%F1, %h1, H1⟩, ⟨%F2, %h2, H2⟩, ⟨%F3, %h3, H3⟩⟩, ⟨%W, %hW, HO⟩, -, -⟩
    have e0 : F0 = wt := ((dats wt ev bv ov 0 c).toRForget_arrAt_iff (fgt := fgt3 fg) (w := (0 : Fin 4)) rfl _ F0).mp h0 |>.trans
      ((dats wt ev bv ov 0 c).arrAt_in (0 : Fin 4) rfl _)
    have e1 : F1 = ev := ((dats wt ev bv ov 0 c).toRForget_arrAt_iff (fgt := fgt3 fg) (w := (1 : Fin 4)) rfl _ F1).mp h1 |>.trans
      ((dats wt ev bv ov 0 c).arrAt_in (1 : Fin 4) rfl _)
    have e2 : F2 = bv := ((dats wt ev bv ov 0 c).toRForget_arrAt_iff (fgt := fgt3 fg) (w := (2 : Fin 4)) rfl _ F2).mp h2 |>.trans
      ((dats wt ev bv ov 0 c).arrAt_in (2 : Fin 4) rfl _)
    have e3 : fg = false → F3 = (dats wt ev bv ov 0 c).arrAt (3 : Fin 4) cfg1.N := fun hfg =>
      ((dats wt ev bv ov 0 c).toRForget_arrAt_iff (fgt := fgt3 fg) (w := (3 : Fin 4)) hfg _ F3).mp h3
    subst e0 e1 e2
    ihave H0' := (win_pts0 F0 F1 F2 ov fg c F0) $$ H0
    ihave H1' := (win_pts1 F0 F1 F2 ov fg c F1) $$ H1
    ihave H2' := (win_pts2 F0 F1 F2 ov fg c F2) $$ H2
    ihave H3' := (win_pts3 F0 F1 F2 ov fg c F3) $$ H3
    imodintro
    isplitl [HO]
    · iexists W; isplitr
      · ipureintro
        intro p hp
        rcases hW hp with h | ⟨w, s, rfl⟩
        · exact h
        · exact Nat.zero_le _
      · iexact HO
    isplitl [H0' H1' H2']
    · isplitl [H0']; · iexact H0'
      isplitl [H1']; · iexact H1'
      iexact H2'
    iexists F3; isplitr
    · ipureintro; exact e3
    · iexact H3'

theorem reg_pre (fg : Bool) (hrows : fg = false → RowsOK F)
    (wt : FVec F S32x100000 .f32) (ev : FVec F S32x1024 .f32) (bv : FVec F S100000 .f32) (ov : FVec F S100000x1024 .f32) (d : Dev nD) :
    (reg fg hrows wt ev bv ov).pre d = iprop(owesT d ∗ arrsIn wt ev bv d ∗ ((SparseCore.T d).loc main_v5 ↦{fullShare} ov)) := rfl
theorem reg_post (fg : Bool) (hrows : fg = false → RowsOK F)
    (wt : FVec F S32x100000 .f32) (ev : FVec F S32x1024 .f32) (bv : FVec F S100000 .f32) (ov : FVec F S100000x1024 .f32) (d : Dev nD) :
    (reg fg hrows wt ev bv ov).post d = iprop(owesT d ∗ arrsIn wt ev bv d
      ∗ ∃ o' : FVec F S100000x1024 .f32, ⌜fg = false → o' = (dats wt ev bv ov 0 d).arrAt (3 : Fin 4) cfg1.N⌝ ∗ ((SparseCore.T d).loc main_v5 ↦{fullShare} o')) := rfl

/-! ## The call, run -/

/-- The call's line of @main is the pipeline's entry, lifted to the program's full label signature. -/
theorem lift_entry :
    (SparseCore.liftProg (Q := 1) (Prog.lift (.customCall (Pipeline.entry 0) ()) : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl

set_option backward.isDefEq.respectTransparency.types false in
/-- The call under the pipeline's own body table. -/
theorem region' (fg : Bool) (hrows : fg = false → RowsOK F) (d : Dev nD)
    (wt : FVec F S32x100000 .f32) (ev : FVec F S32x1024 .f32) (bv : FVec F S100000 .f32) (ov : FVec F S100000x1024 .f32) (Φ : PUnit → sProp 𝕄) :
    iprop(levAts (K (F := F)).L (K (F := F)).lev ∗ (K (F := F)).tcSt EH d 1 ∗ boundary (SparseCore.T d) ∗ G (F := F) d
        ∗ ((SparseCore.T d).loc main_v4 ↦{fullShare} wt) ∗ ((SparseCore.T d).loc main_v3 ↦{fullShare} ev) ∗ ((SparseCore.T d).loc main_arg3 ↦{fullShare} bv)
        ∗ ((SparseCore.T d).loc main_v5 ↦{fullShare} ov)
        ∗ (∀ o' : FVec F S100000x1024 .f32, iprop(⌜fg = false → o' = mmOut wt ev bv⌝ ∗ (K (F := F)).tcSt EH d 1 ∗ boundary (SparseCore.T d)
              ∗ ((SparseCore.T d).loc main_v4 ↦{fullShare} wt) ∗ ((SparseCore.T d).loc main_v3 ↦{fullShare} ev) ∗ ((SparseCore.T d).loc main_arg3 ↦{fullShare} bv)
              ∗ ((SparseCore.T d).loc main_v5 ↦{fullShare} o')) -∗ Φ ⟨⟩))
      ⊢ wp frame (wpE (D (F := F)) 𝒱 (SparseCore.T d) none) Set.univ
          (Prog.lift (.customCall (Pipeline.entry 0) ()) : Prog (TpuEff nD τ sig (Elt F) (ΛP (F := F)) .tc) PUnit) Φ := by
  unfold G
  iintro ⟨#Hlv, Hst, Hb, ⟨Hg, Ht⟩, H4, H3, Ha3, H5, Hk⟩
  ihave Hop := (tcSt_open (F := F) d) $$ Hst
  icases Hop with ⟨HO, Hclose⟩
  iapply (Pipeline.RDat.RegionSeg.wp (pcfgs (F := F)) adm (rdats fg wt ev bv ov) (none : HIx 1) cellOf_inj (EP : Emb UP 𝕄) defs₀ 𝒱₀
    (K (F := F)).L (K (F := F)).lev (reg fg hrows wt ev bv ov) d none (fun u hu => nomatch hu) (fun _ => .ret ⟨⟩) Φ)
  isplitl [Hk Hclose]
  · rw [reg_post]; unfold arrsIn
    iintro ⟨Hb, HO, ⟨H4, H3, Ha3⟩, %o', %ho', H5⟩
    rw [wp_ret]; imodintro
    ispecialize Hk $$ %o'
    iapply Hk
    isplitr
    · ipureintro; intro hfg; rw [ho' hfg, arrAt_out]
    isplitl [Hclose HO]
    · iapply Hclose; iexact HO
    isplitl [Hb]; · iexact Hb
    isplitl [H4]; · iexact H4
    isplitl [H3]; · iexact H3
    isplitl [Ha3]; · iexact Ha3
    iexact H5
  isplitl [Hb]; · iexact Hb
  isplitl [HO H4 H3 Ha3 H5]
  · rw [reg_pre]; unfold arrsIn
    isplitl [HO]; · iexact HO
    isplitl [H4 H3 Ha3]
    · isplitl [H4]; · iexact H4
      isplitl [H3]; · iexact H3
      iexact Ha3
    iexact H5
  isplitr; · iexact Hlv
  isplitl [Hg]; · iexact Hg
  iexact Ht

/-- The call on device d's TensorCore, from its state after the SparseCore call and the four arrays whole: it runs to the
    same state with the result array at `mmOut` of the three inputs (when the result's window is named; at contents
    nothing names when it is forgotten), the inputs as they were. -/
theorem region (fg : Bool) (hrows : fg = false → RowsOK F) (d : Dev nD)
    (wt : FVec F S32x100000 .f32) (ev : FVec F S32x1024 .f32) (bv : FVec F S100000 .f32) (ov : FVec F S100000x1024 .f32) (Φ : PUnit → sProp 𝕄) :
    iprop(levAts (K (F := F)).L (K (F := F)).lev ∗ (K (F := F)).tcSt EH d 1 ∗ boundary (SparseCore.T d) ∗ G (F := F) d
        ∗ ((SparseCore.T d).loc main_v4 ↦{fullShare} wt) ∗ ((SparseCore.T d).loc main_v3 ↦{fullShare} ev) ∗ ((SparseCore.T d).loc main_arg3 ↦{fullShare} bv)
        ∗ ((SparseCore.T d).loc main_v5 ↦{fullShare} ov)
        ∗ (∀ o' : FVec F S100000x1024 .f32, iprop(⌜fg = false → o' = mmOut wt ev bv⌝ ∗ (K (F := F)).tcSt EH d 1 ∗ boundary (SparseCore.T d)
              ∗ ((SparseCore.T d).loc main_v4 ↦{fullShare} wt) ∗ ((SparseCore.T d).loc main_v3 ↦{fullShare} ev) ∗ ((SparseCore.T d).loc main_arg3 ↦{fullShare} bv)
              ∗ ((SparseCore.T d).loc main_v5 ↦{fullShare} o')) -∗ Φ ⟨⟩))
      ⊢ wp frame (wpE ((K (F := F)).defs (D (F := F))) 𝒱 (SparseCore.T d) none) Set.univ
          (Prog.lift (.customCall (SparseCore.inner (Pipeline.entry 0)) ())) Φ := by
  refine (region' fg hrows d wt ev bv ov Φ).trans ?_
  have h := (K (F := F)).wp_liftProg (D (F := F)) 𝒱 (SparseCore.T d) Set.univ none
    (Prog.lift (.customCall (Pipeline.entry 0) ()) : Prog (TpuEff nD τ sig (Elt F) (ΛP (F := F)) .tc) PUnit) Φ
  rw [lift_entry] at h
  exact h

end Cert.Proof.KB

end
-- ==== Proof.RegionIdeal.lean ====
/-
  The matrix product's call at the extended reals.

  There the product into a zero accumulator is, at row r and column n, the sum over the 32 contracted rows k of the
  weight block's (k, r) times the embeddings' (k, n); the bias column adds the bias entry r. So the payload's row r
  depends on the weight block only through its column r and on the bias block only through its entry r (`rowsOK_ideal`),
  and the result array's entry (v, n) is the sum over k of the transposed weights' (k, v) times the embeddings' (k, n),
  plus the bias entry v (`mmOut_apply`).
-/
import proofs.«208886_g87462714016427_cont_sun_c4_567_10_alg».proof.Proof.Region
import Idealize.ShloMosaic.Lib.Pipeline.Value
import Idealize.ShloMosaic.PureOps.Ideal.Laws

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type}

open Idealize.ShloMosaic.DotDims

abbrev DD : DotDims S32x4096 S32x1024 S4096x1024 := dot_S32x4096_S32x1024_S4096x1024_0_0_1_1_n_n

theorem dd_lhs : DD.lhsContracting = [(0 : Fin 2)] := rfl
theorem dd_rhs : DD.rhsContracting = [(0 : Fin 2)] := rfl

/-- The bias column at row r, column n: the bias block's entry r. -/
theorem biasCol_apply (x2 : Vec Ideal S4096 .f32) (r : Fin 4096) (n : Fin 1024) :
    broadcastTo S4096x1024 (shapeCast S4096x1 x2 shapeCasts_S4096_S4096x1) broadcasts_S4096x1_S4096x1024 (ix2 r n) = x2 (ix1 r) := by
  refine (broadcastTo_apply _ _ (ix2 r n) (ix2 r (0 : Fin 1)) ?_).trans (shapeCast_apply x2 _ (ix2 r (0 : Fin 1)) (ix1 r) ?_)
  · intro a
    match a with
    | ⟨0, _⟩ => rfl
    | ⟨1, _⟩ => rfl
  · rw [Shape.rowMajor_val_one, Shape.rowMajor_val_two]
    show r.val = r.val * 1 + 0
    omega

/-- The weight block's entry the product reads at row r and contracted row k, and the embeddings'. -/
theorem lhs_ix (r : Fin 4096) (n : Fin 1024) (k : Fin 32) :
    DD.lhsIdx (ix2 r n) ((contrEquiv1 DD 32 rfl rfl).symm k) = ix2 k r := by
  funext a; apply Fin.ext
  match a with
  | ⟨0, _⟩ =>
    show (DD.lhsIdx (ix2 r n) ((contrEquiv1 DD 32 rfl rfl).symm k) (0 : Fin 2)).val = k.val
    rw [DotDims.lhsIdx_val_of_single DD dd_lhs]; exact contrEquiv1_symm_val DD 32 rfl rfl k
  | ⟨1, _⟩ =>
    show (DD.lhsIdx (ix2 r n) ((contrEquiv1 DD 32 rfl rfl).symm k) (1 : Fin 2)).val = r.val
    simp [DotDims.lhsIdx, DD, dot_S32x4096_S32x1024_S4096x1024_0_0_1_1_n_n]; rfl
theorem rhs_ix (r : Fin 4096) (n : Fin 1024) (k : Fin 32) :
    DD.rhsIdx (ix2 r n) ((contrEquiv1 DD 32 rfl rfl).symm k) = ix2 k n := by
  funext a; apply Fin.ext
  match a with
  | ⟨0, _⟩ =>
    show (DD.rhsIdx (ix2 r n) ((contrEquiv1 DD 32 rfl rfl).symm k) (0 : Fin 2)).val = k.val
    rw [DotDims.rhsIdx_val_of_single DD dd_rhs]; exact contrEquiv1_symm_val DD 32 rfl rfl k
  | ⟨1, _⟩ =>
    show (DD.rhsIdx (ix2 r n) ((contrEquiv1 DD 32 rfl rfl).symm k) (1 : Fin 2)).val = n.val
    simp [DotDims.rhsIdx, DD, dot_S32x4096_S32x1024_S4096x1024_0_0_1_1_n_n]; rfl

/-- The body's payload at row r, column n. -/
theorem pay_apply (x0 : Vec Ideal S32x4096 .f32) (x1 : Vec Ideal S32x1024 .f32) (x2 : Vec Ideal S4096 .f32) (r : Fin 4096) (n : Fin 1024) :
    k1_pay1 (F := Ideal) x0 x1 x2 (ix2 r n) = (∑ k : Fin 32, x0 (ix2 k r) * x1 (ix2 k n)) + x2 (ix1 r) := by
  unfold k1_pay1
  rw [shapeCast_self, shapeCast_self]
  rw [addf_apply]
  refine (congrArg₂ (· + ·) (Ideal.matmul_constant_zero_apply DD none x0 x1 (ix2 r n)) (biasCol_apply x2 r n)).trans ?_
  refine congrArg (· + x2 (ix1 r)) ?_
  rw [← Equiv.sum_comp (contrEquiv1 DD 32 rfl rfl).symm]
  exact Finset.sum_congr rfl fun k _ => by rw [lhs_ix, rhs_ix]

/-! ## The windows' extents and block indices, decided over the 25 points -/

theorem win_facts : ∀ t : Fin cfg1.N,
    win1_0.xsize (grid1.coords t) (0 : Fin 2) = 32 ∧ win1_0.xsize (grid1.coords t) (1 : Fin 2) = win1_3.xsize (grid1.coords t) (0 : Fin 2)
    ∧ win1_2.xsize (grid1.coords t) (0 : Fin 1) = win1_3.xsize (grid1.coords t) (0 : Fin 2)
    ∧ t.val * 4096 + win1_3.xsize (grid1.coords t) (0 : Fin 2) = min (t.val * 4096 + 4096) 100000
    ∧ win1_0.index t (0 : Fin 2) = 0 ∧ win1_0.index t (1 : Fin 2) = t.val
    ∧ win1_1.index t (0 : Fin 2) = 0 ∧ win1_1.index t (1 : Fin 2) = 0
    ∧ win1_2.index t (0 : Fin 1) = t.val :=
  (by decide +kernel : ∀ t : Fin grid1.N,
    win1_0.xsize (grid1.coords t) (0 : Fin 2) = 32 ∧ win1_0.xsize (grid1.coords t) (1 : Fin 2) = win1_3.xsize (grid1.coords t) (0 : Fin 2)
    ∧ win1_2.xsize (grid1.coords t) (0 : Fin 1) = win1_3.xsize (grid1.coords t) (0 : Fin 2)
    ∧ t.val * 4096 + win1_3.xsize (grid1.coords t) (0 : Fin 2) = min (t.val * 4096 + 4096) 100000
    ∧ win1_0.index t (0 : Fin 2) = 0 ∧ win1_0.index t (1 : Fin 2) = t.val
    ∧ win1_1.index t (0 : Fin 2) = 0 ∧ win1_1.index t (1 : Fin 2) = 0
    ∧ win1_2.index t (0 : Fin 1) = t.val)

/-- An entry (k, r) of the weight block inside the part the fetch at t moves, as an index of that part. -/
def jW (t : Fin cfg1.N) (k : Fin 32) (r : Fin 4096) (hr : r.val < win1_3.xsize (grid1.coords t) (0 : Fin 2)) : (win1_0.xblock (grid1.coords t)).Idx :=
  fun a => ⟨(ix2 k r : S32x4096.Idx) a |>.val, by
    obtain ⟨e0, e1, -⟩ := win_facts t
    match a with
    | ⟨0, _⟩ => show k.val < win1_0.xsize (grid1.coords t) (0 : Fin 2); omega
    | ⟨1, _⟩ => show r.val < win1_0.xsize (grid1.coords t) (1 : Fin 2); omega⟩
theorem xinj_jW (t k r hr) : win1_0.xinj (grid1.coords t) (jW t k r hr) = ix2 k r := by
  funext a; apply Fin.ext; match a with | ⟨0, _⟩ => rfl | ⟨1, _⟩ => rfl

/-- An entry r of the bias block inside the part the fetch at t moves. -/
def jB (t : Fin cfg1.N) (r : Fin 4096) (hr : r.val < win1_3.xsize (grid1.coords t) (0 : Fin 2)) : (win1_2.xblock (grid1.coords t)).Idx :=
  fun a => ⟨(ix1 r : S4096.Idx) a |>.val, by
    obtain ⟨-, -, e2, -⟩ := win_facts t
    match a with
    | ⟨0, _⟩ => show r.val < win1_2.xsize (grid1.coords t) (0 : Fin 1); omega⟩
theorem xinj_jB (t r hr) : win1_2.xinj (grid1.coords t) (jB t r hr) = ix1 r := by
  funext a; apply Fin.ext; match a with | ⟨0, _⟩ => rfl

/-- On the rows a write-back moves, the payload reads the weight block and the bias block only where their fetches fill. -/
theorem rowsOK_ideal : RowsOK Ideal := by
  intro t x0 x0' x1 x2 x2' h0 h2
  funext y
  show k1_pay1 (F := Ideal) x0 x1 x2 (win1_3.xinj (grid1.coords t) y) = k1_pay1 (F := Ideal) x0' x1 x2' (win1_3.xinj (grid1.coords t) y)
  have hr4 : (y 0).val < 4096 := Nat.lt_of_lt_of_le (y 0).isLt (win1_3.xsize_le (grid1.coords t) (0 : Fin 2))
  have hn4 : (y 1).val < 1024 := Nat.lt_of_lt_of_le (y 1).isLt (win1_3.xsize_le (grid1.coords t) (1 : Fin 2))
  have hy : (⟨(y 0).val, hr4⟩ : Fin 4096).val < win1_3.xsize (grid1.coords t) (0 : Fin 2) := (y 0).isLt
  have e : win1_3.xinj (grid1.coords t) y = ix2 (⟨(y 0).val, hr4⟩ : Fin 4096) (⟨(y 1).val, hn4⟩ : Fin 1024) := by
    funext a; apply Fin.ext; match a with | ⟨0, _⟩ => rfl | ⟨1, _⟩ => rfl
  rw [e, pay_apply, pay_apply]
  have hw : ∀ k : Fin 32, x0 (ix2 k (⟨(y 0).val, hr4⟩ : Fin 4096)) = x0' (ix2 k (⟨(y 0).val, hr4⟩ : Fin 4096)) := fun k => by
    have := congrFun h0 (jW t k _ hy)
    simpa only [Window.cut, xinj_jW] using this
  have hb : x2 (ix1 (⟨(y 0).val, hr4⟩ : Fin 4096)) = x2' (ix1 (⟨(y 0).val, hr4⟩ : Fin 4096)) := by
    have := congrFun h2 (jB t _ hy)
    simpa only [Window.cut, xinj_jB] using this
  rw [hb]
  exact congrArg (· + _) (Finset.sum_congr rfl fun k _ => by rw [hw k])

/-- The result array at the extended reals: entry (v, n) is the sum over the 32 rows k of the transposed weights' (k, v) times
    the summed embeddings' (k, n), plus the bias entry v. -/
theorem mmOut_apply (wt : FVec Ideal S32x100000 .f32) (ev : FVec Ideal S32x1024 .f32) (bv : FVec Ideal S100000 .f32) (v : Fin 100000) (n : Fin 1024) :
    mmOut (F := Ideal) wt ev bv (ix2 v n) = (∑ k : Fin 32, wt (ix2 k v) * ev (ix2 k n)) + bv (ix1 v) := by
  obtain ⟨e0, e1, e2, e3, i00, i01, i10, i11, i20⟩ := win_facts (ptOf v)
  have hv : v.val < 100000 := v.isLt
  have hp : (ptOf v).val = v.val / 4096 := rfl
  have hr : (⟨v.val % 4096, Nat.mod_lt _ (by norm_num)⟩ : Fin 4096).val < win1_3.xsize (grid1.coords (ptOf v)) (0 : Fin 2) := by
    show v.val % 4096 < _; omega
  show oBlk wt ev bv (ptOf v) (ix2 ⟨v.val % 4096, _⟩ n) = _
  unfold oBlk
  rw [pay_apply]
  have hW : ∀ k : Fin 32, wBlk wt (ptOf v) (ix2 k ⟨v.val % 4096, Nat.mod_lt _ (by norm_num)⟩) = wt (ix2 k v) := fun k => by
    unfold wBlk
    rw [← xinj_jW (ptOf v) k _ hr, Window.fill_xinj]
    show wt ((win1_0.blk (ptOf v)).view.emb (jW (ptOf v) k _ hr)) = _
    refine congrArg wt (funext fun a => Fin.ext ?_)
    match a with
    | ⟨0, _⟩ => show win1_0.index (ptOf v) (0 : Fin 2) * 32 + 1 * k.val = k.val; omega
    | ⟨1, _⟩ => show win1_0.index (ptOf v) (1 : Fin 2) * 4096 + 1 * (v.val % 4096) = v.val; omega
  have hE : ∀ k : Fin 32, eBlk ev (ptOf v) (ix2 k n) = ev (ix2 k n) := fun k => by
    unfold eBlk
    show ev ((win1_1.blk (ptOf v)).view.emb (ix2 k n)) = _
    refine congrArg ev (funext fun a => Fin.ext ?_)
    match a with
    | ⟨0, _⟩ => show win1_1.index (ptOf v) (0 : Fin 2) * 32 + 1 * k.val = k.val; omega
    | ⟨1, _⟩ => show win1_1.index (ptOf v) (1 : Fin 2) * 1024 + 1 * n.val = n.val; omega
  have hB : bBlk bv (ptOf v) (ix1 ⟨v.val % 4096, Nat.mod_lt _ (by norm_num)⟩) = bv (ix1 v) := by
    unfold bBlk
    rw [← xinj_jB (ptOf v) _ hr, Window.fill_xinj]
    show bv ((win1_2.blk (ptOf v)).view.emb (jB (ptOf v) _ hr)) = _
    refine congrArg bv (funext fun a => Fin.ext ?_)
    match a with
    | ⟨0, _⟩ => show win1_2.index (ptOf v) (0 : Fin 1) * 4096 + 1 * (v.val % 4096) = v.val; omega
  rw [hB]
  exact congrArg (· + _) (Finset.sum_congr rfl fun k _ => by rw [hW k, hE k])

end Cert.Proof.KI

end
-- ==== Proof.TileFacts.lean ====
/-
  Why every check of the task passes. The task first copies the whole flattened index array into its index
  scratch; afterwards the scratch holds that array, whatever it held before. Each check is made on sixteen words
  the task has just loaded from the scratch, and asks that each be below 100000, the length of the table row in
  the table scratch. So the checks follow from the same bound on every word of the array.
-/
import proofs.«208886_g87462714016427_cont_sun_c4_567_10_alg».proof.Proof.TileDefs

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

/-- What the index fetch lands — the array read through the full slice the task takes of it — is the array, word for
    word: bounded where the array is. -/
theorem fetched_lt (d : Dev nD) (ivd : Buf (Elt F) (iLoc d)) (hin : ∀ x, (ivd x).toNat < 100000)
    (h : ∀ a, (Rect.unit (s := S4096) ![0] S4096.size inb_S4096_S4096_0).stride a = 1) (y : S4096.Idx) :
    ((ReadAs.same.apply (View.read (Elt F) ((iV).slice (Rect.unit (s := S4096) ![0] S4096.size inb_S4096_S4096_0) h).view ivd)) y).toNat < 100000 := by
  show ((View.read (Elt F) ((iV).slice (Rect.unit (s := S4096) ![0] S4096.size inb_S4096_S4096_0) h).view ivd) y).toNat < 100000
  rw [View.read_apply]
  exact hin _

/-- A load of any rectangle of the index scratch, once contents bounded by 100000 have been written over all of it,
    reads words bounded by 100000: the side condition of every indexed load of the table scratch. -/
theorem loaded_inRange (d : Dev nD) (L : grid0.Coords) (f6 pay : Buf (Elt F) ((thrV d L).loc cc0_scratch1))
    (hpay : ∀ y, (pay y).toNat < 100000) (R : LoadRect S4096) (a : Fin 1) (x : R.shape.Idx) :
    ((![(sI).view.readAt (Elt F) R ((sI).view.write (Elt F) f6 pay Finset.univ)] : Fin 1 → IVec R.shape 32) a x).toNat < S100000.size a := by
  obtain rfl : a = 0 := Subsingleton.elim _ _
  show ((sI).view.readAt (Elt F) R ((sI).view.write (Elt F) f6 pay Finset.univ) x).toNat < 100000
  have hw : (sI).view.write (Elt F) f6 pay Finset.univ = pay := View.write_whole_univ _ _ _
  rw [View.readAt_apply, hw]
  exact hpay _

end Cert.Proof.KI

end
-- ==== Proof.TileChunks.lean ====
/-
  What the sum scratch holds after the task's sixty-four stores, as one function.

  The task works through the batch sixteen entries at a time. For the sixteen entries from offset `o` it loads, for
  each of the four context positions j, the sixteen index words at 1024 j + o from the index scratch, reads the table
  scratch at those words (`gat`), adds the four sixteen-lane vectors left to right (`chunkPay`) and stores the sum at
  offset `o` of the sum scratch. `ChunkList o L` says that `L` is the list of those stores for the offsets 0, 16, …
  below `o`, the newest first. Such a list covers every entry below `o`, and if each chunk's sum is the block of ONE
  function `G` of the entry number, the scratch written by the list reads `G` at every entry below `o`.
-/
import proofs.«208886_g87462714016427_cont_sun_c4_567_10_alg».proof.Proof.TileDefs
import proofs.«208886_g87462714016427_cont_sun_c4_567_10_alg».proof.Proof.TileFacts
import Idealize.ShloMosaic.Lib.Writes

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type} [FloatOps F]

section Chunks

variable (d : Dev nD) (L : grid0.Coords)
  (C5 : Buf (Elt F) ((thrV d L).loc cc0_scratch0)) (C6 : Buf (Elt F) ((thrV d L).loc cc0_scratch1))
  (hlt : ∀ (R : LoadRect S4096) (a : Fin 1) (x : R.shape.Idx),
    ((![(sI).view.readAt (Elt F) R C6] : Fin 1 → IVec R.shape 32) a x).toNat < S100000.size a)

omit [FloatOps F] in
/-- The sixteen words of context position `j` for the entries from `o` lie inside the index scratch. -/
theorem inb4 (j : Fin 4) (o : ℕ) (ho : o + 16 ≤ 1024) :
    ∀ a, (![1024 * j.val + o] : Fin 1 → ℕ) a + S16.size a ≤ S4096.size a := by
  intro a
  obtain rfl : a = 0 := Subsingleton.elim _ _
  show 1024 * j.val + o + 16 ≤ 4096
  have := j.isLt
  omega

/-- The table entries named by context position `j` of the sixteen entries from `o`. -/
def gat (j : Fin 4) (o : ℕ) (ho : o + 16 ≤ 1024) : FVec F S16 .f32 :=
  loadIdx (View.read (Elt F) ((sT).access (Rect.whole S100000)) C5)
    ![(sI).view.readAt (Elt F) (Rect.unit (s := S4096) ![1024 * j.val + o] S16.size (inb4 j o ho)).toLoadRect C6]
    (fun a x => hlt (Rect.unit (s := S4096) ![1024 * j.val + o] S16.size (inb4 j o ho)).toLoadRect a x)

/-- The sum the task stores for the sixteen entries from `o`. -/
def chunkPay (o : ℕ) (ho : o + 16 ≤ 1024) : FVec F S16 .f32 :=
  addf (addf (addf (gat d L C5 C6 hlt 0 o ho) (gat d L C5 C6 hlt 1 o ho)) (gat d L C5 C6 hlt 2 o ho)) (gat d L C5 C6 hlt 3 o ho)

/-- The stores of the chunks at offsets 0, 16, … below `o`, newest first. -/
inductive ChunkList : ℕ → List (View.Piece (Elt F) S1024 .f32) → Prop
  | nil : ChunkList 0 []
  | cons (o : ℕ) (ho : o + 16 ≤ 1024) (hb : ∀ a, (![o] : Fin 1 → ℕ) a + S16.size a ≤ S1024.size a)
      (w : (Rect.unit (s := S1024) ![o] S16.size hb).shape.Idx → Elt F .f32) (Lst : List (View.Piece (Elt F) S1024 .f32)) :
      ChunkList o Lst → w = chunkPay d L C5 C6 hlt o ho →
      ChunkList (o + 16) (⟨Rect.unit (s := S1024) ![o] S16.size hb, w⟩ :: Lst)

variable {d L C5 C6 hlt}

omit [FloatOps F] in
/-- Entry `o + lane` is where lane `x` of the store at `o` lands. -/
theorem unit_emb_1024 (o : ℕ) (hb : ∀ a, (![o] : Fin 1 → ℕ) a + S16.size a ≤ S1024.size a)
    (x : (Rect.unit (s := S1024) ![o] S16.size hb).shape.Idx) (h : o + (x 0).val < 1024) :
    (Rect.unit (s := S1024) ![o] S16.size hb).emb x = (ix1 ⟨o + (x 0).val, h⟩ : S1024.Idx) := by
  funext a
  obtain rfl : a = 0 := Subsingleton.elim _ _
  apply Fin.ext
  rw [Rect.emb_apply]
  show o + 1 * (x 0).val = o + (x 0).val
  omega

/-- A chunk list covers every entry below its bound. -/
theorem ChunkList.cover {o : ℕ} {Lst : List (View.Piece (Elt F) S1024 .f32)} (h : ChunkList d L C5 C6 hlt o Lst) :
    ∀ y : S1024.Idx, (y 0).val < o → ∃ p ∈ Lst, y ∈ p.1.set := by
  induction h with
  | nil => intro y hy; exact absurd hy (Nat.not_lt_zero _)
  | cons o ho hb w Lst _ _ ih =>
    intro y hy
    by_cases hlo : (y 0).val < o
    · obtain ⟨p, hp, hyp⟩ := ih y hlo
      exact ⟨p, List.mem_cons_of_mem _ hp, hyp⟩
    · refine ⟨_, List.mem_cons_self, ?_⟩
      rw [Rect.mem_set_unit]
      intro a
      obtain rfl : a = 0 := Subsingleton.elim _ _
      show o ≤ (y 0).val ∧ (y 0).val < o + 16
      omega

/-- If every chunk's sum is the block of `G` at its offset, every piece of a chunk list is a block of `G`. -/
theorem ChunkList.pieces {o : ℕ} {Lst : List (View.Piece (Elt F) S1024 .f32)} (h : ChunkList d L C5 C6 hlt o Lst)
    (G : S1024.Idx → Elt F .f32)
    (hG : ∀ (o : ℕ) (ho : o + 16 ≤ 1024) (x : S16.Idx) (hx : o + (x 0).val < 1024),
      chunkPay d L C5 C6 hlt o ho x = G (ix1 ⟨o + (x 0).val, hx⟩)) :
    ∀ p ∈ Lst, ∀ x : p.1.shape.Idx, p.2 x = G (p.1.emb x) := by
  induction h with
  | nil => intro p hp; exact absurd hp List.not_mem_nil
  | cons o ho hb w Lst _ hw ih =>
    intro p hp
    rcases List.mem_cons.mp hp with rfl | hp
    · intro x
      have h16 : (x 0).val < 16 := (x 0).isLt
      have hx : o + (x 0).val < 1024 := by omega
      rw [unit_emb_1024 o hb x hx]
      show w x = _
      rw [hw]
      exact hG o ho x hx
    · exact ih p hp

/-- The sum scratch written by a chunk list reads `G` at every entry below the list's bound. -/
theorem ChunkList.read {o : ℕ} {Lst : List (View.Piece (Elt F) S1024 .f32)} (h : ChunkList d L C5 C6 hlt o Lst)
    (G : S1024.Idx → Elt F .f32)
    (hG : ∀ (o : ℕ) (ho : o + 16 ≤ 1024) (x : S16.Idx) (hx : o + (x 0).val < 1024),
      chunkPay d L C5 C6 hlt o ho x = G (ix1 ⟨o + (x 0).val, hx⟩))
    (f7 : Buf (Elt F) ((thrV d L).loc cc0_scratch2)) (y : S1024.Idx) (hy : (y 0).val < o) :
    (sE).view.read (Elt F) ((sE).view.writes (Elt F) f7 Lst) y = G y :=
  View.read_writes_apply_of_pieces (sE).view f7 G Lst (h.pieces G hG) y (h.cover y hy)

end Chunks

end Cert.Proof.KI

end
-- ==== Proof.TileValue.lean ====
/-
  What one indexed load of the task reads, as a value.

  The task's row of the table, fetched into the table scratch, is the table at (row, ·); the index array, fetched
  into the index scratch, is the index array. A sixteen-lane indexed load of the table scratch at sixteen words of the
  index scratch therefore reads, at lane `x`, the table at (row, the word the index array holds at that lane's
  position), a word below 100000 being its own column. The task's row of the call's result `embArr`, as a function of
  the position in the row, is `embRow`.
-/
import proofs.«208886_g87462714016427_cont_sun_c4_567_10_alg».proof.Proof.TileDefs
import proofs.«208886_g87462714016427_cont_sun_c4_567_10_alg».proof.Proof.TileFacts

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

/-! ## Where the task's rows sit in their arrays -/

/-- A word of the one-row shape, matched with the row's own shape, is (0, the word). -/
theorem squeeze_T (w : S100000.Idx) :
    Shape.reshapeEquiv squeezes_S1x100000_S100000.numel_eq w = (ix2 (0 : Fin 1) (w 0) : S1x100000.Idx) :=
  Shape.reshapeEquiv_eq_of_rowMajor _ (by
    rw [Shape.rowMajor_val_two, Shape.rowMajor_val_one]
    show 0 * 100000 + (w 0).val = (w 0).val
    omega)
theorem squeeze_E (n : S1024.Idx) :
    Shape.reshapeEquiv squeezes_S1x1024_S1024.numel_eq n = (ix2 (0 : Fin 1) (n 0) : S1x1024.Idx) :=
  Shape.reshapeEquiv_eq_of_rowMajor _ (by
    rw [Shape.rowMajor_val_two, Shape.rowMajor_val_one]
    show 0 * 1024 + (n 0).val = (n 0).val
    omega)

/-- Element `w` of the task's row of the table is the table's (row, w). -/
theorem tRow_emb (L : grid0.Coords) (w : S100000.Idx) :
    (tRowK L).view.emb w = (ix2 (rowL L) (w 0) : S32x100000.Idx) := by
  show (Rect.unit (s := S32x100000) (k0_off1 L) S1x100000.size (k0_off1_inb L)).emb (Shape.reshapeEquiv squeezes_S1x100000_S100000.numel_eq w) = _
  rw [squeeze_T]
  funext a; apply Fin.ext
  rw [Rect.emb_apply]
  match a with
  | 0 => show k0_off1 L 0 + 1 * 0 = 2 * (L 1).val + (L 0).val; rw [k0_off1_eq]; simp
  | 1 => show k0_off1 L 1 + 1 * (w 0).val = (w 0).val; rw [k0_off1_eq]; simp
/-- Element `n` of the task's row of the result is the result's (row, n). -/
theorem eRow_emb (L : grid0.Coords) (n : S1024.Idx) :
    (eRowK L).view.emb n = (ix2 (rowL L) (n 0) : S32x1024.Idx) := by
  show (Rect.unit (s := S32x1024) (k0_off2 L) S1x1024.size (k0_off2_inb L)).emb (Shape.reshapeEquiv squeezes_S1x1024_S1024.numel_eq n) = _
  rw [squeeze_E]
  funext a; apply Fin.ext
  rw [Rect.emb_apply]
  match a with
  | 0 => show k0_off2 L 0 + 1 * 0 = 2 * (L 1).val + (L 0).val; rw [k0_off2_eq]; simp
  | 1 => show k0_off2 L 1 + 1 * (n 0).val = (n 0).val; rw [k0_off2_eq]; simp

/-! ## Sixteen-lane rectangles -/

/-- Lane `x` of a sixteen-lane load of the index scratch at offset `o` is word `o + x`. -/
theorem unit_idx (o : Nat) (hb : ∀ a, (![o] : Fin 1 → Nat) a + S16.size a ≤ S4096.size a) (x : S16.Idx) :
    (Rect.unit (s := S4096) ![o] S16.size hb).toLoadRect.idx x
      = (ix1 ⟨o + (x 0).val, by have h := hb 0; have hx : (x 0).val < 16 := (x 0).isLt; simp at h; omega⟩ : S4096.Idx) := by
  funext a; apply Fin.ext
  obtain rfl : a = 0 := Subsingleton.elim _ _
  rw [LoadRect.idx_apply]
  show o + 1 * (x 0).val = o + (x 0).val
  omega
/-- Lane `x` of a sixteen-lane store into the row of sums at offset `o` is element `o + x`. -/
theorem unit_emb (o : Nat) (hb : ∀ a, (![o] : Fin 1 → Nat) a + S16.size a ≤ S1024.size a) (x : S16.Idx) :
    (Rect.unit (s := S1024) ![o] S16.size hb).emb x
      = (ix1 ⟨o + (x 0).val, by have h := hb 0; have hx : (x 0).val < 16 := (x 0).isLt; simp at h; omega⟩ : S1024.Idx) := by
  funext a; apply Fin.ext
  obtain rfl : a = 0 := Subsingleton.elim _ _
  rw [Rect.emb_apply]
  show o + 1 * (x 0).val = o + (x 0).val
  omega

/-! ## One indexed load -/

section Gather

variable [FloatOps F]
variable (d : Dev nD) (L : grid0.Coords) (tvd : Buf (Elt F) (tLoc d)) (ivd : Buf (Elt F) (iLoc d))
variable (hin : ∀ x, (ivd x).toNat < 100000)
variable (f5 : Buf (Elt F) ((thrV d L).loc cc0_scratch0)) (f6 : Buf (Elt F) ((thrV d L).loc cc0_scratch1))

/-- What the table fetch lands in the table scratch: the task's row of the table. -/
abbrev pay5 : S100000.Idx → Elt F .f32 := ReadAs.same.apply (View.read (Elt F) (tRowK L).view tvd)
/-- What the index fetch lands in the index scratch: the index array, through the full slice the task takes of it. -/
abbrev pay6 (h6 : ∀ a, (Rect.unit (s := S4096) ![0] S4096.size inb_S4096_S4096_0).stride a = 1) : S4096.Idx → Elt F .i32 :=
  ReadAs.same.apply (View.read (Elt F) ((iV).slice (Rect.unit (s := S4096) ![0] S4096.size inb_S4096_S4096_0) h6).view ivd)

omit [FloatOps F] in
/-- The landed row at `w` is the table at (row, w). -/
theorem pay5_apply (w : S100000.Idx) : pay5 (F := F) d L tvd w = tvd (ix2 (rowL L) (w 0) : S32x100000.Idx) := by
  show View.read (Elt F) (tRowK L).view tvd w = _
  rw [View.read_apply, tRow_emb]
  rfl
omit [FloatOps F] in
/-- The landed index array at `y` is the index array at `y`. -/
theorem pay6_apply (h6 : ∀ a, (Rect.unit (s := S4096) ![0] S4096.size inb_S4096_S4096_0).stride a = 1) (y : S4096.Idx) :
    pay6 (F := F) d ivd h6 y = ivd y := by
  show View.read (Elt F) ((iV).slice (Rect.unit (s := S4096) ![0] S4096.size inb_S4096_S4096_0) h6).view ivd y = _
  rw [View.read_apply]
  have e : ((iV).slice (Rect.unit (s := S4096) ![0] S4096.size inb_S4096_S4096_0) h6).view.emb y = y := by
    refine funext fun (a : Fin 1) => Fin.ext ?_
    obtain rfl : a = 0 := Subsingleton.elim _ _
    show 0 + 1 * (y 0).val = (y 0).val
    omega
  rw [e]
  rfl

include hin

omit [FloatOps F] in
/-- An indexed load of the table scratch, after the two fetches, at the words a load rectangle `R` of the index scratch
    holds: lane `x` is the table at (row, the column the index array's word at `R`'s lane `x` names). -/
theorem gather_read (h6 : ∀ a, (Rect.unit (s := S4096) ![0] S4096.size inb_S4096_S4096_0).stride a = 1) (R : LoadRect S4096)
    (h : ∀ a x, ((![View.readAt (Elt F) (sI).view R (View.write (Elt F) (sI).view f6 (pay6 (F := F) d ivd h6) Finset.univ)] : Fin 1 → IVec R.shape 32) a x).toNat < S100000.size a)
    (x : R.shape.Idx) :
    loadIdx (F := F) (View.read (Elt F) ((sT).access (Rect.whole S100000)) (View.write (Elt F) (sT).view f5 (pay5 (F := F) d L tvd) Finset.univ))
        ![View.readAt (Elt F) (sI).view R (View.write (Elt F) (sI).view f6 (pay6 (F := F) d ivd h6) Finset.univ)] h x
      = tvd (ix2 (rowL L) (colOf (ivd (R.idx x))) : S32x100000.Idx) := by
  have hw5 : View.write (Elt F) (sT).view f5 (pay5 (F := F) d L tvd) Finset.univ = pay5 (F := F) d L tvd := View.write_whole_univ _ _ _
  have hw6 : View.write (Elt F) (sI).view f6 (pay6 (F := F) d ivd h6) Finset.univ = pay6 (F := F) d ivd h6 := View.write_whole_univ _ _ _
  have hr5 : View.read (Elt F) ((sT).access (Rect.whole S100000)) (pay5 (F := F) d L tvd) = pay5 (F := F) d L tvd := Memref.read_access_whole (Elt F) cc0_scratch0 _
  have hword : View.readAt (Elt F) (sI).view R (View.write (Elt F) (sI).view f6 (pay6 (F := F) d ivd h6) Finset.univ) x = ivd (R.idx x) := by
    rw [hw6, View.readAt_apply]
    exact pay6_apply d ivd h6 _
  show View.read (Elt F) ((sT).access (Rect.whole S100000)) (View.write (Elt F) (sT).view f5 (pay5 (F := F) d L tvd) Finset.univ)
      (idxAt ![View.readAt (Elt F) (sI).view R (View.write (Elt F) (sI).view f6 (pay6 (F := F) d ivd h6) Finset.univ)] h x) = _
  rw [hw5, hr5, pay5_apply]
  refine congrArg (fun k => tvd (ix2 (rowL L) k : S32x100000.Idx)) (Fin.ext ?_)
  show (View.readAt (Elt F) (sI).view R (View.write (Elt F) (sI).view f6 (pay6 (F := F) d ivd h6) Finset.univ) x).toNat = (colOf (ivd (R.idx x))).val
  rw [hword, colOf_val (hin _)]

end Gather

/-! ## The task's row of the result -/

section Row

variable [FloatOps F]
variable (d : Dev nD) (L : grid0.Coords) (tvd : Buf (Elt F) (tLoc d)) (ivd : Buf (Elt F) (iLoc d))

/-- The task's row of the call's result, as a function of the position in the row. -/
def embRow : S1024.Idx → Elt F .f32 := fun n => embArr (F := F) tvd ivd (ix2 (rowL L) (n 0) : S32x1024.Idx)

/-- The task's row of the result, read off the whole result array at the call's function, is `embRow`. -/
theorem read_eRow_embArr :
    (eRowK L).view.read (Elt F) (embArr (F := F) tvd ivd : Buf (Elt F) (eLoc d)) = embRow (F := F) d L tvd ivd := by
  funext n
  rw [View.read_apply, eRow_emb]
  rfl

end Row

end Cert.Proof.KI

end
-- ==== Proof.TileRow.lean ====
/-
  The task's row of sums, and with it the task's row of the result, as the call's function.

  Each chunk's sum — four sixteen-lane indexed loads of the table scratch added left to right — is, lane by lane, the
  call's function `embArr` at (row, offset + lane): each load reads the table at (row, the column named by the index
  array's word at context position j of that batch entry). Hence the sum scratch, once the sixty-four chunks are
  stored, reads the task's row of `embArr` everywhere, and copying it out over the task's row of the result leaves
  that row equal to `embArr`'s.
-/
import proofs.«208886_g87462714016427_cont_sun_c4_567_10_alg».proof.Proof.TileDefs
import proofs.«208886_g87462714016427_cont_sun_c4_567_10_alg».proof.Proof.TileFacts
import proofs.«208886_g87462714016427_cont_sun_c4_567_10_alg».proof.Proof.TileChunks
import proofs.«208886_g87462714016427_cont_sun_c4_567_10_alg».proof.Proof.TileValue

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type} [FloatOps F]

local notation "𝕄" => MT nD τ sig (HIx 1) (Elt F) ℕ UU ℕ

section Row

variable (d : Dev nD) (L : grid0.Coords) (tvd : Buf (Elt F) (tLoc d)) (ivd : Buf (Elt F) (iLoc d))
variable (hin : ∀ x, (ivd x).toNat < 100000)

include hin

/-- One chunk's sum at lane `x` is the call's function at (row, offset + lane). -/
theorem chunkPay_value (f5 : Buf (Elt F) ((thrV d L).loc cc0_scratch0)) (f6 : Buf (Elt F) ((thrV d L).loc cc0_scratch1))
    (h6 : ∀ a, (Rect.unit (s := S4096) ![0] S4096.size inb_S4096_S4096_0).stride a = 1)
    (hlt : ∀ (R : LoadRect S4096) (a : Fin 1) (x : R.shape.Idx),
      ((![(sI).view.readAt (Elt F) R (View.write (Elt F) (sI).view f6 (pay6 (F := F) d ivd h6) Finset.univ)] : Fin 1 → IVec R.shape 32) a x).toNat < S100000.size a)
    (o : ℕ) (ho : o + 16 ≤ 1024) (x : S16.Idx) (hx : o + (x 0).val < 1024) :
    chunkPay (F := F) d L (View.write (Elt F) (sT).view f5 (pay5 (F := F) d L tvd) Finset.univ)
        (View.write (Elt F) (sI).view f6 (pay6 (F := F) d ivd h6) Finset.univ) hlt o ho x
      = embArr (F := F) tvd ivd (ix2 (rowL L) ⟨o + (x 0).val, hx⟩ : S32x1024.Idx) := by
  have hg : ∀ j : Fin 4, gat (F := F) d L (View.write (Elt F) (sT).view f5 (pay5 (F := F) d L tvd) Finset.univ)
        (View.write (Elt F) (sI).view f6 (pay6 (F := F) d ivd h6) Finset.univ) hlt j o ho x
      = gathered (F := F) tvd ivd j (ix2 (rowL L) ⟨o + (x 0).val, hx⟩ : S32x1024.Idx) := by
    intro j
    unfold gat
    rw [gather_read (F := F) d L tvd ivd hin f5 f6 h6, unit_idx]
    exact congrArg (fun y : S4096.Idx => tvd (ix2 (rowL L) (colOf (ivd y)) : S32x100000.Idx))
      (congrArg ix1 (Fin.ext (by show 1024 * j.val + o + (x 0).val = j.val * 1024 + (o + (x 0).val); omega)))
  show FloatOps.addf (FloatOps.addf (FloatOps.addf (gat (F := F) d L _ _ hlt 0 o ho x) (gat (F := F) d L _ _ hlt 1 o ho x))
      (gat (F := F) d L _ _ hlt 2 o ho x)) (gat (F := F) d L _ _ hlt 3 o ho x) = _
  rw [hg 0, hg 1, hg 2, hg 3]
  rfl

end Row

section RowV

variable (d : Dev nD) (L : grid0.Coords) (tvd : Buf (Elt F) (tLoc d)) (ivd : Buf (Elt F) (iLoc d))
variable (hin : ∀ x, (ivd x).toNat < 100000)

omit [FloatOps F] in
/-- The task's row of the result read at `n` is the array at the element the row's `n` sits at. -/
theorem eRow_read (f : Buf (Elt F) (eLoc d)) (n : S1024.Idx) :
    (eRowK L).view.read (Elt F) f n = f ((eRowK L).view.emb n) := (View.read_apply _ _).trans (cast_eq _ _)

include hin

/-- The task's row of the result, after the sum scratch written by the sixty-four chunks is copied out over it, holds the
    call's function. -/
theorem row_value (evd : Buf (Elt F) (eLoc d))
    (f5 : Buf (Elt F) ((thrV d L).loc cc0_scratch0)) (f6 : Buf (Elt F) ((thrV d L).loc cc0_scratch1)) (f7 : Buf (Elt F) ((thrV d L).loc cc0_scratch2))
    (h6 : ∀ a, (Rect.unit (s := S4096) ![0] S4096.size inb_S4096_S4096_0).stride a = 1)
    (hlt : ∀ (R : LoadRect S4096) (a : Fin 1) (x : R.shape.Idx),
      ((![(sI).view.readAt (Elt F) R (View.write (Elt F) (sI).view f6 (pay6 (F := F) d ivd h6) Finset.univ)] : Fin 1 → IVec R.shape 32) a x).toNat < S100000.size a)
    (Lst : List (View.Piece (Elt F) S1024 .f32))
    (hL : ChunkList (F := F) d L (View.write (Elt F) (sT).view f5 (pay5 (F := F) d L tvd) Finset.univ)
      (View.write (Elt F) (sI).view f6 (pay6 (F := F) d ivd h6) Finset.univ) hlt 1024 Lst) :
    ((eRowK L).view.loc (thrV d L) ↦[(eRowK L).view.set]{fullShare}
        (eRowK L).view.writes (Elt F) evd [⟨Rect.whole S1024, ReadAs.same.apply (View.read (Elt F) (sE).view ((sE).view.writes (Elt F) f7 Lst))⟩] : sProp 𝕄)
      ⊢ ((eRowK L).view.loc (thrV d L) ↦[(eRowK L).view.set]{fullShare} (embArr (F := F) tvd ivd : Buf (Elt F) (eLoc d))) := by
  refine Entails.of_eq (pointsTo_congr fun i hi => ?_)
  have hi' : i ∈ Finset.univ.map (eRowK L).view.emb := hi
  obtain ⟨n, -, rfl⟩ := Finset.mem_map.mp hi'
  have hn : (n 0).val < 1024 := (n 0).isLt
  have h1 : (eRowK L).view.read (Elt F) ((eRowK L).view.writes (Elt F) evd
      [⟨Rect.whole S1024, ReadAs.same.apply (View.read (Elt F) (sE).view ((sE).view.writes (Elt F) f7 Lst))⟩]) ((Rect.whole S1024).emb n)
      = ReadAs.same.apply (View.read (Elt F) (sE).view ((sE).view.writes (Elt F) f7 Lst)) n :=
    View.read_writes_cons_emb (eRowK L).view evd (Rect.whole S1024) _ [] n
  rw [Rect.emb_whole_apply] at h1
  refine (eRow_read (F := F) d L _ n).symm.trans (h1.trans ?_)
  have h2 : (sE).view.read (Elt F) ((sE).view.writes (Elt F) f7 Lst) n = embRow (F := F) d L tvd ivd n :=
    hL.read (embRow (F := F) d L tvd ivd) (fun o ho x hx => chunkPay_value d L tvd ivd hin f5 f6 h6 hlt o ho x hx) f7 n hn
  refine h2.trans ?_
  rw [eRow_emb]
  rfl

end RowV

end Cert.Proof.KI

end
-- ==== Proof.TileCore.lean ====
/-
  One vector subcore's task, run from start to end at a symbolic place of the grid.

  The task copies its row of the transposed table and the whole flattened index array into its two scratch buffers,
  each copy waited for before the next begins. Then, sixteen batch entries at a time, it loads the sixteen index
  words of each of the four context positions from the index scratch — every such word is below 100000, because the
  scratch now holds the index array and every word of that array is — reads the table scratch at those words, adds
  the four sixteen-lane vectors left to right and stores the sum in its sum scratch: sixty-four stores, at the
  offsets 0, 16, …, 1008. Last it copies the sum scratch to its row of the result and waits for the copy.

  What the sixty-four stores leave is a chunk list up to 1024 (each stored vector is, by unfolding, the chunk's sum),
  so the sum scratch, and with it the row of the result, reads the call's one function `embArr` of the table and the
  indices at every entry of the row. The arrays the task was lent come back unchanged, its scratch buffers at some
  contents, its three semaphores at zero, and it has waited only on semaphores of its own.
-/
import proofs.«208886_g87462714016427_cont_sun_c4_567_10_alg».proof.Proof.TileRow
import proofs.«208886_g87462714016427_cont_sun_c4_567_10_alg».proof.Proof.Gen.KernelIdeal.Skeleton

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Every load of the index scratch, once the index array has been copied over all of it, reads words below 100000. -/
theorem hltP (d : Dev nD) (L : grid0.Coords) (ivd : Buf (Elt F) (iLoc d)) (hin : ∀ x, (ivd x).toNat < 100000)
    (f6 : Buf (Elt F) ((thrV d L).loc cc0_scratch1)) (h6 : ∀ a, (Rect.unit (s := S4096) ![0] S4096.size inb_S4096_S4096_0).stride a = 1) :
    ∀ (R : LoadRect S4096) (a : Fin 1) (x : R.shape.Idx),
      ((![(sI).view.readAt (Elt F) R (View.write (Elt F) (sI).view f6 (pay6 d ivd h6) Finset.univ)] : Fin 1 → IVec R.shape 32) a x).toNat < S100000.size a :=
  fun R a x => loaded_inRange d L f6 _ (fun y => fetched_lt d ivd hin h6 y) R a x

set_option maxHeartbeats 0 in
theorem tile_core (d : Dev nD) (L : grid0.Coords) (q : PosShare TreeShare) (tvd : Buf (Elt F) (tLoc d)) (ivd : Buf (Elt F) (iLoc d)) (evd : Buf (Elt F) (eLoc d))
    (hin : ∀ x, (ivd x).toNat < 100000)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)) :
    iprop(Transfers.MayWaits (thrV d L) (none : HIx 1) O
        ∗ ((tRowK L).view.loc (thrV d L) ↦[(tRowK L).view.set]{fullShare} tvd) ∗ ((iV).view.loc (thrV d L) ↦{q} ivd) ∗ ((eRowK L).view.loc (thrV d L) ↦[(eRowK L).view.set]{fullShare} evd)
        ∗ ((sT).view.loc (thrV d L) ↦{fullShare} f5) ∗ ((sI).view.loc (thrV d L) ↦{fullShare} f6) ∗ ((sE).view.loc (thrV d L) ↦{fullShare} f7)
        ∗ semVal (thrV d L, SemLoc.dma cc0_scoped0.sem) 0 ∗ semVal (thrV d L, SemLoc.dma cc0_scoped1.sem) 0 ∗ semVal (thrV d L, SemLoc.dma cc0_scoped2.sem) 0 ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(((tRowK L).view.loc (thrV d L) ↦[(tRowK L).view.set]{fullShare} tvd) ∗ ((iV).view.loc (thrV d L) ↦{q} ivd)
            ∗ ((eRowK L).view.loc (thrV d L) ↦[(eRowK L).view.set]{fullShare} (embArr (F := F) tvd ivd : Buf (Elt F) (eLoc d)))
            ∗ (∃ f, (sT).view.loc (thrV d L) ↦{fullShare} f) ∗ (∃ f, (sI).view.loc (thrV d L) ↦{fullShare} f) ∗ (∃ f, (sE).view.loc (thrV d L) ↦{fullShare} f)
            ∗ semVal (thrV d L, SemLoc.dma cc0_scoped0.sem) 0 ∗ semVal (thrV d L, SemLoc.dma cc0_scoped1.sem) 0 ∗ semVal (thrV d L, SemLoc.dma cc0_scoped2.sem) 0
            ∗ ∃ W', ⌜∀ p ∈ W', p ∈ W ∨ p.2 = none⌝ ∗ owes (thrV d L) O W')) : sProp 𝕄) := by
  rw [cc0__emb_body_eq_skeleton, cc0__emb_body_skel]
  iintro ⟨Hmw, Ht, Hi, He, H5, H6, H7, Hs0, Hs1, Hs2, HO⟩
  -- every load of the index scratch, once the indices are in it, reads words that name entries of the table row
  have hchk : ∀ (o : ℕ) (hb : ∀ a, (![o] : Fin 1 → ℕ) a + S16.size a ≤ S4096.size a) (a : Fin 1) (x : S16.Idx),
      ((![(sI).view.readAt (Elt F) (Rect.unit (s := S4096) ![o] S16.size hb).toLoadRect (View.write (Elt F) (sI).view f6 (pay6 d ivd (fun _ => rfl)) Finset.univ)] : Fin 1 → IVec S16 32) a x).toNat < S100000.size a :=
    fun o hb a x => hltP (F := F) d L ivd hin f6 (fun _ => rfl) (Rect.unit (s := S4096) ![o] S16.size hb).toLoadRect a x
  -- the two fetches, their waits, and the first load of indices
  sl_exec_parts (disch := exact hchk _ _)
  -- from here the table scratch is only read, by the indexed loads: held through its whole-rectangle access
  ihave H5' := (Entails.of_eq (pts_sT_access (F := F) d L _)) $$ H5
  -- 256 indexed loads, the loads, checks, additions and stores between them, and after the last the write-out and its wait
  iterate 256
    (iapply (SparseCore.wp_vectorLoadIdx 𝒱₀ (thrV d L) none Set.univ (base := (sT)) (S := Finset.univ) (q := fullShare) (hl := View.loads_vmem h_S100000) (Finset.subset_univ _)) $$ H5'
     iintro H5'
     sl_exec_parts (disch := exact hchk _ _))
  rw [wp_ret]; imodintro
  isplitl [Ht]; · iexact Ht
  isplitl [Hi]; · iexact Hi
  isplitl [He]
  · iapply (row_value (F := F) d L tvd ivd hin evd f5 f6 f7 (fun _ => rfl) (hltP (F := F) d L ivd hin f6 (fun _ => rfl)) _ ?hL)
    rotate_left
    · iexact He
    -- the list the stores left is the chunks' list: sixty-four steps, each stored vector the chunk's sum by unfolding
    · repeat (first | exact ChunkList.nil | refine ChunkList.cons _ (by decide) _ _ _ ?_ (by rfl))
  isplitl [H5']
  · iexists _; iapply (Entails.of_eq (pts_sT_access (F := F) d L _).symm); iexact H5'
  isplitl [H6]; · iexists _; iexact H6
  isplitl [H7]; · iexists _; iexact H7
  isplitl [Hs0]; · iexact Hs0
  isplitl [Hs1]; · iexact Hs1
  isplitl [Hs2]; · iexact Hs2
  iexists (insert (SemLoc.dma cc0_scoped2.sem, (default : HIx 1)) (insert (SemLoc.dma cc0_scoped1.sem, (default : HIx 1)) (insert (SemLoc.dma cc0_scoped0.sem, (default : HIx 1)) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Cert.Proof.KI

end
-- ==== Proof.TileFactsB.lean ====
/-
  Why every check of the task passes. The task first copies the whole flattened index array into its index
  scratch; afterwards the scratch holds that array, whatever it held before. Each check is made on sixteen words
  the task has just loaded from the scratch, and asks that each be below 100000, the length of the table row in
  the table scratch. So the checks follow from the same bound on every word of the array.
-/
import proofs.«208886_g87462714016427_cont_sun_c4_567_10_alg».proof.Proof.TileDefsB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

/-- What the index fetch lands — the array read through the full slice the task takes of it — is the array, word for
    word: bounded where the array is. -/
theorem fetched_lt (d : Dev nD) (ivd : Buf (Elt F) (iLoc d)) (hin : ∀ x, (ivd x).toNat < 100000)
    (h : ∀ a, (Rect.unit (s := S4096) ![0] S4096.size inb_S4096_S4096_0).stride a = 1) (y : S4096.Idx) :
    ((ReadAs.same.apply (View.read (Elt F) ((iV).slice (Rect.unit (s := S4096) ![0] S4096.size inb_S4096_S4096_0) h).view ivd)) y).toNat < 100000 := by
  show ((View.read (Elt F) ((iV).slice (Rect.unit (s := S4096) ![0] S4096.size inb_S4096_S4096_0) h).view ivd) y).toNat < 100000
  rw [View.read_apply]
  exact hin _

/-- A load of any rectangle of the index scratch, once contents bounded by 100000 have been written over all of it,
    reads words bounded by 100000: the side condition of every indexed load of the table scratch. -/
theorem loaded_inRange (d : Dev nD) (L : grid0.Coords) (f6 pay : Buf (Elt F) ((thrV d L).loc cc0_scratch1))
    (hpay : ∀ y, (pay y).toNat < 100000) (R : LoadRect S4096) (a : Fin 1) (x : R.shape.Idx) :
    ((![(sI).view.readAt (Elt F) R ((sI).view.write (Elt F) f6 pay Finset.univ)] : Fin 1 → IVec R.shape 32) a x).toNat < S100000.size a := by
  obtain rfl : a = 0 := Subsingleton.elim _ _
  show ((sI).view.readAt (Elt F) R ((sI).view.write (Elt F) f6 pay Finset.univ) x).toNat < 100000
  have hw : (sI).view.write (Elt F) f6 pay Finset.univ = pay := View.write_whole_univ _ _ _
  rw [View.readAt_apply, hw]
  exact hpay _

end Cert.Proof.KB

end
-- ==== Proof.TileChunksB.lean ====
/-
  What the sum scratch holds after the task's sixty-four stores, as one function.

  The task works through the batch sixteen entries at a time. For the sixteen entries from offset `o` it loads, for
  each of the four context positions j, the sixteen index words at 1024 j + o from the index scratch, reads the table
  scratch at those words (`gat`), adds the four sixteen-lane vectors left to right (`chunkPay`) and stores the sum at
  offset `o` of the sum scratch. `ChunkList o L` says that `L` is the list of those stores for the offsets 0, 16, …
  below `o`, the newest first. Such a list covers every entry below `o`, and if each chunk's sum is the block of ONE
  function `G` of the entry number, the scratch written by the list reads `G` at every entry below `o`.
-/
import proofs.«208886_g87462714016427_cont_sun_c4_567_10_alg».proof.Proof.TileDefsB
import proofs.«208886_g87462714016427_cont_sun_c4_567_10_alg».proof.Proof.TileFactsB
import Idealize.ShloMosaic.Lib.Writes

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type} [FloatOps F]

section Chunks

variable (d : Dev nD) (L : grid0.Coords)
  (C5 : Buf (Elt F) ((thrV d L).loc cc0_scratch0)) (C6 : Buf (Elt F) ((thrV d L).loc cc0_scratch1))
  (hlt : ∀ (R : LoadRect S4096) (a : Fin 1) (x : R.shape.Idx),
    ((![(sI).view.readAt (Elt F) R C6] : Fin 1 → IVec R.shape 32) a x).toNat < S100000.size a)

omit [FloatOps F] in
/-- The sixteen words of context position `j` for the entries from `o` lie inside the index scratch. -/
theorem inb4 (j : Fin 4) (o : ℕ) (ho : o + 16 ≤ 1024) :
    ∀ a, (![1024 * j.val + o] : Fin 1 → ℕ) a + S16.size a ≤ S4096.size a := by
  intro a
  obtain rfl : a = 0 := Subsingleton.elim _ _
  show 1024 * j.val + o + 16 ≤ 4096
  have := j.isLt
  omega

/-- The table entries named by context position `j` of the sixteen entries from `o`. -/
def gat (j : Fin 4) (o : ℕ) (ho : o + 16 ≤ 1024) : FVec F S16 .f32 :=
  loadIdx (View.read (Elt F) ((sT).access (Rect.whole S100000)) C5)
    ![(sI).view.readAt (Elt F) (Rect.unit (s := S4096) ![1024 * j.val + o] S16.size (inb4 j o ho)).toLoadRect C6]
    (fun a x => hlt (Rect.unit (s := S4096) ![1024 * j.val + o] S16.size (inb4 j o ho)).toLoadRect a x)

/-- The sum the task stores for the sixteen entries from `o`. -/
def chunkPay (o : ℕ) (ho : o + 16 ≤ 1024) : FVec F S16 .f32 :=
  addf (addf (addf (gat d L C5 C6 hlt 0 o ho) (gat d L C5 C6 hlt 1 o ho)) (gat d L C5 C6 hlt 2 o ho)) (gat d L C5 C6 hlt 3 o ho)

/-- The stores of the chunks at offsets 0, 16, … below `o`, newest first. -/
inductive ChunkList : ℕ → List (View.Piece (Elt F) S1024 .f32) → Prop
  | nil : ChunkList 0 []
  | cons (o : ℕ) (ho : o + 16 ≤ 1024) (hb : ∀ a, (![o] : Fin 1 → ℕ) a + S16.size a ≤ S1024.size a)
      (w : (Rect.unit (s := S1024) ![o] S16.size hb).shape.Idx → Elt F .f32) (Lst : List (View.Piece (Elt F) S1024 .f32)) :
      ChunkList o Lst → w = chunkPay d L C5 C6 hlt o ho →
      ChunkList (o + 16) (⟨Rect.unit (s := S1024) ![o] S16.size hb, w⟩ :: Lst)

variable {d L C5 C6 hlt}

omit [FloatOps F] in
/-- Entry `o + lane` is where lane `x` of the store at `o` lands. -/
theorem unit_emb_1024 (o : ℕ) (hb : ∀ a, (![o] : Fin 1 → ℕ) a + S16.size a ≤ S1024.size a)
    (x : (Rect.unit (s := S1024) ![o] S16.size hb).shape.Idx) (h : o + (x 0).val < 1024) :
    (Rect.unit (s := S1024) ![o] S16.size hb).emb x = (ix1 ⟨o + (x 0).val, h⟩ : S1024.Idx) := by
  funext a
  obtain rfl : a = 0 := Subsingleton.elim _ _
  apply Fin.ext
  rw [Rect.emb_apply]
  show o + 1 * (x 0).val = o + (x 0).val
  omega

/-- A chunk list covers every entry below its bound. -/
theorem ChunkList.cover {o : ℕ} {Lst : List (View.Piece (Elt F) S1024 .f32)} (h : ChunkList d L C5 C6 hlt o Lst) :
    ∀ y : S1024.Idx, (y 0).val < o → ∃ p ∈ Lst, y ∈ p.1.set := by
  induction h with
  | nil => intro y hy; exact absurd hy (Nat.not_lt_zero _)
  | cons o ho hb w Lst _ _ ih =>
    intro y hy
    by_cases hlo : (y 0).val < o
    · obtain ⟨p, hp, hyp⟩ := ih y hlo
      exact ⟨p, List.mem_cons_of_mem _ hp, hyp⟩
    · refine ⟨_, List.mem_cons_self, ?_⟩
      rw [Rect.mem_set_unit]
      intro a
      obtain rfl : a = 0 := Subsingleton.elim _ _
      show o ≤ (y 0).val ∧ (y 0).val < o + 16
      omega

/-- If every chunk's sum is the block of `G` at its offset, every piece of a chunk list is a block of `G`. -/
theorem ChunkList.pieces {o : ℕ} {Lst : List (View.Piece (Elt F) S1024 .f32)} (h : ChunkList d L C5 C6 hlt o Lst)
    (G : S1024.Idx → Elt F .f32)
    (hG : ∀ (o : ℕ) (ho : o + 16 ≤ 1024) (x : S16.Idx) (hx : o + (x 0).val < 1024),
      chunkPay d L C5 C6 hlt o ho x = G (ix1 ⟨o + (x 0).val, hx⟩)) :
    ∀ p ∈ Lst, ∀ x : p.1.shape.Idx, p.2 x = G (p.1.emb x) := by
  induction h with
  | nil => intro p hp; exact absurd hp List.not_mem_nil
  | cons o ho hb w Lst _ hw ih =>
    intro p hp
    rcases List.mem_cons.mp hp with rfl | hp
    · intro x
      have h16 : (x 0).val < 16 := (x 0).isLt
      have hx : o + (x 0).val < 1024 := by omega
      rw [unit_emb_1024 o hb x hx]
      show w x = _
      rw [hw]
      exact hG o ho x hx
    · exact ih p hp

/-- The sum scratch written by a chunk list reads `G` at every entry below the list's bound. -/
theorem ChunkList.read {o : ℕ} {Lst : List (View.Piece (Elt F) S1024 .f32)} (h : ChunkList d L C5 C6 hlt o Lst)
    (G : S1024.Idx → Elt F .f32)
    (hG : ∀ (o : ℕ) (ho : o + 16 ≤ 1024) (x : S16.Idx) (hx : o + (x 0).val < 1024),
      chunkPay d L C5 C6 hlt o ho x = G (ix1 ⟨o + (x 0).val, hx⟩))
    (f7 : Buf (Elt F) ((thrV d L).loc cc0_scratch2)) (y : S1024.Idx) (hy : (y 0).val < o) :
    (sE).view.read (Elt F) ((sE).view.writes (Elt F) f7 Lst) y = G y :=
  View.read_writes_apply_of_pieces (sE).view f7 G Lst (h.pieces G hG) y (h.cover y hy)

end Chunks

end Cert.Proof.KB

end
-- ==== Proof.TileValueB.lean ====
/-
  What one indexed load of the task reads, as a value.

  The task's row of the table, fetched into the table scratch, is the table at (row, ·); the index array, fetched
  into the index scratch, is the index array. A sixteen-lane indexed load of the table scratch at sixteen words of the
  index scratch therefore reads, at lane `x`, the table at (row, the word the index array holds at that lane's
  position), a word below 100000 being its own column. The task's row of the call's result `embArr`, as a function of
  the position in the row, is `embRow`.
-/
import proofs.«208886_g87462714016427_cont_sun_c4_567_10_alg».proof.Proof.TileDefsB
import proofs.«208886_g87462714016427_cont_sun_c4_567_10_alg».proof.Proof.TileFactsB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type}

/-! ## Where the task's rows sit in their arrays -/

/-- A word of the one-row shape, matched with the row's own shape, is (0, the word). -/
theorem squeeze_T (w : S100000.Idx) :
    Shape.reshapeEquiv squeezes_S1x100000_S100000.numel_eq w = (ix2 (0 : Fin 1) (w 0) : S1x100000.Idx) :=
  Shape.reshapeEquiv_eq_of_rowMajor _ (by
    rw [Shape.rowMajor_val_two, Shape.rowMajor_val_one]
    show 0 * 100000 + (w 0).val = (w 0).val
    omega)
theorem squeeze_E (n : S1024.Idx) :
    Shape.reshapeEquiv squeezes_S1x1024_S1024.numel_eq n = (ix2 (0 : Fin 1) (n 0) : S1x1024.Idx) :=
  Shape.reshapeEquiv_eq_of_rowMajor _ (by
    rw [Shape.rowMajor_val_two, Shape.rowMajor_val_one]
    show 0 * 1024 + (n 0).val = (n 0).val
    omega)

/-- Element `w` of the task's row of the table is the table's (row, w). -/
theorem tRow_emb (L : grid0.Coords) (w : S100000.Idx) :
    (tRowK L).view.emb w = (ix2 (rowL L) (w 0) : S32x100000.Idx) := by
  show (Rect.unit (s := S32x100000) (k0_off1 L) S1x100000.size (k0_off1_inb L)).emb (Shape.reshapeEquiv squeezes_S1x100000_S100000.numel_eq w) = _
  rw [squeeze_T]
  funext a; apply Fin.ext
  rw [Rect.emb_apply]
  match a with
  | 0 => show k0_off1 L 0 + 1 * 0 = 2 * (L 1).val + (L 0).val; rw [k0_off1_eq]; simp
  | 1 => show k0_off1 L 1 + 1 * (w 0).val = (w 0).val; rw [k0_off1_eq]; simp
/-- Element `n` of the task's row of the result is the result's (row, n). -/
theorem eRow_emb (L : grid0.Coords) (n : S1024.Idx) :
    (eRowK L).view.emb n = (ix2 (rowL L) (n 0) : S32x1024.Idx) := by
  show (Rect.unit (s := S32x1024) (k0_off2 L) S1x1024.size (k0_off2_inb L)).emb (Shape.reshapeEquiv squeezes_S1x1024_S1024.numel_eq n) = _
  rw [squeeze_E]
  funext a; apply Fin.ext
  rw [Rect.emb_apply]
  match a with
  | 0 => show k0_off2 L 0 + 1 * 0 = 2 * (L 1).val + (L 0).val; rw [k0_off2_eq]; simp
  | 1 => show k0_off2 L 1 + 1 * (n 0).val = (n 0).val; rw [k0_off2_eq]; simp

/-! ## Sixteen-lane rectangles -/

/-- Lane `x` of a sixteen-lane load of the index scratch at offset `o` is word `o + x`. -/
theorem unit_idx (o : Nat) (hb : ∀ a, (![o] : Fin 1 → Nat) a + S16.size a ≤ S4096.size a) (x : S16.Idx) :
    (Rect.unit (s := S4096) ![o] S16.size hb).toLoadRect.idx x
      = (ix1 ⟨o + (x 0).val, by have h := hb 0; have hx : (x 0).val < 16 := (x 0).isLt; simp at h; omega⟩ : S4096.Idx) := by
  funext a; apply Fin.ext
  obtain rfl : a = 0 := Subsingleton.elim _ _
  rw [LoadRect.idx_apply]
  show o + 1 * (x 0).val = o + (x 0).val
  omega
/-- Lane `x` of a sixteen-lane store into the row of sums at offset `o` is element `o + x`. -/
theorem unit_emb (o : Nat) (hb : ∀ a, (![o] : Fin 1 → Nat) a + S16.size a ≤ S1024.size a) (x : S16.Idx) :
    (Rect.unit (s := S1024) ![o] S16.size hb).emb x
      = (ix1 ⟨o + (x 0).val, by have h := hb 0; have hx : (x 0).val < 16 := (x 0).isLt; simp at h; omega⟩ : S1024.Idx) := by
  funext a; apply Fin.ext
  obtain rfl : a = 0 := Subsingleton.elim _ _
  rw [Rect.emb_apply]
  show o + 1 * (x 0).val = o + (x 0).val
  omega

/-! ## One indexed load -/

section Gather

variable [FloatOps F]
variable (d : Dev nD) (L : grid0.Coords) (tvd : Buf (Elt F) (tLoc d)) (ivd : Buf (Elt F) (iLoc d))
variable (hin : ∀ x, (ivd x).toNat < 100000)
variable (f5 : Buf (Elt F) ((thrV d L).loc cc0_scratch0)) (f6 : Buf (Elt F) ((thrV d L).loc cc0_scratch1))

/-- What the table fetch lands in the table scratch: the task's row of the table. -/
abbrev pay5 : S100000.Idx → Elt F .f32 := ReadAs.same.apply (View.read (Elt F) (tRowK L).view tvd)
/-- What the index fetch lands in the index scratch: the index array, through the full slice the task takes of it. -/
abbrev pay6 (h6 : ∀ a, (Rect.unit (s := S4096) ![0] S4096.size inb_S4096_S4096_0).stride a = 1) : S4096.Idx → Elt F .i32 :=
  ReadAs.same.apply (View.read (Elt F) ((iV).slice (Rect.unit (s := S4096) ![0] S4096.size inb_S4096_S4096_0) h6).view ivd)

omit [FloatOps F] in
/-- The landed row at `w` is the table at (row, w). -/
theorem pay5_apply (w : S100000.Idx) : pay5 (F := F) d L tvd w = tvd (ix2 (rowL L) (w 0) : S32x100000.Idx) := by
  show View.read (Elt F) (tRowK L).view tvd w = _
  rw [View.read_apply, tRow_emb]
  rfl
omit [FloatOps F] in
/-- The landed index array at `y` is the index array at `y`. -/
theorem pay6_apply (h6 : ∀ a, (Rect.unit (s := S4096) ![0] S4096.size inb_S4096_S4096_0).stride a = 1) (y : S4096.Idx) :
    pay6 (F := F) d ivd h6 y = ivd y := by
  show View.read (Elt F) ((iV).slice (Rect.unit (s := S4096) ![0] S4096.size inb_S4096_S4096_0) h6).view ivd y = _
  rw [View.read_apply]
  have e : ((iV).slice (Rect.unit (s := S4096) ![0] S4096.size inb_S4096_S4096_0) h6).view.emb y = y := by
    refine funext fun (a : Fin 1) => Fin.ext ?_
    obtain rfl : a = 0 := Subsingleton.elim _ _
    show 0 + 1 * (y 0).val = (y 0).val
    omega
  rw [e]
  rfl

include hin

omit [FloatOps F] in
/-- An indexed load of the table scratch, after the two fetches, at the words a load rectangle `R` of the index scratch
    holds: lane `x` is the table at (row, the column the index array's word at `R`'s lane `x` names). -/
theorem gather_read (h6 : ∀ a, (Rect.unit (s := S4096) ![0] S4096.size inb_S4096_S4096_0).stride a = 1) (R : LoadRect S4096)
    (h : ∀ a x, ((![View.readAt (Elt F) (sI).view R (View.write (Elt F) (sI).view f6 (pay6 (F := F) d ivd h6) Finset.univ)] : Fin 1 → IVec R.shape 32) a x).toNat < S100000.size a)
    (x : R.shape.Idx) :
    loadIdx (F := F) (View.read (Elt F) ((sT).access (Rect.whole S100000)) (View.write (Elt F) (sT).view f5 (pay5 (F := F) d L tvd) Finset.univ))
        ![View.readAt (Elt F) (sI).view R (View.write (Elt F) (sI).view f6 (pay6 (F := F) d ivd h6) Finset.univ)] h x
      = tvd (ix2 (rowL L) (colOf (ivd (R.idx x))) : S32x100000.Idx) := by
  have hw5 : View.write (Elt F) (sT).view f5 (pay5 (F := F) d L tvd) Finset.univ = pay5 (F := F) d L tvd := View.write_whole_univ _ _ _
  have hw6 : View.write (Elt F) (sI).view f6 (pay6 (F := F) d ivd h6) Finset.univ = pay6 (F := F) d ivd h6 := View.write_whole_univ _ _ _
  have hr5 : View.read (Elt F) ((sT).access (Rect.whole S100000)) (pay5 (F := F) d L tvd) = pay5 (F := F) d L tvd := Memref.read_access_whole (Elt F) cc0_scratch0 _
  have hword : View.readAt (Elt F) (sI).view R (View.write (Elt F) (sI).view f6 (pay6 (F := F) d ivd h6) Finset.univ) x = ivd (R.idx x) := by
    rw [hw6, View.readAt_apply]
    exact pay6_apply d ivd h6 _
  show View.read (Elt F) ((sT).access (Rect.whole S100000)) (View.write (Elt F) (sT).view f5 (pay5 (F := F) d L tvd) Finset.univ)
      (idxAt ![View.readAt (Elt F) (sI).view R (View.write (Elt F) (sI).view f6 (pay6 (F := F) d ivd h6) Finset.univ)] h x) = _
  rw [hw5, hr5, pay5_apply]
  refine congrArg (fun k => tvd (ix2 (rowL L) k : S32x100000.Idx)) (Fin.ext ?_)
  show (View.readAt (Elt F) (sI).view R (View.write (Elt F) (sI).view f6 (pay6 (F := F) d ivd h6) Finset.univ) x).toNat = (colOf (ivd (R.idx x))).val
  rw [hword, colOf_val (hin _)]

end Gather

/-! ## The task's row of the result -/

section Row

variable [FloatOps F]
variable (d : Dev nD) (L : grid0.Coords) (tvd : Buf (Elt F) (tLoc d)) (ivd : Buf (Elt F) (iLoc d))

/-- The task's row of the call's result, as a function of the position in the row. -/
def embRow : S1024.Idx → Elt F .f32 := fun n => embArr (F := F) tvd ivd (ix2 (rowL L) (n 0) : S32x1024.Idx)

/-- The task's row of the result, read off the whole result array at the call's function, is `embRow`. -/
theorem read_eRow_embArr :
    (eRowK L).view.read (Elt F) (embArr (F := F) tvd ivd : Buf (Elt F) (eLoc d)) = embRow (F := F) d L tvd ivd := by
  funext n
  rw [View.read_apply, eRow_emb]
  rfl

end Row

end Cert.Proof.KB

end
-- ==== Proof.TileRowB.lean ====
/-
  The task's row of sums, and with it the task's row of the result, as the call's function.

  Each chunk's sum — four sixteen-lane indexed loads of the table scratch added left to right — is, lane by lane, the
  call's function `embArr` at (row, offset + lane): each load reads the table at (row, the column named by the index
  array's word at context position j of that batch entry). Hence the sum scratch, once the sixty-four chunks are
  stored, reads the task's row of `embArr` everywhere, and copying it out over the task's row of the result leaves
  that row equal to `embArr`'s.
-/
import proofs.«208886_g87462714016427_cont_sun_c4_567_10_alg».proof.Proof.TileDefsB
import proofs.«208886_g87462714016427_cont_sun_c4_567_10_alg».proof.Proof.TileFactsB
import proofs.«208886_g87462714016427_cont_sun_c4_567_10_alg».proof.Proof.TileChunksB
import proofs.«208886_g87462714016427_cont_sun_c4_567_10_alg».proof.Proof.TileValueB

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.Sem

variable {F : FTy → Type} [FloatOps F]

local notation "𝕄" => MT nD τ sig (HIx 1) (Elt F) ℕ UU ℕ

section Row

variable (d : Dev nD) (L : grid0.Coords) (tvd : Buf (Elt F) (tLoc d)) (ivd : Buf (Elt F) (iLoc d))
variable (hin : ∀ x, (ivd x).toNat < 100000)

include hin

/-- One chunk's sum at lane `x` is the call's function at (row, offset + lane). -/
theorem chunkPay_value (f5 : Buf (Elt F) ((thrV d L).loc cc0_scratch0)) (f6 : Buf (Elt F) ((thrV d L).loc cc0_scratch1))
    (h6 : ∀ a, (Rect.unit (s := S4096) ![0] S4096.size inb_S4096_S4096_0).stride a = 1)
    (hlt : ∀ (R : LoadRect S4096) (a : Fin 1) (x : R.shape.Idx),
      ((![(sI).view.readAt (Elt F) R (View.write (Elt F) (sI).view f6 (pay6 (F := F) d ivd h6) Finset.univ)] : Fin 1 → IVec R.shape 32) a x).toNat < S100000.size a)
    (o : ℕ) (ho : o + 16 ≤ 1024) (x : S16.Idx) (hx : o + (x 0).val < 1024) :
    chunkPay (F := F) d L (View.write (Elt F) (sT).view f5 (pay5 (F := F) d L tvd) Finset.univ)
        (View.write (Elt F) (sI).view f6 (pay6 (F := F) d ivd h6) Finset.univ) hlt o ho x
      = embArr (F := F) tvd ivd (ix2 (rowL L) ⟨o + (x 0).val, hx⟩ : S32x1024.Idx) := by
  have hg : ∀ j : Fin 4, gat (F := F) d L (View.write (Elt F) (sT).view f5 (pay5 (F := F) d L tvd) Finset.univ)
        (View.write (Elt F) (sI).view f6 (pay6 (F := F) d ivd h6) Finset.univ) hlt j o ho x
      = gathered (F := F) tvd ivd j (ix2 (rowL L) ⟨o + (x 0).val, hx⟩ : S32x1024.Idx) := by
    intro j
    unfold gat
    rw [gather_read (F := F) d L tvd ivd hin f5 f6 h6, unit_idx]
    exact congrArg (fun y : S4096.Idx => tvd (ix2 (rowL L) (colOf (ivd y)) : S32x100000.Idx))
      (congrArg ix1 (Fin.ext (by show 1024 * j.val + o + (x 0).val = j.val * 1024 + (o + (x 0).val); omega)))
  show FloatOps.addf (FloatOps.addf (FloatOps.addf (gat (F := F) d L _ _ hlt 0 o ho x) (gat (F := F) d L _ _ hlt 1 o ho x))
      (gat (F := F) d L _ _ hlt 2 o ho x)) (gat (F := F) d L _ _ hlt 3 o ho x) = _
  rw [hg 0, hg 1, hg 2, hg 3]
  rfl

end Row

section RowV

variable (d : Dev nD) (L : grid0.Coords) (tvd : Buf (Elt F) (tLoc d)) (ivd : Buf (Elt F) (iLoc d))
variable (hin : ∀ x, (ivd x).toNat < 100000)

omit [FloatOps F] in
/-- The task's row of the result read at `n` is the array at the element the row's `n` sits at. -/
theorem eRow_read (f : Buf (Elt F) (eLoc d)) (n : S1024.Idx) :
    (eRowK L).view.read (Elt F) f n = f ((eRowK L).view.emb n) := (View.read_apply _ _).trans (cast_eq _ _)

include hin

/-- The task's row of the result, after the sum scratch written by the sixty-four chunks is copied out over it, holds the
    call's function. -/
theorem row_value (evd : Buf (Elt F) (eLoc d))
    (f5 : Buf (Elt F) ((thrV d L).loc cc0_scratch0)) (f6 : Buf (Elt F) ((thrV d L).loc cc0_scratch1)) (f7 : Buf (Elt F) ((thrV d L).loc cc0_scratch2))
    (h6 : ∀ a, (Rect.unit (s := S4096) ![0] S4096.size inb_S4096_S4096_0).stride a = 1)
    (hlt : ∀ (R : LoadRect S4096) (a : Fin 1) (x : R.shape.Idx),
      ((![(sI).view.readAt (Elt F) R (View.write (Elt F) (sI).view f6 (pay6 (F := F) d ivd h6) Finset.univ)] : Fin 1 → IVec R.shape 32) a x).toNat < S100000.size a)
    (Lst : List (View.Piece (Elt F) S1024 .f32))
    (hL : ChunkList (F := F) d L (View.write (Elt F) (sT).view f5 (pay5 (F := F) d L tvd) Finset.univ)
      (View.write (Elt F) (sI).view f6 (pay6 (F := F) d ivd h6) Finset.univ) hlt 1024 Lst) :
    ((eRowK L).view.loc (thrV d L) ↦[(eRowK L).view.set]{fullShare}
        (eRowK L).view.writes (Elt F) evd [⟨Rect.whole S1024, ReadAs.same.apply (View.read (Elt F) (sE).view ((sE).view.writes (Elt F) f7 Lst))⟩] : sProp 𝕄)
      ⊢ ((eRowK L).view.loc (thrV d L) ↦[(eRowK L).view.set]{fullShare} (embArr (F := F) tvd ivd : Buf (Elt F) (eLoc d))) := by
  refine Entails.of_eq (pointsTo_congr fun i hi => ?_)
  have hi' : i ∈ Finset.univ.map (eRowK L).view.emb := hi
  obtain ⟨n, -, rfl⟩ := Finset.mem_map.mp hi'
  have hn : (n 0).val < 1024 := (n 0).isLt
  have h1 : (eRowK L).view.read (Elt F) ((eRowK L).view.writes (Elt F) evd
      [⟨Rect.whole S1024, ReadAs.same.apply (View.read (Elt F) (sE).view ((sE).view.writes (Elt F) f7 Lst))⟩]) ((Rect.whole S1024).emb n)
      = ReadAs.same.apply (View.read (Elt F) (sE).view ((sE).view.writes (Elt F) f7 Lst)) n :=
    View.read_writes_cons_emb (eRowK L).view evd (Rect.whole S1024) _ [] n
  rw [Rect.emb_whole_apply] at h1
  refine (eRow_read (F := F) d L _ n).symm.trans (h1.trans ?_)
  have h2 : (sE).view.read (Elt F) ((sE).view.writes (Elt F) f7 Lst) n = embRow (F := F) d L tvd ivd n :=
    hL.read (embRow (F := F) d L tvd ivd) (fun o ho x hx => chunkPay_value d L tvd ivd hin f5 f6 h6 hlt o ho x hx) f7 n hn
  refine h2.trans ?_
  rw [eRow_emb]
  rfl

end RowV

end Cert.Proof.KB

end
-- ==== Proof.TileCoreB.lean ====
/-
  One vector subcore's task, run from start to end at a symbolic place of the grid.

  The task copies its row of the transposed table and the whole flattened index array into its two scratch buffers,
  each copy waited for before the next begins. Then, sixteen batch entries at a time, it loads the sixteen index
  words of each of the four context positions from the index scratch — every such word is below 100000, because the
  scratch now holds the index array and every word of that array is — reads the table scratch at those words, adds
  the four sixteen-lane vectors left to right and stores the sum in its sum scratch: sixty-four stores, at the
  offsets 0, 16, …, 1008. Last it copies the sum scratch to its row of the result and waits for the copy.

  What the sixty-four stores leave is a chunk list up to 1024 (each stored vector is, by unfolding, the chunk's sum),
  so the sum scratch, and with it the row of the result, reads the call's one function `embArr` of the table and the
  indices at every entry of the row. The arrays the task was lent come back unchanged, its scratch buffers at some
  contents, its three semaphores at zero, and it has waited only on semaphores of its own.
-/
import proofs.«208886_g87462714016427_cont_sun_c4_567_10_alg».proof.Proof.TileRowB
import proofs.«208886_g87462714016427_cont_sun_c4_567_10_alg».proof.Proof.Gen.Kernel.Skeleton

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Every load of the index scratch, once the index array has been copied over all of it, reads words below 100000. -/
theorem hltP (d : Dev nD) (L : grid0.Coords) (ivd : Buf (Elt F) (iLoc d)) (hin : ∀ x, (ivd x).toNat < 100000)
    (f6 : Buf (Elt F) ((thrV d L).loc cc0_scratch1)) (h6 : ∀ a, (Rect.unit (s := S4096) ![0] S4096.size inb_S4096_S4096_0).stride a = 1) :
    ∀ (R : LoadRect S4096) (a : Fin 1) (x : R.shape.Idx),
      ((![(sI).view.readAt (Elt F) R (View.write (Elt F) (sI).view f6 (pay6 d ivd h6) Finset.univ)] : Fin 1 → IVec R.shape 32) a x).toNat < S100000.size a :=
  fun R a x => loaded_inRange d L f6 _ (fun y => fetched_lt d ivd hin h6 y) R a x

set_option maxHeartbeats 0 in
theorem tile_core (d : Dev nD) (L : grid0.Coords) (q : PosShare TreeShare) (tvd : Buf (Elt F) (tLoc d)) (ivd : Buf (Elt F) (iLoc d)) (evd : Buf (Elt F) (eLoc d))
    (hin : ∀ x, (ivd x).toNat < 100000)
    (f5 : Buf (Elt F) ((thrV d L).loc cc0_scratch0)) (f6 : Buf (Elt F) ((thrV d L).loc cc0_scratch1)) (f7 : Buf (Elt F) ((thrV d L).loc cc0_scratch2))
    (O : CellTallies nD τ sig (HIx 1)) (W : Waits sig (HIx 1)) :
    iprop(Transfers.MayWaits (thrV d L) (none : HIx 1) O
        ∗ ((tRowK L).view.loc (thrV d L) ↦[(tRowK L).view.set]{fullShare} tvd) ∗ ((iV).view.loc (thrV d L) ↦{q} ivd) ∗ ((eRowK L).view.loc (thrV d L) ↦[(eRowK L).view.set]{fullShare} evd)
        ∗ ((sT).view.loc (thrV d L) ↦{fullShare} f5) ∗ ((sI).view.loc (thrV d L) ↦{fullShare} f6) ∗ ((sE).view.loc (thrV d L) ↦{fullShare} f7)
        ∗ semVal (thrV d L, SemLoc.dma cc0_scoped0.sem) 0 ∗ semVal (thrV d L, SemLoc.dma cc0_scoped1.sem) 0 ∗ semVal (thrV d L, SemLoc.dma cc0_scoped2.sem) 0 ∗ owes (thrV d L) O W)
      ⊢ (wp frame (wpE (defs₀ (F := F)) 𝒱₀ (thrV d L) none) Set.univ
          (cc0__emb_body L tV (Memref.isWhole_whole _) iV (Memref.isWhole_whole _) eV (Memref.isWhole_whole _) sT (Memref.isWhole_whole _) sI (Memref.isWhole_whole _) sE (Memref.isWhole_whole _) cc0_scratch3 cc0_scoped0 cc0_scoped1 cc0_scoped2)
          (fun _ => iprop(((tRowK L).view.loc (thrV d L) ↦[(tRowK L).view.set]{fullShare} tvd) ∗ ((iV).view.loc (thrV d L) ↦{q} ivd)
            ∗ ((eRowK L).view.loc (thrV d L) ↦[(eRowK L).view.set]{fullShare} (embArr (F := F) tvd ivd : Buf (Elt F) (eLoc d)))
            ∗ (∃ f, (sT).view.loc (thrV d L) ↦{fullShare} f) ∗ (∃ f, (sI).view.loc (thrV d L) ↦{fullShare} f) ∗ (∃ f, (sE).view.loc (thrV d L) ↦{fullShare} f)
            ∗ semVal (thrV d L, SemLoc.dma cc0_scoped0.sem) 0 ∗ semVal (thrV d L, SemLoc.dma cc0_scoped1.sem) 0 ∗ semVal (thrV d L, SemLoc.dma cc0_scoped2.sem) 0
            ∗ ∃ W', ⌜∀ p ∈ W', p ∈ W ∨ p.2 = none⌝ ∗ owes (thrV d L) O W')) : sProp 𝕄) := by
  rw [cc0__emb_body_eq_skeleton, cc0__emb_body_skel]
  iintro ⟨Hmw, Ht, Hi, He, H5, H6, H7, Hs0, Hs1, Hs2, HO⟩
  -- every load of the index scratch, once the indices are in it, reads words that name entries of the table row
  have hchk : ∀ (o : ℕ) (hb : ∀ a, (![o] : Fin 1 → ℕ) a + S16.size a ≤ S4096.size a) (a : Fin 1) (x : S16.Idx),
      ((![(sI).view.readAt (Elt F) (Rect.unit (s := S4096) ![o] S16.size hb).toLoadRect (View.write (Elt F) (sI).view f6 (pay6 d ivd (fun _ => rfl)) Finset.univ)] : Fin 1 → IVec S16 32) a x).toNat < S100000.size a :=
    fun o hb a x => hltP (F := F) d L ivd hin f6 (fun _ => rfl) (Rect.unit (s := S4096) ![o] S16.size hb).toLoadRect a x
  -- the two fetches, their waits, and the first load of indices
  sl_exec_parts (disch := exact hchk _ _)
  -- from here the table scratch is only read, by the indexed loads: held through its whole-rectangle access
  ihave H5' := (Entails.of_eq (pts_sT_access (F := F) d L _)) $$ H5
  -- 256 indexed loads, the loads, checks, additions and stores between them, and after the last the write-out and its wait
  iterate 256
    (iapply (SparseCore.wp_vectorLoadIdx 𝒱₀ (thrV d L) none Set.univ (base := (sT)) (S := Finset.univ) (q := fullShare) (hl := View.loads_vmem h_S100000) (Finset.subset_univ _)) $$ H5'
     iintro H5'
     sl_exec_parts (disch := exact hchk _ _))
  rw [wp_ret]; imodintro
  isplitl [Ht]; · iexact Ht
  isplitl [Hi]; · iexact Hi
  isplitl [He]
  · iapply (row_value (F := F) d L tvd ivd hin evd f5 f6 f7 (fun _ => rfl) (hltP (F := F) d L ivd hin f6 (fun _ => rfl)) _ ?hL)
    rotate_left
    · iexact He
    -- the list the stores left is the chunks' list: sixty-four steps, each stored vector the chunk's sum by unfolding
    · repeat (first | exact ChunkList.nil | refine ChunkList.cons _ (by decide) _ _ _ ?_ (by rfl))
  isplitl [H5']
  · iexists _; iapply (Entails.of_eq (pts_sT_access (F := F) d L _).symm); iexact H5'
  isplitl [H6]; · iexists _; iexact H6
  isplitl [H7]; · iexists _; iexact H7
  isplitl [Hs0]; · iexact Hs0
  isplitl [Hs1]; · iexact Hs1
  isplitl [Hs2]; · iexact Hs2
  iexists (insert (SemLoc.dma cc0_scoped2.sem, (default : HIx 1)) (insert (SemLoc.dma cc0_scoped1.sem, (default : HIx 1)) (insert (SemLoc.dma cc0_scoped0.sem, (default : HIx 1)) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Cert.Proof.KB

end
-- ==== Proof.lean ====
/-
  The proof of `Cert.Claim`: both programs compute one function, and each kernel program runs to its end.

  THE FUNCTION. With index words `idx : [1024, 4]`, a table `T : [100000, 32]`, weights `W : [100000, 32]` and a bias
  `b : [100000]`, the result at `(n, v)` is
      (∑ d, W (v, d) * (((T (idx (n,0), d) + T (idx (n,1), d)) + T (idx (n,2), d)) + T (idx (n,3), d))) + b v
  on the extended reals (`Spec.out`). The precondition puts every index word below 100000, so a word names a row.

  THE REFERENCE gathers the four named rows of each batch entry (the wrap of a negative word and the in-range mask are
  the identity and all ones under the precondition), adds them from zero, contracts the sum against the transposed
  weights and adds the bias. Read at an index, its operations compose to the function: `0 + x = x`, and the product
  commutes under the sum.

  THE KERNEL transposes the index array and the table; 32 vector subcores each take one row `d` of the transposed table
  and, for every batch entry, add left to right the four entries the words name — row `d` of the summed embeddings;
  the TensorCore then forms, block of 4096 rows by block (25 blocks, the last clipped to the 1696 rows inside the
  array), the product of the transposed weights' block with the summed embeddings into a zero accumulator, adds the
  bias, and the result is the transpose of that array. Read at an index this is the same sum, weight on the left.
  No distributive law is used, so no finiteness.

  THE RUNS. The reference's run is its operations in order. The kernel program's run is the launch theorem of a
  program with vector-subcore tasks and one TensorCore pipeline: the tasks' body proved once at a symbolic subcore,
  the pipeline's region proved over its grid, @main on the TensorCore around them; once over the extended reals
  (results named) and once over machine words (results not named: the frame). The idealization rewrote nothing.
-/
import proofs.«208886_g87462714016427_cont_sun_c4_567_10_alg».proof.Defs
import proofs.«208886_g87462714016427_cont_sun_c4_567_10_alg».proof.Proof.Gen.Kernel
import proofs.«208886_g87462714016427_cont_sun_c4_567_10_alg».proof.Proof.Gen.Kernel.Skeleton
import proofs.«208886_g87462714016427_cont_sun_c4_567_10_alg».proof.Proof.Gen.Kernel.Launch
import proofs.«208886_g87462714016427_cont_sun_c4_567_10_alg».proof.Proof.Gen.Kernel.Points
import proofs.«208886_g87462714016427_cont_sun_c4_567_10_alg».proof.Proof.Gen.KernelIdeal
import proofs.«208886_g87462714016427_cont_sun_c4_567_10_alg».proof.Proof.Gen.KernelIdeal.Skeleton
import proofs.«208886_g87462714016427_cont_sun_c4_567_10_alg».proof.Proof.Gen.KernelIdeal.Launch
import proofs.«208886_g87462714016427_cont_sun_c4_567_10_alg».proof.Proof.Gen.KernelIdeal.Points
import proofs.«208886_g87462714016427_cont_sun_c4_567_10_alg».proof.Proof.Gen.ReferenceIdeal
import proofs.«208886_g87462714016427_cont_sun_c4_567_10_alg».proof.Proof.Gen.Pre_input_domain
import proofs.«208886_g87462714016427_cont_sun_c4_567_10_alg».proof.Proof.Claims
import proofs.«208886_g87462714016427_cont_sun_c4_567_10_alg».proof.Proof.RegionRun
import proofs.«208886_g87462714016427_cont_sun_c4_567_10_alg».proof.Proof.RegionRunB
import proofs.«208886_g87462714016427_cont_sun_c4_567_10_alg».proof.Proof.RegionIdeal
import proofs.«208886_g87462714016427_cont_sun_c4_567_10_alg».proof.Proof.TileCore
import proofs.«208886_g87462714016427_cont_sun_c4_567_10_alg».proof.Proof.TileCoreB
import Idealize.ShloMosaic.Adequacy
import Idealize.ShloMosaic.Init

noncomputable section

namespace Cert.Proof

open Idealize.ShloMosaic

/-- Everything the certificate claims: the three frames, the (empty) idealization ledger, and equal results on the
    extended reals. -/
theorem claim : Cert.Claim :=
  claim_of (KI.G (F := Ideal)) KI.uP KI.fund_G (fun fg => KI.region fg (fun _ => KI.rowsOK_ideal)) KI.tile_core KI.mmOut_apply
    (KB.G (F := Bits)) KB.uP KB.fund_G (KB.region true (fun h => nomatch h)) KB.tile_core

end Cert.Proof

end
